-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v84)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩

abbrev nBuf : Space → Nat
  | .hbm => 113
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .bf16⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .bf16⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S1x128, .f32⟩
  | .hbm, ⟨70, _⟩ => ⟨S_, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S_, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S_, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S_, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S_, .f32⟩
  | .hbm, ⟨98, _⟩ => ⟨S1x128, .f32⟩
  | .hbm, ⟨99, _⟩ => ⟨S1x128, .f32⟩
  | .hbm, ⟨100, _⟩ => ⟨S_, .f32⟩
  | .hbm, ⟨101, _⟩ => ⟨S1x128, .f32⟩
  | .hbm, ⟨102, _⟩ => ⟨S1x128, .f32⟩
  | .hbm, ⟨103, _⟩ => ⟨S1x128, .f32⟩
  | .hbm, ⟨104, _⟩ => ⟨S1x128, .f32⟩
  | .hbm, ⟨105, _⟩ => ⟨S1x128, .f32⟩
  | .hbm, ⟨106, _⟩ => ⟨S1x128, .f32⟩
  | .hbm, ⟨107, _⟩ => ⟨S1x128, .f32⟩
  | .hbm, ⟨108, _⟩ => ⟨S1x128, .f32⟩
  | .hbm, ⟨109, _⟩ => ⟨S1x128, .f32⟩
  | .hbm, ⟨110, _⟩ => ⟨S1x128, .f32⟩
  | .hbm, ⟨111, _⟩ => ⟨S1x128, .f32⟩
  | .hbm, ⟨112, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S1x128, .f32⟩
  | .local _ .vmem, ⟨15, _⟩ => ⟨S10000x128, .f32⟩
  | .local _ .vmem, ⟨16, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47_0 : Ref sig .tc := ⟨.hbm, 68, rfl⟩
abbrev main_v47_1 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc1_scratch1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem3_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S10000x128_S10000x128 : S10000x128.ShapeCasts S10000x128
  reduces_S10000x128_S128 : S10000x128.Reduces [0] S128
  shapeCasts_S128_S1x128 : S128.ShapeCasts S1x128
  bcast_S_S1x128 : S_.BroadcastsInDim S1x128 (![] : Fin 0 → Fin S1x128.rank)
  bcast_S128_S1x128_1 : S128.BroadcastsInDim S1x128 (![1] : Fin 1 → Fin S1x128.rank)
  broadcasts_S1x128_S10000x128 : S1x128.Broadcasts S10000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v46) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v77) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v83) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v84) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 105
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S128, .f32⟩
  | .hbm, ⟨82, _⟩ => ⟨S_, .f32⟩
  | .hbm, ⟨83, _⟩ => ⟨S128, .f32⟩
  | .hbm, ⟨84, _⟩ => ⟨S128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S100000x128, .f32⟩
  | .hbm, ⟨100, _⟩ => ⟨S100000x128, .i1⟩
  | .hbm, ⟨101, _⟩ => ⟨S_, .f32⟩
  | .hbm, ⟨102, _⟩ => ⟨S100000x128, .f32⟩
  | .hbm, ⟨103, _⟩ => ⟨S100000x128, .f32⟩
  | .hbm, ⟨104, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_cst_13 : Ref sig .tc := ⟨.hbm, 82, rfl⟩
abbrev main_v58 : Ref sig .tc := ⟨.hbm, 83, rfl⟩
abbrev main_v59 : Ref sig .tc := ⟨.hbm, 84, rfl⟩
abbrev main_cst_14 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_15 : Ref sig .tc := ⟨.hbm, 98, rfl⟩
abbrev main_v72 : Ref sig .tc := ⟨.hbm, 99, rfl⟩
abbrev main_v73 : Ref sig .tc := ⟨.hbm, 100, rfl⟩
abbrev main_cst_16 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Matmul.lean ====
/-
  Region 0 of the program: the product of a block of 10000 rows of x with the whole of W, rounded on the way in and
  on the way out, at ten grid points. Everything here is stated at a parameter `V`, the contents of the core's
  buffers when the region is entered, and at any float instance.
  The body loads its two input blocks whole and stores one value, the payload `k0_pay1` of the two loads, over the
  whole output block; so after the body at point `t` the output's staging buffer holds that payload of the two input
  blocks at `t`, and each input's staging buffer still holds its block — the block of W also at the points where it is
  not fetched again, its block index not having moved.
-/
import proofs.«106071_j44908178047711_2_alg».proof.Proof.Gen.KernelIdeal.Launch
import proofs.«106071_j44908178047711_2_alg».proof.Proof.Gen.KernelIdeal.Skeleton
import proofs.«106071_j44908178047711_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Matmul

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of the rows of x holds the block of point `t` when the body starts there, for any proof data over
    `V`'s arrays whose body leaves that block in place. -/
theorem rows_held {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The same for W, which is fetched at the first point only: its one block is every point's block. -/
theorem weights_held {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole block of 10000 rows, and the whole of W. -/
abbrev rowsRect : Rect S10000x128 := Rect.unit (s := S10000x128) ![0, 0] S10000x128.size inb_S10000x128_S10000x128_0_0
abbrev weightsRect : Rect S128x128 := Rect.unit (s := S128x128) ![0, 0] S128x128.size inb_S128x128_S128x128_0_0

/-- What the body leaves in the output's staging buffer: its one store, the payload of the two loads. -/
def prodOut (x0 : Vec F S10000x128 .f32) (x1 : Vec F S128x128 .f32) : Vec F S10000x128 .bf16 :=
  View.canon [⟨rowsRect, k0_pay1 (View.ld x0 rowsRect) (View.ld x1 weightsRect)⟩]

/-- The one store covers the block. -/
theorem prodCover (p0 : Vec F S10000x128 .bf16) (y : S10000x128.Idx) :
    ∃ pc ∈ ([⟨rowsRect, p0⟩] : List (View.Piece (Elt F) S10000x128 .bf16)), y ∈ pc.1.set :=
  View.cover_of_tiled [⟨rowsRect, p0⟩] S10000x128.size (by rfl) y

set_option maxHeartbeats 1000000 in
/-- The body on whole staging memrefs: the inputs' at contents `x0`, `x1`, the output's at anything; it ends with the
    inputs' as they were and the output's at `prodOut x0 x1`. -/
theorem body_run (c : Dev nD) (E : Set ℕ) (i : grid0.Coords) (arg1 : Memref sig .tc .vmem S10000x128 .f32) (harg1 : arg1.IsWhole)
    (arg2 : Memref sig .tc .vmem S128x128 .f32) (harg2 : arg2.IsWhole) (arg3 : Memref sig .tc .vmem S10000x128 .bf16) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prodOut x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prodCover _)

/-- The proof data of region 0 on core `c`: the arrays as the region finds them; after the body at point `t` each
    input's buffer at its block and the output's at `prodOut` of the two blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => prodOut (blk V c 0 t) (blk V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk V c 0 t := by dsimp only [dat0]
theorem after0_1 (c : Dev nD) (t : Fin cfg0.N) : (dat0 V c).after 1 t = blk V c 1 t := by dsimp only [dat0]
theorem after0_2 (c : Dev nD) (t : Fin cfg0.N) : (dat0 V c).after 2 t = prodOut (blk V c 0 t) (blk V c 1 t) := by dsimp only [dat0]

theorem before0_0 (c : Dev nD) (t : Fin cfg0.N) (d) : (dat0 V c).before 0 t d = blk V c 0 t :=
  rows_held V (dat0 V c) (A_eq0 V c 0) (after0_0 V c) t d
theorem before0_1 (c : Dev nD) (t : Fin cfg0.N) (d) : (dat0 V c).before 1 t d = blk V c 1 t :=
  weights_held V (dat0 V c) (A_eq0 V c 1) (after0_1 V c) t d

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `body_run` applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (body_run c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body V c t

end Cert.KernelIdeal.Matmul

end
-- ==== Proof.NormAct.lean ====
/-
  Region 2 of the program: at ten grid points, a block of 10000 rows of the aggregated array times a row of scales plus
  a row of offsets, then the leaky rectifier. Stated at a parameter `V`, the contents of the core's buffers when the
  region is entered, and at any float instance.
  The body loads its three input blocks whole and stores one value, the payload `k2_pay1` of the three loads, over
  the whole output block; the two rows are fetched at the first point only and are every point's blocks.
-/
import proofs.«106071_j44908178047711_2_alg».proof.Proof.Gen.KernelIdeal.Launch
import proofs.«106071_j44908178047711_2_alg».proof.Proof.Gen.KernelIdeal.Skeleton
import proofs.«106071_j44908178047711_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.NormAct

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input's staging buffer holds the window's block of point `t` when the body starts there, fetched there or
    not, for any proof data over `V`'s arrays whose body leaves the block in place. -/
theorem rows_held {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem scale_held {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem offset_held {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The whole block of 10000 rows, and a whole row. -/
abbrev rowsRect : Rect S10000x128 := Rect.unit (s := S10000x128) ![0, 0] S10000x128.size inb_S10000x128_S10000x128_0_0
abbrev rowRect : Rect S1x128 := Rect.unit (s := S1x128) ![0, 0] S1x128.size inb_S1x128_S1x128_0_0

/-- What the body leaves in the output's staging buffer: its one store, the payload of the three loads. -/
def actOut (x0 : Vec F S10000x128 .f32) (x1 x2 : Vec F S1x128 .f32) : Vec F S10000x128 .f32 :=
  View.canon [⟨rowsRect, k2_pay1 (View.ld x0 rowsRect) (View.ld x1 rowRect) (View.ld x2 rowRect)⟩]

/-- The one store covers the block. -/
theorem actCover (p0 : Vec F S10000x128 .f32) (y : S10000x128.Idx) :
    ∃ pc ∈ ([⟨rowsRect, p0⟩] : List (View.Piece (Elt F) S10000x128 .f32)), y ∈ pc.1.set :=
  View.cover_of_tiled [⟨rowsRect, p0⟩] S10000x128.size (by rfl) y

set_option maxHeartbeats 1000000 in
/-- The body on whole staging memrefs: the inputs' at contents `x0`, `x1`, `x2`, the output's at anything; it ends
    with the inputs' as they were and the output's at `actOut x0 x1 x2`. -/
theorem body_run (c : Dev nD) (E : Set ℕ) (i : grid2.Coords) (arg1 : Memref sig .tc .vmem S10000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S10000x128 .f32) (harg4 : arg4.IsWhole)
    (x0 : Vec F S10000x128 .f32) (x1 x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (actOut x0 x1 x2)) -∗ K ⟨⟩))
      ⊢ wp frame (wpE (defs₀ (F := F)) Variants.none c none) E (cc2__norm_act_kernel i arg1 harg1 arg2 harg2 arg3 harg3 arg4 harg4) K := by
  simp only [cc2__norm_act_kernel_eq_skeleton]; unfold cc2__norm_act_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (actCover _)

/-- The proof data of region 2 on core `c`: the arrays as the region finds them; after the body at point `t` each
    input's buffer at its block and the output's at `actOut` of the three blocks; the invariant is the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => actOut (blk V c 0 t) (blk V c 1 t) (blk V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk V c 0 t := by dsimp only [dat2]
theorem after2_1 (c : Dev nD) (t : Fin cfg2.N) : (dat2 V c).after 1 t = blk V c 1 t := by dsimp only [dat2]
theorem after2_2 (c : Dev nD) (t : Fin cfg2.N) : (dat2 V c).after 2 t = blk V c 2 t := by dsimp only [dat2]
theorem after2_3 (c : Dev nD) (t : Fin cfg2.N) : (dat2 V c).after 3 t = actOut (blk V c 0 t) (blk V c 1 t) (blk V c 2 t) := by dsimp only [dat2]

theorem before2_0 (c : Dev nD) (t : Fin cfg2.N) (d) : (dat2 V c).before 0 t d = blk V c 0 t :=
  rows_held V (dat2 V c) (A_eq2 V c 0) (after2_0 V c) t d
theorem before2_1 (c : Dev nD) (t : Fin cfg2.N) (d) : (dat2 V c).before 1 t d = blk V c 1 t :=
  scale_held V (dat2 V c) (A_eq2 V c 1) (after2_1 V c) t d
theorem before2_2 (c : Dev nD) (t : Fin cfg2.N) (d) : (dat2 V c).before 2 t d = blk V c 2 t :=
  offset_held V (dat2 V c) (A_eq2 V c 2) (after2_2 V c) t d

/-- What the body is called with at point `t`, the windows one by one, -/
def bodyPre (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `body_run` applies; the invariant and what the
    core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (body_run c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body V c t

end Cert.KernelIdeal.NormAct

end
-- ==== Proof.Whole.lean ====
/-
  The whole run of the program: @main is eight items in order — three stretches of host operations, region 0 (the
  product x·W), a stretch of host operations (the gather, the scaling by the edge weights and the accumulation over
  destination nodes), region 1 (the column sums and column sums of squares), a stretch of host operations (the scale
  and offset rows), region 2 (the scaled, shifted and rectified array).
  `B0 … B8` are the contents of a core's unscoped buffers at the nine boundaries: the launch memory, then after a
  stretch of host operations what those operations compute from the contents before, and after a region its arrays at
  what its write-backs leave and every other buffer untouched. The run below says: every weakly fair execution from a
  memory with zero counters terminates, nothing faulting, with every unscoped buffer at `B8`. Both the frame (no item
  writes an argument array) and the result's value (`B8` at the result's buffer) are read off that.
  Region 1's half is a parameter here (`StatsHalf`): what its body leaves, its invariant, its obligation.
-/
import proofs.«106071_j44908178047711_2_alg».proof.Proof.Matmul
import proofs.«106071_j44908178047711_2_alg».proof.Proof.NormAct
import proofs.«106071_j44908178047711_2_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-- Contents of the TensorCore's buffers, per core. -/
abbrev TcBufs (F : FTy → Type) [FloatOps F] : Type := (c : Dev nD) → (b : Ref sig .tc) → Buf (Elt F) ((c : Thread nD τ).loc b)

/-- Region 1's proof data from what its body leaves and its invariant: the arrays as the region finds them, full
    shares, nothing owed. -/
def statsDat (after : TcBufs F → (c : Dev nD) → (w : Fin cfg1.W) → Fin cfg1.N → (cfg1.win w).block.Idx → Elt F (cfg1.win w).elt)
    (Φ : TcBufs F → (c : Dev nD) → Fin (cfg1.N + 1) → sProp 𝕄) (V : TcBufs F) (c : Dev nD) :
    Dat τ (Elt F) Unit ℕ (UR sig nD τ) ℕ cfg1 c where
  A w := V c (Pipeline.arrRef spec1 w)
  after := after V c
  Φ := Φ V c
  q _ := fullShare
  owed _ := 0

/-- Region 1's half: what its body leaves in the windows' buffers and its invariant at each point, for any entry
    contents; the body obligation; and that the invariant starts from, and ends in, the scoped rest with the
    generator register. -/
structure StatsHalf (F : FTy → Type) [FloatOps F] where
  after : TcBufs F → (c : Dev nD) → (w : Fin cfg1.W) → Fin cfg1.N → (cfg1.win w).block.Idx → Elt F (cfg1.win w).elt
  Φ : TcBufs F → (c : Dev nD) → Fin (cfg1.N + 1) → sProp (MT nD τ sig Unit (Elt F) ℕ (UR sig nD τ) ℕ)
  body : ∀ V c, BodyObligation (statsDat after Φ V c) (defs₀ (F := F)) Variants.none () Set.univ
  enter : ∀ V c, (Pipeline.ΦA spec1 c : sProp (MT nD τ sig Unit (Elt F) ℕ (UR sig nD τ) ℕ)) ⊢ Φ V c 0
  leave : ∀ V c, Φ V c (Fin.last cfg1.N) ⊢ (Pipeline.ΦA spec1 c : sProp (MT nD τ sig Unit (Elt F) ℕ (UR sig nD τ) ℕ))

variable (S : StatsHalf F)
variable (m : (ℓ : Loc nD τ sig) → Buf (Elt F) ℓ) (ρ : Dev nD → PrngReg)

/-- Region 1's proof data at entry contents `V`. -/
abbrev dat1 (V : TcBufs F) (c : Dev nD) : Dat τ (Elt F) Unit ℕ (UR sig nD τ) ℕ cfg1 c := statsDat S.after S.Φ V c

/-! ## The buffers' contents at the nine boundaries -/

abbrev B0 : Dev nD → Valuation τ sig (Elt F) := fun c b => m (c, b)
abbrev B1 : Dev nD → Valuation τ sig (Elt F) := fun c => StableHlo.after hostOps0 (B0 m c)
abbrev B2 : Dev nD → Valuation τ sig (Elt F) := fun c => StableHlo.after hostOps0_1 (B1 m c)
abbrev B3 : Dev nD → Valuation τ sig (Elt F) := fun c => StableHlo.after hostOps0_2 (B2 m c)
/-- The same read at the TensorCore's references: what region 0 is entered with. -/
abbrev T3 : TcBufs F := fun c b => B3 m c b
/-- After region 0: its arrays at what its write-backs leave, the rest untouched. -/
def B4 (c : Dev nD) : Valuation τ sig (Elt F) :=
  Pipeline.withArrays spec0 c (B3 m c) fun w => (Matmul.dat0 (T3 m) c).arrAt w cfg0.N
abbrev T4 : TcBufs F := fun c b => B4 m c b
abbrev B5 : Dev nD → Valuation τ sig (Elt F) := fun c => StableHlo.after hostOps1 (B4 m c)
abbrev T5 : TcBufs F := fun c b => B5 m c b
/-- After region 1. -/
def B6 (c : Dev nD) : Valuation τ sig (Elt F) :=
  Pipeline.withArrays spec1 c (B5 m c) fun w => (dat1 S (T5 m) c).arrAt w cfg1.N
abbrev T6 : TcBufs F := fun c b => B6 S m c b
abbrev B7 : Dev nD → Valuation τ sig (Elt F) := fun c => StableHlo.after hostOps2 (B6 S m c)
abbrev T7 : TcBufs F := fun c b => B7 S m c b
/-- After region 2: the end. -/
def B8 (c : Dev nD) : Valuation τ sig (Elt F) :=
  Pipeline.withArrays spec2 c (B7 S m c) fun w => (NormAct.dat2 (T7 S m) c).arrAt w cfg2.N
abbrev T8 : TcBufs F := fun c b => B8 S m c b

theorem B4_arr (c : Dev nD) (w : Fin cfg0.W) :
    B4 m c (Proc.devRef .tc (Pipeline.arrRef spec0 w)) = (Matmul.dat0 (T3 m) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m c (Proc.devRef .tc b) = B3 m c (Proc.devRef .tc b) := by
  unfold B4; exact Pipeline.withArrays_of_ne spec0 c _ _ b hb
theorem B6_arr (c : Dev nD) (w : Fin cfg1.W) :
    B6 S m c (Proc.devRef .tc (Pipeline.arrRef spec1 w)) = (dat1 S (T5 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 S m c (Proc.devRef .tc b) = B5 m c (Proc.devRef .tc b) := by
  unfold B6; exact Pipeline.withArrays_of_ne spec1 c _ _ b hb
theorem B8_arr (c : Dev nD) (w : Fin cfg2.W) :
    B8 S m c (Proc.devRef .tc (Pipeline.arrRef spec2 w)) = (NormAct.dat2 (T7 S m) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 S m c (Proc.devRef .tc b) = B7 S m c (Proc.devRef .tc b) := by
  unfold B8; exact Pipeline.withArrays_of_ne spec2 c _ _ b hb

/-- At a region's exit each of its arrays holds what the pipeline leaves and every other buffer what it held at entry. -/
theorem arrs0 (c : Dev nD) (w : Fin cfg0.W) : (Matmul.dat0 (T3 m) c).arrAt w cfg0.N = T4 m c (Pipeline.arrRef spec0 w) :=
  (B4_arr m c w).symm
theorem rest0 (c : Dev nD) : ∀ b, b ∉ Finset.univ.image (Pipeline.arrRef spec0) → T4 m c b = T3 m c b :=
  fun b hb => B4_of_ne m c b fun w e => hb (Finset.mem_image.mpr ⟨w, Finset.mem_univ _, e⟩)
theorem arrs1 (c : Dev nD) (w : Fin cfg1.W) : (dat1 S (T5 m) c).arrAt w cfg1.N = T6 S m c (Pipeline.arrRef spec1 w) :=
  (B6_arr S m c w).symm
theorem rest1 (c : Dev nD) : ∀ b, b ∉ Finset.univ.image (Pipeline.arrRef spec1) → T6 S m c b = T5 m c b :=
  fun b hb => B6_of_ne S m c b fun w e => hb (Finset.mem_image.mpr ⟨w, Finset.mem_univ _, e⟩)
theorem arrs2 (c : Dev nD) (w : Fin cfg2.W) : (NormAct.dat2 (T7 S m) c).arrAt w cfg2.N = T8 S m c (Pipeline.arrRef spec2 w) :=
  (B8_arr S m c w).symm
theorem rest2 (c : Dev nD) : ∀ b, b ∉ Finset.univ.image (Pipeline.arrRef spec2) → T8 S m c b = T7 S m c b :=
  fun b hb => B8_of_ne S m c b fun w e => hb (Finset.mem_image.mpr ⟨w, Finset.mem_univ _, e⟩)

/-! ## No item writes an argument array -/

/-- A buffer that no host operation writes and that is no array of any region ends as launched. -/
theorem kept (c : Dev nD) (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r) (h6 : r ∉ hostOps2_W)
    (h7 : ∀ w, Pipeline.arrRef spec2 w ≠ r) : B8 S m c (Proc.devRef .tc r) = m ((c : Thread nD τ).loc r) :=
  (B8_of_ne S m c r h7).trans <| (StableHlo.after_of_writes_sub hostOps2 _ hostOps2_writes h6).trans <|
    (B6_of_ne S m c r h5).trans <| (StableHlo.after_of_writes_sub hostOps1 _ hostOps1_writes h4).trans <|
    (B4_of_ne m c r h3).trans <| (StableHlo.after_of_writes_sub hostOps0_2 _ hostOps0_2_writes h2).trans <|
    (StableHlo.after_of_writes_sub hostOps0_1 _ hostOps0_1_writes h1).trans <|
    (StableHlo.after_of_writes_sub hostOps0 _ hostOps0_writes h0).trans rfl

/-- An input array of region 0 that nothing else touches ends as launched: the region hands an input back as entered. -/
theorem kept_in0 (c : Dev nD) (w : Fin cfg0.W) (hw : (cfg0.win w).isOut = false) (h0 : Pipeline.arrRef spec0 w ∉ hostOps0_W)
    (h1 : Pipeline.arrRef spec0 w ∉ hostOps0_1_W) (h2 : Pipeline.arrRef spec0 w ∉ hostOps0_2_W)
    (h4 : Pipeline.arrRef spec0 w ∉ hostOps1_W) (h5 : ∀ w', Pipeline.arrRef spec1 w' ≠ Pipeline.arrRef spec0 w)
    (h6 : Pipeline.arrRef spec0 w ∉ hostOps2_W) (h7 : ∀ w', Pipeline.arrRef spec2 w' ≠ Pipeline.arrRef spec0 w) :
    B8 S m c (Proc.devRef .tc (Pipeline.arrRef spec0 w)) = m ((c : Thread nD τ).loc (Pipeline.arrRef spec0 w)) :=
  (B8_of_ne S m c _ h7).trans <| (StableHlo.after_of_writes_sub hostOps2 _ hostOps2_writes h6).trans <|
    (B6_of_ne S m c _ h5).trans <| (StableHlo.after_of_writes_sub hostOps1 _ hostOps1_writes h4).trans <|
    ((B4_arr m c w).trans (((Matmul.dat0 (T3 m) c).arrAt_in w hw _).trans (Matmul.A_eq0 (T3 m) c w))).trans <|
    (StableHlo.after_of_writes_sub hostOps0_2 _ hostOps0_2_writes h2).trans <|
    (StableHlo.after_of_writes_sub hostOps0_1 _ hostOps0_1_writes h1).trans <|
    (StableHlo.after_of_writes_sub hostOps0 _ hostOps0_writes h0).trans rfl

theorem B8_arg0 (c : Dev nD) : B8 S m c (Proc.devRef .tc main_arg0) = m ((c : Thread nD τ).loc main_arg0) :=
  kept_in0 S m c 0 rfl (by decide) (by decide) (by decide) (by decide) (by decide) (by decide) (by decide)
theorem B8_arg1 (c : Dev nD) : B8 S m c (Proc.devRef .tc main_arg1) = m ((c : Thread nD τ).loc main_arg1) :=
  kept S m c main_arg1 (by decide) (by decide) (by decide) (by decide) (by decide) (by decide) (by decide) (by decide)
theorem B8_arg2 (c : Dev nD) : B8 S m c (Proc.devRef .tc main_arg2) = m ((c : Thread nD τ).loc main_arg2) :=
  kept_in0 S m c 1 rfl (by decide) (by decide) (by decide) (by decide) (by decide) (by decide) (by decide)
theorem B8_arg3 (c : Dev nD) : B8 S m c (Proc.devRef .tc main_arg3) = m ((c : Thread nD τ).loc main_arg3) :=
  kept S m c main_arg3 (by decide) (by decide) (by decide) (by decide) (by decide) (by decide) (by decide) (by decide)
theorem B8_arg4 (c : Dev nD) : B8 S m c (Proc.devRef .tc main_arg4) = m ((c : Thread nD τ).loc main_arg4) :=
  kept S m c main_arg4 (by decide) (by decide) (by decide) (by decide) (by decide) (by decide) (by decide) (by decide)
theorem B8_arg5 (c : Dev nD) : B8 S m c (Proc.devRef .tc main_arg5) = m ((c : Thread nD τ).loc main_arg5) :=
  kept S m c main_arg5 (by decide) (by decide) (by decide) (by decide) (by decide) (by decide) (by decide) (by decide)
theorem B8_arg6 (c : Dev nD) : B8 S m c (Proc.devRef .tc main_arg6) = m ((c : Thread nD τ).loc main_arg6) :=
  kept S m c main_arg6 (by decide) (by decide) (by decide) (by decide) (by decide) (by decide) (by decide) (by decide)

/-! ## The proof data family and the thread state -/

/-- No pipeline has a prefetched table. -/
abbrev tables : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) tables p) c
  | ⟨0, _⟩ => fun c => Matmul.dat0 (T3 m) c
  | ⟨1, _⟩ => fun c => dat1 S (T5 m) c
  | ⟨2, _⟩ => fun c => NormAct.dat2 (T7 S m) c

abbrev vars : Variants := Variants.none
/-- No core owes another anything. -/
abbrev lvls : GSem nD τ sig → Finset Unit := fun _ => ∅
abbrev lvOf : GSem nD τ sig → Unit → ℕ := fun _ _ => 0
/-- What rides beside the buffers through every item: the generator register at some state, and nothing owed. -/
abbrev rest (c : Dev nD) : sProp 𝕄 := iprop((∃ r, prngReg c r) ∗ ∃ W, owes (c : Thread nD τ) (0 : CellTallies nD τ sig Unit) W)

/-- A stretch of host operations as an item: from the contents `W` to what the operations compute from them. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vars lvls lvOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- The thread state at a boundary: every unscoped buffer at the boundary's contents, and the rest. -/
abbrev stateAt (W : Dev nD → Valuation τ sig (Elt F)) (c : Dev nD) : sProp 𝕄 :=
  iprop(StableHlo.held (c : Thread nD τ) (Pipeline.ucRefs τ sig) (W c) ∗ rest c)

/-! ## The regions as items -/

set_option backward.isDefEq.respectTransparency.types false in
/-- Region 0, entered from `B3`, left at `B4`: its arrays split out of the unscoped buffers and put back at the exit
    contents; the generator register into the invariant and out; nothing owed; no semaphore of its own. -/
def region0 : Pipeline.RegionSeg (pcfgs (F := F)) tables (pdats S m) () defs₀ vars lvls lvOf 0 where
  win := launch0.win.to₀
  block_pos := launch0.block_pos
  stage_whole := launch0.stage_whole
  K := PEmpty
  osem k := k.elim
  ho := Pipeline.OwnSemFacts.none _
  hbody c := (Matmul.body_obligation0 (T3 m) c).loose
  hwaits := Pipeline.hwaits_of_owed_zero _ _ _ _ lvls lvOf 0 fun _ _ => rfl
  pre c := stateAt (B3 m) c
  post c := stateAt (B4 m) c
  X c := iprop(∃ r, prngReg c r)
  Y c := iprop(∃ r, prngReg c r)
  Z c := Pipeline.unscopedRest (Ix := Unit) (Name := ℕ) (U := UR sig nD τ) (Lvl := ℕ) spec0 c (T3 m c)
  hentry c := by
    rw [Pipeline.ownSems0_none]
    have hsplit := Pipeline.arrays_of_unscopedBufs (p := 0) (pcfgs (F := F)) tables (pdats S m) launch0.win launch0.arr_whole c
      ((pdats S m 0 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats S m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats S m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats S m) ((pdats S m 0 c).share_full fun _ => rfl)
      (T3 m c) (T4 m c) ((pdats S m 0 c).arrAt · cfg0.N) (arrs0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, entered from `B5`, left at `B6`: as region 0, its invariant starting from and ending in the scoped rest
    with the generator register (`StatsHalf.enter`, `StatsHalf.leave`). -/
def region1 : Pipeline.RegionSeg (pcfgs (F := F)) tables (pdats S m) () defs₀ vars lvls lvOf 1 where
  win := launch1.win.to₀
  block_pos := launch1.block_pos
  stage_whole := launch1.stage_whole
  K := PEmpty
  osem k := k.elim
  ho := Pipeline.OwnSemFacts.none _
  hbody c := (S.body (T5 m) c).loose
  hwaits := Pipeline.hwaits_of_owed_zero _ _ _ _ lvls lvOf 1 fun _ _ => rfl
  pre c := stateAt (B5 m) c
  post c := stateAt (B6 S m) c
  X c := iprop(∃ r, prngReg c r)
  Y c := iprop(∃ r, prngReg c r)
  Z c := Pipeline.unscopedRest (Ix := Unit) (Name := ℕ) (U := UR sig nD τ) (Lvl := ℕ) spec1 c (T5 m c)
  hentry c := by
    rw [Pipeline.ownSems0_none]
    have hsplit := Pipeline.arrays_of_unscopedBufs (p := 1) (pcfgs (F := F)) tables (pdats S m) launch1.win launch1.arr_whole c
      ((pdats S m 1 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (tables (F := F) 1).1
        ∗ Pipeline.scopedRest spec1 c) : sProp 𝕄) ⊢ (Pipeline.ΦA spec1 c : sProp 𝕄) := by
      unfold Pipeline.ΦA
      iintro ⟨Hp, -, Hr⟩
      isplitl [Hr]; · iexact Hr
      iexact Hp
    exact h.trans (S.enter (T5 m) c)
  hout c := by
    rw [Pipeline.ownSems0_none]
    have h : (Pipeline.ΦA spec1 c : sProp 𝕄) ⊢ (iprop((∃ r, prngReg c r) ∗ BI.emp ∗ Pipeline.scopedRest spec1 c) : sProp 𝕄) := by
      unfold Pipeline.ΦA
      iintro ⟨Hr, Hp⟩
      isplitl [Hp]; · iexact Hp
      isplitr; · iempintro
      iexact Hr
    exact (S.leave (T5 m) c).trans h
  hexit c := by
    have hjoin := Pipeline.unscopedBufs_of_arrays (p := 1) (pcfgs (F := F)) tables (Ix := Unit) (Name := ℕ) (U := UR sig nD τ) (Lvl := ℕ)
      launch1.win launch1.arr_whole c (pdats S m) ((pdats S m 1 c).share_full fun _ => rfl)
      (T5 m c) (T6 S m c) ((pdats S m 1 c).arrAt · cfg1.N) (arrs1 S m c) (rest1 S m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2, entered from `B7`, left at `B8`. -/
def region2 : Pipeline.RegionSeg (pcfgs (F := F)) tables (pdats S m) () defs₀ vars lvls lvOf 2 where
  win := launch2.win.to₀
  block_pos := launch2.block_pos
  stage_whole := launch2.stage_whole
  K := PEmpty
  osem k := k.elim
  ho := Pipeline.OwnSemFacts.none _
  hbody c := (NormAct.body_obligation2 (T7 S m) c).loose
  hwaits := Pipeline.hwaits_of_owed_zero _ _ _ _ lvls lvOf 2 fun _ _ => rfl
  pre c := stateAt (B7 S m) c
  post c := stateAt (B8 S m) c
  X c := iprop(∃ r, prngReg c r)
  Y c := iprop(∃ r, prngReg c r)
  Z c := Pipeline.unscopedRest (Ix := Unit) (Name := ℕ) (U := UR sig nD τ) (Lvl := ℕ) spec2 c (T7 S m c)
  hentry c := by
    rw [Pipeline.ownSems0_none]
    have hsplit := Pipeline.arrays_of_unscopedBufs (p := 2) (pcfgs (F := F)) tables (pdats S m) launch2.win launch2.arr_whole c
      ((pdats S m 2 c).share_full fun _ => rfl) (T7 S m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats S m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats S m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) tables (Ix := Unit) (Name := ℕ) (U := UR sig nD τ) (Lvl := ℕ)
      launch2.win launch2.arr_whole c (pdats S m) ((pdats S m 2 c).share_full fun _ => rfl)
      (T7 S m c) (T8 S m c) ((pdats S m 2 c).arrAt · cfg2.N) (arrs2 S m c) (rest2 S m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's eight items in order. -/
abbrev items : List (Pipeline.Seg (pcfgs (F := F)) tables (pdats S m) () defs₀ vars lvls lvOf) :=
  [ .host (hostItem hostOps0 hostOps0_sub hostOps0_fresh (B0 m)),
    .host (hostItem hostOps0_1 hostOps0_1_sub hostOps0_1_fresh (B1 m)),
    .host (hostItem hostOps0_2 hostOps0_2_sub hostOps0_2_fresh (B2 m)),
    .region (region0 S m),
    .host (hostItem hostOps1 hostOps1_sub hostOps1_fresh (B4 m)),
    .region (region1 S m),
    .host (hostItem hostOps2 hostOps2_sub hostOps2_fresh (B6 S m)),
    .region (region2 S m) ]

/-- The last thread state without what is owed. -/
abbrev lastState (c : Dev nD) : sProp 𝕄 := iprop(StableHlo.held (c : Thread nD τ) (Pipeline.ucRefs τ sig) (B8 S m c) ∗ ∃ r, prngReg c r)

/-- The last boundary's thread state, regrouped: what is owed (nothing) apart. -/
theorem last_link (c : Dev nD) :
    stateAt (B8 S m) c ⊢ (iprop(lastState S m c ∗ ∃ W, owes (c : Thread nD τ) (0 : CellTallies nD τ sig Unit) W) : sProp 𝕄) := by
  iintro ⟨Hh, Hp, HO⟩
  isplitr [HO]
  · isplitl [Hh]; · iexact Hh
    iexact Hp
  iexact HO

set_option backward.isDefEq.respectTransparency.types false in
/-- THE RUN. From any memory with zero counters every weakly fair execution of @main terminates, nothing faulting,
    and in every final state every unscoped buffer of every core holds `B8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B8 S m c b) :=
  Pipeline.θ_run_regions_kit_dev (pcfgs (F := F)) tables (pdats S m) () cellOf_inj emb₁ defs₀ vars lvls lvOf m ρ main
    (fun _ => items S m)
    (fun c Q => by
      rewrite [main_chain c, Seg.run_eq_chain,
        show (items S m).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [items, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := stateAt (B0 m)) (Tₙ := lastState S m)
    (hch := fun c => ⟨.rfl, .rfl, .rfl, .rfl, .rfl, .rfl, .rfl, .rfl, last_link S m c⟩)
    (hinit := by
      refine Pipeline.initEach lvls lvOf fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 S m c b)
    (hfin := fun c s' => by
      iintro ⟨⟨Hh, -⟩, HSI⟩
      unfold StableHlo.held
      imodintro
      iapply (pointsTo_read_all (Pipeline.ucRefs τ sig) (fun b => (((c : Thread nD τ)).1, b)) (B8 S m c) s')
      isplitl [Hh] <;> iassumption)
    (hQ := fun _ h => h)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include S in
/-- THE FRAME, at any float instance: the run, read at the seven argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (B8_arg0 S m c),
     (h c _ (mem_uc main_arg1 (by decide))).trans (B8_arg1 S m c),
     (h c _ (mem_uc main_arg2 (by decide))).trans (B8_arg2 S m c),
     (h c _ (mem_uc main_arg3 (by decide))).trans (B8_arg3 S m c),
     (h c _ (mem_uc main_arg4 (by decide))).trans (B8_arg4 S m c),
     (h c _ (mem_uc main_arg5 (by decide))).trans (B8_arg5 S m c),
     (h c _ (mem_uc main_arg6 (by decide))).trans (B8_arg6 S m c)⟩) (run_all S m ρ)

end Cert.KernelIdeal.Whole

end
-- ==== Proof.StatsRuns.lean ====
/-
  Region 1 of the program: the column sums and the column sums of squares of a [100000,128] array, taken over ten
  blocks of 10000 rows, one block per grid point. Two [1,128] scratch buffers carry the partial sums from point to
  point: the body zeroes both at the first point, adds the block's column sums (of the entries, of their squares) at
  every point, and copies both into the two output blocks at the last point only.
  This module holds what the three control cases of the body share: its two branch conditions with their closed
  forms over the grid, where the two output windows are idle and where they are written back, the memrefs the body
  is called with, and the region's entry invariant with the two scratch buffers named.
-/
import proofs.«106071_j44908178047711_2_alg».proof.Proof.Gen.KernelIdeal.Launch
import proofs.«106071_j44908178047711_2_alg».proof.Proof.Gen.KernelIdeal.Skeleton
import proofs.«106071_j44908178047711_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The condition of the body's first conditional (zero the two scratch buffers), from the grid coordinate. -/
abbrev isFirst (i : grid1.Coords) : Prop :=
  (Scalar.cmpi .ne (Scalar.extui (Scalar.cmpi .eq (BitVec.ofNat 32 (i 0).val) 0#32)) 0#32) = 1#1
/-- It holds at point 0 only. -/
theorem isFirst_iff : ∀ t : Fin cfg1.N, isFirst (grid1.coords t) ↔ t.val % 10 = 0 :=
  (by decide +kernel : ∀ t : Fin grid1.N, isFirst (grid1.coords t) ↔ t.val % 10 = 0)

/-- The condition of the body's second conditional (copy the scratch buffers into the outputs). -/
abbrev isLast (i : grid1.Coords) : Prop := k1_cond2 i = 1#1
/-- It holds at point 9 only. -/
theorem isLast_iff : ∀ t : Fin cfg1.N, isLast (grid1.coords t) ↔ t.val % 10 = 9 :=
  (by decide +kernel : ∀ t : Fin grid1.N, isLast (grid1.coords t) ↔ t.val % 10 = 9)

/-! ## Where the windows are idle, and where they are written back -/

/-- The input window is never idle. -/
theorem live_in : ∀ t : Fin cfg1.N, cfg1.idle 0 (grid1.coords t) = false := by decide +kernel
/-- Away from the last point the body stores nothing into output window 1: the window is idle there, -/
theorem idle_out1 : ∀ t : Fin cfg1.N, ¬isLast (grid1.coords t) → cfg1.idle 1 (grid1.coords t) = true := by decide +kernel
/-- and its block is not written back there. -/
theorem noFlush_out1 : ∀ t : Fin cfg1.N, ¬isLast (grid1.coords t) → (cfg1.win 1).flush t = false := by decide +kernel
/-- At the last point it is live. -/
theorem live_out1 : ∀ t : Fin cfg1.N, isLast (grid1.coords t) → cfg1.idle 1 (grid1.coords t) = false := by decide +kernel
/-- The same three facts of output window 2. -/
theorem idle_out2 : ∀ t : Fin cfg1.N, ¬isLast (grid1.coords t) → cfg1.idle 2 (grid1.coords t) = true := by decide +kernel
theorem noFlush_out2 : ∀ t : Fin cfg1.N, ¬isLast (grid1.coords t) → (cfg1.win 2).flush t = false := by decide +kernel
theorem live_out2 : ∀ t : Fin cfg1.N, isLast (grid1.coords t) → cfg1.idle 2 (grid1.coords t) = false := by decide +kernel

/-! ## The memrefs the body is called with -/

/-- Each window's current staging memref at point `t`, as the pipeline passes it, and that it is a whole buffer. -/
abbrev mIn (t : Fin cfg1.N) : Memref sig .tc .vmem S10000x128 .f32 := win1_0.stage (cfg1.slots t 0)
abbrev hIn (t : Fin cfg1.N) : (mIn t).IsWhole := hstage1_0 ((cfg1.slots t 0).cast nbuf1_0)
abbrev mOut1 (t : Fin cfg1.N) : Memref sig .tc .vmem S1x128 .f32 := win1_1.stage (cfg1.slots t 1)
abbrev hOut1 (t : Fin cfg1.N) : (mOut1 t).IsWhole := hstage1_1 ((cfg1.slots t 1).cast nbuf1_1)
abbrev mOut2 (t : Fin cfg1.N) : Memref sig .tc .vmem S1x128 .f32 := win1_2.stage (cfg1.slots t 2)
abbrev hOut2 (t : Fin cfg1.N) : (mOut2 t).IsWhole := hstage1_2 ((cfg1.slots t 2).cast nbuf1_2)
/-- The two scratch operands: whole scoped buffers of the kernel's own, passed beside the windows. -/
abbrev mSum : Memref sig .tc .vmem S1x128 .f32 := Memref.whole cc1_scratch0
abbrev mSq : Memref sig .tc .vmem S1x128 .f32 := Memref.whole cc1_scratch1
/-- Views through which the contents of the outputs' staging buffers and of the scratch buffers are stated (for a
    whole buffer the choice of view does not matter). -/
abbrev vOut1 : View sig .tc .vmem S1x128 .f32 := (Memref.whole cc1_stg1_0 : Memref sig .tc .vmem S1x128 .f32).view
abbrev vOut2 : View sig .tc .vmem S1x128 .f32 := (Memref.whole cc1_stg2_0 : Memref sig .tc .vmem S1x128 .f32).view
abbrev vSum : View sig .tc .vmem S1x128 .f32 := mSum.view
abbrev vSq : View sig .tc .vmem S1x128 .f32 := mSq.view

/-! ## The region's entry invariant with the scratch buffers named -/

/-- The core's scoped buffers other than this region's staging buffers and its two scratch buffers, each at some
    contents: carried through the region unopened. -/
abbrev others (c : Dev nD) : sProp 𝕄 :=
  Pipeline.scopedRestBut (Ix := Unit) (Name := ℕ) (U := UR sig nD τ) (Lvl := ℕ) (Val := Elt F) spec1 c [cc1_scratch0, cc1_scratch1]

/-- The entry invariant of the region is: the two scratch buffers owned at some contents, the other scoped buffers,
    and the generator register at some state. -/
theorem PhiA_eq (c : Dev nD) :
    (Pipeline.ΦA spec1 c : sProp 𝕄)
      = iprop(iprop(iprop((∃ d, owns (c : Thread nD τ) mSum fullShare d) ∗ (∃ d, owns (c : Thread nD τ) mSq fullShare d)) ∗ others c) ∗ (∃ r, prngReg c r)) := by
  unfold Pipeline.ΦA
  rw [Pipeline.scopedRest_split_of_list spec1 c [cc1_scratch0, cc1_scratch1] (by decide) (by decide)]
  simp only [mSum, mSq, owns_whole]; try rfl

end Cert.KernelIdeal.Stats

end
-- ==== Proof.StatsRunA.lean ====
/-
  The body of region 1 at the FIRST grid point (the first conditional taken, the second not): both scratch buffers
  are stored whole before they are read, so the body runs from scratch buffers at any contents; it stores nothing
  into the two output blocks, which are handed back as found. What each scratch buffer ends with is found by running
  the body: a list of stored pieces, last first.
-/
import proofs.«106071_j44908178047711_2_alg».proof.Proof.StatsRuns

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the first condition holds and the second fails, on whole memrefs: the input block at
    contents `x0`, the two output blocks at contents `xi1`, `xi2` that are handed back untouched, the two scratch
    buffers at anything. It runs to the continuation holding the input as it was and each scratch buffer with the
    pieces the body stored written into it; the two lists of pieces are found by the run. -/
noncomputable def runFirst (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : isFirst i) (hc1 : ¬isLast i)
    (x0 : Vec F S10000x128 .f32) :
    Σ' (LA : List (View.Piece (Elt F) S1x128 .f32)), { LB : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LA)
                ∗ (∃ f, arg5.view.loc (c : Thread nD τ) ↦[arg5.view.set]{fullShare} arg5.view.writes (Elt F) f LB)) -∗ K ⟨⟩))
          ⊢ wp frame (wpE (defs₀ (F := F)) Variants.none c none) E (cc1__stats_kernel i arg1 harg1 arg2 harg2 arg3 harg3 arg4 harg4 arg5 harg5) K } := by
  refine ⟨?_, ?_, fun xi1 xi2 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%dA, %fA, -, HA⟩, ⟨%dB, %fB, -, HB⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HA]; · iexists _; iexact HA
    iexists _; iexact HB

end Cert.KernelIdeal.Stats

end
-- ==== Proof.StatsRunB.lean ====
/-
  The body of region 1 at a MIDDLE grid point (neither conditional taken): the scratch buffers are read before they
  are stored, so the body runs from scratch buffers at the contents `xsA`, `xsB` the point before left; it stores
  nothing into the two output blocks, which are handed back as found.
-/
import proofs.«106071_j44908178047711_2_alg».proof.Proof.StatsRunA

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where both conditions fail, on whole memrefs: the input block at contents `x0`, the two
    output blocks at contents `xi1`, `xi2` that are handed back untouched, the two scratch buffers at contents
    `xsA`, `xsB`. It runs to the continuation holding the input as it was and each scratch buffer with the pieces
    the body stored written into it; the two lists of pieces are found by the run. -/
noncomputable def runMiddle (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : ¬isLast i)
    (x0 : Vec F S10000x128 .f32) (xsA xsB : Vec F S1x128 .f32) :
    Σ' (LA : List (View.Piece (Elt F) S1x128 .f32)), { LB : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ owns (c : Thread nD τ) arg4 fullShare xsA ∗ owns (c : Thread nD τ) arg5 fullShare xsB
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LA)
                ∗ (∃ f, arg5.view.loc (c : Thread nD τ) ↦[arg5.view.set]{fullShare} arg5.view.writes (Elt F) f LB)) -∗ K ⟨⟩))
          ⊢ wp frame (wpE (defs₀ (F := F)) Variants.none c none) E (cc1__stats_kernel i arg1 harg1 arg2 harg2 arg3 harg3 arg4 harg4 arg5 harg5) K } := by
  refine ⟨?_, ?_, fun xi1 xi2 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%fA, %hfA, HA⟩, ⟨%fB, %hfB, HB⟩, Hk⟩
    obtain rfl := harg1.eq_unread hf0; obtain rfl := harg2.eq_unread hf1; obtain rfl := harg3.eq_unread hf2
    obtain rfl := harg4.eq_unread hfA; obtain rfl := harg5.eq_unread hfB
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HA]; · iexists _; iexact HA
    iexists _; iexact HB

end Cert.KernelIdeal.Stats

end
-- ==== Proof.StatsRunC.lean ====
/-
  The body of region 1 at the LAST grid point (the first conditional not taken, the second taken): the scratch
  buffers start at the contents `xsA`, `xsB` the point before left, and after the accumulation each is copied
  whole into one of the two output blocks, which may start at anything.
-/
import proofs.«106071_j44908178047711_2_alg».proof.Proof.StatsRunB

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the first condition fails and the second holds, on whole memrefs: the input block at
    contents `x0`, the two output blocks at anything, the two scratch buffers at contents `xsA`, `xsB`. It runs to the
    continuation holding the input as it was and each output block and each scratch buffer with the pieces the body
    stored written into it; the four lists of pieces are found by the run. -/
noncomputable def runLast (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : isLast i)
    (x0 : Vec F S10000x128 .f32) (xsA xsB : Vec F S1x128 .f32) :
    Σ' (L1 : List (View.Piece (Elt F) S1x128 .f32)) (L2 : List (View.Piece (Elt F) S1x128 .f32)) (LA : List (View.Piece (Elt F) S1x128 .f32)), { LB : List (View.Piece (Elt F) S1x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xsA ∗ owns (c : Thread nD τ) arg5 fullShare xsB
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LA)
                ∗ (∃ f, arg5.view.loc (c : Thread nD τ) ↦[arg5.view.set]{fullShare} arg5.view.writes (Elt F) f LB)) -∗ K ⟨⟩))
          ⊢ wp frame (wpE (defs₀ (F := F)) Variants.none c none) E (cc1__stats_kernel i arg1 harg1 arg2 harg2 arg3 harg3 arg4 harg4 arg5 harg5) K } := by
  refine ⟨?_, ?_, ?_, ?_, fun E K => ?run⟩
  case run =>
    simp only [cc1__stats_kernel_eq_skeleton]; unfold cc1__stats_kernel_skel
    unfold owns
    iintro ⟨⟨%f0, %hf0, H0⟩, ⟨%d1, %f1, -, H1⟩, ⟨%d2, %f2, -, H2⟩, ⟨%fA, %hfA, HA⟩, ⟨%fB, %hfB, HB⟩, Hk⟩
    obtain rfl := harg1.eq_unread hf0
    obtain rfl := harg4.eq_unread hfA; obtain rfl := harg5.eq_unread hfB
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HA]; · iexists _; iexact HA
    iexists _; iexact HB

end Cert.KernelIdeal.Stats

end
-- ==== Proof.Stats.lean ====
/-
  Region 1 of the program, its proof data and body obligation, at a parameter `V` (the contents of the core's
  buffers when the region is entered) and at any float instance.
  The three runs of the body (first point, a middle point, last point) each end with lists of stored pieces; here
  those pieces are shown to cover the buffers they were stored into, so that each buffer ends at its pieces read
  back. `outsAt` follows the four buffers (the two output blocks, the two scratch buffers) from point to point: the
  scratch buffers of a point start at what the point before left in them. The region's invariant after a point is
  the two scratch buffers owned at `outsAt`'s components; before the first point it is the region's entry invariant,
  and after the last point the named contents are forgotten again.
-/
import proofs.«106071_j44908178047711_2_alg».proof.Proof.StatsRunC

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s and whose body leaves the block in place: the window is fetched whole and is never idle. -/
theorem before_in_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-! ## What each case leaves in the buffers it stores into -/

section Pieces
omit V

/-- At the first point the pieces stored into the sums' scratch buffer cover it. -/
theorem coverSum_first (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : isFirst i) (hc1 : ¬isLast i)
    (x0 : Vec F S10000x128 .f32) (y : S1x128.Idx) :
    ∃ pc ∈ (runFirst c i arg1 harg1 arg2 harg2 arg3 harg3 arg4 harg4 arg5 harg5 hc0 hc1 x0).1, y ∈ pc.1.set :=
  View.cover_of_tiledL (runFirst c i arg1 harg1 arg2 harg2 arg3 harg3 arg4 harg4 arg5 harg5 hc0 hc1 x0).1 S1x128.size (by sl_kernel_rfl) y
/-- What the first point leaves in the sums' scratch buffer: its pieces read back. -/
def sumFirst (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : isFirst i) (hc1 : ¬isLast i)
    (x0 : Vec F S10000x128 .f32) : Vec F S1x128 .f32 :=
  vSum.read (Elt F) (vSum.writes (Elt F) vSum.junk (runFirst c i arg1 harg1 arg2 harg2 arg3 harg3 arg4 harg4 arg5 harg5 hc0 hc1 x0).1)
/-- At the first point the pieces stored into the squares' scratch buffer cover it. -/
theorem coverSq_first (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : isFirst i) (hc1 : ¬isLast i)
    (x0 : Vec F S10000x128 .f32) (y : S1x128.Idx) :
    ∃ pc ∈ (runFirst c i arg1 harg1 arg2 harg2 arg3 harg3 arg4 harg4 arg5 harg5 hc0 hc1 x0).2.1, y ∈ pc.1.set :=
  View.cover_of_tiledL (runFirst c i arg1 harg1 arg2 harg2 arg3 harg3 arg4 harg4 arg5 harg5 hc0 hc1 x0).2.1 S1x128.size (by sl_kernel_rfl) y
/-- What the first point leaves in the squares' scratch buffer. -/
def sqFirst (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : isFirst i) (hc1 : ¬isLast i)
    (x0 : Vec F S10000x128 .f32) : Vec F S1x128 .f32 :=
  vSq.read (Elt F) (vSq.writes (Elt F) vSq.junk (runFirst c i arg1 harg1 arg2 harg2 arg3 harg3 arg4 harg4 arg5 harg5 hc0 hc1 x0).2.1)
/-- At a middle point the pieces stored into the sums' scratch buffer cover it. -/
theorem coverSum_middle (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : ¬isLast i)
    (x0 : Vec F S10000x128 .f32) (xsA xsB : Vec F S1x128 .f32) (y : S1x128.Idx) :
    ∃ pc ∈ (runMiddle c i arg1 harg1 arg2 harg2 arg3 harg3 arg4 harg4 arg5 harg5 hc0 hc1 x0 xsA xsB).1, y ∈ pc.1.set :=
  View.cover_of_tiledL (runMiddle c i arg1 harg1 arg2 harg2 arg3 harg3 arg4 harg4 arg5 harg5 hc0 hc1 x0 xsA xsB).1 S1x128.size (by sl_kernel_rfl) y
/-- What a middle point leaves in the sums' scratch buffer. -/
def sumMiddle (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : ¬isLast i)
    (x0 : Vec F S10000x128 .f32) (xsA xsB : Vec F S1x128 .f32) : Vec F S1x128 .f32 :=
  vSum.read (Elt F) (vSum.writes (Elt F) vSum.junk (runMiddle c i arg1 harg1 arg2 harg2 arg3 harg3 arg4 harg4 arg5 harg5 hc0 hc1 x0 xsA xsB).1)
/-- At a middle point the pieces stored into the squares' scratch buffer cover it. -/
theorem coverSq_middle (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : ¬isLast i)
    (x0 : Vec F S10000x128 .f32) (xsA xsB : Vec F S1x128 .f32) (y : S1x128.Idx) :
    ∃ pc ∈ (runMiddle c i arg1 harg1 arg2 harg2 arg3 harg3 arg4 harg4 arg5 harg5 hc0 hc1 x0 xsA xsB).2.1, y ∈ pc.1.set :=
  View.cover_of_tiledL (runMiddle c i arg1 harg1 arg2 harg2 arg3 harg3 arg4 harg4 arg5 harg5 hc0 hc1 x0 xsA xsB).2.1 S1x128.size (by sl_kernel_rfl) y
/-- What a middle point leaves in the squares' scratch buffer. -/
def sqMiddle (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : ¬isLast i)
    (x0 : Vec F S10000x128 .f32) (xsA xsB : Vec F S1x128 .f32) : Vec F S1x128 .f32 :=
  vSq.read (Elt F) (vSq.writes (Elt F) vSq.junk (runMiddle c i arg1 harg1 arg2 harg2 arg3 harg3 arg4 harg4 arg5 harg5 hc0 hc1 x0 xsA xsB).2.1)
/-- At the last point the pieces stored into output block 1 cover it. -/
theorem coverOut1_last (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : isLast i)
    (x0 : Vec F S10000x128 .f32) (xsA xsB : Vec F S1x128 .f32) (y : S1x128.Idx) :
    ∃ pc ∈ (runLast c i arg1 harg1 arg2 harg2 arg3 harg3 arg4 harg4 arg5 harg5 hc0 hc1 x0 xsA xsB).1, y ∈ pc.1.set :=
  View.cover_of_tiledL (runLast c i arg1 harg1 arg2 harg2 arg3 harg3 arg4 harg4 arg5 harg5 hc0 hc1 x0 xsA xsB).1 S1x128.size (by sl_kernel_rfl) y
/-- What the last point leaves in output block 1. -/
def out1Last (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : isLast i)
    (x0 : Vec F S10000x128 .f32) (xsA xsB : Vec F S1x128 .f32) : Vec F S1x128 .f32 :=
  vOut1.read (Elt F) (vOut1.writes (Elt F) vOut1.junk (runLast c i arg1 harg1 arg2 harg2 arg3 harg3 arg4 harg4 arg5 harg5 hc0 hc1 x0 xsA xsB).1)
/-- At the last point the pieces stored into output block 2 cover it. -/
theorem coverOut2_last (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : isLast i)
    (x0 : Vec F S10000x128 .f32) (xsA xsB : Vec F S1x128 .f32) (y : S1x128.Idx) :
    ∃ pc ∈ (runLast c i arg1 harg1 arg2 harg2 arg3 harg3 arg4 harg4 arg5 harg5 hc0 hc1 x0 xsA xsB).2.1, y ∈ pc.1.set :=
  View.cover_of_tiledL (runLast c i arg1 harg1 arg2 harg2 arg3 harg3 arg4 harg4 arg5 harg5 hc0 hc1 x0 xsA xsB).2.1 S1x128.size (by sl_kernel_rfl) y
/-- What the last point leaves in output block 2. -/
def out2Last (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : isLast i)
    (x0 : Vec F S10000x128 .f32) (xsA xsB : Vec F S1x128 .f32) : Vec F S1x128 .f32 :=
  vOut2.read (Elt F) (vOut2.writes (Elt F) vOut2.junk (runLast c i arg1 harg1 arg2 harg2 arg3 harg3 arg4 harg4 arg5 harg5 hc0 hc1 x0 xsA xsB).2.1)
/-- At the last point the pieces stored into the sums' scratch buffer cover it. -/
theorem coverSum_last (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : isLast i)
    (x0 : Vec F S10000x128 .f32) (xsA xsB : Vec F S1x128 .f32) (y : S1x128.Idx) :
    ∃ pc ∈ (runLast c i arg1 harg1 arg2 harg2 arg3 harg3 arg4 harg4 arg5 harg5 hc0 hc1 x0 xsA xsB).2.2.1, y ∈ pc.1.set :=
  View.cover_of_tiledL (runLast c i arg1 harg1 arg2 harg2 arg3 harg3 arg4 harg4 arg5 harg5 hc0 hc1 x0 xsA xsB).2.2.1 S1x128.size (by sl_kernel_rfl) y
/-- What the last point leaves in the sums' scratch buffer. -/
def sumLast (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : isLast i)
    (x0 : Vec F S10000x128 .f32) (xsA xsB : Vec F S1x128 .f32) : Vec F S1x128 .f32 :=
  vSum.read (Elt F) (vSum.writes (Elt F) vSum.junk (runLast c i arg1 harg1 arg2 harg2 arg3 harg3 arg4 harg4 arg5 harg5 hc0 hc1 x0 xsA xsB).2.2.1)
/-- At the last point the pieces stored into the squares' scratch buffer cover it. -/
theorem coverSq_last (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : isLast i)
    (x0 : Vec F S10000x128 .f32) (xsA xsB : Vec F S1x128 .f32) (y : S1x128.Idx) :
    ∃ pc ∈ (runLast c i arg1 harg1 arg2 harg2 arg3 harg3 arg4 harg4 arg5 harg5 hc0 hc1 x0 xsA xsB).2.2.2.1, y ∈ pc.1.set :=
  View.cover_of_tiledL (runLast c i arg1 harg1 arg2 harg2 arg3 harg3 arg4 harg4 arg5 harg5 hc0 hc1 x0 xsA xsB).2.2.2.1 S1x128.size (by sl_kernel_rfl) y
/-- What the last point leaves in the squares' scratch buffer. -/
def sqLast (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : isLast i)
    (x0 : Vec F S10000x128 .f32) (xsA xsB : Vec F S1x128 .f32) : Vec F S1x128 .f32 :=
  vSq.read (Elt F) (vSq.writes (Elt F) vSq.junk (runLast c i arg1 harg1 arg2 harg2 arg3 harg3 arg4 harg4 arg5 harg5 hc0 hc1 x0 xsA xsB).2.2.2.1)

/-- At the points where an output block is idle nothing consults its contents (it is neither written back there nor
    read at the next point): a placeholder. -/
def idleOut1 : Vec F S1x128 .f32 := vOut1.read (Elt F) vOut1.junk
def idleOut2 : Vec F S1x128 .f32 := vOut2.read (Elt F) vOut2.junk

end Pieces

/-! ## What the four buffers hold after each point -/

/-- The grid has ten points. -/
theorem N_eq : cfg1.N = 10 := N_1

/-- The first condition holds at point 0, and the second fails there. -/
theorem first_zero (hn : 0 < cfg1.N) : isFirst (grid1.coords ⟨0, hn⟩) := (isFirst_iff ⟨0, hn⟩).mpr (Nat.zero_mod _)
theorem notLast_zero (hn : 0 < cfg1.N) : ¬isLast (grid1.coords ⟨0, hn⟩) := fun h => by
  have := (isLast_iff ⟨0, hn⟩).mp h; (try dsimp only at this); omega
/-- The first condition fails at every later point. -/
theorem notFirst_succ (n : ℕ) (hn : n + 1 < cfg1.N) : ¬isFirst (grid1.coords ⟨n + 1, hn⟩) := fun h => by
  have := (isFirst_iff ⟨n + 1, hn⟩).mp h; have hN : n + 1 < 10 := lt_of_lt_of_eq hn N_eq; (try dsimp only at this); omega

/-- The contents of (output block 1, output block 2, the sums' scratch, the squares' scratch) after the body at
    position `n`: the case the position selects, run at the point's memrefs and input block, the scratch buffers
    starting at what this gives at `n - 1`. -/
def outsAt (c : Dev nD) : (n : ℕ) → n < cfg1.N → Vec F S1x128 .f32 × Vec F S1x128 .f32 × Vec F S1x128 .f32 × Vec F S1x128 .f32
  | 0, hn => (idleOut1, idleOut2,
      sumFirst c (grid1.coords ⟨0, hn⟩) (mIn ⟨0, hn⟩) (hIn ⟨0, hn⟩) (mOut1 ⟨0, hn⟩) (hOut1 ⟨0, hn⟩) (mOut2 ⟨0, hn⟩) (hOut2 ⟨0, hn⟩) mSum (Memref.isWhole_whole _) mSq (Memref.isWhole_whole _) (first_zero hn) (notLast_zero hn) (blk V c 0 ⟨0, hn⟩),
      sqFirst c (grid1.coords ⟨0, hn⟩) (mIn ⟨0, hn⟩) (hIn ⟨0, hn⟩) (mOut1 ⟨0, hn⟩) (hOut1 ⟨0, hn⟩) (mOut2 ⟨0, hn⟩) (hOut2 ⟨0, hn⟩) mSum (Memref.isWhole_whole _) mSq (Memref.isWhole_whole _) (first_zero hn) (notLast_zero hn) (blk V c 0 ⟨0, hn⟩))
  | n + 1, hn =>
    if h1 : (n + 1) % 10 = 9 then
      (out1Last c (grid1.coords ⟨n + 1, hn⟩) (mIn ⟨n + 1, hn⟩) (hIn ⟨n + 1, hn⟩) (mOut1 ⟨n + 1, hn⟩) (hOut1 ⟨n + 1, hn⟩) (mOut2 ⟨n + 1, hn⟩) (hOut2 ⟨n + 1, hn⟩) mSum (Memref.isWhole_whole _) mSq (Memref.isWhole_whole _) (notFirst_succ n hn) ((isLast_iff ⟨n + 1, hn⟩).mpr h1) (blk V c 0 ⟨n + 1, hn⟩) (outsAt c n (Nat.lt_of_succ_lt hn)).2.2.1 (outsAt c n (Nat.lt_of_succ_lt hn)).2.2.2,
       out2Last c (grid1.coords ⟨n + 1, hn⟩) (mIn ⟨n + 1, hn⟩) (hIn ⟨n + 1, hn⟩) (mOut1 ⟨n + 1, hn⟩) (hOut1 ⟨n + 1, hn⟩) (mOut2 ⟨n + 1, hn⟩) (hOut2 ⟨n + 1, hn⟩) mSum (Memref.isWhole_whole _) mSq (Memref.isWhole_whole _) (notFirst_succ n hn) ((isLast_iff ⟨n + 1, hn⟩).mpr h1) (blk V c 0 ⟨n + 1, hn⟩) (outsAt c n (Nat.lt_of_succ_lt hn)).2.2.1 (outsAt c n (Nat.lt_of_succ_lt hn)).2.2.2,
       sumLast c (grid1.coords ⟨n + 1, hn⟩) (mIn ⟨n + 1, hn⟩) (hIn ⟨n + 1, hn⟩) (mOut1 ⟨n + 1, hn⟩) (hOut1 ⟨n + 1, hn⟩) (mOut2 ⟨n + 1, hn⟩) (hOut2 ⟨n + 1, hn⟩) mSum (Memref.isWhole_whole _) mSq (Memref.isWhole_whole _) (notFirst_succ n hn) ((isLast_iff ⟨n + 1, hn⟩).mpr h1) (blk V c 0 ⟨n + 1, hn⟩) (outsAt c n (Nat.lt_of_succ_lt hn)).2.2.1 (outsAt c n (Nat.lt_of_succ_lt hn)).2.2.2,
       sqLast c (grid1.coords ⟨n + 1, hn⟩) (mIn ⟨n + 1, hn⟩) (hIn ⟨n + 1, hn⟩) (mOut1 ⟨n + 1, hn⟩) (hOut1 ⟨n + 1, hn⟩) (mOut2 ⟨n + 1, hn⟩) (hOut2 ⟨n + 1, hn⟩) mSum (Memref.isWhole_whole _) mSq (Memref.isWhole_whole _) (notFirst_succ n hn) ((isLast_iff ⟨n + 1, hn⟩).mpr h1) (blk V c 0 ⟨n + 1, hn⟩) (outsAt c n (Nat.lt_of_succ_lt hn)).2.2.1 (outsAt c n (Nat.lt_of_succ_lt hn)).2.2.2)
    else
      (idleOut1, idleOut2,
       sumMiddle c (grid1.coords ⟨n + 1, hn⟩) (mIn ⟨n + 1, hn⟩) (hIn ⟨n + 1, hn⟩) (mOut1 ⟨n + 1, hn⟩) (hOut1 ⟨n + 1, hn⟩) (mOut2 ⟨n + 1, hn⟩) (hOut2 ⟨n + 1, hn⟩) mSum (Memref.isWhole_whole _) mSq (Memref.isWhole_whole _) (notFirst_succ n hn) (fun h => h1 ((isLast_iff ⟨n + 1, hn⟩).mp h)) (blk V c 0 ⟨n + 1, hn⟩) (outsAt c n (Nat.lt_of_succ_lt hn)).2.2.1 (outsAt c n (Nat.lt_of_succ_lt hn)).2.2.2,
       sqMiddle c (grid1.coords ⟨n + 1, hn⟩) (mIn ⟨n + 1, hn⟩) (hIn ⟨n + 1, hn⟩) (mOut1 ⟨n + 1, hn⟩) (hOut1 ⟨n + 1, hn⟩) (mOut2 ⟨n + 1, hn⟩) (hOut2 ⟨n + 1, hn⟩) mSum (Memref.isWhole_whole _) mSq (Memref.isWhole_whole _) (notFirst_succ n hn) (fun h => h1 ((isLast_iff ⟨n + 1, hn⟩).mp h)) (blk V c 0 ⟨n + 1, hn⟩) (outsAt c n (Nat.lt_of_succ_lt hn)).2.2.1 (outsAt c n (Nat.lt_of_succ_lt hn)).2.2.2)

/-- The position before `t`, which is inside the grid. -/
theorem pred_lt (t : Fin cfg1.N) : t.val - 1 < cfg1.N := Nat.lt_of_le_of_lt (Nat.sub_le _ _) t.isLt

/-- `outsAt` at the first point. -/
theorem outsAt_first (c : Dev nD) (t : Fin cfg1.N) (h0 : t.val % 10 = 0) (hc0 : isFirst (grid1.coords t)) (hc1 : ¬isLast (grid1.coords t)) :
    outsAt V c t.val t.isLt = (idleOut1, idleOut2,
      sumFirst c (grid1.coords t) (mIn t) (hIn t) (mOut1 t) (hOut1 t) (mOut2 t) (hOut2 t) mSum (Memref.isWhole_whole _) mSq (Memref.isWhole_whole _) hc0 hc1 (blk V c 0 t),
      sqFirst c (grid1.coords t) (mIn t) (hIn t) (mOut1 t) (hOut1 t) (mOut2 t) (hOut2 t) mSum (Memref.isWhole_whole _) mSq (Memref.isWhole_whole _) hc0 hc1 (blk V c 0 t)) := by
  obtain ⟨n, hn⟩ := t
  cases n with
  | zero => exact rfl
  | succ n => exfalso; have hN : n + 1 < 10 := lt_of_lt_of_eq hn N_eq; (try dsimp only at h0); omega

/-- `outsAt` at a middle point: that case's contents, over what the point before left. -/
theorem outsAt_middle (c : Dev nD) (t : Fin cfg1.N) (h0 : ¬t.val % 10 = 0) (h1 : ¬t.val % 10 = 9) (hc0 : ¬isFirst (grid1.coords t)) (hc1 : ¬isLast (grid1.coords t)) :
    outsAt V c t.val t.isLt = (idleOut1, idleOut2,
      sumMiddle c (grid1.coords t) (mIn t) (hIn t) (mOut1 t) (hOut1 t) (mOut2 t) (hOut2 t) mSum (Memref.isWhole_whole _) mSq (Memref.isWhole_whole _) hc0 hc1 (blk V c 0 t) (outsAt V c (t.val - 1) (pred_lt t)).2.2.1 (outsAt V c (t.val - 1) (pred_lt t)).2.2.2,
      sqMiddle c (grid1.coords t) (mIn t) (hIn t) (mOut1 t) (hOut1 t) (mOut2 t) (hOut2 t) mSum (Memref.isWhole_whole _) mSq (Memref.isWhole_whole _) hc0 hc1 (blk V c 0 t) (outsAt V c (t.val - 1) (pred_lt t)).2.2.1 (outsAt V c (t.val - 1) (pred_lt t)).2.2.2) := by
  obtain ⟨n, hn⟩ := t
  cases n with
  | zero => exact (by exfalso; (try dsimp only at h0); exact absurd (Nat.zero_mod _) h0)
  | succ n => exact (dif_neg h1).trans rfl

/-- `outsAt` at the last point: that case's contents, over what the point before left. -/
theorem outsAt_last (c : Dev nD) (t : Fin cfg1.N) (h0 : ¬t.val % 10 = 0) (h1 : t.val % 10 = 9) (hc0 : ¬isFirst (grid1.coords t)) (hc1 : isLast (grid1.coords t)) :
    outsAt V c t.val t.isLt =
     (out1Last c (grid1.coords t) (mIn t) (hIn t) (mOut1 t) (hOut1 t) (mOut2 t) (hOut2 t) mSum (Memref.isWhole_whole _) mSq (Memref.isWhole_whole _) hc0 hc1 (blk V c 0 t) (outsAt V c (t.val - 1) (pred_lt t)).2.2.1 (outsAt V c (t.val - 1) (pred_lt t)).2.2.2,
      out2Last c (grid1.coords t) (mIn t) (hIn t) (mOut1 t) (hOut1 t) (mOut2 t) (hOut2 t) mSum (Memref.isWhole_whole _) mSq (Memref.isWhole_whole _) hc0 hc1 (blk V c 0 t) (outsAt V c (t.val - 1) (pred_lt t)).2.2.1 (outsAt V c (t.val - 1) (pred_lt t)).2.2.2,
      sumLast c (grid1.coords t) (mIn t) (hIn t) (mOut1 t) (hOut1 t) (mOut2 t) (hOut2 t) mSum (Memref.isWhole_whole _) mSq (Memref.isWhole_whole _) hc0 hc1 (blk V c 0 t) (outsAt V c (t.val - 1) (pred_lt t)).2.2.1 (outsAt V c (t.val - 1) (pred_lt t)).2.2.2,
      sqLast c (grid1.coords t) (mIn t) (hIn t) (mOut1 t) (hOut1 t) (mOut2 t) (hOut2 t) mSum (Memref.isWhole_whole _) mSq (Memref.isWhole_whole _) hc0 hc1 (blk V c 0 t) (outsAt V c (t.val - 1) (pred_lt t)).2.2.1 (outsAt V c (t.val - 1) (pred_lt t)).2.2.2) := by
  obtain ⟨n, hn⟩ := t
  cases n with
  | zero => exact (by exfalso; (try dsimp only at h0); exact absurd (Nat.zero_mod _) h0)
  | succ n => exact (dif_pos h1).trans rfl

/-! ## The region's invariant -/

/-- The invariant before position `n`: before the first point the region's entry invariant (both scratch buffers at
    anything); afterwards both scratch buffers at what the point before left in them, the other scoped buffers
    unopened, and the generator register at some state. -/
def PhiS (c : Dev nD) : (n : ℕ) → n ≤ cfg1.N → sProp 𝕄
  | 0, _ => Pipeline.ΦA spec1 c
  | n + 1, hn => iprop(iprop(iprop(owns (c : Thread nD τ) mSum fullShare (outsAt V c n hn).2.2.1 ∗ owns (c : Thread nD τ) mSq fullShare (outsAt V c n hn).2.2.2) ∗ others c) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the scratch buffers at that point's contents. -/
theorem PhiS_succ (c : Dev nD) (n : ℕ) (hn : n < cfg1.N) :
    PhiS V c (n + 1) hn = iprop(iprop(iprop(owns (c : Thread nD τ) mSum fullShare (outsAt V c n hn).2.2.1 ∗ owns (c : Thread nD τ) mSq fullShare (outsAt V c n hn).2.2.2) ∗ others c) ∗ (∃ r, prngReg c r)) := rfl

/-- Before a point that is not the first: the scratch buffers at what the point before left. -/
theorem PhiS_pos (c : Dev nD) (n : ℕ) (h : n ≤ cfg1.N) (hz : n ≠ 0) :
    PhiS V c n h = iprop(iprop(iprop(owns (c : Thread nD τ) mSum fullShare (outsAt V c (n - 1) (by omega)).2.2.1 ∗ owns (c : Thread nD τ) mSq fullShare (outsAt V c (n - 1) (by omega)).2.2.2) ∗ others c) ∗ (∃ r, prngReg c r)) := by
  cases n with
  | zero => exact absurd rfl hz
  | succ n => rfl

/-! ## The proof data -/

/-- The proof data of the region on core `c`: the arrays as the region finds them (`V`); after the body at point
    `t` the input's buffer at its block and the outputs' at `outsAt`'s components; the invariant `PhiS`; nothing
    owed; full shares. -/
def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => (outsAt V c t.val t.isLt).1
    | ⟨2, _⟩ => (outsAt V c t.val t.isLt).2.1
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem Phi_castSucc (c : Dev nD) (t : Fin cfg1.N) :
    (dat1 V c).Φ t.castSucc = PhiS V c t.val (Nat.le_of_lt t.isLt) := by
  dsimp only [dat1]; simp only [Fin.coe_castSucc]

/-- What the body leaves, window by window. -/
theorem after_in (c : Dev nD) (t : Fin cfg1.N) : (dat1 V c).after 0 t = blk V c 0 t := by dsimp only [dat1]
theorem after_out1 (c : Dev nD) (t : Fin cfg1.N) : (dat1 V c).after 1 t = (outsAt V c t.val t.isLt).1 := by dsimp only [dat1]
theorem after_out2 (c : Dev nD) (t : Fin cfg1.N) : (dat1 V c).after 2 t = (outsAt V c t.val t.isLt).2.1 := by dsimp only [dat1]

/-- The input's current staging buffer holds its block at every point. -/
theorem before_in (c : Dev nD) (t : Fin cfg1.N) (d) : (dat1 V c).before 0 t d = blk V c 0 t :=
  before_in_of V (dat1 V c) (A_eq1 V c 0) (after_in V c) t d

/-! ## The body obligation, at a generic point -/

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (mIn t) fullShare ((dat1 V c).before 0 t d))
    ∗ (∃ d, owns (c : Thread nD τ) (mOut1 t) fullShare ((dat1 V c).before 1 t d))
    ∗ (∃ d, owns (c : Thread nD τ) (mOut2 t) fullShare ((dat1 V c).before 2 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input's memref holds its block; the position says which of the three cases the point
    is in, and that case's run applies: the invariant hands the body the two scratch buffers (at anything at the
    first point, at what the point before left otherwise) and takes them back at this point's contents, the pieces
    covering them; an output block idle at the point is handed back as found, and at the last point each is taken
    back at its pieces read back; the other scoped buffers, the generator register and what the core owes pass
    through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in]
  rw [show (dat1 V c).owesAt () t.succ = (dat1 V c).owesAt () t.castSucc from rfl]
  rw [show (dat1 V c).Φ t.succ = PhiS V c (t.val + 1) t.isLt from rfl, PhiS_succ]
  have hN : t.val < 10 := lt_of_lt_of_eq t.isLt N_eq
  rw [show (dat1 V c).leavesExact 0 t = owns (c : Thread nD τ) (mIn t) fullShare ((dat1 V c).after 0 t) from by
    unfold Dat.leavesExact; rw [live_in t], after_in]
  by_cases h0 : t.val % 10 = 0
  · -- the first point
    have hc0 : isFirst (grid1.coords t) := (isFirst_iff t).mpr h0
    have hc1 : ¬isLast (grid1.coords t) := fun h => by have := (isLast_iff t).mp h; omega
    have hz : t.val = 0 := by omega
    rw [Dat.leavesExact_idle (dat1 V c) 1 t (idle_out1 t hc1) (noFlush_out1 t hc1)]
    rw [Dat.leavesExact_idle (dat1 V c) 2 t (idle_out2 t hc1) (noFlush_out2 t hc1)]
    rw [outsAt_first V c t h0 hc0 hc1]
    unfold sumFirst sqFirst; (try dsimp only)
    rw [Phi_castSucc V c t, PhiS_zero V c _ _ hz, PhiA_eq]
    iintro ⟨⟨⟨⟨HA, HB⟩, Hoth⟩, Hg⟩, Ho, ⟨%d0, H0⟩, ⟨%d1, H1⟩, ⟨%d2, H2⟩⟩
    iapply ((runFirst c (grid1.coords t) _ _ _ _ _ _ _ _ _ _ hc0 hc1 (blk V c 0 t)).2.2 _ _ Set.univ _)
    isplitl [H0]; · iexact H0
    isplitl [H1]; · iexact H1
    isplitl [H2]; · iexact H2
    isplitl [HA]; · iexact HA
    isplitl [HB]; · iexact HB
    iintro ⟨H0, H1, H2, ⟨%eA, HA⟩, ⟨%eB, HB⟩⟩
    isplitl [HA HB Hoth Hg]
    · isplitl [HA HB Hoth]
      · isplitl [HA HB]
        · isplitl [HA]
          · unfold owns; iexists _; isplitr
            swap; · iexact HA
            ipureintro; exact View.read_writes_of_cover _ _ _ _ _ (coverSum_first c _ _ _ _ _ _ _ _ _ _ _ _ _ _)
          · unfold owns; iexists _; isplitr
            swap; · iexact HB
            ipureintro; exact View.read_writes_of_cover _ _ _ _ _ (coverSq_first c _ _ _ _ _ _ _ _ _ _ _ _ _ _)
        iexact Hoth
      iexact Hg
    isplitl [Ho]; · iexact Ho
    isplitl [H0]; · iexact H0
    isplitl [H1]; · iexists _; iexact H1
    iexists _; iexact H2
  · have hc0 : ¬isFirst (grid1.coords t) := fun h => h0 ((isFirst_iff t).mp h)
    have hz : t.val ≠ 0 := fun h => h0 (by rw [h])
    by_cases h1 : t.val % 10 = 9
    · -- the last point
      have hc1 : isLast (grid1.coords t) := (isLast_iff t).mpr h1
      rw [show (dat1 V c).leavesExact 1 t = owns (c : Thread nD τ) (mOut1 t) fullShare ((dat1 V c).after 1 t) from by
        unfold Dat.leavesExact; rw [live_out1 t hc1], after_out1]
      rw [show (dat1 V c).leavesExact 2 t = owns (c : Thread nD τ) (mOut2 t) fullShare ((dat1 V c).after 2 t) from by
        unfold Dat.leavesExact; rw [live_out2 t hc1], after_out2]
      rw [outsAt_last V c t h0 h1 hc0 hc1]
      unfold out1Last out2Last sumLast sqLast; (try dsimp only)
      rw [Phi_castSucc V c t, PhiS_pos V c _ _ hz]
      iintro ⟨⟨⟨⟨HA, HB⟩, Hoth⟩, Hg⟩, Ho, ⟨%d0, H0⟩, ⟨%d1, H1⟩, ⟨%d2, H2⟩⟩
      iapply ((runLast c (grid1.coords t) _ _ _ _ _ _ _ _ _ _ hc0 hc1 (blk V c 0 t) _ _).2.2.2.2 Set.univ _)
      isplitl [H0]; · iexact H0
      isplitl [H1]; · iexists _; iexact H1
      isplitl [H2]; · iexists _; iexact H2
      isplitl [HA]; · iexact HA
      isplitl [HB]; · iexact HB
      iintro ⟨H0, ⟨%e1, H1⟩, ⟨%e2, H2⟩, ⟨%eA, HA⟩, ⟨%eB, HB⟩⟩
      isplitl [HA HB Hoth Hg]
      · isplitl [HA HB Hoth]
        · isplitl [HA HB]
          · isplitl [HA]
            · unfold owns; iexists _; isplitr
              swap; · iexact HA
              ipureintro; exact View.read_writes_of_cover _ _ _ _ _ (coverSum_last c _ _ _ _ _ _ _ _ _ _ _ _ _ _ _ _)
            · unfold owns; iexists _; isplitr
              swap; · iexact HB
              ipureintro; exact View.read_writes_of_cover _ _ _ _ _ (coverSq_last c _ _ _ _ _ _ _ _ _ _ _ _ _ _ _ _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (coverOut1_last c _ _ _ _ _ _ _ _ _ _ _ _ _ _ _ _)
      unfold owns; iexists _; isplitr
      swap; · iexact H2
      ipureintro; exact View.read_writes_of_cover _ _ _ _ _ (coverOut2_last c _ _ _ _ _ _ _ _ _ _ _ _ _ _ _ _)
    · -- a middle point
      have hc1 : ¬isLast (grid1.coords t) := fun h => h1 ((isLast_iff t).mp h)
      rw [Dat.leavesExact_idle (dat1 V c) 1 t (idle_out1 t hc1) (noFlush_out1 t hc1)]
      rw [Dat.leavesExact_idle (dat1 V c) 2 t (idle_out2 t hc1) (noFlush_out2 t hc1)]
      rw [outsAt_middle V c t h0 h1 hc0 hc1]
      unfold sumMiddle sqMiddle; (try dsimp only)
      rw [Phi_castSucc V c t, PhiS_pos V c _ _ hz]
      iintro ⟨⟨⟨⟨HA, HB⟩, Hoth⟩, Hg⟩, Ho, ⟨%d0, H0⟩, ⟨%d1, H1⟩, ⟨%d2, H2⟩⟩
      iapply ((runMiddle c (grid1.coords t) _ _ _ _ _ _ _ _ _ _ hc0 hc1 (blk V c 0 t) _ _).2.2 _ _ Set.univ _)
      isplitl [H0]; · iexact H0
      isplitl [H1]; · iexact H1
      isplitl [H2]; · iexact H2
      isplitl [HA]; · iexact HA
      isplitl [HB]; · iexact HB
      iintro ⟨H0, H1, H2, ⟨%eA, HA⟩, ⟨%eB, HB⟩⟩
      isplitl [HA HB Hoth Hg]
      · isplitl [HA HB Hoth]
        · isplitl [HA HB]
          · isplitl [HA]
            · unfold owns; iexists _; isplitr
              swap; · iexact HA
              ipureintro; exact View.read_writes_of_cover _ _ _ _ _ (coverSum_middle c _ _ _ _ _ _ _ _ _ _ _ _ _ _ _ _)
            · unfold owns; iexists _; isplitr
              swap; · iexact HB
              ipureintro; exact View.read_writes_of_cover _ _ _ _ _ (coverSq_middle c _ _ _ _ _ _ _ _ _ _ _ _ _ _ _ _)
          iexact Hoth
        iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the entry invariant back: the scratch buffers' named
    contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA_eq]
  iintro ⟨⟨⟨HA, HB⟩, Hoth⟩, Hg⟩
  isplitl [HA HB Hoth]
  · isplitl [HA HB]
    · isplitl [HA]
      · iexists _; iexact HA
      · iexists _; iexact HB
    iexact Hoth
  iexact Hg

/-- The same after the last point. -/
theorem hout1 (c : Dev nD) : (dat1 V c).Φ (Fin.last cfg1.N) ⊢ Pipeline.ΦA spec1 c :=
  Phi_out V c _ (by rw [Fin.val_last]; have : cfg1.N = 10 := N_eq; omega)

end Cert.KernelIdeal.Stats

end
-- ==== Proof.StatsHalf.lean ====
/-
  Region 1's half, packaged for the whole run: what its body leaves in the windows' buffers and its invariant at each
  point are those of its proof data; the proof data the run builds from them is that same data.
-/
import proofs.«106071_j44908178047711_2_alg».proof.Proof.Whole
import proofs.«106071_j44908178047711_2_alg».proof.Proof.Stats

noncomputable section

namespace Cert.KernelIdeal

open Cert.KernelIdeal Cert.KernelIdeal.Gen
open Idealize.ShloMosaic Idealize.ShloMosaic.TcCoe
open Idealize.SL Idealize.SL.Sem
open Idealize.ShloMosaic.Pipeline (Dat BodyObligation)

variable {F : FTy → Type} [FloatOps F]

/-- The column sums' region as the whole run takes it. -/
def statsHalf : Whole.StatsHalf F where
  after V c := (Stats.dat1 V c).after
  Φ V c := (Stats.dat1 V c).Φ
  body V c := Stats.body_obligation1 V c
  enter V c := Stats.hin1 V c
  leave V c := Stats.hout1 V c

/-- The run's proof data for region 1 is region 1's own. -/
theorem statsHalf_dat (V : Whole.TcBufs F) (c : Dev nD) : Whole.dat1 statsHalf V c = Stats.dat1 V c := rfl

end Cert.KernelIdeal

end
-- ==== Proof.MatmulW.lean ====
/-
  Region 0 of the program: the product of a block of 10000 rows of x with the whole of W, rounded on the way in and
  on the way out, at ten grid points. Everything here is stated at a parameter `V`, the contents of the core's
  buffers when the region is entered, and at any float instance.
  The body loads its two input blocks whole and stores one value, the payload `k0_pay1` of the two loads, over the
  whole output block; so after the body at point `t` the output's staging buffer holds that payload of the two input
  blocks at `t`, and each input's staging buffer still holds its block — the block of W also at the points where it is
  not fetched again, its block index not having moved.
-/
import proofs.«106071_j44908178047711_2_alg».proof.Proof.Gen.Kernel.Launch
import proofs.«106071_j44908178047711_2_alg».proof.Proof.Gen.Kernel.Skeleton
import proofs.«106071_j44908178047711_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Matmul

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of the rows of x holds the block of point `t` when the body starts there, for any proof data over
    `V`'s arrays whose body leaves that block in place. -/
theorem rows_held {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The same for W, which is fetched at the first point only: its one block is every point's block. -/
theorem weights_held {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole block of 10000 rows, and the whole of W. -/
abbrev rowsRect : Rect S10000x128 := Rect.unit (s := S10000x128) ![0, 0] S10000x128.size inb_S10000x128_S10000x128_0_0
abbrev weightsRect : Rect S128x128 := Rect.unit (s := S128x128) ![0, 0] S128x128.size inb_S128x128_S128x128_0_0

/-- What the body leaves in the output's staging buffer: its one store, the payload of the two loads. -/
def prodOut (x0 : Vec F S10000x128 .f32) (x1 : Vec F S128x128 .f32) : Vec F S10000x128 .bf16 :=
  View.canon [⟨rowsRect, k0_pay1 (View.ld x0 rowsRect) (View.ld x1 weightsRect)⟩]

/-- The one store covers the block. -/
theorem prodCover (p0 : Vec F S10000x128 .bf16) (y : S10000x128.Idx) :
    ∃ pc ∈ ([⟨rowsRect, p0⟩] : List (View.Piece (Elt F) S10000x128 .bf16)), y ∈ pc.1.set :=
  View.cover_of_tiled [⟨rowsRect, p0⟩] S10000x128.size (by rfl) y

set_option maxHeartbeats 1000000 in
/-- The body on whole staging memrefs: the inputs' at contents `x0`, `x1`, the output's at anything; it ends with the
    inputs' as they were and the output's at `prodOut x0 x1`. -/
theorem body_run (c : Dev nD) (E : Set ℕ) (i : grid0.Coords) (arg1 : Memref sig .tc .vmem S10000x128 .f32) (harg1 : arg1.IsWhole)
    (arg2 : Memref sig .tc .vmem S128x128 .f32) (harg2 : arg2.IsWhole) (arg3 : Memref sig .tc .vmem S10000x128 .bf16) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prodOut x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prodCover _)

/-- The proof data of region 0 on core `c`: the arrays as the region finds them; after the body at point `t` each
    input's buffer at its block and the output's at `prodOut` of the two blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => prodOut (blk V c 0 t) (blk V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk V c 0 t := by dsimp only [dat0]
theorem after0_1 (c : Dev nD) (t : Fin cfg0.N) : (dat0 V c).after 1 t = blk V c 1 t := by dsimp only [dat0]
theorem after0_2 (c : Dev nD) (t : Fin cfg0.N) : (dat0 V c).after 2 t = prodOut (blk V c 0 t) (blk V c 1 t) := by dsimp only [dat0]

theorem before0_0 (c : Dev nD) (t : Fin cfg0.N) (d) : (dat0 V c).before 0 t d = blk V c 0 t :=
  rows_held V (dat0 V c) (A_eq0 V c 0) (after0_0 V c) t d
theorem before0_1 (c : Dev nD) (t : Fin cfg0.N) (d) : (dat0 V c).before 1 t d = blk V c 1 t :=
  weights_held V (dat0 V c) (A_eq0 V c 1) (after0_1 V c) t d

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `body_run` applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (body_run c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body V c t

end Cert.Kernel.Matmul

end
-- ==== Proof.NormActW.lean ====
/-
  Region 2 of the program: at ten grid points, a block of 10000 rows of the aggregated array times a row of scales plus
  a row of offsets, then the leaky rectifier. Stated at a parameter `V`, the contents of the core's buffers when the
  region is entered, and at any float instance.
  The body loads its three input blocks whole and stores one value, the payload `k2_pay1` of the three loads, over
  the whole output block; the two rows are fetched at the first point only and are every point's blocks.
-/
import proofs.«106071_j44908178047711_2_alg».proof.Proof.Gen.Kernel.Launch
import proofs.«106071_j44908178047711_2_alg».proof.Proof.Gen.Kernel.Skeleton
import proofs.«106071_j44908178047711_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.NormAct

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input's staging buffer holds the window's block of point `t` when the body starts there, fetched there or
    not, for any proof data over `V`'s arrays whose body leaves the block in place. -/
theorem rows_held {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem scale_held {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem offset_held {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The whole block of 10000 rows, and a whole row. -/
abbrev rowsRect : Rect S10000x128 := Rect.unit (s := S10000x128) ![0, 0] S10000x128.size inb_S10000x128_S10000x128_0_0
abbrev rowRect : Rect S1x128 := Rect.unit (s := S1x128) ![0, 0] S1x128.size inb_S1x128_S1x128_0_0

/-- What the body leaves in the output's staging buffer: its one store, the payload of the three loads. -/
def actOut (x0 : Vec F S10000x128 .f32) (x1 x2 : Vec F S1x128 .f32) : Vec F S10000x128 .f32 :=
  View.canon [⟨rowsRect, k2_pay1 (View.ld x0 rowsRect) (View.ld x1 rowRect) (View.ld x2 rowRect)⟩]

/-- The one store covers the block. -/
theorem actCover (p0 : Vec F S10000x128 .f32) (y : S10000x128.Idx) :
    ∃ pc ∈ ([⟨rowsRect, p0⟩] : List (View.Piece (Elt F) S10000x128 .f32)), y ∈ pc.1.set :=
  View.cover_of_tiled [⟨rowsRect, p0⟩] S10000x128.size (by rfl) y

set_option maxHeartbeats 1000000 in
/-- The body on whole staging memrefs: the inputs' at contents `x0`, `x1`, `x2`, the output's at anything; it ends
    with the inputs' as they were and the output's at `actOut x0 x1 x2`. -/
theorem body_run (c : Dev nD) (E : Set ℕ) (i : grid2.Coords) (arg1 : Memref sig .tc .vmem S10000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S10000x128 .f32) (harg4 : arg4.IsWhole)
    (x0 : Vec F S10000x128 .f32) (x1 x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (actOut x0 x1 x2)) -∗ K ⟨⟩))
      ⊢ wp frame (wpE (defs₀ (F := F)) Variants.none c none) E (cc2__norm_act_kernel i arg1 harg1 arg2 harg2 arg3 harg3 arg4 harg4) K := by
  simp only [cc2__norm_act_kernel_eq_skeleton]; unfold cc2__norm_act_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (actCover _)

/-- The proof data of region 2 on core `c`: the arrays as the region finds them; after the body at point `t` each
    input's buffer at its block and the output's at `actOut` of the three blocks; the invariant is the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => actOut (blk V c 0 t) (blk V c 1 t) (blk V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk V c 0 t := by dsimp only [dat2]
theorem after2_1 (c : Dev nD) (t : Fin cfg2.N) : (dat2 V c).after 1 t = blk V c 1 t := by dsimp only [dat2]
theorem after2_2 (c : Dev nD) (t : Fin cfg2.N) : (dat2 V c).after 2 t = blk V c 2 t := by dsimp only [dat2]
theorem after2_3 (c : Dev nD) (t : Fin cfg2.N) : (dat2 V c).after 3 t = actOut (blk V c 0 t) (blk V c 1 t) (blk V c 2 t) := by dsimp only [dat2]

theorem before2_0 (c : Dev nD) (t : Fin cfg2.N) (d) : (dat2 V c).before 0 t d = blk V c 0 t :=
  rows_held V (dat2 V c) (A_eq2 V c 0) (after2_0 V c) t d
theorem before2_1 (c : Dev nD) (t : Fin cfg2.N) (d) : (dat2 V c).before 1 t d = blk V c 1 t :=
  scale_held V (dat2 V c) (A_eq2 V c 1) (after2_1 V c) t d
theorem before2_2 (c : Dev nD) (t : Fin cfg2.N) (d) : (dat2 V c).before 2 t d = blk V c 2 t :=
  offset_held V (dat2 V c) (A_eq2 V c 2) (after2_2 V c) t d

/-- What the body is called with at point `t`, the windows one by one, -/
def bodyPre (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `body_run` applies; the invariant and what the
    core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (body_run c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body V c t

end Cert.Kernel.NormAct

end
-- ==== Proof.WholeW.lean ====
/-
  The whole run of the program: @main is eight items in order — three stretches of host operations, region 0 (the
  product x·W), a stretch of host operations (the gather, the scaling by the edge weights and the accumulation over
  destination nodes), region 1 (the column sums and column sums of squares), a stretch of host operations (the scale
  and offset rows), region 2 (the scaled, shifted and rectified array).
  `B0 … B8` are the contents of a core's unscoped buffers at the nine boundaries: the launch memory, then after a
  stretch of host operations what those operations compute from the contents before, and after a region its arrays at
  what its write-backs leave and every other buffer untouched. The run below says: every weakly fair execution from a
  memory with zero counters terminates, nothing faulting, with every unscoped buffer at `B8`. Both the frame (no item
  writes an argument array) and the result's value (`B8` at the result's buffer) are read off that.
  Region 1's half is a parameter here (`StatsHalf`): what its body leaves, its invariant, its obligation.
-/
import proofs.«106071_j44908178047711_2_alg».proof.Proof.MatmulW
import proofs.«106071_j44908178047711_2_alg».proof.Proof.NormActW
import proofs.«106071_j44908178047711_2_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-- Contents of the TensorCore's buffers, per core. -/
abbrev TcBufs (F : FTy → Type) [FloatOps F] : Type := (c : Dev nD) → (b : Ref sig .tc) → Buf (Elt F) ((c : Thread nD τ).loc b)

/-- Region 1's proof data from what its body leaves and its invariant: the arrays as the region finds them, full
    shares, nothing owed. -/
def statsDat (after : TcBufs F → (c : Dev nD) → (w : Fin cfg1.W) → Fin cfg1.N → (cfg1.win w).block.Idx → Elt F (cfg1.win w).elt)
    (Φ : TcBufs F → (c : Dev nD) → Fin (cfg1.N + 1) → sProp 𝕄) (V : TcBufs F) (c : Dev nD) :
    Dat τ (Elt F) Unit ℕ (UR sig nD τ) ℕ cfg1 c where
  A w := V c (Pipeline.arrRef spec1 w)
  after := after V c
  Φ := Φ V c
  q _ := fullShare
  owed _ := 0

/-- Region 1's half: what its body leaves in the windows' buffers and its invariant at each point, for any entry
    contents; the body obligation; and that the invariant starts from, and ends in, the scoped rest with the
    generator register. -/
structure StatsHalf (F : FTy → Type) [FloatOps F] where
  after : TcBufs F → (c : Dev nD) → (w : Fin cfg1.W) → Fin cfg1.N → (cfg1.win w).block.Idx → Elt F (cfg1.win w).elt
  Φ : TcBufs F → (c : Dev nD) → Fin (cfg1.N + 1) → sProp (MT nD τ sig Unit (Elt F) ℕ (UR sig nD τ) ℕ)
  body : ∀ V c, BodyObligation (statsDat after Φ V c) (defs₀ (F := F)) Variants.none () Set.univ
  enter : ∀ V c, (Pipeline.ΦA spec1 c : sProp (MT nD τ sig Unit (Elt F) ℕ (UR sig nD τ) ℕ)) ⊢ Φ V c 0
  leave : ∀ V c, Φ V c (Fin.last cfg1.N) ⊢ (Pipeline.ΦA spec1 c : sProp (MT nD τ sig Unit (Elt F) ℕ (UR sig nD τ) ℕ))

variable (S : StatsHalf F)
variable (m : (ℓ : Loc nD τ sig) → Buf (Elt F) ℓ) (ρ : Dev nD → PrngReg)

/-- Region 1's proof data at entry contents `V`. -/
abbrev dat1 (V : TcBufs F) (c : Dev nD) : Dat τ (Elt F) Unit ℕ (UR sig nD τ) ℕ cfg1 c := statsDat S.after S.Φ V c

/-! ## The buffers' contents at the nine boundaries -/

abbrev B0 : Dev nD → Valuation τ sig (Elt F) := fun c b => m (c, b)
abbrev B1 : Dev nD → Valuation τ sig (Elt F) := fun c => StableHlo.after hostOps0 (B0 m c)
abbrev B2 : Dev nD → Valuation τ sig (Elt F) := fun c => StableHlo.after hostOps0_1 (B1 m c)
abbrev B3 : Dev nD → Valuation τ sig (Elt F) := fun c => StableHlo.after hostOps0_2 (B2 m c)
/-- The same read at the TensorCore's references: what region 0 is entered with. -/
abbrev T3 : TcBufs F := fun c b => B3 m c b
/-- After region 0: its arrays at what its write-backs leave, the rest untouched. -/
def B4 (c : Dev nD) : Valuation τ sig (Elt F) :=
  Pipeline.withArrays spec0 c (B3 m c) fun w => (Matmul.dat0 (T3 m) c).arrAt w cfg0.N
abbrev T4 : TcBufs F := fun c b => B4 m c b
abbrev B5 : Dev nD → Valuation τ sig (Elt F) := fun c => StableHlo.after hostOps1 (B4 m c)
abbrev T5 : TcBufs F := fun c b => B5 m c b
/-- After region 1. -/
def B6 (c : Dev nD) : Valuation τ sig (Elt F) :=
  Pipeline.withArrays spec1 c (B5 m c) fun w => (dat1 S (T5 m) c).arrAt w cfg1.N
abbrev T6 : TcBufs F := fun c b => B6 S m c b
abbrev B7 : Dev nD → Valuation τ sig (Elt F) := fun c => StableHlo.after hostOps2 (B6 S m c)
abbrev T7 : TcBufs F := fun c b => B7 S m c b
/-- After region 2: the end. -/
def B8 (c : Dev nD) : Valuation τ sig (Elt F) :=
  Pipeline.withArrays spec2 c (B7 S m c) fun w => (NormAct.dat2 (T7 S m) c).arrAt w cfg2.N
abbrev T8 : TcBufs F := fun c b => B8 S m c b

theorem B4_arr (c : Dev nD) (w : Fin cfg0.W) :
    B4 m c (Proc.devRef .tc (Pipeline.arrRef spec0 w)) = (Matmul.dat0 (T3 m) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m c (Proc.devRef .tc b) = B3 m c (Proc.devRef .tc b) := by
  unfold B4; exact Pipeline.withArrays_of_ne spec0 c _ _ b hb
theorem B6_arr (c : Dev nD) (w : Fin cfg1.W) :
    B6 S m c (Proc.devRef .tc (Pipeline.arrRef spec1 w)) = (dat1 S (T5 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 S m c (Proc.devRef .tc b) = B5 m c (Proc.devRef .tc b) := by
  unfold B6; exact Pipeline.withArrays_of_ne spec1 c _ _ b hb
theorem B8_arr (c : Dev nD) (w : Fin cfg2.W) :
    B8 S m c (Proc.devRef .tc (Pipeline.arrRef spec2 w)) = (NormAct.dat2 (T7 S m) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 S m c (Proc.devRef .tc b) = B7 S m c (Proc.devRef .tc b) := by
  unfold B8; exact Pipeline.withArrays_of_ne spec2 c _ _ b hb

/-- At a region's exit each of its arrays holds what the pipeline leaves and every other buffer what it held at entry. -/
theorem arrs0 (c : Dev nD) (w : Fin cfg0.W) : (Matmul.dat0 (T3 m) c).arrAt w cfg0.N = T4 m c (Pipeline.arrRef spec0 w) :=
  (B4_arr m c w).symm
theorem rest0 (c : Dev nD) : ∀ b, b ∉ Finset.univ.image (Pipeline.arrRef spec0) → T4 m c b = T3 m c b :=
  fun b hb => B4_of_ne m c b fun w e => hb (Finset.mem_image.mpr ⟨w, Finset.mem_univ _, e⟩)
theorem arrs1 (c : Dev nD) (w : Fin cfg1.W) : (dat1 S (T5 m) c).arrAt w cfg1.N = T6 S m c (Pipeline.arrRef spec1 w) :=
  (B6_arr S m c w).symm
theorem rest1 (c : Dev nD) : ∀ b, b ∉ Finset.univ.image (Pipeline.arrRef spec1) → T6 S m c b = T5 m c b :=
  fun b hb => B6_of_ne S m c b fun w e => hb (Finset.mem_image.mpr ⟨w, Finset.mem_univ _, e⟩)
theorem arrs2 (c : Dev nD) (w : Fin cfg2.W) : (NormAct.dat2 (T7 S m) c).arrAt w cfg2.N = T8 S m c (Pipeline.arrRef spec2 w) :=
  (B8_arr S m c w).symm
theorem rest2 (c : Dev nD) : ∀ b, b ∉ Finset.univ.image (Pipeline.arrRef spec2) → T8 S m c b = T7 S m c b :=
  fun b hb => B8_of_ne S m c b fun w e => hb (Finset.mem_image.mpr ⟨w, Finset.mem_univ _, e⟩)

/-! ## No item writes an argument array -/

/-- A buffer that no host operation writes and that is no array of any region ends as launched. -/
theorem kept (c : Dev nD) (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r) (h6 : r ∉ hostOps2_W)
    (h7 : ∀ w, Pipeline.arrRef spec2 w ≠ r) : B8 S m c (Proc.devRef .tc r) = m ((c : Thread nD τ).loc r) :=
  (B8_of_ne S m c r h7).trans <| (StableHlo.after_of_writes_sub hostOps2 _ hostOps2_writes h6).trans <|
    (B6_of_ne S m c r h5).trans <| (StableHlo.after_of_writes_sub hostOps1 _ hostOps1_writes h4).trans <|
    (B4_of_ne m c r h3).trans <| (StableHlo.after_of_writes_sub hostOps0_2 _ hostOps0_2_writes h2).trans <|
    (StableHlo.after_of_writes_sub hostOps0_1 _ hostOps0_1_writes h1).trans <|
    (StableHlo.after_of_writes_sub hostOps0 _ hostOps0_writes h0).trans rfl

/-- An input array of region 0 that nothing else touches ends as launched: the region hands an input back as entered. -/
theorem kept_in0 (c : Dev nD) (w : Fin cfg0.W) (hw : (cfg0.win w).isOut = false) (h0 : Pipeline.arrRef spec0 w ∉ hostOps0_W)
    (h1 : Pipeline.arrRef spec0 w ∉ hostOps0_1_W) (h2 : Pipeline.arrRef spec0 w ∉ hostOps0_2_W)
    (h4 : Pipeline.arrRef spec0 w ∉ hostOps1_W) (h5 : ∀ w', Pipeline.arrRef spec1 w' ≠ Pipeline.arrRef spec0 w)
    (h6 : Pipeline.arrRef spec0 w ∉ hostOps2_W) (h7 : ∀ w', Pipeline.arrRef spec2 w' ≠ Pipeline.arrRef spec0 w) :
    B8 S m c (Proc.devRef .tc (Pipeline.arrRef spec0 w)) = m ((c : Thread nD τ).loc (Pipeline.arrRef spec0 w)) :=
  (B8_of_ne S m c _ h7).trans <| (StableHlo.after_of_writes_sub hostOps2 _ hostOps2_writes h6).trans <|
    (B6_of_ne S m c _ h5).trans <| (StableHlo.after_of_writes_sub hostOps1 _ hostOps1_writes h4).trans <|
    ((B4_arr m c w).trans (((Matmul.dat0 (T3 m) c).arrAt_in w hw _).trans (Matmul.A_eq0 (T3 m) c w))).trans <|
    (StableHlo.after_of_writes_sub hostOps0_2 _ hostOps0_2_writes h2).trans <|
    (StableHlo.after_of_writes_sub hostOps0_1 _ hostOps0_1_writes h1).trans <|
    (StableHlo.after_of_writes_sub hostOps0 _ hostOps0_writes h0).trans rfl

theorem B8_arg0 (c : Dev nD) : B8 S m c (Proc.devRef .tc main_arg0) = m ((c : Thread nD τ).loc main_arg0) :=
  kept_in0 S m c 0 rfl (by decide) (by decide) (by decide) (by decide) (by decide) (by decide) (by decide)
theorem B8_arg1 (c : Dev nD) : B8 S m c (Proc.devRef .tc main_arg1) = m ((c : Thread nD τ).loc main_arg1) :=
  kept S m c main_arg1 (by decide) (by decide) (by decide) (by decide) (by decide) (by decide) (by decide) (by decide)
theorem B8_arg2 (c : Dev nD) : B8 S m c (Proc.devRef .tc main_arg2) = m ((c : Thread nD τ).loc main_arg2) :=
  kept_in0 S m c 1 rfl (by decide) (by decide) (by decide) (by decide) (by decide) (by decide) (by decide)
theorem B8_arg3 (c : Dev nD) : B8 S m c (Proc.devRef .tc main_arg3) = m ((c : Thread nD τ).loc main_arg3) :=
  kept S m c main_arg3 (by decide) (by decide) (by decide) (by decide) (by decide) (by decide) (by decide) (by decide)
theorem B8_arg4 (c : Dev nD) : B8 S m c (Proc.devRef .tc main_arg4) = m ((c : Thread nD τ).loc main_arg4) :=
  kept S m c main_arg4 (by decide) (by decide) (by decide) (by decide) (by decide) (by decide) (by decide) (by decide)
theorem B8_arg5 (c : Dev nD) : B8 S m c (Proc.devRef .tc main_arg5) = m ((c : Thread nD τ).loc main_arg5) :=
  kept S m c main_arg5 (by decide) (by decide) (by decide) (by decide) (by decide) (by decide) (by decide) (by decide)
theorem B8_arg6 (c : Dev nD) : B8 S m c (Proc.devRef .tc main_arg6) = m ((c : Thread nD τ).loc main_arg6) :=
  kept S m c main_arg6 (by decide) (by decide) (by decide) (by decide) (by decide) (by decide) (by decide) (by decide)

/-! ## The proof data family and the thread state -/

/-- No pipeline has a prefetched table. -/
abbrev tables : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) tables p) c
  | ⟨0, _⟩ => fun c => Matmul.dat0 (T3 m) c
  | ⟨1, _⟩ => fun c => dat1 S (T5 m) c
  | ⟨2, _⟩ => fun c => NormAct.dat2 (T7 S m) c

abbrev vars : Variants := Variants.none
/-- No core owes another anything. -/
abbrev lvls : GSem nD τ sig → Finset Unit := fun _ => ∅
abbrev lvOf : GSem nD τ sig → Unit → ℕ := fun _ _ => 0
/-- What rides beside the buffers through every item: the generator register at some state, and nothing owed. -/
abbrev rest (c : Dev nD) : sProp 𝕄 := iprop((∃ r, prngReg c r) ∗ ∃ W, owes (c : Thread nD τ) (0 : CellTallies nD τ sig Unit) W)

/-- A stretch of host operations as an item: from the contents `W` to what the operations compute from them. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vars lvls lvOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- The thread state at a boundary: every unscoped buffer at the boundary's contents, and the rest. -/
abbrev stateAt (W : Dev nD → Valuation τ sig (Elt F)) (c : Dev nD) : sProp 𝕄 :=
  iprop(StableHlo.held (c : Thread nD τ) (Pipeline.ucRefs τ sig) (W c) ∗ rest c)

/-! ## The regions as items -/

set_option backward.isDefEq.respectTransparency.types false in
/-- Region 0, entered from `B3`, left at `B4`: its arrays split out of the unscoped buffers and put back at the exit
    contents; the generator register into the invariant and out; nothing owed; no semaphore of its own. -/
def region0 : Pipeline.RegionSeg (pcfgs (F := F)) tables (pdats S m) () defs₀ vars lvls lvOf 0 where
  win := launch0.win.to₀
  block_pos := launch0.block_pos
  stage_whole := launch0.stage_whole
  K := PEmpty
  osem k := k.elim
  ho := Pipeline.OwnSemFacts.none _
  hbody c := (Matmul.body_obligation0 (T3 m) c).loose
  hwaits := Pipeline.hwaits_of_owed_zero _ _ _ _ lvls lvOf 0 fun _ _ => rfl
  pre c := stateAt (B3 m) c
  post c := stateAt (B4 m) c
  X c := iprop(∃ r, prngReg c r)
  Y c := iprop(∃ r, prngReg c r)
  Z c := Pipeline.unscopedRest (Ix := Unit) (Name := ℕ) (U := UR sig nD τ) (Lvl := ℕ) spec0 c (T3 m c)
  hentry c := by
    rw [Pipeline.ownSems0_none]
    have hsplit := Pipeline.arrays_of_unscopedBufs (p := 0) (pcfgs (F := F)) tables (pdats S m) launch0.win launch0.arr_whole c
      ((pdats S m 0 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats S m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats S m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats S m) ((pdats S m 0 c).share_full fun _ => rfl)
      (T3 m c) (T4 m c) ((pdats S m 0 c).arrAt · cfg0.N) (arrs0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, entered from `B5`, left at `B6`: as region 0, its invariant starting from and ending in the scoped rest
    with the generator register (`StatsHalf.enter`, `StatsHalf.leave`). -/
def region1 : Pipeline.RegionSeg (pcfgs (F := F)) tables (pdats S m) () defs₀ vars lvls lvOf 1 where
  win := launch1.win.to₀
  block_pos := launch1.block_pos
  stage_whole := launch1.stage_whole
  K := PEmpty
  osem k := k.elim
  ho := Pipeline.OwnSemFacts.none _
  hbody c := (S.body (T5 m) c).loose
  hwaits := Pipeline.hwaits_of_owed_zero _ _ _ _ lvls lvOf 1 fun _ _ => rfl
  pre c := stateAt (B5 m) c
  post c := stateAt (B6 S m) c
  X c := iprop(∃ r, prngReg c r)
  Y c := iprop(∃ r, prngReg c r)
  Z c := Pipeline.unscopedRest (Ix := Unit) (Name := ℕ) (U := UR sig nD τ) (Lvl := ℕ) spec1 c (T5 m c)
  hentry c := by
    rw [Pipeline.ownSems0_none]
    have hsplit := Pipeline.arrays_of_unscopedBufs (p := 1) (pcfgs (F := F)) tables (pdats S m) launch1.win launch1.arr_whole c
      ((pdats S m 1 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (tables (F := F) 1).1
        ∗ Pipeline.scopedRest spec1 c) : sProp 𝕄) ⊢ (Pipeline.ΦA spec1 c : sProp 𝕄) := by
      unfold Pipeline.ΦA
      iintro ⟨Hp, -, Hr⟩
      isplitl [Hr]; · iexact Hr
      iexact Hp
    exact h.trans (S.enter (T5 m) c)
  hout c := by
    rw [Pipeline.ownSems0_none]
    have h : (Pipeline.ΦA spec1 c : sProp 𝕄) ⊢ (iprop((∃ r, prngReg c r) ∗ BI.emp ∗ Pipeline.scopedRest spec1 c) : sProp 𝕄) := by
      unfold Pipeline.ΦA
      iintro ⟨Hr, Hp⟩
      isplitl [Hp]; · iexact Hp
      isplitr; · iempintro
      iexact Hr
    exact (S.leave (T5 m) c).trans h
  hexit c := by
    have hjoin := Pipeline.unscopedBufs_of_arrays (p := 1) (pcfgs (F := F)) tables (Ix := Unit) (Name := ℕ) (U := UR sig nD τ) (Lvl := ℕ)
      launch1.win launch1.arr_whole c (pdats S m) ((pdats S m 1 c).share_full fun _ => rfl)
      (T5 m c) (T6 S m c) ((pdats S m 1 c).arrAt · cfg1.N) (arrs1 S m c) (rest1 S m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2, entered from `B7`, left at `B8`. -/
def region2 : Pipeline.RegionSeg (pcfgs (F := F)) tables (pdats S m) () defs₀ vars lvls lvOf 2 where
  win := launch2.win.to₀
  block_pos := launch2.block_pos
  stage_whole := launch2.stage_whole
  K := PEmpty
  osem k := k.elim
  ho := Pipeline.OwnSemFacts.none _
  hbody c := (NormAct.body_obligation2 (T7 S m) c).loose
  hwaits := Pipeline.hwaits_of_owed_zero _ _ _ _ lvls lvOf 2 fun _ _ => rfl
  pre c := stateAt (B7 S m) c
  post c := stateAt (B8 S m) c
  X c := iprop(∃ r, prngReg c r)
  Y c := iprop(∃ r, prngReg c r)
  Z c := Pipeline.unscopedRest (Ix := Unit) (Name := ℕ) (U := UR sig nD τ) (Lvl := ℕ) spec2 c (T7 S m c)
  hentry c := by
    rw [Pipeline.ownSems0_none]
    have hsplit := Pipeline.arrays_of_unscopedBufs (p := 2) (pcfgs (F := F)) tables (pdats S m) launch2.win launch2.arr_whole c
      ((pdats S m 2 c).share_full fun _ => rfl) (T7 S m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats S m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats S m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) tables (Ix := Unit) (Name := ℕ) (U := UR sig nD τ) (Lvl := ℕ)
      launch2.win launch2.arr_whole c (pdats S m) ((pdats S m 2 c).share_full fun _ => rfl)
      (T7 S m c) (T8 S m c) ((pdats S m 2 c).arrAt · cfg2.N) (arrs2 S m c) (rest2 S m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's eight items in order. -/
abbrev items : List (Pipeline.Seg (pcfgs (F := F)) tables (pdats S m) () defs₀ vars lvls lvOf) :=
  [ .host (hostItem hostOps0 hostOps0_sub hostOps0_fresh (B0 m)),
    .host (hostItem hostOps0_1 hostOps0_1_sub hostOps0_1_fresh (B1 m)),
    .host (hostItem hostOps0_2 hostOps0_2_sub hostOps0_2_fresh (B2 m)),
    .region (region0 S m),
    .host (hostItem hostOps1 hostOps1_sub hostOps1_fresh (B4 m)),
    .region (region1 S m),
    .host (hostItem hostOps2 hostOps2_sub hostOps2_fresh (B6 S m)),
    .region (region2 S m) ]

/-- The last thread state without what is owed. -/
abbrev lastState (c : Dev nD) : sProp 𝕄 := iprop(StableHlo.held (c : Thread nD τ) (Pipeline.ucRefs τ sig) (B8 S m c) ∗ ∃ r, prngReg c r)

/-- The last boundary's thread state, regrouped: what is owed (nothing) apart. -/
theorem last_link (c : Dev nD) :
    stateAt (B8 S m) c ⊢ (iprop(lastState S m c ∗ ∃ W, owes (c : Thread nD τ) (0 : CellTallies nD τ sig Unit) W) : sProp 𝕄) := by
  iintro ⟨Hh, Hp, HO⟩
  isplitr [HO]
  · isplitl [Hh]; · iexact Hh
    iexact Hp
  iexact HO

set_option backward.isDefEq.respectTransparency.types false in
/-- THE RUN. From any memory with zero counters every weakly fair execution of @main terminates, nothing faulting,
    and in every final state every unscoped buffer of every core holds `B8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B8 S m c b) :=
  Pipeline.θ_run_regions_kit_dev (pcfgs (F := F)) tables (pdats S m) () cellOf_inj emb₁ defs₀ vars lvls lvOf m ρ main
    (fun _ => items S m)
    (fun c Q => by
      rewrite [main_chain c, Seg.run_eq_chain,
        show (items S m).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [items, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := stateAt (B0 m)) (Tₙ := lastState S m)
    (hch := fun c => ⟨.rfl, .rfl, .rfl, .rfl, .rfl, .rfl, .rfl, .rfl, last_link S m c⟩)
    (hinit := by
      refine Pipeline.initEach lvls lvOf fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 S m c b)
    (hfin := fun c s' => by
      iintro ⟨⟨Hh, -⟩, HSI⟩
      unfold StableHlo.held
      imodintro
      iapply (pointsTo_read_all (Pipeline.ucRefs τ sig) (fun b => (((c : Thread nD τ)).1, b)) (B8 S m c) s')
      isplitl [Hh] <;> iassumption)
    (hQ := fun _ h => h)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include S in
/-- THE FRAME, at any float instance: the run, read at the seven argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (B8_arg0 S m c),
     (h c _ (mem_uc main_arg1 (by decide))).trans (B8_arg1 S m c),
     (h c _ (mem_uc main_arg2 (by decide))).trans (B8_arg2 S m c),
     (h c _ (mem_uc main_arg3 (by decide))).trans (B8_arg3 S m c),
     (h c _ (mem_uc main_arg4 (by decide))).trans (B8_arg4 S m c),
     (h c _ (mem_uc main_arg5 (by decide))).trans (B8_arg5 S m c),
     (h c _ (mem_uc main_arg6 (by decide))).trans (B8_arg6 S m c)⟩) (run_all S m ρ)

end Cert.Kernel.Whole

end
-- ==== Proof.StatsRunsW.lean ====
/-
  Region 1 of the program: the column sums and the column sums of squares of a [100000,128] array, taken over ten
  blocks of 10000 rows, one block per grid point. Two [1,128] scratch buffers carry the partial sums from point to
  point: the body zeroes both at the first point, adds the block's column sums (of the entries, of their squares) at
  every point, and copies both into the two output blocks at the last point only.
  This module holds what the three control cases of the body share: its two branch conditions with their closed
  forms over the grid, where the two output windows are idle and where they are written back, the memrefs the body
  is called with, and the region's entry invariant with the two scratch buffers named.
-/
import proofs.«106071_j44908178047711_2_alg».proof.Proof.Gen.Kernel.Launch
import proofs.«106071_j44908178047711_2_alg».proof.Proof.Gen.Kernel.Skeleton
import proofs.«106071_j44908178047711_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The condition of the body's first conditional (zero the two scratch buffers), from the grid coordinate. -/
abbrev isFirst (i : grid1.Coords) : Prop :=
  (Scalar.cmpi .ne (Scalar.extui (Scalar.cmpi .eq (BitVec.ofNat 32 (i 0).val) 0#32)) 0#32) = 1#1
/-- It holds at point 0 only. -/
theorem isFirst_iff : ∀ t : Fin cfg1.N, isFirst (grid1.coords t) ↔ t.val % 10 = 0 :=
  (by decide +kernel : ∀ t : Fin grid1.N, isFirst (grid1.coords t) ↔ t.val % 10 = 0)

/-- The condition of the body's second conditional (copy the scratch buffers into the outputs). -/
abbrev isLast (i : grid1.Coords) : Prop := k1_cond2 i = 1#1
/-- It holds at point 9 only. -/
theorem isLast_iff : ∀ t : Fin cfg1.N, isLast (grid1.coords t) ↔ t.val % 10 = 9 :=
  (by decide +kernel : ∀ t : Fin grid1.N, isLast (grid1.coords t) ↔ t.val % 10 = 9)

/-! ## Where the windows are idle, and where they are written back -/

/-- The input window is never idle. -/
theorem live_in : ∀ t : Fin cfg1.N, cfg1.idle 0 (grid1.coords t) = false := by decide +kernel
/-- Away from the last point the body stores nothing into output window 1: the window is idle there, -/
theorem idle_out1 : ∀ t : Fin cfg1.N, ¬isLast (grid1.coords t) → cfg1.idle 1 (grid1.coords t) = true := by decide +kernel
/-- and its block is not written back there. -/
theorem noFlush_out1 : ∀ t : Fin cfg1.N, ¬isLast (grid1.coords t) → (cfg1.win 1).flush t = false := by decide +kernel
/-- At the last point it is live. -/
theorem live_out1 : ∀ t : Fin cfg1.N, isLast (grid1.coords t) → cfg1.idle 1 (grid1.coords t) = false := by decide +kernel
/-- The same three facts of output window 2. -/
theorem idle_out2 : ∀ t : Fin cfg1.N, ¬isLast (grid1.coords t) → cfg1.idle 2 (grid1.coords t) = true := by decide +kernel
theorem noFlush_out2 : ∀ t : Fin cfg1.N, ¬isLast (grid1.coords t) → (cfg1.win 2).flush t = false := by decide +kernel
theorem live_out2 : ∀ t : Fin cfg1.N, isLast (grid1.coords t) → cfg1.idle 2 (grid1.coords t) = false := by decide +kernel

/-! ## The memrefs the body is called with -/

/-- Each window's current staging memref at point `t`, as the pipeline passes it, and that it is a whole buffer. -/
abbrev mIn (t : Fin cfg1.N) : Memref sig .tc .vmem S10000x128 .f32 := win1_0.stage (cfg1.slots t 0)
abbrev hIn (t : Fin cfg1.N) : (mIn t).IsWhole := hstage1_0 ((cfg1.slots t 0).cast nbuf1_0)
abbrev mOut1 (t : Fin cfg1.N) : Memref sig .tc .vmem S1x128 .f32 := win1_1.stage (cfg1.slots t 1)
abbrev hOut1 (t : Fin cfg1.N) : (mOut1 t).IsWhole := hstage1_1 ((cfg1.slots t 1).cast nbuf1_1)
abbrev mOut2 (t : Fin cfg1.N) : Memref sig .tc .vmem S1x128 .f32 := win1_2.stage (cfg1.slots t 2)
abbrev hOut2 (t : Fin cfg1.N) : (mOut2 t).IsWhole := hstage1_2 ((cfg1.slots t 2).cast nbuf1_2)
/-- The two scratch operands: whole scoped buffers of the kernel's own, passed beside the windows. -/
abbrev mSum : Memref sig .tc .vmem S1x128 .f32 := Memref.whole cc1_scratch0
abbrev mSq : Memref sig .tc .vmem S1x128 .f32 := Memref.whole cc1_scratch1
/-- Views through which the contents of the outputs' staging buffers and of the scratch buffers are stated (for a
    whole buffer the choice of view does not matter). -/
abbrev vOut1 : View sig .tc .vmem S1x128 .f32 := (Memref.whole cc1_stg1_0 : Memref sig .tc .vmem S1x128 .f32).view
abbrev vOut2 : View sig .tc .vmem S1x128 .f32 := (Memref.whole cc1_stg2_0 : Memref sig .tc .vmem S1x128 .f32).view
abbrev vSum : View sig .tc .vmem S1x128 .f32 := mSum.view
abbrev vSq : View sig .tc .vmem S1x128 .f32 := mSq.view

/-! ## The region's entry invariant with the scratch buffers named -/

/-- The core's scoped buffers other than this region's staging buffers and its two scratch buffers, each at some
    contents: carried through the region unopened. -/
abbrev others (c : Dev nD) : sProp 𝕄 :=
  Pipeline.scopedRestBut (Ix := Unit) (Name := ℕ) (U := UR sig nD τ) (Lvl := ℕ) (Val := Elt F) spec1 c [cc1_scratch0, cc1_scratch1]

/-- The entry invariant of the region is: the two scratch buffers owned at some contents, the other scoped buffers,
    and the generator register at some state. -/
theorem PhiA_eq (c : Dev nD) :
    (Pipeline.ΦA spec1 c : sProp 𝕄)
      = iprop(iprop(iprop((∃ d, owns (c : Thread nD τ) mSum fullShare d) ∗ (∃ d, owns (c : Thread nD τ) mSq fullShare d)) ∗ others c) ∗ (∃ r, prngReg c r)) := by
  unfold Pipeline.ΦA
  rw [Pipeline.scopedRest_split_of_list spec1 c [cc1_scratch0, cc1_scratch1] (by decide) (by decide)]
  simp only [mSum, mSq, owns_whole]; try rfl

end Cert.Kernel.Stats

end
-- ==== Proof.StatsRunAW.lean ====
/-
  The body of region 1 at the FIRST grid point (the first conditional taken, the second not): both scratch buffers
  are stored whole before they are read, so the body runs from scratch buffers at any contents; it stores nothing
  into the two output blocks, which are handed back as found. What each scratch buffer ends with is found by running
  the body: a list of stored pieces, last first.
-/
import proofs.«106071_j44908178047711_2_alg».proof.Proof.StatsRunsW

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the first condition holds and the second fails, on whole memrefs: the input block at
    contents `x0`, the two output blocks at contents `xi1`, `xi2` that are handed back untouched, the two scratch
    buffers at anything. It runs to the continuation holding the input as it was and each scratch buffer with the
    pieces the body stored written into it; the two lists of pieces are found by the run. -/
noncomputable def runFirst (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : isFirst i) (hc1 : ¬isLast i)
    (x0 : Vec F S10000x128 .f32) :
    Σ' (LA : List (View.Piece (Elt F) S1x128 .f32)), { LB : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LA)
                ∗ (∃ f, arg5.view.loc (c : Thread nD τ) ↦[arg5.view.set]{fullShare} arg5.view.writes (Elt F) f LB)) -∗ K ⟨⟩))
          ⊢ wp frame (wpE (defs₀ (F := F)) Variants.none c none) E (cc1__stats_kernel i arg1 harg1 arg2 harg2 arg3 harg3 arg4 harg4 arg5 harg5) K } := by
  refine ⟨?_, ?_, fun xi1 xi2 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%dA, %fA, -, HA⟩, ⟨%dB, %fB, -, HB⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HA]; · iexists _; iexact HA
    iexists _; iexact HB

end Cert.Kernel.Stats

end
-- ==== Proof.StatsRunBW.lean ====
/-
  The body of region 1 at a MIDDLE grid point (neither conditional taken): the scratch buffers are read before they
  are stored, so the body runs from scratch buffers at the contents `xsA`, `xsB` the point before left; it stores
  nothing into the two output blocks, which are handed back as found.
-/
import proofs.«106071_j44908178047711_2_alg».proof.Proof.StatsRunAW

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where both conditions fail, on whole memrefs: the input block at contents `x0`, the two
    output blocks at contents `xi1`, `xi2` that are handed back untouched, the two scratch buffers at contents
    `xsA`, `xsB`. It runs to the continuation holding the input as it was and each scratch buffer with the pieces
    the body stored written into it; the two lists of pieces are found by the run. -/
noncomputable def runMiddle (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : ¬isLast i)
    (x0 : Vec F S10000x128 .f32) (xsA xsB : Vec F S1x128 .f32) :
    Σ' (LA : List (View.Piece (Elt F) S1x128 .f32)), { LB : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ owns (c : Thread nD τ) arg4 fullShare xsA ∗ owns (c : Thread nD τ) arg5 fullShare xsB
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LA)
                ∗ (∃ f, arg5.view.loc (c : Thread nD τ) ↦[arg5.view.set]{fullShare} arg5.view.writes (Elt F) f LB)) -∗ K ⟨⟩))
          ⊢ wp frame (wpE (defs₀ (F := F)) Variants.none c none) E (cc1__stats_kernel i arg1 harg1 arg2 harg2 arg3 harg3 arg4 harg4 arg5 harg5) K } := by
  refine ⟨?_, ?_, fun xi1 xi2 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%fA, %hfA, HA⟩, ⟨%fB, %hfB, HB⟩, Hk⟩
    obtain rfl := harg1.eq_unread hf0; obtain rfl := harg2.eq_unread hf1; obtain rfl := harg3.eq_unread hf2
    obtain rfl := harg4.eq_unread hfA; obtain rfl := harg5.eq_unread hfB
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HA]; · iexists _; iexact HA
    iexists _; iexact HB

end Cert.Kernel.Stats

end
-- ==== Proof.StatsRunCW.lean ====
/-
  The body of region 1 at the LAST grid point (the first conditional not taken, the second taken): the scratch
  buffers start at the contents `xsA`, `xsB` the point before left, and after the accumulation each is copied
  whole into one of the two output blocks, which may start at anything.
-/
import proofs.«106071_j44908178047711_2_alg».proof.Proof.StatsRunBW

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the first condition fails and the second holds, on whole memrefs: the input block at
    contents `x0`, the two output blocks at anything, the two scratch buffers at contents `xsA`, `xsB`. It runs to the
    continuation holding the input as it was and each output block and each scratch buffer with the pieces the body
    stored written into it; the four lists of pieces are found by the run. -/
noncomputable def runLast (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : isLast i)
    (x0 : Vec F S10000x128 .f32) (xsA xsB : Vec F S1x128 .f32) :
    Σ' (L1 : List (View.Piece (Elt F) S1x128 .f32)) (L2 : List (View.Piece (Elt F) S1x128 .f32)) (LA : List (View.Piece (Elt F) S1x128 .f32)), { LB : List (View.Piece (Elt F) S1x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xsA ∗ owns (c : Thread nD τ) arg5 fullShare xsB
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LA)
                ∗ (∃ f, arg5.view.loc (c : Thread nD τ) ↦[arg5.view.set]{fullShare} arg5.view.writes (Elt F) f LB)) -∗ K ⟨⟩))
          ⊢ wp frame (wpE (defs₀ (F := F)) Variants.none c none) E (cc1__stats_kernel i arg1 harg1 arg2 harg2 arg3 harg3 arg4 harg4 arg5 harg5) K } := by
  refine ⟨?_, ?_, ?_, ?_, fun E K => ?run⟩
  case run =>
    simp only [cc1__stats_kernel_eq_skeleton]; unfold cc1__stats_kernel_skel
    unfold owns
    iintro ⟨⟨%f0, %hf0, H0⟩, ⟨%d1, %f1, -, H1⟩, ⟨%d2, %f2, -, H2⟩, ⟨%fA, %hfA, HA⟩, ⟨%fB, %hfB, HB⟩, Hk⟩
    obtain rfl := harg1.eq_unread hf0
    obtain rfl := harg4.eq_unread hfA; obtain rfl := harg5.eq_unread hfB
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HA]; · iexists _; iexact HA
    iexists _; iexact HB

end Cert.Kernel.Stats

end
-- ==== Proof.StatsW.lean ====
/-
  Region 1 of the program, its proof data and body obligation, at a parameter `V` (the contents of the core's
  buffers when the region is entered) and at any float instance.
  The three runs of the body (first point, a middle point, last point) each end with lists of stored pieces; here
  those pieces are shown to cover the buffers they were stored into, so that each buffer ends at its pieces read
  back. `outsAt` follows the four buffers (the two output blocks, the two scratch buffers) from point to point: the
  scratch buffers of a point start at what the point before left in them. The region's invariant after a point is
  the two scratch buffers owned at `outsAt`'s components; before the first point it is the region's entry invariant,
  and after the last point the named contents are forgotten again.
-/
import proofs.«106071_j44908178047711_2_alg».proof.Proof.StatsRunCW

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s and whose body leaves the block in place: the window is fetched whole and is never idle. -/
theorem before_in_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-! ## What each case leaves in the buffers it stores into -/

section Pieces
omit V

/-- At the first point the pieces stored into the sums' scratch buffer cover it. -/
theorem coverSum_first (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : isFirst i) (hc1 : ¬isLast i)
    (x0 : Vec F S10000x128 .f32) (y : S1x128.Idx) :
    ∃ pc ∈ (runFirst c i arg1 harg1 arg2 harg2 arg3 harg3 arg4 harg4 arg5 harg5 hc0 hc1 x0).1, y ∈ pc.1.set :=
  View.cover_of_tiledL (runFirst c i arg1 harg1 arg2 harg2 arg3 harg3 arg4 harg4 arg5 harg5 hc0 hc1 x0).1 S1x128.size (by sl_kernel_rfl) y
/-- What the first point leaves in the sums' scratch buffer: its pieces read back. -/
def sumFirst (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : isFirst i) (hc1 : ¬isLast i)
    (x0 : Vec F S10000x128 .f32) : Vec F S1x128 .f32 :=
  vSum.read (Elt F) (vSum.writes (Elt F) vSum.junk (runFirst c i arg1 harg1 arg2 harg2 arg3 harg3 arg4 harg4 arg5 harg5 hc0 hc1 x0).1)
/-- At the first point the pieces stored into the squares' scratch buffer cover it. -/
theorem coverSq_first (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : isFirst i) (hc1 : ¬isLast i)
    (x0 : Vec F S10000x128 .f32) (y : S1x128.Idx) :
    ∃ pc ∈ (runFirst c i arg1 harg1 arg2 harg2 arg3 harg3 arg4 harg4 arg5 harg5 hc0 hc1 x0).2.1, y ∈ pc.1.set :=
  View.cover_of_tiledL (runFirst c i arg1 harg1 arg2 harg2 arg3 harg3 arg4 harg4 arg5 harg5 hc0 hc1 x0).2.1 S1x128.size (by sl_kernel_rfl) y
/-- What the first point leaves in the squares' scratch buffer. -/
def sqFirst (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : isFirst i) (hc1 : ¬isLast i)
    (x0 : Vec F S10000x128 .f32) : Vec F S1x128 .f32 :=
  vSq.read (Elt F) (vSq.writes (Elt F) vSq.junk (runFirst c i arg1 harg1 arg2 harg2 arg3 harg3 arg4 harg4 arg5 harg5 hc0 hc1 x0).2.1)
/-- At a middle point the pieces stored into the sums' scratch buffer cover it. -/
theorem coverSum_middle (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : ¬isLast i)
    (x0 : Vec F S10000x128 .f32) (xsA xsB : Vec F S1x128 .f32) (y : S1x128.Idx) :
    ∃ pc ∈ (runMiddle c i arg1 harg1 arg2 harg2 arg3 harg3 arg4 harg4 arg5 harg5 hc0 hc1 x0 xsA xsB).1, y ∈ pc.1.set :=
  View.cover_of_tiledL (runMiddle c i arg1 harg1 arg2 harg2 arg3 harg3 arg4 harg4 arg5 harg5 hc0 hc1 x0 xsA xsB).1 S1x128.size (by sl_kernel_rfl) y
/-- What a middle point leaves in the sums' scratch buffer. -/
def sumMiddle (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : ¬isLast i)
    (x0 : Vec F S10000x128 .f32) (xsA xsB : Vec F S1x128 .f32) : Vec F S1x128 .f32 :=
  vSum.read (Elt F) (vSum.writes (Elt F) vSum.junk (runMiddle c i arg1 harg1 arg2 harg2 arg3 harg3 arg4 harg4 arg5 harg5 hc0 hc1 x0 xsA xsB).1)
/-- At a middle point the pieces stored into the squares' scratch buffer cover it. -/
theorem coverSq_middle (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : ¬isLast i)
    (x0 : Vec F S10000x128 .f32) (xsA xsB : Vec F S1x128 .f32) (y : S1x128.Idx) :
    ∃ pc ∈ (runMiddle c i arg1 harg1 arg2 harg2 arg3 harg3 arg4 harg4 arg5 harg5 hc0 hc1 x0 xsA xsB).2.1, y ∈ pc.1.set :=
  View.cover_of_tiledL (runMiddle c i arg1 harg1 arg2 harg2 arg3 harg3 arg4 harg4 arg5 harg5 hc0 hc1 x0 xsA xsB).2.1 S1x128.size (by sl_kernel_rfl) y
/-- What a middle point leaves in the squares' scratch buffer. -/
def sqMiddle (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : ¬isLast i)
    (x0 : Vec F S10000x128 .f32) (xsA xsB : Vec F S1x128 .f32) : Vec F S1x128 .f32 :=
  vSq.read (Elt F) (vSq.writes (Elt F) vSq.junk (runMiddle c i arg1 harg1 arg2 harg2 arg3 harg3 arg4 harg4 arg5 harg5 hc0 hc1 x0 xsA xsB).2.1)
/-- At the last point the pieces stored into output block 1 cover it. -/
theorem coverOut1_last (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : isLast i)
    (x0 : Vec F S10000x128 .f32) (xsA xsB : Vec F S1x128 .f32) (y : S1x128.Idx) :
    ∃ pc ∈ (runLast c i arg1 harg1 arg2 harg2 arg3 harg3 arg4 harg4 arg5 harg5 hc0 hc1 x0 xsA xsB).1, y ∈ pc.1.set :=
  View.cover_of_tiledL (runLast c i arg1 harg1 arg2 harg2 arg3 harg3 arg4 harg4 arg5 harg5 hc0 hc1 x0 xsA xsB).1 S1x128.size (by sl_kernel_rfl) y
/-- What the last point leaves in output block 1. -/
def out1Last (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : isLast i)
    (x0 : Vec F S10000x128 .f32) (xsA xsB : Vec F S1x128 .f32) : Vec F S1x128 .f32 :=
  vOut1.read (Elt F) (vOut1.writes (Elt F) vOut1.junk (runLast c i arg1 harg1 arg2 harg2 arg3 harg3 arg4 harg4 arg5 harg5 hc0 hc1 x0 xsA xsB).1)
/-- At the last point the pieces stored into output block 2 cover it. -/
theorem coverOut2_last (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : isLast i)
    (x0 : Vec F S10000x128 .f32) (xsA xsB : Vec F S1x128 .f32) (y : S1x128.Idx) :
    ∃ pc ∈ (runLast c i arg1 harg1 arg2 harg2 arg3 harg3 arg4 harg4 arg5 harg5 hc0 hc1 x0 xsA xsB).2.1, y ∈ pc.1.set :=
  View.cover_of_tiledL (runLast c i arg1 harg1 arg2 harg2 arg3 harg3 arg4 harg4 arg5 harg5 hc0 hc1 x0 xsA xsB).2.1 S1x128.size (by sl_kernel_rfl) y
/-- What the last point leaves in output block 2. -/
def out2Last (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : isLast i)
    (x0 : Vec F S10000x128 .f32) (xsA xsB : Vec F S1x128 .f32) : Vec F S1x128 .f32 :=
  vOut2.read (Elt F) (vOut2.writes (Elt F) vOut2.junk (runLast c i arg1 harg1 arg2 harg2 arg3 harg3 arg4 harg4 arg5 harg5 hc0 hc1 x0 xsA xsB).2.1)
/-- At the last point the pieces stored into the sums' scratch buffer cover it. -/
theorem coverSum_last (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : isLast i)
    (x0 : Vec F S10000x128 .f32) (xsA xsB : Vec F S1x128 .f32) (y : S1x128.Idx) :
    ∃ pc ∈ (runLast c i arg1 harg1 arg2 harg2 arg3 harg3 arg4 harg4 arg5 harg5 hc0 hc1 x0 xsA xsB).2.2.1, y ∈ pc.1.set :=
  View.cover_of_tiledL (runLast c i arg1 harg1 arg2 harg2 arg3 harg3 arg4 harg4 arg5 harg5 hc0 hc1 x0 xsA xsB).2.2.1 S1x128.size (by sl_kernel_rfl) y
/-- What the last point leaves in the sums' scratch buffer. -/
def sumLast (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : isLast i)
    (x0 : Vec F S10000x128 .f32) (xsA xsB : Vec F S1x128 .f32) : Vec F S1x128 .f32 :=
  vSum.read (Elt F) (vSum.writes (Elt F) vSum.junk (runLast c i arg1 harg1 arg2 harg2 arg3 harg3 arg4 harg4 arg5 harg5 hc0 hc1 x0 xsA xsB).2.2.1)
/-- At the last point the pieces stored into the squares' scratch buffer cover it. -/
theorem coverSq_last (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : isLast i)
    (x0 : Vec F S10000x128 .f32) (xsA xsB : Vec F S1x128 .f32) (y : S1x128.Idx) :
    ∃ pc ∈ (runLast c i arg1 harg1 arg2 harg2 arg3 harg3 arg4 harg4 arg5 harg5 hc0 hc1 x0 xsA xsB).2.2.2.1, y ∈ pc.1.set :=
  View.cover_of_tiledL (runLast c i arg1 harg1 arg2 harg2 arg3 harg3 arg4 harg4 arg5 harg5 hc0 hc1 x0 xsA xsB).2.2.2.1 S1x128.size (by sl_kernel_rfl) y
/-- What the last point leaves in the squares' scratch buffer. -/
def sqLast (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : isLast i)
    (x0 : Vec F S10000x128 .f32) (xsA xsB : Vec F S1x128 .f32) : Vec F S1x128 .f32 :=
  vSq.read (Elt F) (vSq.writes (Elt F) vSq.junk (runLast c i arg1 harg1 arg2 harg2 arg3 harg3 arg4 harg4 arg5 harg5 hc0 hc1 x0 xsA xsB).2.2.2.1)

/-- At the points where an output block is idle nothing consults its contents (it is neither written back there nor
    read at the next point): a placeholder. -/
def idleOut1 : Vec F S1x128 .f32 := vOut1.read (Elt F) vOut1.junk
def idleOut2 : Vec F S1x128 .f32 := vOut2.read (Elt F) vOut2.junk

end Pieces

/-! ## What the four buffers hold after each point -/

/-- The grid has ten points. -/
theorem N_eq : cfg1.N = 10 := N_1

/-- The first condition holds at point 0, and the second fails there. -/
theorem first_zero (hn : 0 < cfg1.N) : isFirst (grid1.coords ⟨0, hn⟩) := (isFirst_iff ⟨0, hn⟩).mpr (Nat.zero_mod _)
theorem notLast_zero (hn : 0 < cfg1.N) : ¬isLast (grid1.coords ⟨0, hn⟩) := fun h => by
  have := (isLast_iff ⟨0, hn⟩).mp h; (try dsimp only at this); omega
/-- The first condition fails at every later point. -/
theorem notFirst_succ (n : ℕ) (hn : n + 1 < cfg1.N) : ¬isFirst (grid1.coords ⟨n + 1, hn⟩) := fun h => by
  have := (isFirst_iff ⟨n + 1, hn⟩).mp h; have hN : n + 1 < 10 := lt_of_lt_of_eq hn N_eq; (try dsimp only at this); omega

/-- The contents of (output block 1, output block 2, the sums' scratch, the squares' scratch) after the body at
    position `n`: the case the position selects, run at the point's memrefs and input block, the scratch buffers
    starting at what this gives at `n - 1`. -/
def outsAt (c : Dev nD) : (n : ℕ) → n < cfg1.N → Vec F S1x128 .f32 × Vec F S1x128 .f32 × Vec F S1x128 .f32 × Vec F S1x128 .f32
  | 0, hn => (idleOut1, idleOut2,
      sumFirst c (grid1.coords ⟨0, hn⟩) (mIn ⟨0, hn⟩) (hIn ⟨0, hn⟩) (mOut1 ⟨0, hn⟩) (hOut1 ⟨0, hn⟩) (mOut2 ⟨0, hn⟩) (hOut2 ⟨0, hn⟩) mSum (Memref.isWhole_whole _) mSq (Memref.isWhole_whole _) (first_zero hn) (notLast_zero hn) (blk V c 0 ⟨0, hn⟩),
      sqFirst c (grid1.coords ⟨0, hn⟩) (mIn ⟨0, hn⟩) (hIn ⟨0, hn⟩) (mOut1 ⟨0, hn⟩) (hOut1 ⟨0, hn⟩) (mOut2 ⟨0, hn⟩) (hOut2 ⟨0, hn⟩) mSum (Memref.isWhole_whole _) mSq (Memref.isWhole_whole _) (first_zero hn) (notLast_zero hn) (blk V c 0 ⟨0, hn⟩))
  | n + 1, hn =>
    if h1 : (n + 1) % 10 = 9 then
      (out1Last c (grid1.coords ⟨n + 1, hn⟩) (mIn ⟨n + 1, hn⟩) (hIn ⟨n + 1, hn⟩) (mOut1 ⟨n + 1, hn⟩) (hOut1 ⟨n + 1, hn⟩) (mOut2 ⟨n + 1, hn⟩) (hOut2 ⟨n + 1, hn⟩) mSum (Memref.isWhole_whole _) mSq (Memref.isWhole_whole _) (notFirst_succ n hn) ((isLast_iff ⟨n + 1, hn⟩).mpr h1) (blk V c 0 ⟨n + 1, hn⟩) (outsAt c n (Nat.lt_of_succ_lt hn)).2.2.1 (outsAt c n (Nat.lt_of_succ_lt hn)).2.2.2,
       out2Last c (grid1.coords ⟨n + 1, hn⟩) (mIn ⟨n + 1, hn⟩) (hIn ⟨n + 1, hn⟩) (mOut1 ⟨n + 1, hn⟩) (hOut1 ⟨n + 1, hn⟩) (mOut2 ⟨n + 1, hn⟩) (hOut2 ⟨n + 1, hn⟩) mSum (Memref.isWhole_whole _) mSq (Memref.isWhole_whole _) (notFirst_succ n hn) ((isLast_iff ⟨n + 1, hn⟩).mpr h1) (blk V c 0 ⟨n + 1, hn⟩) (outsAt c n (Nat.lt_of_succ_lt hn)).2.2.1 (outsAt c n (Nat.lt_of_succ_lt hn)).2.2.2,
       sumLast c (grid1.coords ⟨n + 1, hn⟩) (mIn ⟨n + 1, hn⟩) (hIn ⟨n + 1, hn⟩) (mOut1 ⟨n + 1, hn⟩) (hOut1 ⟨n + 1, hn⟩) (mOut2 ⟨n + 1, hn⟩) (hOut2 ⟨n + 1, hn⟩) mSum (Memref.isWhole_whole _) mSq (Memref.isWhole_whole _) (notFirst_succ n hn) ((isLast_iff ⟨n + 1, hn⟩).mpr h1) (blk V c 0 ⟨n + 1, hn⟩) (outsAt c n (Nat.lt_of_succ_lt hn)).2.2.1 (outsAt c n (Nat.lt_of_succ_lt hn)).2.2.2,
       sqLast c (grid1.coords ⟨n + 1, hn⟩) (mIn ⟨n + 1, hn⟩) (hIn ⟨n + 1, hn⟩) (mOut1 ⟨n + 1, hn⟩) (hOut1 ⟨n + 1, hn⟩) (mOut2 ⟨n + 1, hn⟩) (hOut2 ⟨n + 1, hn⟩) mSum (Memref.isWhole_whole _) mSq (Memref.isWhole_whole _) (notFirst_succ n hn) ((isLast_iff ⟨n + 1, hn⟩).mpr h1) (blk V c 0 ⟨n + 1, hn⟩) (outsAt c n (Nat.lt_of_succ_lt hn)).2.2.1 (outsAt c n (Nat.lt_of_succ_lt hn)).2.2.2)
    else
      (idleOut1, idleOut2,
       sumMiddle c (grid1.coords ⟨n + 1, hn⟩) (mIn ⟨n + 1, hn⟩) (hIn ⟨n + 1, hn⟩) (mOut1 ⟨n + 1, hn⟩) (hOut1 ⟨n + 1, hn⟩) (mOut2 ⟨n + 1, hn⟩) (hOut2 ⟨n + 1, hn⟩) mSum (Memref.isWhole_whole _) mSq (Memref.isWhole_whole _) (notFirst_succ n hn) (fun h => h1 ((isLast_iff ⟨n + 1, hn⟩).mp h)) (blk V c 0 ⟨n + 1, hn⟩) (outsAt c n (Nat.lt_of_succ_lt hn)).2.2.1 (outsAt c n (Nat.lt_of_succ_lt hn)).2.2.2,
       sqMiddle c (grid1.coords ⟨n + 1, hn⟩) (mIn ⟨n + 1, hn⟩) (hIn ⟨n + 1, hn⟩) (mOut1 ⟨n + 1, hn⟩) (hOut1 ⟨n + 1, hn⟩) (mOut2 ⟨n + 1, hn⟩) (hOut2 ⟨n + 1, hn⟩) mSum (Memref.isWhole_whole _) mSq (Memref.isWhole_whole _) (notFirst_succ n hn) (fun h => h1 ((isLast_iff ⟨n + 1, hn⟩).mp h)) (blk V c 0 ⟨n + 1, hn⟩) (outsAt c n (Nat.lt_of_succ_lt hn)).2.2.1 (outsAt c n (Nat.lt_of_succ_lt hn)).2.2.2)

/-- The position before `t`, which is inside the grid. -/
theorem pred_lt (t : Fin cfg1.N) : t.val - 1 < cfg1.N := Nat.lt_of_le_of_lt (Nat.sub_le _ _) t.isLt

/-- `outsAt` at the first point. -/
theorem outsAt_first (c : Dev nD) (t : Fin cfg1.N) (h0 : t.val % 10 = 0) (hc0 : isFirst (grid1.coords t)) (hc1 : ¬isLast (grid1.coords t)) :
    outsAt V c t.val t.isLt = (idleOut1, idleOut2,
      sumFirst c (grid1.coords t) (mIn t) (hIn t) (mOut1 t) (hOut1 t) (mOut2 t) (hOut2 t) mSum (Memref.isWhole_whole _) mSq (Memref.isWhole_whole _) hc0 hc1 (blk V c 0 t),
      sqFirst c (grid1.coords t) (mIn t) (hIn t) (mOut1 t) (hOut1 t) (mOut2 t) (hOut2 t) mSum (Memref.isWhole_whole _) mSq (Memref.isWhole_whole _) hc0 hc1 (blk V c 0 t)) := by
  obtain ⟨n, hn⟩ := t
  cases n with
  | zero => exact rfl
  | succ n => exfalso; have hN : n + 1 < 10 := lt_of_lt_of_eq hn N_eq; (try dsimp only at h0); omega

/-- `outsAt` at a middle point: that case's contents, over what the point before left. -/
theorem outsAt_middle (c : Dev nD) (t : Fin cfg1.N) (h0 : ¬t.val % 10 = 0) (h1 : ¬t.val % 10 = 9) (hc0 : ¬isFirst (grid1.coords t)) (hc1 : ¬isLast (grid1.coords t)) :
    outsAt V c t.val t.isLt = (idleOut1, idleOut2,
      sumMiddle c (grid1.coords t) (mIn t) (hIn t) (mOut1 t) (hOut1 t) (mOut2 t) (hOut2 t) mSum (Memref.isWhole_whole _) mSq (Memref.isWhole_whole _) hc0 hc1 (blk V c 0 t) (outsAt V c (t.val - 1) (pred_lt t)).2.2.1 (outsAt V c (t.val - 1) (pred_lt t)).2.2.2,
      sqMiddle c (grid1.coords t) (mIn t) (hIn t) (mOut1 t) (hOut1 t) (mOut2 t) (hOut2 t) mSum (Memref.isWhole_whole _) mSq (Memref.isWhole_whole _) hc0 hc1 (blk V c 0 t) (outsAt V c (t.val - 1) (pred_lt t)).2.2.1 (outsAt V c (t.val - 1) (pred_lt t)).2.2.2) := by
  obtain ⟨n, hn⟩ := t
  cases n with
  | zero => exact (by exfalso; (try dsimp only at h0); exact absurd (Nat.zero_mod _) h0)
  | succ n => exact (dif_neg h1).trans rfl

/-- `outsAt` at the last point: that case's contents, over what the point before left. -/
theorem outsAt_last (c : Dev nD) (t : Fin cfg1.N) (h0 : ¬t.val % 10 = 0) (h1 : t.val % 10 = 9) (hc0 : ¬isFirst (grid1.coords t)) (hc1 : isLast (grid1.coords t)) :
    outsAt V c t.val t.isLt =
     (out1Last c (grid1.coords t) (mIn t) (hIn t) (mOut1 t) (hOut1 t) (mOut2 t) (hOut2 t) mSum (Memref.isWhole_whole _) mSq (Memref.isWhole_whole _) hc0 hc1 (blk V c 0 t) (outsAt V c (t.val - 1) (pred_lt t)).2.2.1 (outsAt V c (t.val - 1) (pred_lt t)).2.2.2,
      out2Last c (grid1.coords t) (mIn t) (hIn t) (mOut1 t) (hOut1 t) (mOut2 t) (hOut2 t) mSum (Memref.isWhole_whole _) mSq (Memref.isWhole_whole _) hc0 hc1 (blk V c 0 t) (outsAt V c (t.val - 1) (pred_lt t)).2.2.1 (outsAt V c (t.val - 1) (pred_lt t)).2.2.2,
      sumLast c (grid1.coords t) (mIn t) (hIn t) (mOut1 t) (hOut1 t) (mOut2 t) (hOut2 t) mSum (Memref.isWhole_whole _) mSq (Memref.isWhole_whole _) hc0 hc1 (blk V c 0 t) (outsAt V c (t.val - 1) (pred_lt t)).2.2.1 (outsAt V c (t.val - 1) (pred_lt t)).2.2.2,
      sqLast c (grid1.coords t) (mIn t) (hIn t) (mOut1 t) (hOut1 t) (mOut2 t) (hOut2 t) mSum (Memref.isWhole_whole _) mSq (Memref.isWhole_whole _) hc0 hc1 (blk V c 0 t) (outsAt V c (t.val - 1) (pred_lt t)).2.2.1 (outsAt V c (t.val - 1) (pred_lt t)).2.2.2) := by
  obtain ⟨n, hn⟩ := t
  cases n with
  | zero => exact (by exfalso; (try dsimp only at h0); exact absurd (Nat.zero_mod _) h0)
  | succ n => exact (dif_pos h1).trans rfl

/-! ## The region's invariant -/

/-- The invariant before position `n`: before the first point the region's entry invariant (both scratch buffers at
    anything); afterwards both scratch buffers at what the point before left in them, the other scoped buffers
    unopened, and the generator register at some state. -/
def PhiS (c : Dev nD) : (n : ℕ) → n ≤ cfg1.N → sProp 𝕄
  | 0, _ => Pipeline.ΦA spec1 c
  | n + 1, hn => iprop(iprop(iprop(owns (c : Thread nD τ) mSum fullShare (outsAt V c n hn).2.2.1 ∗ owns (c : Thread nD τ) mSq fullShare (outsAt V c n hn).2.2.2) ∗ others c) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the scratch buffers at that point's contents. -/
theorem PhiS_succ (c : Dev nD) (n : ℕ) (hn : n < cfg1.N) :
    PhiS V c (n + 1) hn = iprop(iprop(iprop(owns (c : Thread nD τ) mSum fullShare (outsAt V c n hn).2.2.1 ∗ owns (c : Thread nD τ) mSq fullShare (outsAt V c n hn).2.2.2) ∗ others c) ∗ (∃ r, prngReg c r)) := rfl

/-- Before a point that is not the first: the scratch buffers at what the point before left. -/
theorem PhiS_pos (c : Dev nD) (n : ℕ) (h : n ≤ cfg1.N) (hz : n ≠ 0) :
    PhiS V c n h = iprop(iprop(iprop(owns (c : Thread nD τ) mSum fullShare (outsAt V c (n - 1) (by omega)).2.2.1 ∗ owns (c : Thread nD τ) mSq fullShare (outsAt V c (n - 1) (by omega)).2.2.2) ∗ others c) ∗ (∃ r, prngReg c r)) := by
  cases n with
  | zero => exact absurd rfl hz
  | succ n => rfl

/-! ## The proof data -/

/-- The proof data of the region on core `c`: the arrays as the region finds them (`V`); after the body at point
    `t` the input's buffer at its block and the outputs' at `outsAt`'s components; the invariant `PhiS`; nothing
    owed; full shares. -/
def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => (outsAt V c t.val t.isLt).1
    | ⟨2, _⟩ => (outsAt V c t.val t.isLt).2.1
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem Phi_castSucc (c : Dev nD) (t : Fin cfg1.N) :
    (dat1 V c).Φ t.castSucc = PhiS V c t.val (Nat.le_of_lt t.isLt) := by
  dsimp only [dat1]; simp only [Fin.coe_castSucc]

/-- What the body leaves, window by window. -/
theorem after_in (c : Dev nD) (t : Fin cfg1.N) : (dat1 V c).after 0 t = blk V c 0 t := by dsimp only [dat1]
theorem after_out1 (c : Dev nD) (t : Fin cfg1.N) : (dat1 V c).after 1 t = (outsAt V c t.val t.isLt).1 := by dsimp only [dat1]
theorem after_out2 (c : Dev nD) (t : Fin cfg1.N) : (dat1 V c).after 2 t = (outsAt V c t.val t.isLt).2.1 := by dsimp only [dat1]

/-- The input's current staging buffer holds its block at every point. -/
theorem before_in (c : Dev nD) (t : Fin cfg1.N) (d) : (dat1 V c).before 0 t d = blk V c 0 t :=
  before_in_of V (dat1 V c) (A_eq1 V c 0) (after_in V c) t d

/-! ## The body obligation, at a generic point -/

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (mIn t) fullShare ((dat1 V c).before 0 t d))
    ∗ (∃ d, owns (c : Thread nD τ) (mOut1 t) fullShare ((dat1 V c).before 1 t d))
    ∗ (∃ d, owns (c : Thread nD τ) (mOut2 t) fullShare ((dat1 V c).before 2 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input's memref holds its block; the position says which of the three cases the point
    is in, and that case's run applies: the invariant hands the body the two scratch buffers (at anything at the
    first point, at what the point before left otherwise) and takes them back at this point's contents, the pieces
    covering them; an output block idle at the point is handed back as found, and at the last point each is taken
    back at its pieces read back; the other scoped buffers, the generator register and what the core owes pass
    through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in]
  rw [show (dat1 V c).owesAt () t.succ = (dat1 V c).owesAt () t.castSucc from rfl]
  rw [show (dat1 V c).Φ t.succ = PhiS V c (t.val + 1) t.isLt from rfl, PhiS_succ]
  have hN : t.val < 10 := lt_of_lt_of_eq t.isLt N_eq
  rw [show (dat1 V c).leavesExact 0 t = owns (c : Thread nD τ) (mIn t) fullShare ((dat1 V c).after 0 t) from by
    unfold Dat.leavesExact; rw [live_in t], after_in]
  by_cases h0 : t.val % 10 = 0
  · -- the first point
    have hc0 : isFirst (grid1.coords t) := (isFirst_iff t).mpr h0
    have hc1 : ¬isLast (grid1.coords t) := fun h => by have := (isLast_iff t).mp h; omega
    have hz : t.val = 0 := by omega
    rw [Dat.leavesExact_idle (dat1 V c) 1 t (idle_out1 t hc1) (noFlush_out1 t hc1)]
    rw [Dat.leavesExact_idle (dat1 V c) 2 t (idle_out2 t hc1) (noFlush_out2 t hc1)]
    rw [outsAt_first V c t h0 hc0 hc1]
    unfold sumFirst sqFirst; (try dsimp only)
    rw [Phi_castSucc V c t, PhiS_zero V c _ _ hz, PhiA_eq]
    iintro ⟨⟨⟨⟨HA, HB⟩, Hoth⟩, Hg⟩, Ho, ⟨%d0, H0⟩, ⟨%d1, H1⟩, ⟨%d2, H2⟩⟩
    iapply ((runFirst c (grid1.coords t) _ _ _ _ _ _ _ _ _ _ hc0 hc1 (blk V c 0 t)).2.2 _ _ Set.univ _)
    isplitl [H0]; · iexact H0
    isplitl [H1]; · iexact H1
    isplitl [H2]; · iexact H2
    isplitl [HA]; · iexact HA
    isplitl [HB]; · iexact HB
    iintro ⟨H0, H1, H2, ⟨%eA, HA⟩, ⟨%eB, HB⟩⟩
    isplitl [HA HB Hoth Hg]
    · isplitl [HA HB Hoth]
      · isplitl [HA HB]
        · isplitl [HA]
          · unfold owns; iexists _; isplitr
            swap; · iexact HA
            ipureintro; exact View.read_writes_of_cover _ _ _ _ _ (coverSum_first c _ _ _ _ _ _ _ _ _ _ _ _ _ _)
          · unfold owns; iexists _; isplitr
            swap; · iexact HB
            ipureintro; exact View.read_writes_of_cover _ _ _ _ _ (coverSq_first c _ _ _ _ _ _ _ _ _ _ _ _ _ _)
        iexact Hoth
      iexact Hg
    isplitl [Ho]; · iexact Ho
    isplitl [H0]; · iexact H0
    isplitl [H1]; · iexists _; iexact H1
    iexists _; iexact H2
  · have hc0 : ¬isFirst (grid1.coords t) := fun h => h0 ((isFirst_iff t).mp h)
    have hz : t.val ≠ 0 := fun h => h0 (by rw [h])
    by_cases h1 : t.val % 10 = 9
    · -- the last point
      have hc1 : isLast (grid1.coords t) := (isLast_iff t).mpr h1
      rw [show (dat1 V c).leavesExact 1 t = owns (c : Thread nD τ) (mOut1 t) fullShare ((dat1 V c).after 1 t) from by
        unfold Dat.leavesExact; rw [live_out1 t hc1], after_out1]
      rw [show (dat1 V c).leavesExact 2 t = owns (c : Thread nD τ) (mOut2 t) fullShare ((dat1 V c).after 2 t) from by
        unfold Dat.leavesExact; rw [live_out2 t hc1], after_out2]
      rw [outsAt_last V c t h0 h1 hc0 hc1]
      unfold out1Last out2Last sumLast sqLast; (try dsimp only)
      rw [Phi_castSucc V c t, PhiS_pos V c _ _ hz]
      iintro ⟨⟨⟨⟨HA, HB⟩, Hoth⟩, Hg⟩, Ho, ⟨%d0, H0⟩, ⟨%d1, H1⟩, ⟨%d2, H2⟩⟩
      iapply ((runLast c (grid1.coords t) _ _ _ _ _ _ _ _ _ _ hc0 hc1 (blk V c 0 t) _ _).2.2.2.2 Set.univ _)
      isplitl [H0]; · iexact H0
      isplitl [H1]; · iexists _; iexact H1
      isplitl [H2]; · iexists _; iexact H2
      isplitl [HA]; · iexact HA
      isplitl [HB]; · iexact HB
      iintro ⟨H0, ⟨%e1, H1⟩, ⟨%e2, H2⟩, ⟨%eA, HA⟩, ⟨%eB, HB⟩⟩
      isplitl [HA HB Hoth Hg]
      · isplitl [HA HB Hoth]
        · isplitl [HA HB]
          · isplitl [HA]
            · unfold owns; iexists _; isplitr
              swap; · iexact HA
              ipureintro; exact View.read_writes_of_cover _ _ _ _ _ (coverSum_last c _ _ _ _ _ _ _ _ _ _ _ _ _ _ _ _)
            · unfold owns; iexists _; isplitr
              swap; · iexact HB
              ipureintro; exact View.read_writes_of_cover _ _ _ _ _ (coverSq_last c _ _ _ _ _ _ _ _ _ _ _ _ _ _ _ _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (coverOut1_last c _ _ _ _ _ _ _ _ _ _ _ _ _ _ _ _)
      unfold owns; iexists _; isplitr
      swap; · iexact H2
      ipureintro; exact View.read_writes_of_cover _ _ _ _ _ (coverOut2_last c _ _ _ _ _ _ _ _ _ _ _ _ _ _ _ _)
    · -- a middle point
      have hc1 : ¬isLast (grid1.coords t) := fun h => h1 ((isLast_iff t).mp h)
      rw [Dat.leavesExact_idle (dat1 V c) 1 t (idle_out1 t hc1) (noFlush_out1 t hc1)]
      rw [Dat.leavesExact_idle (dat1 V c) 2 t (idle_out2 t hc1) (noFlush_out2 t hc1)]
      rw [outsAt_middle V c t h0 h1 hc0 hc1]
      unfold sumMiddle sqMiddle; (try dsimp only)
      rw [Phi_castSucc V c t, PhiS_pos V c _ _ hz]
      iintro ⟨⟨⟨⟨HA, HB⟩, Hoth⟩, Hg⟩, Ho, ⟨%d0, H0⟩, ⟨%d1, H1⟩, ⟨%d2, H2⟩⟩
      iapply ((runMiddle c (grid1.coords t) _ _ _ _ _ _ _ _ _ _ hc0 hc1 (blk V c 0 t) _ _).2.2 _ _ Set.univ _)
      isplitl [H0]; · iexact H0
      isplitl [H1]; · iexact H1
      isplitl [H2]; · iexact H2
      isplitl [HA]; · iexact HA
      isplitl [HB]; · iexact HB
      iintro ⟨H0, H1, H2, ⟨%eA, HA⟩, ⟨%eB, HB⟩⟩
      isplitl [HA HB Hoth Hg]
      · isplitl [HA HB Hoth]
        · isplitl [HA HB]
          · isplitl [HA]
            · unfold owns; iexists _; isplitr
              swap; · iexact HA
              ipureintro; exact View.read_writes_of_cover _ _ _ _ _ (coverSum_middle c _ _ _ _ _ _ _ _ _ _ _ _ _ _ _ _)
            · unfold owns; iexists _; isplitr
              swap; · iexact HB
              ipureintro; exact View.read_writes_of_cover _ _ _ _ _ (coverSq_middle c _ _ _ _ _ _ _ _ _ _ _ _ _ _ _ _)
          iexact Hoth
        iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the entry invariant back: the scratch buffers' named
    contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA_eq]
  iintro ⟨⟨⟨HA, HB⟩, Hoth⟩, Hg⟩
  isplitl [HA HB Hoth]
  · isplitl [HA HB]
    · isplitl [HA]
      · iexists _; iexact HA
      · iexists _; iexact HB
    iexact Hoth
  iexact Hg

/-- The same after the last point. -/
theorem hout1 (c : Dev nD) : (dat1 V c).Φ (Fin.last cfg1.N) ⊢ Pipeline.ΦA spec1 c :=
  Phi_out V c _ (by rw [Fin.val_last]; have : cfg1.N = 10 := N_eq; omega)

end Cert.Kernel.Stats

end
-- ==== Proof.StatsHalfW.lean ====
/-
  Region 1's half, packaged for the whole run: what its body leaves in the windows' buffers and its invariant at each
  point are those of its proof data; the proof data the run builds from them is that same data.
-/
import proofs.«106071_j44908178047711_2_alg».proof.Proof.WholeW
import proofs.«106071_j44908178047711_2_alg».proof.Proof.StatsW

noncomputable section

namespace Cert.Kernel

open Cert.Kernel Cert.Kernel.Gen
open Idealize.ShloMosaic Idealize.ShloMosaic.TcCoe
open Idealize.SL Idealize.SL.Sem
open Idealize.ShloMosaic.Pipeline (Dat BodyObligation)

variable {F : FTy → Type} [FloatOps F]

/-- The column sums' region as the whole run takes it. -/
def statsHalf : Whole.StatsHalf F where
  after V c := (Stats.dat1 V c).after
  Φ V c := (Stats.dat1 V c).Φ
  body V c := Stats.body_obligation1 V c
  enter V c := Stats.hin1 V c
  leave V c := Stats.hout1 V c

/-- The run's proof data for region 1 is region 1's own. -/
theorem statsHalf_dat (V : Whole.TcBufs F) (c : Dev nD) : Whole.dat1 statsHalf V c = Stats.dat1 V c := rfl

end Cert.Kernel

end
-- ==== Proof.LibDot2.lean ====
/-
  Two matrix products read at an index, at the ideal values, for any extents and any well-formedness witness of the
  dimension numbers: an accelerator matrix product into a zero accumulator of an [M,K] by a [K,N] array, and a host
  `dot_general` of an [M,K] by an [N,K] array contracted on both last axes, are both the plain sum over the contracted
  coordinate of the products of the entries.
-/
import Idealize.ShloMosaic.PureOps.Ideal.Laws
import Idealize.ShloMosaic.Lib.ValueIdx

noncomputable section

open scoped BigOperators

namespace Cert.LibDot2

open Idealize.ShloMosaic Idealize.ShloMosaic.ValueIdx

variable {M K N : Nat} {φ₁ φ₂ : FTy}

/-- An [M,K] by [K,N] matrix product accumulated into zeros: entry (a, b) is `∑ c, A (a, c) · B (c, b)`. -/
theorem matmul_zero_apply (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims ⟨2, ![M, K]⟩ ⟨2, ![K, N]⟩ ⟨2, ![M, N]⟩) prec A B
        (constant ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A host `dot_general` of an [M,K] by an [N,K] array, both contracted on their last axis: entry (a, b) is
    `∑ c, A (a, c) · B (b, c)`. -/
theorem dotGeneral_nt_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (⟨[1], [1], [0], [0], [], [], w⟩ : DotDims ⟨2, ![M, K]⟩ ⟨2, ![N, K]⟩ ⟨2, ![M, N]⟩) prec A B (ix2 a b)
      = ∑ c : Fin K, A (ix2 a c) * B (ix2 b c) := by
  show FloatOps.dotGeneral _ prec _ A B (ix2 a b) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun c _ => ?_
  have c2 := contrEquiv1_symm_val (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibDot2

end
-- ==== Proof.LibDotNN.lean ====
/-
  The host's plain matrix product read at an index, and its agreement with the accelerator's at the ideal values.
  For an [M,K] array A and a [K,N] array B (any extents, any well-formedness witness of the dimension numbers):
  the host `dot_general` contracting A's second axis with B's first has entry (a, b) = ∑ c, A (a, c) · B (c, b);
  the accelerator product of the two operands, each first rounded to a narrower float format, accumulated into
  zeros, is the same array — a change of float format is the identity on the extended reals, a zero accumulator
  adds nothing, and both products are the one finite sum over the contracted coordinate.
-/
import Idealize.ShloMosaic.PureOps.Ideal.Laws
import Idealize.ShloMosaic.Lib.ValueIdx
import proofs.«106071_j44908178047711_2_alg».proof.Proof.LibDot2

noncomputable section

open scoped BigOperators

namespace Cert.LibDotNN

open Idealize.ShloMosaic Idealize.ShloMosaic.ValueIdx

variable {M K N : Nat} {φ₁ φ₂ : FTy}

/-- A host `dot_general` of an [M,K] by a [K,N] array, the first contracted on its last axis and the second on its
    first: entry (a, b) is `∑ c, A (a, c) · B (c, b)`. -/
theorem dotGeneral_nn_apply (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (⟨[1], [0], [0], [1], [], [], w⟩ : DotDims ⟨2, ![M, K]⟩ ⟨2, ![K, N]⟩ ⟨2, ![M, N]⟩) prec A B (ix2 a b)
      = ∑ c : Fin K, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The same at any index `j` of the result: the row is `j`'s first coordinate, the column its second. -/
theorem dotGeneral_nn_apply_idx (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (j : (⟨2, ![M, N]⟩ : Shape).Idx) :
    Host.dotGeneral (⟨[1], [0], [0], [1], [], [], w⟩ : DotDims ⟨2, ![M, K]⟩ ⟨2, ![K, N]⟩ ⟨2, ![M, N]⟩) prec A B j
      = ∑ c : Fin K, A (ix2 (j 0) c) * B (ix2 c (j 1)) := by
  have h := dotGeneral_nn_apply w prec A B (j 0) (j 1)
  have e : j = ix2 (j 0) (j 1) := eq_ix2 j
  conv_lhs => rw [e]
  exact h

/-- The accelerator product of the two operands rounded to a narrower format, into a zero accumulator, read at
    (a, b): the sum of the products of the UNROUNDED entries. -/
theorem matmul_rounded_apply (w : DotDims.WF ⟨2, ![M, K]⟩ ⟨2, ![K, N]⟩ ⟨2, ![M, N]⟩ [1] [0] [0] [1] [] [])
    (prec : Option ContractPrecision) (ψ : FTy) (h₁ : ψ.bits < φ₁.bits) (h₂ : ψ.bits < φ₂.bits)
    (A : FVec Ideal ⟨2, ![M, K]⟩ φ₁) (B : FVec Ideal ⟨2, ![K, N]⟩ φ₂) (a : Fin M) (b : Fin N) :
    matmul (⟨[1], [0], [0], [1], [], [], w⟩ : DotDims ⟨2, ![M, K]⟩ ⟨2, ![K, N]⟩ ⟨2, ![M, N]⟩) prec
        (truncf ψ A h₁) (truncf ψ B h₂) (constant ⟨2, ![M, N]⟩ .f32 0x00000000#32) (ix2 a b)
      = ∑ c : Fin K, A (ix2 a c) * B (ix2 c b) :=
  Cert.LibDot2.matmul_zero_apply w prec (truncf ψ A h₁) (truncf ψ B h₂) a b

end Cert.LibDotNN

end
-- ==== Proof.MatmulValue.lean ====
/-
  What region 0 leaves in its output array, at the ideal values: entry (r, q) is the sum over k of x(r, k) · W(k, q),
  for the arrays x and W as the region finds them. Each grid point writes back one block of 10000 rows; a block's
  entry is the product of the point's block of x (rows 10000·t …) with the whole of W, the roundings being the
  identity on extended reals; the ten blocks tile the array.
-/
import proofs.«106071_j44908178047711_2_alg».proof.Proof.Matmul
import proofs.«106071_j44908178047711_2_alg».proof.Proof.LibDotNN
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MatmulValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The product of the two arrays, entry by entry. -/
abbrev prodAll (a0 : FVec Ideal S100000x128 .f32) (a1 : FVec Ideal S128x128 .f32) : FVec Ideal S100000x128 .bf16 :=
  fun i => ∑ k : Fin 128, a0 (ix2 (i 0) k) * a1 (ix2 k (i 1))

theorem hz : (![0, 0] : Fin 2 → Nat) = fun _ => 0 := funext fun a => by fin_cases a <;> rfl

/-- The body's payload at an entry of the block: the sum of products of the two loaded blocks. -/
theorem pay_at (x0 : FVec Ideal S10000x128 .f32) (x1 : FVec Ideal S128x128 .f32) (p : Fin 10000) (q : Fin 128) :
    k0_pay1 (F := Ideal) x0 x1 (ix2 p q) = ∑ k : Fin 128, x0 (ix2 p k) * x1 (ix2 k q) := by
  unfold k0_pay1
  exact Cert.LibDotNN.matmul_rounded_apply dot_S10000x128_S128x128_S10000x128_1_0_0_1_n_n.wf none .bf16 bitsLt_bf16_f32 bitsLt_bf16_f32 x0 x1 p q

/-- The printed index maps over the grid: the rows of x move with the output's rows, W stays. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- The payload of point `t`'s two input blocks is block `t` of the product, for any two arrays. -/
theorem block_prod (X : FVec Ideal S100000x128 .f32) (Wt : FVec Ideal S128x128 .f32) (t : Fin cfg0.N) :
    k0_pay1 (F := Ideal) (((cfg0.win 0).blk t).view.read (Elt Ideal) X) (((cfg0.win 1).blk t).view.read (Elt Ideal) Wt)
      = ((cfg0.win 2).blk t).view.read (Elt Ideal) (prodAll X Wt) := by
  obtain ⟨e0, e1, e2, e3, e4, e5⟩ := idx_facts t
  funext j
  obtain ⟨p, q, rfl⟩ : ∃ (p : Fin 10000) (q : Fin 128), j = ix2 p q := ⟨j 0, j 1, eq_ix2 j⟩
  refine (pay_at _ _ p q).trans ?_
  show (∑ k : Fin 128, X (((cfg0.win 0).blk t).view.emb (ix2 p k)) * Wt (((cfg0.win 1).blk t).view.emb (ix2 k q)))
    = ∑ k : Fin 128, X (ix2 ((((cfg0.win 2).blk t).view.emb (ix2 p q)) 0) k) * Wt (ix2 k ((((cfg0.win 2).blk t).view.emb (ix2 p q)) 1))
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]
  rfl

/-- What point `t` writes back is block `t` of the product of the arrays as the region finds them. -/
theorem flushed_prod (c : Dev nD) (t : Fin cfg0.N) :
    (Matmul.dat0 V c).flushed 2 t = ((cfg0.win 2).blk t).view.read (Elt Ideal) (prodAll (V c main_arg0) (V c main_arg2)) := by
  show (cfg0.win 2).cut (grid0.coords t) ((Matmul.dat0 V c).after 2 t) = _
  rw [Matmul.after0_2]
  unfold Matmul.prodOut
  rw [View.canon_unit_zero hz]
  simp only [View.ld_unit_zero (S := S10000x128) hz, View.ld_unit_zero (S := S128x128) hz]
  exact block_prod (V c main_arg0) (V c main_arg2) t

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- Every entry of the array lies in the block of the point its row falls in. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨e0, e1, e2, e3, e4, e5⟩ := idx_facts t
  have e5' : win0_2.index t (0 : Fin 2) = (i 0).val / 10000 := e5
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE ARRAY after region 0: the product of x and W as the region finds them. -/
theorem prod_final (c : Dev nD) : (Matmul.dat0 V c).arrAt 2 cfg0.N = prodAll (V c main_arg0) (V c main_arg2) :=
  (Matmul.dat0 V c).arrAt_eq_of_cover 2 _ (fun t _ => flushed_prod V c t) covered

end Cert.KernelIdeal.MatmulValue

end
-- ==== Proof.NormActValue.lean ====
/-
  What region 2 leaves in its output array, at the ideal values: entry (r, q) is the leaky rectifier of
  A(r, q) · s(0, q) + o(0, q), for the aggregated array A, the scale row s and the offset row o as the region finds
  them. Each grid point writes back one block of 10000 rows, a pointwise function of its block of A and of the two
  rows; the ten blocks tile the array.
-/
import proofs.«106071_j44908178047711_2_alg».proof.Proof.NormAct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.NormActValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- One entry: y = a·s + o, kept where y > 0 and scaled by the slope word elsewhere. -/
def actAt (a s o : Ideal .f32) : Ideal .f32 :=
  Scalar.select (FloatOps.cmpf .ogt (a * s + o) (Scalar.ofBits (F := Ideal) .f32 0x00000000#32)) (a * s + o)
    (Scalar.ofBits (F := Ideal) .f32 0x3C23D70A#32 * (a * s + o))

/-- The whole array, entry by entry. -/
abbrev actAll (A : FVec Ideal S100000x128 .f32) (sc of : FVec Ideal S1x128 .f32) : FVec Ideal S100000x128 .f32 :=
  fun i => actAt (A i) (sc (ix2 (0 : Fin 1) (i 1))) (of (ix2 (0 : Fin 1) (i 1)))

theorem hz : (![0, 0] : Fin 2 → Nat) = fun _ => 0 := funext fun a => by fin_cases a <;> rfl

/-- The body's payload at an entry of the block. -/
theorem pay_at (x0 : FVec Ideal S10000x128 .f32) (x1 x2 : FVec Ideal S1x128 .f32) (p : Fin 10000) (q : Fin 128) :
    k2_pay1 (F := Ideal) x0 x1 x2 (ix2 p q) = actAt (x0 (ix2 p q)) (x1 (ix2 (0 : Fin 1) q)) (x2 (ix2 (0 : Fin 1) q)) := by
  unfold k2_pay1 actAt
  simp only [shapeCast_self, select_apply, cmpf_apply, addf_apply, mulf_apply, broadcast_apply, broadcastTo_1b_ab_apply]

/-- The printed index maps over the grid: the rows of A move with the output's rows, the two rows stay. -/
theorem idx_facts : ∀ t : Fin cfg2.N, win2_0.index t (0 : Fin 2) = win2_3.index t (0 : Fin 2)
    ∧ win2_0.index t (1 : Fin 2) = 0 ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) = t.val :=
  (by decide +kernel : ∀ t : Fin grid2.N, _)

/-- What point `t` writes back is block `t` of the whole-array function of the arrays as the region finds them. -/
theorem flushed_act (c : Dev nD) (t : Fin cfg2.N) :
    (NormAct.dat2 V c).flushed 3 t = ((cfg2.win 3).blk t).view.read (Elt Ideal) (actAll (V c main_v46) (V c main_v77) (V c main_v83)) := by
  show (cfg2.win 3).cut (grid2.coords t) ((NormAct.dat2 V c).after 3 t) = _
  rw [NormAct.after2_3]
  unfold NormAct.actOut
  rw [View.canon_unit_zero hz]
  simp only [View.ld_unit_zero (S := S10000x128) hz, View.ld_unit_zero (S := S1x128) hz]
  obtain ⟨e0, e1, e2, e3, e4, e5, e6, e7⟩ := idx_facts t
  funext j
  obtain ⟨p, q, rfl⟩ : ∃ (p : Fin 10000) (q : Fin 128), j = ix2 p q := ⟨j 0, j 1, eq_ix2 j⟩
  refine (pay_at _ _ _ p q).trans ?_
  show actAt (V c main_v46 (((cfg2.win 0).blk t).view.emb (ix2 p q))) (V c main_v77 (((cfg2.win 1).blk t).view.emb (ix2 (0 : Fin 1) q)))
      (V c main_v83 (((cfg2.win 2).blk t).view.emb (ix2 (0 : Fin 1) q)))
    = actAt (V c main_v46 (((cfg2.win 3).blk t).view.emb (ix2 p q))) (V c main_v77 (ix2 (0 : Fin 1) ((((cfg2.win 3).blk t).view.emb (ix2 p q)) 1)))
      (V c main_v83 (ix2 (0 : Fin 1) ((((cfg2.win 3).blk t).view.emb (ix2 p q)) 1)))
  have h0 : ((cfg2.win 0).blk t).view.emb (ix2 p q) = ((cfg2.win 3).blk t).view.emb (ix2 p q) := by
    funext a; apply Fin.ext
    match a with
    | ⟨0, _⟩ => show win2_0.index t (0 : Fin 2) * 10000 + 1 * p.val = win2_3.index t (0 : Fin 2) * 10000 + 1 * p.val; omega
    | ⟨1, _⟩ => show win2_0.index t (1 : Fin 2) * 128 + 1 * q.val = win2_3.index t (1 : Fin 2) * 128 + 1 * q.val; omega
  have h1 : ((cfg2.win 1).blk t).view.emb (ix2 (0 : Fin 1) q) = ix2 (0 : Fin 1) ((((cfg2.win 3).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 128 + 1 * q.val = win2_3.index t (1 : Fin 2) * 128 + 1 * q.val; omega
  have h2 : ((cfg2.win 2).blk t).view.emb (ix2 (0 : Fin 1) q) = ix2 (0 : Fin 1) ((((cfg2.win 3).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega
  rw [h0, h1, h2]
  rfl

/-- An index of the array is in point `t`'s block iff each coordinate is in the block's range on its axis. -/
theorem mem_blk (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v84).slice (win2_3.rect t)).set ↔ _
  rw [View.set_slice_whole, Rect.mem_set_unit]
  exact Iff.rfl

/-- Every entry of the array lies in the block of the point its row falls in. -/
theorem covered (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 10 := N_2
  let t : Fin cfg2.N := ⟨(i 0).val / 10000, by rw [hN]; omega⟩
  obtain ⟨e0, e1, e2, e3, e4, e5, e6, e7⟩ := idx_facts t
  have e7' : win2_3.index t (0 : Fin 2) = (i 0).val / 10000 := e7
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 128 ≤ (i 1).val ∧ (i 1).val < win2_3.index t (1 : Fin 2) * 128 + 128; omega

/-- THE ARRAY after region 2. -/
theorem act_final (c : Dev nD) : (NormAct.dat2 V c).arrAt 3 cfg2.N = actAll (V c main_v46) (V c main_v77) (V c main_v83) :=
  (NormAct.dat2 V c).arrAt_eq_of_cover 3 _ (fun t _ => flushed_act V c t) covered

end Cert.KernelIdeal.NormActValue

end
-- ==== Proof.MathDefs.lean ====
/-
  The two programs' common mathematics, as plain functions of the argument arrays at the exact (extended-real) values.

  mm x W      the matrix product [100000,128] x [128,128], entry (n, j) the sum over k of x (n, k) * W (k, j).
  aggOf ei h  the graph aggregation of the node features h along the edge list ei with self-loops appended and the
              symmetric normalisation: the reference program's host operations %0 … %45 composed in program order, one
              `have` per operation with the operation's own function expression, the matrix product %32 replaced by
              the parameter h.  Entry (n, j) is the sum, over the edges e whose destination is n, of
              h (src e, j) * (dis (src e) * dis (dst e)), dis = 1/sqrt(deg) where deg > 0 and 0 elsewhere.
  statsOf S Q b gw gb ms   from the column sums S of the aggregate and Q of its squares, the per-column scale and
              shift of the fused normalisation: the kernel program's 42 host operations from its constant 1e5 to its
              value %83, composed in program order the same way.  First component the scale (%77), second the shift (%83).
  G           aggregate, column sums, scale and shift, then y = A * scale + shift and the leaky rectifier on y.

  aggOfAt and statsOfAt are the two compositions at any float instance (the programs are printed over a variable
  instance, and an operation's instance is read off its operands' types only when it is a variable); aggOf and statsOf
  are their values at the extended reals.
-/
import proofs.«106071_j44908178047711_2_alg».proof.Proof.Gen.ReferenceIdeal
import proofs.«106071_j44908178047711_2_alg».proof.Proof.Gen.KernelIdeal
import Idealize.ShloMosaic.Lib.ValueIdx
import Idealize.ShloMosaic.PureOps.Ideal.Laws

noncomputable section

namespace Cert.Bridge

open Idealize.ShloMosaic Idealize.ShloMosaic.ValueIdx

section Reference
open Cert.ReferenceIdeal Cert.ReferenceIdeal.Gen

/-- The matrix product, entry by entry. -/
def mm (x : FVec Ideal S100000x128 .f32) (W : FVec Ideal S128x128 .f32) : FVec Ideal S100000x128 .f32 :=
  fun i => ∑ k : Fin 128, x (ix2 (i 0) k) * W (ix2 k (i 1))

/-- The normalised aggregation of the rows of `h` along the edges `ei` (self-loops appended), at any float instance:
    the reference program's operations %0 … %45 in program order, %32 (the matrix product) being the parameter `h`. -/
def aggOfAt {F : FTy → Type} [FloatOps F] (ei : (⟨S2x1600000, .i32⟩ : BufTy).Contents (Elt F))
    (h : (⟨S100000x128, .f32⟩ : BufTy).Contents (Elt F)) : (⟨S100000x128, .f32⟩ : BufTy).Contents (Elt F) :=
  have main_v0 : (⟨S100000, .i32⟩ : BufTy).Contents (Elt F) := iotaInDim S100000 32 0
  have main_v1 : (⟨S1x1600000, .i32⟩ : BufTy).Contents (Elt F) := extractStridedSlice S1x1600000 ![0, 0] ei slices_S2x1600000_S1x1600000_0_0
  have main_v2 : (⟨S1600000, .i32⟩ : BufTy).Contents (Elt F) := shapeCast _ main_v1 shapeCasts_S1x1600000_S1600000
  have main_v3 : (⟨S1700000, .i32⟩ : BufTy).Contents (Elt F) := concatenate S1700000 0 [⟨S1600000, main_v2⟩, ⟨S100000, main_v0⟩] concatenates_S1600000_S100000_S1700000_d0
  have main_v4 : (⟨S1x1600000, .i32⟩ : BufTy).Contents (Elt F) := extractStridedSlice S1x1600000 ![1, 0] ei slices_S2x1600000_S1x1600000_1_0
  have main_v5 : (⟨S1600000, .i32⟩ : BufTy).Contents (Elt F) := shapeCast _ main_v4 shapeCasts_S1x1600000_S1600000
  have main_v6 : (⟨S1700000, .i32⟩ : BufTy).Contents (Elt F) := concatenate S1700000 0 [⟨S1600000, main_v5⟩, ⟨S100000, main_v0⟩] concatenates_S1600000_S100000_S1700000_d0
  have main_cst : (⟨S_, .f32⟩ : BufTy).Contents (Elt F) := constant S_ .f32 0x3F800000#32
  have main_v7 : (⟨S1700000, .f32⟩ : BufTy).Contents (Elt F) := broadcastInDim S1700000 ![] bcast_S_S1700000 main_cst
  have main_cst_0 : (⟨S_, .f32⟩ : BufTy).Contents (Elt F) := constant S_ .f32 0x00000000#32
  have main_v8 : (⟨S100000, .f32⟩ : BufTy).Contents (Elt F) := broadcastInDim S100000 ![] bcast_S_S100000 main_cst_0
  have main_v9 : (⟨S1700000x1, .i32⟩ : BufTy).Contents (Elt F) := broadcastInDim S1700000x1 ![0] bcast_S1700000_S1700000x1_0 main_v6
  have main_v10 : (⟨S100000, .f32⟩ : BufTy).Contents (Elt F) := Host.scatterAdd scatter_S100000_S1700000x1_S1700000_n_0_0_1 main_v8 main_v9 main_v7
  have main_cst_1 : (⟨S_, .f32⟩ : BufTy).Contents (Elt F) := constant S_ .f32 0x00000000#32
  have main_v11 : (⟨S100000, .f32⟩ : BufTy).Contents (Elt F) := broadcastInDim S100000 ![] bcast_S_S100000 main_cst_1
  have main_v12 : (⟨S100000, .i1⟩ : BufTy).Contents (Elt F) := cmpf .ogt main_v10 main_v11
  have main_v13 : (⟨S100000, .f32⟩ : BufTy).Contents (Elt F) := Host.sqrt main_v10
  have main_cst_2 : (⟨S_, .f32⟩ : BufTy).Contents (Elt F) := constant S_ .f32 0x3F800000#32
  have main_v14 : (⟨S100000, .f32⟩ : BufTy).Contents (Elt F) := broadcastInDim S100000 ![] bcast_S_S100000 main_cst_2
  have main_v15 : (⟨S100000, .f32⟩ : BufTy).Contents (Elt F) := Host.divf main_v14 main_v13
  have main_cst_3 : (⟨S_, .f32⟩ : BufTy).Contents (Elt F) := constant S_ .f32 0x00000000#32
  have main_call0_v0 : (⟨S_, .f32⟩ : BufTy).Contents (Elt F) := id main_cst_3
  have main_call0_v1 : (⟨S100000, .f32⟩ : BufTy).Contents (Elt F) := broadcastInDim S100000 ![] bcast_S_S100000 main_call0_v0
  have main_v16 : (⟨S100000, .f32⟩ : BufTy).Contents (Elt F) := select main_v12 main_v15 main_call0_v1
  have main_c : (⟨S_, .i32⟩ : BufTy).Contents (Elt F) := constantI S_ 32 0#32
  have main_v17 : (⟨S1700000, .i32⟩ : BufTy).Contents (Elt F) := broadcastInDim S1700000 ![] bcast_S_S1700000 main_c
  have main_v18 : (⟨S1700000, .i1⟩ : BufTy).Contents (Elt F) := cmpi .slt main_v3 main_v17
  have main_c_4 : (⟨S_, .i32⟩ : BufTy).Contents (Elt F) := constantI S_ 32 100000#32
  have main_v19 : (⟨S1700000, .i32⟩ : BufTy).Contents (Elt F) := broadcastInDim S1700000 ![] bcast_S_S1700000 main_c_4
  have main_v20 : (⟨S1700000, .i32⟩ : BufTy).Contents (Elt F) := addi main_v3 main_v19
  have main_v21 : (⟨S1700000, .i32⟩ : BufTy).Contents (Elt F) := select main_v18 main_v20 main_v3
  have main_v22 : (⟨S1700000x1, .i32⟩ : BufTy).Contents (Elt F) := broadcastInDim S1700000x1 ![0] bcast_S1700000_S1700000x1_0 main_v21
  have main_v23 : (⟨S1700000, .f32⟩ : BufTy).Contents (Elt F) := Host.gather gather_S100000_S1700000x1_S1700000_n_0_n_n_0_1_1 main_v16 main_v22
  have main_c_5 : (⟨S_, .i32⟩ : BufTy).Contents (Elt F) := constantI S_ 32 0#32
  have main_v24 : (⟨S1700000, .i32⟩ : BufTy).Contents (Elt F) := broadcastInDim S1700000 ![] bcast_S_S1700000 main_c_5
  have main_v25 : (⟨S1700000, .i1⟩ : BufTy).Contents (Elt F) := cmpi .slt main_v6 main_v24
  have main_c_6 : (⟨S_, .i32⟩ : BufTy).Contents (Elt F) := constantI S_ 32 100000#32
  have main_v26 : (⟨S1700000, .i32⟩ : BufTy).Contents (Elt F) := broadcastInDim S1700000 ![] bcast_S_S1700000 main_c_6
  have main_v27 : (⟨S1700000, .i32⟩ : BufTy).Contents (Elt F) := addi main_v6 main_v26
  have main_v28 : (⟨S1700000, .i32⟩ : BufTy).Contents (Elt F) := select main_v25 main_v27 main_v6
  have main_v29 : (⟨S1700000x1, .i32⟩ : BufTy).Contents (Elt F) := broadcastInDim S1700000x1 ![0] bcast_S1700000_S1700000x1_0 main_v28
  have main_v30 : (⟨S1700000, .f32⟩ : BufTy).Contents (Elt F) := Host.gather gather_S100000_S1700000x1_S1700000_n_0_n_n_0_1_1 main_v16 main_v29
  have main_v31 : (⟨S1700000, .f32⟩ : BufTy).Contents (Elt F) := mulf main_v23 main_v30
  have main_c_7 : (⟨S_, .i32⟩ : BufTy).Contents (Elt F) := constantI S_ 32 0#32
  have main_v33 : (⟨S1700000, .i32⟩ : BufTy).Contents (Elt F) := broadcastInDim S1700000 ![] bcast_S_S1700000 main_c_7
  have main_v34 : (⟨S1700000, .i1⟩ : BufTy).Contents (Elt F) := cmpi .slt main_v3 main_v33
  have main_c_8 : (⟨S_, .i32⟩ : BufTy).Contents (Elt F) := constantI S_ 32 100000#32
  have main_v35 : (⟨S1700000, .i32⟩ : BufTy).Contents (Elt F) := broadcastInDim S1700000 ![] bcast_S_S1700000 main_c_8
  have main_v36 : (⟨S1700000, .i32⟩ : BufTy).Contents (Elt F) := addi main_v3 main_v35
  have main_v37 : (⟨S1700000, .i32⟩ : BufTy).Contents (Elt F) := select main_v34 main_v36 main_v3
  have main_v38 : (⟨S1700000x1, .i32⟩ : BufTy).Contents (Elt F) := broadcastInDim S1700000x1 ![0] bcast_S1700000_S1700000x1_0 main_v37
  have main_v39 : (⟨S1700000x128, .f32⟩ : BufTy).Contents (Elt F) := Host.gather gather_S100000x128_S1700000x1_S1700000x128_1_0_n_n_0_1_1128 h main_v38
  have main_v40 : (⟨S1700000x1, .f32⟩ : BufTy).Contents (Elt F) := broadcastInDim S1700000x1 ![0] bcast_S1700000_S1700000x1_0 main_v31
  have main_v41 : (⟨S1700000x128, .f32⟩ : BufTy).Contents (Elt F) := broadcastInDim S1700000x128 ![0, 1] bcast_S1700000x1_S1700000x128_0_1 main_v40
  have main_v42 : (⟨S1700000x128, .f32⟩ : BufTy).Contents (Elt F) := mulf main_v39 main_v41
  have main_cst_9 : (⟨S_, .f32⟩ : BufTy).Contents (Elt F) := constant S_ .f32 0x00000000#32
  have main_v43 : (⟨S100000x128, .f32⟩ : BufTy).Contents (Elt F) := broadcastInDim S100000x128 ![] bcast_S_S100000x128 main_cst_9
  have main_v44 : (⟨S1700000x1, .i32⟩ : BufTy).Contents (Elt F) := broadcastInDim S1700000x1 ![0] bcast_S1700000_S1700000x1_0 main_v6
  have main_v45 : (⟨S100000x128, .f32⟩ : BufTy).Contents (Elt F) := Host.scatterAdd scatter_S100000x128_S1700000x1_S1700000x128_1_0_0_1 main_v43 main_v44 main_v42
  main_v45

/-- The aggregation at the extended reals. -/
def aggOf (ei : (⟨S2x1600000, .i32⟩ : BufTy).Contents (Elt Ideal)) (h : FVec Ideal S100000x128 .f32) : FVec Ideal S100000x128 .f32 :=
  aggOfAt (F := Ideal) ei h

end Reference

section Kernel
open Cert.KernelIdeal Cert.KernelIdeal.Gen

/-- The scale and the shift of the fused normalisation from the column sums `S` and the column sums of squares `Q`, at
    any float instance: the kernel program's host operations from its first constant 1e5 to %83 in program order. -/
def statsOfAt {F : FTy → Type} [FloatOps F] (S Q : (⟨S1x128, .f32⟩ : BufTy).Contents (Elt F))
    (b gw gb ms : (⟨S128, .f32⟩ : BufTy).Contents (Elt F)) :
    (⟨S1x128, .f32⟩ : BufTy).Contents (Elt F) × (⟨S1x128, .f32⟩ : BufTy).Contents (Elt F) :=
  have main_cst_10 : (⟨S_, .f32⟩ : BufTy).Contents (Elt F) := constant S_ .f32 0x47C35000#32
  have main_v48 : (⟨S1x128, .f32⟩ : BufTy).Contents (Elt F) := (broadcastInDim S1x128 ![] bcast_S_S1x128 : (⟨S_, .f32⟩ : BufTy).Contents (Elt F) → (⟨S1x128, .f32⟩ : BufTy).Contents (Elt F)) main_cst_10
  have main_v49 : (⟨S1x128, .f32⟩ : BufTy).Contents (Elt F) := (Host.divf : (⟨S1x128, .f32⟩ : BufTy).Contents (Elt F) → (⟨S1x128, .f32⟩ : BufTy).Contents (Elt F) → (⟨S1x128, .f32⟩ : BufTy).Contents (Elt F)) S main_v48
  have main_v50 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) b
  have main_v51 : (⟨S1x128, .f32⟩ : BufTy).Contents (Elt F) := (addf : (⟨S1x128, .f32⟩ : BufTy).Contents (Elt F) → (⟨S1x128, .f32⟩ : BufTy).Contents (Elt F) → (⟨S1x128, .f32⟩ : BufTy).Contents (Elt F)) main_v49 main_v50
  have main_v52 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) ms
  have main_v53 : (⟨S1x128, .f32⟩ : BufTy).Contents (Elt F) := (mulf : (⟨S1x128, .f32⟩ : BufTy).Contents (Elt F) → (⟨S1x128, .f32⟩ : BufTy).Contents (Elt F) → (⟨S1x128, .f32⟩ : BufTy).Contents (Elt F)) main_v51 main_v52
  have main_cst_11 : (⟨S_, .f32⟩ : BufTy).Contents (Elt F) := constant S_ .f32 0x47C35000#32
  have main_v54 : (⟨S1x128, .f32⟩ : BufTy).Contents (Elt F) := (broadcastInDim S1x128 ![] bcast_S_S1x128 : (⟨S_, .f32⟩ : BufTy).Contents (Elt F) → (⟨S1x128, .f32⟩ : BufTy).Contents (Elt F)) main_cst_11
  have main_v55 : (⟨S1x128, .f32⟩ : BufTy).Contents (Elt F) := (Host.divf : (⟨S1x128, .f32⟩ : BufTy).Contents (Elt F) → (⟨S1x128, .f32⟩ : BufTy).Contents (Elt F) → (⟨S1x128, .f32⟩ : BufTy).Contents (Elt F)) Q main_v54
  have main_v56 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) b
  have main_cst_12 : (⟨S_, .f32⟩ : BufTy).Contents (Elt F) := constant S_ .f32 0x40000000#32
  have main_v57 : (⟨S1x128, .f32⟩ : BufTy).Contents (Elt F) := (broadcastInDim S1x128 ![] bcast_S_S1x128 : (⟨S_, .f32⟩ : BufTy).Contents (Elt F) → (⟨S1x128, .f32⟩ : BufTy).Contents (Elt F)) main_cst_12
  have main_v58 : (⟨S1x128, .f32⟩ : BufTy).Contents (Elt F) := (mulf : (⟨S1x128, .f32⟩ : BufTy).Contents (Elt F) → (⟨S1x128, .f32⟩ : BufTy).Contents (Elt F) → (⟨S1x128, .f32⟩ : BufTy).Contents (Elt F)) main_v57 main_v56
  have main_v59 : (⟨S1x128, .f32⟩ : BufTy).Contents (Elt F) := (mulf : (⟨S1x128, .f32⟩ : BufTy).Contents (Elt F) → (⟨S1x128, .f32⟩ : BufTy).Contents (Elt F) → (⟨S1x128, .f32⟩ : BufTy).Contents (Elt F)) main_v58 main_v49
  have main_v60 : (⟨S1x128, .f32⟩ : BufTy).Contents (Elt F) := (addf : (⟨S1x128, .f32⟩ : BufTy).Contents (Elt F) → (⟨S1x128, .f32⟩ : BufTy).Contents (Elt F) → (⟨S1x128, .f32⟩ : BufTy).Contents (Elt F)) main_v55 main_v59
  have main_v61 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) b
  have main_v62 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) b
  have main_v63 : (⟨S1x128, .f32⟩ : BufTy).Contents (Elt F) := (mulf : (⟨S1x128, .f32⟩ : BufTy).Contents (Elt F) → (⟨S1x128, .f32⟩ : BufTy).Contents (Elt F) → (⟨S1x128, .f32⟩ : BufTy).Contents (Elt F)) main_v61 main_v62
  have main_v64 : (⟨S1x128, .f32⟩ : BufTy).Contents (Elt F) := (addf : (⟨S1x128, .f32⟩ : BufTy).Contents (Elt F) → (⟨S1x128, .f32⟩ : BufTy).Contents (Elt F) → (⟨S1x128, .f32⟩ : BufTy).Contents (Elt F)) main_v60 main_v63
  have main_cst_13 : (⟨S_, .f32⟩ : BufTy).Contents (Elt F) := constant S_ .f32 0x40000000#32
  have main_v65 : (⟨S1x128, .f32⟩ : BufTy).Contents (Elt F) := (broadcastInDim S1x128 ![] bcast_S_S1x128 : (⟨S_, .f32⟩ : BufTy).Contents (Elt F) → (⟨S1x128, .f32⟩ : BufTy).Contents (Elt F)) main_cst_13
  have main_v66 : (⟨S1x128, .f32⟩ : BufTy).Contents (Elt F) := (mulf : (⟨S1x128, .f32⟩ : BufTy).Contents (Elt F) → (⟨S1x128, .f32⟩ : BufTy).Contents (Elt F) → (⟨S1x128, .f32⟩ : BufTy).Contents (Elt F)) main_v65 main_v53
  have main_v67 : (⟨S1x128, .f32⟩ : BufTy).Contents (Elt F) := (mulf : (⟨S1x128, .f32⟩ : BufTy).Contents (Elt F) → (⟨S1x128, .f32⟩ : BufTy).Contents (Elt F) → (⟨S1x128, .f32⟩ : BufTy).Contents (Elt F)) main_v66 main_v51
  have main_v68 : (⟨S1x128, .f32⟩ : BufTy).Contents (Elt F) := (subf : (⟨S1x128, .f32⟩ : BufTy).Contents (Elt F) → (⟨S1x128, .f32⟩ : BufTy).Contents (Elt F) → (⟨S1x128, .f32⟩ : BufTy).Contents (Elt F)) main_v64 main_v67
  have main_v69 : (⟨S1x128, .f32⟩ : BufTy).Contents (Elt F) := (mulf : (⟨S1x128, .f32⟩ : BufTy).Contents (Elt F) → (⟨S1x128, .f32⟩ : BufTy).Contents (Elt F) → (⟨S1x128, .f32⟩ : BufTy).Contents (Elt F)) main_v53 main_v53
  have main_v70 : (⟨S1x128, .f32⟩ : BufTy).Contents (Elt F) := (addf : (⟨S1x128, .f32⟩ : BufTy).Contents (Elt F) → (⟨S1x128, .f32⟩ : BufTy).Contents (Elt F) → (⟨S1x128, .f32⟩ : BufTy).Contents (Elt F)) main_v68 main_v69
  have main_cst_14 : (⟨S_, .f32⟩ : BufTy).Contents (Elt F) := constant S_ .f32 0x00000000#32
  have main_v71 : (⟨S1x128, .f32⟩ : BufTy).Contents (Elt F) := (broadcastInDim S1x128 ![] bcast_S_S1x128 : (⟨S_, .f32⟩ : BufTy).Contents (Elt F) → (⟨S1x128, .f32⟩ : BufTy).Contents (Elt F)) main_cst_14
  have main_v72 : (⟨S1x128, .f32⟩ : BufTy).Contents (Elt F) := (maximumf : (⟨S1x128, .f32⟩ : BufTy).Contents (Elt F) → (⟨S1x128, .f32⟩ : BufTy).Contents (Elt F) → (⟨S1x128, .f32⟩ : BufTy).Contents (Elt F)) main_v70 main_v71
  have main_cst_15 : (⟨S_, .f32⟩ : BufTy).Contents (Elt F) := constant S_ .f32 0x3727C5AC#32
  have main_v73 : (⟨S1x128, .f32⟩ : BufTy).Contents (Elt F) := (broadcastInDim S1x128 ![] bcast_S_S1x128 : (⟨S_, .f32⟩ : BufTy).Contents (Elt F) → (⟨S1x128, .f32⟩ : BufTy).Contents (Elt F)) main_cst_15
  have main_v74 : (⟨S1x128, .f32⟩ : BufTy).Contents (Elt F) := (addf : (⟨S1x128, .f32⟩ : BufTy).Contents (Elt F) → (⟨S1x128, .f32⟩ : BufTy).Contents (Elt F) → (⟨S1x128, .f32⟩ : BufTy).Contents (Elt F)) main_v72 main_v73
  have main_v75 : (⟨S1x128, .f32⟩ : BufTy).Contents (Elt F) := (Host.rsqrt : (⟨S1x128, .f32⟩ : BufTy).Contents (Elt F) → (⟨S1x128, .f32⟩ : BufTy).Contents (Elt F)) main_v74
  have main_v76 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) gw
  have main_v77 : (⟨S1x128, .f32⟩ : BufTy).Contents (Elt F) := (mulf : (⟨S1x128, .f32⟩ : BufTy).Contents (Elt F) → (⟨S1x128, .f32⟩ : BufTy).Contents (Elt F) → (⟨S1x128, .f32⟩ : BufTy).Contents (Elt F)) main_v75 main_v76
  have main_v78 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) gb
  have main_v79 : (⟨S1x128, .f32⟩ : BufTy).Contents (Elt F) := (mulf : (⟨S1x128, .f32⟩ : BufTy).Contents (Elt F) → (⟨S1x128, .f32⟩ : BufTy).Contents (Elt F) → (⟨S1x128, .f32⟩ : BufTy).Contents (Elt F)) main_v53 main_v77
  have main_v80 : (⟨S1x128, .f32⟩ : BufTy).Contents (Elt F) := (subf : (⟨S1x128, .f32⟩ : BufTy).Contents (Elt F) → (⟨S1x128, .f32⟩ : BufTy).Contents (Elt F) → (⟨S1x128, .f32⟩ : BufTy).Contents (Elt F)) main_v78 main_v79
  have main_v81 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) b
  have main_v82 : (⟨S1x128, .f32⟩ : BufTy).Contents (Elt F) := (mulf : (⟨S1x128, .f32⟩ : BufTy).Contents (Elt F) → (⟨S1x128, .f32⟩ : BufTy).Contents (Elt F) → (⟨S1x128, .f32⟩ : BufTy).Contents (Elt F)) main_v81 main_v77
  have main_v83 : (⟨S1x128, .f32⟩ : BufTy).Contents (Elt F) := (addf : (⟨S1x128, .f32⟩ : BufTy).Contents (Elt F) → (⟨S1x128, .f32⟩ : BufTy).Contents (Elt F) → (⟨S1x128, .f32⟩ : BufTy).Contents (Elt F)) main_v80 main_v82
  (main_v77, main_v83)

/-- The scale and the shift at the extended reals. -/
def statsOf (S Q : FVec Ideal S1x128 .f32) (b gw gb ms : FVec Ideal S128 .f32) : FVec Ideal S1x128 .f32 × FVec Ideal S1x128 .f32 :=
  statsOfAt (F := Ideal) S Q b gw gb ms

end Kernel

section Whole
open Cert.ReferenceIdeal

/-- The whole computation: aggregate, sum the columns and their squares, scale and shift, leaky rectifier. -/
def G (x : FVec Ideal S100000x128 .f32) (ei : (⟨S2x1600000, .i32⟩ : BufTy).Contents (Elt Ideal)) (W : FVec Ideal S128x128 .f32)
    (b gw gb ms : FVec Ideal S128 .f32) : FVec Ideal S100000x128 .f32 :=
  let A : FVec Ideal S100000x128 .f32 := aggOf ei (mm x W)
  let S : FVec Ideal S1x128 .f32 := fun j => ∑ n : Fin 100000, A (ix2 n (j 1))
  let Q : FVec Ideal S1x128 .f32 := fun j => ∑ n : Fin 100000, A (ix2 n (j 1)) * A (ix2 n (j 1))
  let sb := statsOf S Q b gw gb ms
  fun i =>
    let y : EReal := A i * sb.1 (ix2 (0 : Fin 1) (i 1)) + sb.2 (ix2 (0 : Fin 1) (i 1))
    Scalar.select (Ideal.cmp .ogt y (Ideal.ofBits .f32 0x00000000#32)) y (Ideal.ofBits .f32 0x3C23D70A#32 * y)

end Whole

end Cert.Bridge

end
-- ==== Proof.KernelValue.lean ====
/-
  The value of the kernel's result at the ideal values, as one function of the argument arrays.
  Read backwards from the end: the result array is region 2's pointwise function of the aggregated array A and of the
  scale and offset rows; the two rows are the last stretch of host operations applied to the column sums of A and of
  A·A (region 1) and to the four parameter vectors; A is the stretch of host operations before region 1 applied to
  the product x·W (region 0) and to the edge list; no item in between touches what a later item reads from an earlier
  one. The result is `Cert.Bridge.G` of the seven argument arrays.
  Region 1's values enter as two hypotheses on its half (its two outputs are the column sums of its input array and of
  that array's squares).
-/
import proofs.«106071_j44908178047711_2_alg».proof.Proof.Whole
import proofs.«106071_j44908178047711_2_alg».proof.Proof.MatmulValue
import proofs.«106071_j44908178047711_2_alg».proof.Proof.NormActValue
import proofs.«106071_j44908178047711_2_alg».proof.Proof.MathDefs
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.Result

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Idealize.ShloMosaic.StableHlo

/-- The sums over the rows, per column, of an array and of its squares, as rows. -/
def colSum (A : FVec Ideal S100000x128 .f32) : FVec Ideal S1x128 .f32 := fun j => ∑ n : Fin 100000, A (ix2 n (j 1))
def colSq (A : FVec Ideal S100000x128 .f32) : FVec Ideal S1x128 .f32 := fun j => ∑ n : Fin 100000, A (ix2 n (j 1)) * A (ix2 n (j 1))

/-! ## The two long stretches of host operations, over any buffer contents -/

set_option maxHeartbeats 4000000 in
/-- The last stretch computes the scale and offset rows from the two rows of column statistics and the four
    parameter vectors, whatever the buffers hold. -/
theorem stats_chain (W : Valuation τ sig (Elt Ideal)) :
    (StableHlo.after hostOps2 W (Proc.devRef .tc main_v77), StableHlo.after hostOps2 W (Proc.devRef .tc main_v83))
      = Cert.Bridge.statsOf (W (Proc.devRef .tc main_v47_0)) (W (Proc.devRef .tc main_v47_1)) (W (Proc.devRef .tc main_arg3))
          (W (Proc.devRef .tc main_arg4)) (W (Proc.devRef .tc main_arg5)) (W (Proc.devRef .tc main_arg6)) := by
  unfold Cert.Bridge.statsOf Cert.Bridge.statsOfAt
  refine Prod.ext ?_ ?_
  · after_results_simp
  · after_results_simp

/-! ## The stretches of host operations before region 1, stage by stage, at any float instance -/

section Stages

variable {F : FTy → Type} [FloatOps F]

/-- The source list and the destination list: a row of the edge array with the node numbers appended (the self-loops). -/
def srcOf (ei : (⟨S2x1600000, .i32⟩ : BufTy).Contents (Elt F)) : (⟨S1700000, .i32⟩ : BufTy).Contents (Elt F) :=
  concatenate S1700000 0 [⟨S1600000, shapeCast _ (extractStridedSlice S1x1600000 ![0, 0] ei slices_S2x1600000_S1x1600000_0_0) shapeCasts_S1x1600000_S1600000⟩,
    ⟨S100000, iotaInDim S100000 32 0⟩] concatenates_S1600000_S100000_S1700000_d0
def dstOf (ei : (⟨S2x1600000, .i32⟩ : BufTy).Contents (Elt F)) : (⟨S1700000, .i32⟩ : BufTy).Contents (Elt F) :=
  concatenate S1700000 0 [⟨S1600000, shapeCast _ (extractStridedSlice S1x1600000 ![1, 0] ei slices_S2x1600000_S1x1600000_1_0) shapeCasts_S1x1600000_S1600000⟩,
    ⟨S100000, iotaInDim S100000 32 0⟩] concatenates_S1600000_S100000_S1700000_d0

/-- The degree of each node: ones accumulated over the destination list. -/
def degOf (dst : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 dst)
    (broadcastInDim S1700000 ![] bcast_S_S1700000 (constant S_ .f32 0x3F800000#32))

/-- Whether a degree is positive, and one over its square root. -/
def posOf (deg : (⟨S100000, .f32⟩ : BufTy).Contents (Elt F)) : (⟨S100000, .i1⟩ : BufTy).Contents (Elt F) :=
  cmpf .ogt deg (broadcastInDim S100000 ![] bcast_S_S100000 (constant S_ .f32 0x00000000#32))
def invOf (deg : (⟨S100000, .f32⟩ : BufTy).Contents (Elt F)) : (⟨S100000, .f32⟩ : BufTy).Contents (Elt F) :=
  Host.divf (broadcastInDim S100000 ![] bcast_S_S100000 (constant S_ .f32 0x3F800000#32)) (Host.sqrt deg)

/-- The guarded inverse square root: zero where the degree is not positive. -/
def disOf (pos : (⟨S100000, .i1⟩ : BufTy).Contents (Elt F)) (inv : (⟨S100000, .f32⟩ : BufTy).Contents (Elt F))
    (z : (⟨S_, .f32⟩ : BufTy).Contents (Elt F)) : (⟨S100000, .f32⟩ : BufTy).Contents (Elt F) :=
  select pos inv (broadcastInDim S100000 ![] bcast_S_S100000 (id z))

/-- A list of node numbers as gather indices: a negative number wrapped by the node count, as a column. -/
def wrapOf (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The weight of each edge: the product of the two endpoints' guarded inverse square roots. -/
def nrmOf (dis : (⟨S100000, .f32⟩ : BufTy).Contents (Elt F)) (src dst : (⟨S1700000, .i32⟩ : BufTy).Contents (Elt F)) :
    (⟨S1700000, .f32⟩ : BufTy).Contents (Elt F) :=
  mulf (Host.gather gather_S100000_S1700000x1_S1700000_n_0_n_n_0_1_1 dis (wrapOf src))
    (Host.gather gather_S100000_S1700000x1_S1700000_n_0_n_n_0_1_1 dis (wrapOf dst))

/-- The aggregation: the rows of the product gathered by source, scaled by the edge weights, accumulated by destination. -/
def accOf (h : (⟨S100000x128, .bf16⟩ : BufTy).Contents (Elt F)) (src dst : (⟨S1700000, .i32⟩ : BufTy).Contents (Elt F))
    (nrm : (⟨S1700000, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (mulf (extf .f32 (Host.gather gather_S100000x128_S1700000x1_S1700000x128_1_0_n_n_0_1_1128 h (wrapOf src)) bitsLt_bf16_f32)
      (broadcastInDim S1700000x128 ![0, 1] bcast_S1700000x1_S1700000x128_0_1 (broadcastInDim S1700000x1 ![0] bcast_S1700000_S1700000x1_0 nrm)))

variable (W : Valuation τ sig (Elt F))

set_option maxHeartbeats 2000000 in
theorem first_zero : StableHlo.after hostOps0 W (Proc.devRef .tc main_cst_3) = constant S_ .f32 0x00000000#32 := by
  after_results_simp <;> rfl

set_option maxHeartbeats 2000000 in
theorem first_src : StableHlo.after hostOps0 W (Proc.devRef .tc main_v3) = srcOf (W (Proc.devRef .tc main_arg1)) := by
  unfold srcOf; after_results_simp <;> rfl
set_option maxHeartbeats 2000000 in
theorem first_dst : StableHlo.after hostOps0 W (Proc.devRef .tc main_v6) = dstOf (W (Proc.devRef .tc main_arg1)) := by
  unfold dstOf; after_results_simp <;> rfl
set_option maxHeartbeats 2000000 in
theorem first_pos : StableHlo.after hostOps0 W (Proc.devRef .tc main_v12) = posOf (degOf (StableHlo.after hostOps0 W (Proc.devRef .tc main_v6))) := by
  unfold posOf degOf; after_results_simp <;> rfl
set_option maxHeartbeats 2000000 in
theorem first_inv : StableHlo.after hostOps0 W (Proc.devRef .tc main_v15) = invOf (degOf (StableHlo.after hostOps0 W (Proc.devRef .tc main_v6))) := by
  unfold invOf degOf; after_results_simp <;> rfl
set_option maxHeartbeats 2000000 in
theorem second_dis : StableHlo.after hostOps0_1 W (Proc.devRef .tc main_v16)
    = disOf (W (Proc.devRef .tc main_v12)) (W (Proc.devRef .tc main_v15)) (W (Proc.devRef .tc main_cst_3)) := by
  unfold disOf; after_results_simp <;> rfl
set_option maxHeartbeats 2000000 in
theorem third_nrm : StableHlo.after hostOps0_2 W (Proc.devRef .tc main_v31)
    = nrmOf (W (Proc.devRef .tc main_v16)) (W (Proc.devRef .tc main_v3)) (W (Proc.devRef .tc main_v6)) := by
  unfold nrmOf wrapOf; after_results_simp <;> rfl
set_option maxHeartbeats 2000000 in
theorem fourth_acc : StableHlo.after hostOps1 W (Proc.devRef .tc main_v46)
    = accOf (W (Proc.devRef .tc main_v32)) (W (Proc.devRef .tc main_v3)) (W (Proc.devRef .tc main_v6)) (W (Proc.devRef .tc main_v31)) := by
  unfold accOf wrapOf; after_results_simp <;> rfl

end Stages

/-- At the ideal values the staged aggregation of the edge list and of a product array is `aggOf` of them. -/
theorem acc_eq_aggOf (ei : (⟨S2x1600000, .i32⟩ : BufTy).Contents (Elt Ideal)) (H : FVec Ideal S100000x128 .f32) :
    accOf (F := Ideal) H (srcOf ei) (dstOf ei) (nrmOf (disOf (posOf (degOf (dstOf ei))) (invOf (degOf (dstOf ei))) (constant (F := Ideal) S_ .f32 0x00000000#32)) (srcOf ei) (dstOf ei))
      = Cert.Bridge.aggOf ei H := by
  unfold Cert.Bridge.aggOf Cert.Bridge.aggOfAt accOf nrmOf disOf posOf invOf degOf wrapOf srcOf dstOf
  rfl

/-! ## The run's boundaries read at what later items need -/

variable (S : Whole.StatsHalf Ideal)
variable (m : (ℓ : Loc nD τ sig) → Buf (Elt Ideal) ℓ)

/-- A buffer no operation of the first three stretches writes is as launched when region 0 is entered. -/
theorem B3_kept (c : Dev nD) (r : Ref sig .tc) (h0 : r ∉ hostOps0_W) (h1 : r ∉ hostOps0_1_W) (h2 : r ∉ hostOps0_2_W) :
    Whole.B3 m c (Proc.devRef .tc r) = m ((c : Thread nD τ).loc r) :=
  (StableHlo.after_of_writes_sub hostOps0_2 _ hostOps0_2_writes h2).trans <|
    (StableHlo.after_of_writes_sub hostOps0_1 _ hostOps0_1_writes h1).trans <|
    (StableHlo.after_of_writes_sub hostOps0 _ hostOps0_writes h0).trans rfl

/-- A parameter vector is as launched when the last stretch starts. -/
theorem B6_kept (c : Dev nD) (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r) :
    Whole.B6 S m c (Proc.devRef .tc r) = m ((c : Thread nD τ).loc r) :=
  (Whole.B6_of_ne S m c r h5).trans <| (StableHlo.after_of_writes_sub hostOps1 _ hostOps1_writes h4).trans <|
    (Whole.B4_of_ne m c r h3).trans (B3_kept m c r h0 h1 h2)

/-- The product x·W of the argument arrays, in region 0's result buffer after region 0. -/
theorem prod_eq (c : Dev nD) :
    Whole.B4 m c (Proc.devRef .tc main_v32) = Cert.Bridge.mm (m ((c : Thread nD τ).loc main_arg0)) (m ((c : Thread nD τ).loc main_arg2)) := by
  refine (Whole.B4_arr m c 2).trans ((MatmulValue.prod_final (Whole.T3 m) c).trans ?_)
  rw [show Whole.T3 m c main_arg0 = m ((c : Thread nD τ).loc main_arg0) from B3_kept m c main_arg0 (by decide) (by decide) (by decide),
    show Whole.T3 m c main_arg2 = m ((c : Thread nD τ).loc main_arg2) from B3_kept m c main_arg2 (by decide) (by decide) (by decide)]
  rfl

/-- The source list, as every later stretch finds it. -/
theorem src_at (c : Dev nD) : Whole.B4 m c (Proc.devRef .tc main_v3) = srcOf (m ((c : Thread nD τ).loc main_arg1)) :=
  (Whole.B4_of_ne m c main_v3 (by decide)).trans <|
    (StableHlo.after_of_writes_sub hostOps0_2 _ hostOps0_2_writes (by decide)).trans <|
    (StableHlo.after_of_writes_sub hostOps0_1 _ hostOps0_1_writes (by decide)).trans (first_src (Whole.B0 m c))
/-- The destination list. -/
theorem dst_at (c : Dev nD) : Whole.B4 m c (Proc.devRef .tc main_v6) = dstOf (m ((c : Thread nD τ).loc main_arg1)) :=
  (Whole.B4_of_ne m c main_v6 (by decide)).trans <|
    (StableHlo.after_of_writes_sub hostOps0_2 _ hostOps0_2_writes (by decide)).trans <|
    (StableHlo.after_of_writes_sub hostOps0_1 _ hostOps0_1_writes (by decide)).trans (first_dst (Whole.B0 m c))

/-- The edge weights. -/
theorem nrm_at (c : Dev nD) : Whole.B4 m c (Proc.devRef .tc main_v31)
    = nrmOf (disOf (posOf (degOf (dstOf (m ((c : Thread nD τ).loc main_arg1))))) (invOf (degOf (dstOf (m ((c : Thread nD τ).loc main_arg1)))))
        (constant (F := Ideal) S_ .f32 0x00000000#32)) (srcOf (m ((c : Thread nD τ).loc main_arg1))) (dstOf (m ((c : Thread nD τ).loc main_arg1))) := by
  refine (Whole.B4_of_ne m c main_v31 (by decide)).trans ((third_nrm (Whole.B2 m c)).trans ?_)
  have e3 : Whole.B2 m c (Proc.devRef .tc main_v3) = srcOf (m ((c : Thread nD τ).loc main_arg1)) :=
    (StableHlo.after_of_writes_sub hostOps0_1 _ hostOps0_1_writes (by decide)).trans (first_src (Whole.B0 m c))
  have e6 : Whole.B2 m c (Proc.devRef .tc main_v6) = dstOf (m ((c : Thread nD τ).loc main_arg1)) :=
    (StableHlo.after_of_writes_sub hostOps0_1 _ hostOps0_1_writes (by decide)).trans (first_dst (Whole.B0 m c))
  have e16 : Whole.B2 m c (Proc.devRef .tc main_v16)
      = disOf (posOf (degOf (dstOf (m ((c : Thread nD τ).loc main_arg1))))) (invOf (degOf (dstOf (m ((c : Thread nD τ).loc main_arg1)))))
          (constant (F := Ideal) S_ .f32 0x00000000#32) := by
    have e12 : Whole.B1 m c (Proc.devRef .tc main_v12) = posOf (degOf (dstOf (m ((c : Thread nD τ).loc main_arg1)))) :=
      (first_pos (Whole.B0 m c)).trans (by rw [first_dst (Whole.B0 m c)])
    have e15 : Whole.B1 m c (Proc.devRef .tc main_v15) = invOf (degOf (dstOf (m ((c : Thread nD τ).loc main_arg1)))) :=
      (first_inv (Whole.B0 m c)).trans (by rw [first_dst (Whole.B0 m c)])
    have ez : Whole.B1 m c (Proc.devRef .tc main_cst_3) = constant (F := Ideal) S_ .f32 0x00000000#32 := first_zero (Whole.B0 m c)
    refine (second_dis (Whole.B1 m c)).trans ?_
    rw [e12, e15, ez]
  rw [e3, e6, e16]

/-- THE AGGREGATED ARRAY, as region 1 and region 2 find it. -/
theorem agg_eq (c : Dev nD) :
    Whole.T5 m c main_v46 = Cert.Bridge.aggOf (m ((c : Thread nD τ).loc main_arg1))
      (Cert.Bridge.mm (m ((c : Thread nD τ).loc main_arg0)) (m ((c : Thread nD τ).loc main_arg2))) := by
  refine (fourth_acc (Whole.B4 m c)).trans ?_
  rw [prod_eq m c, src_at m c, dst_at m c, nrm_at m c]
  exact acc_eq_aggOf _ _

/-- Region 2 finds the aggregated array as region 1 found it: the last stretch does not write it and region 1 hands
    its input back as entered. -/
theorem agg_kept (c : Dev nD) : Whole.T7 S m c main_v46 = Whole.T5 m c main_v46 :=
  (StableHlo.after_of_writes_sub hostOps2 _ hostOps2_writes (by decide)).trans <|
    (Whole.B6_arr S m c 0).trans (((Whole.dat1 S (Whole.T5 m) c).arrAt_in 0 rfl _).trans rfl)

variable (hsum : ∀ (V : Whole.TcBufs Ideal) (c : Dev nD), (Whole.dat1 S V c).arrAt 1 cfg1.N = colSum (V c main_v46))
variable (hsq : ∀ (V : Whole.TcBufs Ideal) (c : Dev nD), (Whole.dat1 S V c).arrAt 2 cfg1.N = colSq (V c main_v46))

include hsum hsq in
/-- THE TWO ROWS region 2 finds: the last stretch applied to the column statistics of the aggregated array `A` and to
    the parameter vectors as launched. -/
theorem rows_eq (c : Dev nD) (A : FVec Ideal S100000x128 .f32) (hA : Whole.T5 m c main_v46 = A) :
    (Whole.T7 S m c main_v77, Whole.T7 S m c main_v83)
      = Cert.Bridge.statsOf (colSum A) (colSq A) (m ((c : Thread nD τ).loc main_arg3))
          (m ((c : Thread nD τ).loc main_arg4)) (m ((c : Thread nD τ).loc main_arg5)) (m ((c : Thread nD τ).loc main_arg6)) := by
  subst hA
  refine (stats_chain (Whole.B6 S m c)).trans ?_
  rw [show Whole.B6 S m c (Proc.devRef .tc main_v47_0) = colSum (Whole.T5 m c main_v46) from (Whole.B6_arr S m c 1).trans (hsum (Whole.T5 m) c),
    show Whole.B6 S m c (Proc.devRef .tc main_v47_1) = colSq (Whole.T5 m c main_v46) from (Whole.B6_arr S m c 2).trans (hsq (Whole.T5 m) c),
    B6_kept S m c main_arg3 (by decide) (by decide) (by decide) (by decide) (by decide) (by decide),
    B6_kept S m c main_arg4 (by decide) (by decide) (by decide) (by decide) (by decide) (by decide),
    B6_kept S m c main_arg5 (by decide) (by decide) (by decide) (by decide) (by decide) (by decide),
    B6_kept S m c main_arg6 (by decide) (by decide) (by decide) (by decide) (by decide) (by decide)]

/-- Region 2's whole-array function of the aggregated array and the statistics pair is `G`'s last step. -/
theorem act_eq_G (x : FVec Ideal S100000x128 .f32) (ei : (⟨S2x1600000, .i32⟩ : BufTy).Contents (Elt Ideal)) (Wt : FVec Ideal S128x128 .f32)
    (b gw gb ms : FVec Ideal S128 .f32) :
    NormActValue.actAll (Cert.Bridge.aggOf ei (Cert.Bridge.mm x Wt))
        (Cert.Bridge.statsOf (colSum (Cert.Bridge.aggOf ei (Cert.Bridge.mm x Wt))) (colSq (Cert.Bridge.aggOf ei (Cert.Bridge.mm x Wt))) b gw gb ms).1
        (Cert.Bridge.statsOf (colSum (Cert.Bridge.aggOf ei (Cert.Bridge.mm x Wt))) (colSq (Cert.Bridge.aggOf ei (Cert.Bridge.mm x Wt))) b gw gb ms).2
      = Cert.Bridge.G x ei Wt b gw gb ms := by
  unfold Cert.Bridge.G colSum colSq
  dsimp only
  generalize Cert.Bridge.aggOf _ _ = A
  generalize Cert.Bridge.statsOf _ _ _ _ _ _ = sb
  funext i
  rfl

include hsum hsq in
/-- THE RESULT: after the whole run the result buffer holds `G` of the seven argument arrays. -/
theorem result_eq (c : Dev nD) :
    Whole.B8 S m c (Proc.devRef .tc main_v84) = Cert.Bridge.G (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  have hA := (agg_kept S m c).trans (agg_eq m c)
  have hr := rows_eq S m hsum hsq c _ (agg_eq m c)
  refine (Whole.B8_arr S m c 3).trans ((NormActValue.act_final (Whole.T7 S m) c).trans ?_)
  refine (congr (congr (congrArg NormActValue.actAll hA) (congrArg Prod.fst hr)) (congrArg Prod.snd hr)).trans ?_
  exact act_eq_G _ _ _ _ _ _ _

end Cert.KernelIdeal.Result

end
-- ==== Proof.StatsValue.lean ====
/-
  Region 1 of the program read over the extended reals: what its two result arrays end holding.
  Each list of stored pieces a run of the body ends with is read back as a value: a buffer stored whole ends at the
  payload of its last store, and a load of a buffer just stored whole reads that store's payload. So at every point
  the sums' scratch buffer ends at the payload "accumulator plus the block's column sums" of what it held, the
  squares' scratch buffer likewise with the squares, the first point starting both from the zero payload; and at the
  last point each output block ends at the same payload as its scratch buffer.
  Over the extended reals the lane reduction is a plain sum over the block's 10000 rows, and addition is associative
  and commutative, so by induction on the point the scratch buffers hold after point `n` the sums over the first
  `10000 (n + 1)` rows of the array; after the tenth point that is the sum over all 100000 rows. The one write-back of
  each result, at the last point, covers the whole result array.
-/
import proofs.«106071_j44908178047711_2_alg».proof.Proof.Stats
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.SL.Sem
open Idealize.ShloMosaic.Pipeline (Dat)

/-! ## The found pieces read as payloads (at any float instance) -/

section Pieces

variable {F : FTy → Type} [FloatOps F]

/-- Every store and load of the body is at offset `(0, 0)` of its buffer. -/
theorem hz : (![0, 0] : Fin 2 → Nat) = fun _ => 0 := funext fun a => by fin_cases a <;> rfl

theorem sumFirst_eq (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : isFirst i) (hc1 : ¬isLast i)
    (x0 : Vec F S10000x128 .f32) :
    sumFirst c i arg1 harg1 arg2 harg2 arg3 harg3 arg4 harg4 arg5 harg5 hc0 hc1 x0 = k1_pay4 x0 (k1_pay1 (F := F)) := by
  unfold sumFirst
  rw [View.read_writes_eq_canon _ _ _ (coverSum_first c i arg1 harg1 arg2 harg2 arg3 harg3 arg4 harg4 arg5 harg5 hc0 hc1 x0)]
  unfold runFirst
  dsimp only
  sl_unfold_words
  rw [View.canon_cons_unit_zero (S := S1x128) hz, View.readCov_unit_zero (S := S1x128) _ hz]
  simp only [View.readAt_eq_ld, harg1.read_unread, View.ld_unit_zero (S := S10000x128) hz, View.ld_unit_zero (S := S1x128) hz]

theorem sqFirst_eq (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : isFirst i) (hc1 : ¬isLast i)
    (x0 : Vec F S10000x128 .f32) :
    sqFirst c i arg1 harg1 arg2 harg2 arg3 harg3 arg4 harg4 arg5 harg5 hc0 hc1 x0 = k1_pay5 x0 (k1_pay2 (F := F)) := by
  unfold sqFirst
  rw [View.read_writes_eq_canon _ _ _ (coverSq_first c i arg1 harg1 arg2 harg2 arg3 harg3 arg4 harg4 arg5 harg5 hc0 hc1 x0)]
  unfold runFirst
  dsimp only
  sl_unfold_words
  rw [View.canon_cons_unit_zero (S := S1x128) hz, View.readCov_unit_zero (S := S1x128) _ hz]
  simp only [View.readAt_eq_ld, harg1.read_unread, View.ld_unit_zero (S := S10000x128) hz, View.ld_unit_zero (S := S1x128) hz]

theorem sumMiddle_eq (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : ¬isLast i)
    (x0 : Vec F S10000x128 .f32) (xsA xsB : Vec F S1x128 .f32) :
    sumMiddle c i arg1 harg1 arg2 harg2 arg3 harg3 arg4 harg4 arg5 harg5 hc0 hc1 x0 xsA xsB = k1_pay4 x0 xsA := by
  unfold sumMiddle
  rw [View.read_writes_eq_canon _ _ _ (coverSum_middle c i arg1 harg1 arg2 harg2 arg3 harg3 arg4 harg4 arg5 harg5 hc0 hc1 x0 xsA xsB)]
  unfold runMiddle
  dsimp only
  sl_unfold_words
  rw [View.canon_unit_zero hz]
  simp only [View.readAt_eq_ld, harg1.read_unread, harg4.read_unread, View.ld_unit_zero (S := S10000x128) hz, View.ld_unit_zero (S := S1x128) hz]

theorem sqMiddle_eq (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : ¬isLast i)
    (x0 : Vec F S10000x128 .f32) (xsA xsB : Vec F S1x128 .f32) :
    sqMiddle c i arg1 harg1 arg2 harg2 arg3 harg3 arg4 harg4 arg5 harg5 hc0 hc1 x0 xsA xsB = k1_pay5 x0 xsB := by
  unfold sqMiddle
  rw [View.read_writes_eq_canon _ _ _ (coverSq_middle c i arg1 harg1 arg2 harg2 arg3 harg3 arg4 harg4 arg5 harg5 hc0 hc1 x0 xsA xsB)]
  unfold runMiddle
  dsimp only
  sl_unfold_words
  rw [View.canon_unit_zero hz]
  simp only [View.readAt_eq_ld, harg1.read_unread, harg5.read_unread, View.ld_unit_zero (S := S10000x128) hz, View.ld_unit_zero (S := S1x128) hz]

theorem sumLast_eq (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : isLast i)
    (x0 : Vec F S10000x128 .f32) (xsA xsB : Vec F S1x128 .f32) :
    sumLast c i arg1 harg1 arg2 harg2 arg3 harg3 arg4 harg4 arg5 harg5 hc0 hc1 x0 xsA xsB = k1_pay4 x0 xsA := by
  unfold sumLast
  rw [View.read_writes_eq_canon _ _ _ (coverSum_last c i arg1 harg1 arg2 harg2 arg3 harg3 arg4 harg4 arg5 harg5 hc0 hc1 x0 xsA xsB)]
  unfold runLast
  dsimp only
  sl_unfold_words
  rw [View.canon_unit_zero hz]
  simp only [View.readAt_eq_ld, harg1.read_unread, harg4.read_unread, View.ld_unit_zero (S := S10000x128) hz, View.ld_unit_zero (S := S1x128) hz]

theorem sqLast_eq (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : isLast i)
    (x0 : Vec F S10000x128 .f32) (xsA xsB : Vec F S1x128 .f32) :
    sqLast c i arg1 harg1 arg2 harg2 arg3 harg3 arg4 harg4 arg5 harg5 hc0 hc1 x0 xsA xsB = k1_pay5 x0 xsB := by
  unfold sqLast
  rw [View.read_writes_eq_canon _ _ _ (coverSq_last c i arg1 harg1 arg2 harg2 arg3 harg3 arg4 harg4 arg5 harg5 hc0 hc1 x0 xsA xsB)]
  unfold runLast
  dsimp only
  sl_unfold_words
  rw [View.canon_unit_zero hz]
  simp only [View.readAt_eq_ld, harg1.read_unread, harg5.read_unread, View.ld_unit_zero (S := S10000x128) hz, View.ld_unit_zero (S := S1x128) hz]

theorem out1Last_eq (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : isLast i)
    (x0 : Vec F S10000x128 .f32) (xsA xsB : Vec F S1x128 .f32) :
    out1Last c i arg1 harg1 arg2 harg2 arg3 harg3 arg4 harg4 arg5 harg5 hc0 hc1 x0 xsA xsB = k1_pay4 x0 xsA := by
  unfold out1Last
  rw [View.read_writes_eq_canon _ _ _ (coverOut1_last c i arg1 harg1 arg2 harg2 arg3 harg3 arg4 harg4 arg5 harg5 hc0 hc1 x0 xsA xsB)]
  unfold runLast
  dsimp only
  sl_unfold_words
  rw [View.canon_unit_zero hz, View.readCov_unit_zero (S := S1x128) _ hz]
  simp only [View.readAt_eq_ld, harg1.read_unread, harg4.read_unread, View.ld_unit_zero (S := S10000x128) hz, View.ld_unit_zero (S := S1x128) hz]

theorem out2Last_eq (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬isFirst i) (hc1 : isLast i)
    (x0 : Vec F S10000x128 .f32) (xsA xsB : Vec F S1x128 .f32) :
    out2Last c i arg1 harg1 arg2 harg2 arg3 harg3 arg4 harg4 arg5 harg5 hc0 hc1 x0 xsA xsB = k1_pay5 x0 xsB := by
  unfold out2Last
  rw [View.read_writes_eq_canon _ _ _ (coverOut2_last c i arg1 harg1 arg2 harg2 arg3 harg3 arg4 harg4 arg5 harg5 hc0 hc1 x0 xsA xsB)]
  unfold runLast
  dsimp only
  sl_unfold_words
  rw [View.canon_unit_zero hz, View.readCov_unit_zero (S := S1x128) _ hz]
  simp only [View.readAt_eq_ld, harg1.read_unread, harg5.read_unread, View.ld_unit_zero (S := S10000x128) hz, View.ld_unit_zero (S := S1x128) hz]

end Pieces

/-! ## The payloads over the extended reals -/

/-- The source index of the lane reduction over result lane `j` with row `k`: row `k`, lane `j`. -/
theorem lift_eq (j : S128.Idx) (k : Fin 10000) :
    reduces_S10000x128_S128.lift j k = (ValueIdx.ix2 k (j 0) : S10000x128.Idx) := by
  funext a
  match a with
  | ⟨0, _⟩ => exact Fin.ext rfl
  | ⟨1, _⟩ => exact Fin.ext rfl

/-- The two zero payloads are the extended real `0` at every index. -/
theorem pay1_apply (j : S1x128.Idx) : k1_pay1 (F := Ideal) j = (0 : EReal) := by
  unfold k1_pay1
  simp only [shapeCast_self]
  exact Ideal.ofBits_zero_f32
theorem pay2_apply (j : S1x128.Idx) : k1_pay2 (F := Ideal) j = (0 : EReal) := by
  unfold k1_pay2
  simp only [shapeCast_self]
  exact Ideal.ofBits_zero_f32

/-- The sums' payload at lane `l`: the accumulator there plus the sum of the block's column `l`. -/
theorem pay4_apply (x : Vec Ideal S10000x128 .f32) (acc : Vec Ideal S1x128 .f32) (u : Fin 1) (l : Fin 128) :
    k1_pay4 (F := Ideal) x acc (ValueIdx.ix2 u l) = (acc (ValueIdx.ix2 u l) + ∑ k : Fin 10000, x (ValueIdx.ix2 k l) : EReal) := by
  unfold k1_pay4 k1_pay3
  simp only [shapeCast_self]
  show (acc (ValueIdx.ix2 u l) + shapeCast S1x128 _ shapeCasts_S128_S1x128 (ValueIdx.ix2 u l) : EReal) = _
  rw [ValueIdx.shapeCast_a_1a_apply]
  refine congrArg (acc (ValueIdx.ix2 u l) + ·) ?_
  refine (Ideal.multiReduction_add_single _ _ reduces_S10000x128_S128 _ _ (ValueIdx.ix1 l)).trans ?_
  exact Finset.sum_congr rfl fun k _ => congrArg x (lift_eq (ValueIdx.ix1 l) k)

/-- The squares' payload at lane `l`: the accumulator there plus the sum of the squares of the block's column `l`. -/
theorem pay5_apply (x : Vec Ideal S10000x128 .f32) (acc : Vec Ideal S1x128 .f32) (u : Fin 1) (l : Fin 128) :
    k1_pay5 (F := Ideal) x acc (ValueIdx.ix2 u l)
      = (acc (ValueIdx.ix2 u l) + ∑ k : Fin 10000, x (ValueIdx.ix2 k l) * x (ValueIdx.ix2 k l) : EReal) := by
  unfold k1_pay5 k1_pay3
  simp only [shapeCast_self]
  show (acc (ValueIdx.ix2 u l) + shapeCast S1x128 _ shapeCasts_S128_S1x128 (ValueIdx.ix2 u l) : EReal) = _
  rw [ValueIdx.shapeCast_a_1a_apply]
  refine congrArg (acc (ValueIdx.ix2 u l) + ·) ?_
  refine (Ideal.multiReduction_add_single _ _ reduces_S10000x128_S128 _ _ (ValueIdx.ix1 l)).trans ?_
  exact Finset.sum_congr rfl fun k _ => congrArg (fun y => (x y * x y : EReal)) (lift_eq (ValueIdx.ix1 l) k)

/-! ## The input block read through its window -/

/-- The input window's block index at point `t` is `(t, 0)`. -/
theorem index_in : ∀ t : Fin cfg1.N, win1_0.index t 0 = t.val ∧ win1_0.index t 1 = 0 :=
  (by decide +kernel : ∀ t : Fin grid1.N, win1_0.index t 0 = t.val ∧ win1_0.index t 1 = 0)

/-- Row `n` of the input block at point `t` is row `10000 t + n` of the array the region finds. -/
theorem blk_apply {F : FTy → Type} [FloatOps F] (V : (c : Dev nD) → (b : Ref sig .tc) → Buf (Elt F) ((c : Thread nD τ).loc b))
    (c : Dev nD) (t : Fin cfg1.N) (n : Fin 10000) (l : Fin 128) (h : 10000 * t.val + n.val < 100000) :
    (blk V c 0 t : Vec F S10000x128 .f32) (ValueIdx.ix2 n l)
      = (V c main_v46 : S100000x128.Idx → Elt F .f32) (ValueIdx.ix2 ⟨10000 * t.val + n.val, h⟩ l) := by
  unfold blk
  rw [View.read_apply]
  show V c main_v46 _ = V c main_v46 _
  congr 1
  funext a
  apply Fin.ext
  match a with
  | ⟨0, _⟩ => show win1_0.index t 0 * 10000 + 1 * n.val = 10000 * t.val + n.val; rw [(index_in t).1]; omega
  | ⟨1, _⟩ => show win1_0.index t 1 * 128 + 1 * l.val = l.val; rw [(index_in t).2]; omega

/-! ## The partial sums, point by point -/

section Sums

variable (V : (c : Dev nD) → (b : Ref sig .tc) → Buf (Elt Ideal) ((c : Thread nD τ).loc b))

/-- The input array as the region finds it, and its block at point `t`, as functions into the extended reals. -/
abbrev inArr (c : Dev nD) : S100000x128.Idx → EReal := V c main_v46
abbrev inBlk (c : Dev nD) (t : Fin cfg1.N) : S10000x128.Idx → EReal := blk V c 0 t

/-- Column `l` of the array the region finds, as a function of the row number (`0` past the last row). -/
def col (c : Dev nD) (l : Fin 128) (r : ℕ) : EReal :=
  if h : r < 100000 then inArr V c (ValueIdx.ix2 ⟨r, h⟩ l) else 0

/-- Row `k` of the block at point `t` is row `10000 t + k` of the column. -/
theorem blk_col (c : Dev nD) (t : Fin cfg1.N) (m : ℕ) (hm : t.val = m) (k : Fin 10000) (l : Fin 128) :
    inBlk V c t (ValueIdx.ix2 k l) = col V c l (10000 * m + k.val) := by
  subst hm
  have hN : t.val < 10 := lt_of_lt_of_eq t.isLt N_eq
  have h : 10000 * t.val + k.val < 100000 := by have := k.isLt; omega
  refine (blk_apply V c t k l h).trans ?_
  unfold col; rw [dif_pos h]

/-- So the block's column sum, and the sum of the squares of its column, run over 10000 consecutive rows. -/
theorem blk_sum (c : Dev nD) (t : Fin cfg1.N) (m : ℕ) (hm : t.val = m) (l : Fin 128) :
    (∑ k : Fin 10000, inBlk V c t (ValueIdx.ix2 k l) : EReal)
      = ∑ r ∈ Finset.range 10000, col V c l (10000 * m + r) := by
  rw [Finset.sum_range]; exact Finset.sum_congr rfl fun k _ => blk_col V c t m hm k l
theorem blk_sumsq (c : Dev nD) (t : Fin cfg1.N) (m : ℕ) (hm : t.val = m) (l : Fin 128) :
    (∑ k : Fin 10000, inBlk V c t (ValueIdx.ix2 k l) * inBlk V c t (ValueIdx.ix2 k l) : EReal)
      = ∑ r ∈ Finset.range 10000, col V c l (10000 * m + r) * col V c l (10000 * m + r) := by
  rw [Finset.sum_range]; exact Finset.sum_congr rfl fun k _ => by rw [blk_col V c t m hm k l]

/-- ONE STEP of the accumulation of the sums: an accumulator holding the column's sum over the rows below
    `10000 m`, after the payload at point `m`, holds the sum over the rows below `10000 (m + 1)`. -/
theorem pay4_step (c : Dev nD) (t : Fin cfg1.N) (m : ℕ) (hm : t.val = m) (u : Fin 1) (l : Fin 128) (acc : Vec Ideal S1x128 .f32)
    (ha : acc (ValueIdx.ix2 u l) = ∑ r ∈ Finset.range (10000 * m), col V c l r) :
    k1_pay4 (F := Ideal) (inBlk V c t) acc (ValueIdx.ix2 u l) = ∑ r ∈ Finset.range (10000 * (m + 1)), col V c l r := by
  refine (pay4_apply _ acc u l).trans ?_
  rw [ha, blk_sum V c t m hm l, ← Finset.sum_range_add]
  exact congrArg (fun N => ∑ r ∈ Finset.range N, col V c l r) (by ring)

/-- One step of the accumulation of the squares. -/
theorem pay5_step (c : Dev nD) (t : Fin cfg1.N) (m : ℕ) (hm : t.val = m) (u : Fin 1) (l : Fin 128) (acc : Vec Ideal S1x128 .f32)
    (ha : acc (ValueIdx.ix2 u l) = ∑ r ∈ Finset.range (10000 * m), col V c l r * col V c l r) :
    k1_pay5 (F := Ideal) (inBlk V c t) acc (ValueIdx.ix2 u l) = ∑ r ∈ Finset.range (10000 * (m + 1)), col V c l r * col V c l r := by
  refine (pay5_apply _ acc u l).trans ?_
  rw [ha, blk_sumsq V c t m hm l, ← Finset.sum_range_add (fun r => col V c l r * col V c l r)]
  exact congrArg (fun N => ∑ r ∈ Finset.range N, col V c l r * col V c l r) (by ring)

/-! ### The four buffers after a point, from the point before -/

/-- After the first point the sums' scratch buffer holds the sums' payload of the first block over the zero payload, -/
theorem sum_zero (c : Dev nD) (h : 0 < cfg1.N) :
    (outsAt V c 0 h).2.2.1 = k1_pay4 (F := Ideal) (blk V c 0 ⟨0, h⟩) (k1_pay1 (F := Ideal)) :=
  sumFirst_eq (F := Ideal) c (grid1.coords ⟨0, h⟩) (mIn ⟨0, h⟩) (hIn ⟨0, h⟩) (mOut1 ⟨0, h⟩) (hOut1 ⟨0, h⟩) (mOut2 ⟨0, h⟩) (hOut2 ⟨0, h⟩) mSum (Memref.isWhole_whole _) mSq (Memref.isWhole_whole _) (first_zero h) (notLast_zero h) (blk V c 0 ⟨0, h⟩)
/-- and the squares' scratch buffer the squares' payload of it. -/
theorem sq_zero (c : Dev nD) (h : 0 < cfg1.N) :
    (outsAt V c 0 h).2.2.2 = k1_pay5 (F := Ideal) (blk V c 0 ⟨0, h⟩) (k1_pay2 (F := Ideal)) :=
  sqFirst_eq (F := Ideal) c (grid1.coords ⟨0, h⟩) (mIn ⟨0, h⟩) (hIn ⟨0, h⟩) (mOut1 ⟨0, h⟩) (hOut1 ⟨0, h⟩) (mOut2 ⟨0, h⟩) (hOut2 ⟨0, h⟩) mSum (Memref.isWhole_whole _) mSq (Memref.isWhole_whole _) (first_zero h) (notLast_zero h) (blk V c 0 ⟨0, h⟩)

/-- After any later point the sums' scratch buffer holds the sums' payload of that point's block over what the point before left in it: the middle and the last case leave the same. -/
theorem sum_succ (c : Dev nD) (n : ℕ) (h : n + 1 < cfg1.N) :
    (outsAt V c (n + 1) h).2.2.1 = k1_pay4 (F := Ideal) (blk V c 0 ⟨n + 1, h⟩) (outsAt V c n (Nat.lt_of_succ_lt h)).2.2.1 := by
  by_cases h1 : (n + 1) % 10 = 9
  · have e : outsAt V c (n + 1) h = _ := dif_pos h1
    rw [e]; dsimp only
    exact sumLast_eq (F := Ideal) c (grid1.coords ⟨n + 1, h⟩) (mIn ⟨n + 1, h⟩) (hIn ⟨n + 1, h⟩) (mOut1 ⟨n + 1, h⟩) (hOut1 ⟨n + 1, h⟩) (mOut2 ⟨n + 1, h⟩) (hOut2 ⟨n + 1, h⟩) mSum (Memref.isWhole_whole _) mSq (Memref.isWhole_whole _) (notFirst_succ n h) ((isLast_iff ⟨n + 1, h⟩).mpr h1) (blk V c 0 ⟨n + 1, h⟩) (outsAt V c n (Nat.lt_of_succ_lt h)).2.2.1 (outsAt V c n (Nat.lt_of_succ_lt h)).2.2.2
  · have e : outsAt V c (n + 1) h = _ := dif_neg h1
    rw [e]; dsimp only
    exact sumMiddle_eq (F := Ideal) c (grid1.coords ⟨n + 1, h⟩) (mIn ⟨n + 1, h⟩) (hIn ⟨n + 1, h⟩) (mOut1 ⟨n + 1, h⟩) (hOut1 ⟨n + 1, h⟩) (mOut2 ⟨n + 1, h⟩) (hOut2 ⟨n + 1, h⟩) mSum (Memref.isWhole_whole _) mSq (Memref.isWhole_whole _) (notFirst_succ n h) (fun hh => h1 ((isLast_iff ⟨n + 1, h⟩).mp hh)) (blk V c 0 ⟨n + 1, h⟩) (outsAt V c n (Nat.lt_of_succ_lt h)).2.2.1 (outsAt V c n (Nat.lt_of_succ_lt h)).2.2.2

/-- The same of the squares' scratch buffer. -/
theorem sq_succ (c : Dev nD) (n : ℕ) (h : n + 1 < cfg1.N) :
    (outsAt V c (n + 1) h).2.2.2 = k1_pay5 (F := Ideal) (blk V c 0 ⟨n + 1, h⟩) (outsAt V c n (Nat.lt_of_succ_lt h)).2.2.2 := by
  by_cases h1 : (n + 1) % 10 = 9
  · have e : outsAt V c (n + 1) h = _ := dif_pos h1
    rw [e]; dsimp only
    exact sqLast_eq (F := Ideal) c (grid1.coords ⟨n + 1, h⟩) (mIn ⟨n + 1, h⟩) (hIn ⟨n + 1, h⟩) (mOut1 ⟨n + 1, h⟩) (hOut1 ⟨n + 1, h⟩) (mOut2 ⟨n + 1, h⟩) (hOut2 ⟨n + 1, h⟩) mSum (Memref.isWhole_whole _) mSq (Memref.isWhole_whole _) (notFirst_succ n h) ((isLast_iff ⟨n + 1, h⟩).mpr h1) (blk V c 0 ⟨n + 1, h⟩) (outsAt V c n (Nat.lt_of_succ_lt h)).2.2.1 (outsAt V c n (Nat.lt_of_succ_lt h)).2.2.2
  · have e : outsAt V c (n + 1) h = _ := dif_neg h1
    rw [e]; dsimp only
    exact sqMiddle_eq (F := Ideal) c (grid1.coords ⟨n + 1, h⟩) (mIn ⟨n + 1, h⟩) (hIn ⟨n + 1, h⟩) (mOut1 ⟨n + 1, h⟩) (hOut1 ⟨n + 1, h⟩) (mOut2 ⟨n + 1, h⟩) (hOut2 ⟨n + 1, h⟩) mSum (Memref.isWhole_whole _) mSq (Memref.isWhole_whole _) (notFirst_succ n h) (fun hh => h1 ((isLast_iff ⟨n + 1, h⟩).mp hh)) (blk V c 0 ⟨n + 1, h⟩) (outsAt V c n (Nat.lt_of_succ_lt h)).2.2.1 (outsAt V c n (Nat.lt_of_succ_lt h)).2.2.2

/-- At the last point output block 1 is left holding what the sums' scratch buffer is left holding, -/
theorem out1_succ (c : Dev nD) (n : ℕ) (h : n + 1 < cfg1.N) (h1 : (n + 1) % 10 = 9) :
    (outsAt V c (n + 1) h).1 = k1_pay4 (F := Ideal) (blk V c 0 ⟨n + 1, h⟩) (outsAt V c n (Nat.lt_of_succ_lt h)).2.2.1 := by
  have e : outsAt V c (n + 1) h = _ := dif_pos h1
  rw [e]; dsimp only
  exact out1Last_eq (F := Ideal) c (grid1.coords ⟨n + 1, h⟩) (mIn ⟨n + 1, h⟩) (hIn ⟨n + 1, h⟩) (mOut1 ⟨n + 1, h⟩) (hOut1 ⟨n + 1, h⟩) (mOut2 ⟨n + 1, h⟩) (hOut2 ⟨n + 1, h⟩) mSum (Memref.isWhole_whole _) mSq (Memref.isWhole_whole _) (notFirst_succ n h) ((isLast_iff ⟨n + 1, h⟩).mpr h1) (blk V c 0 ⟨n + 1, h⟩) (outsAt V c n (Nat.lt_of_succ_lt h)).2.2.1 (outsAt V c n (Nat.lt_of_succ_lt h)).2.2.2

/-- and output block 2 what the squares' scratch buffer is. -/
theorem out2_succ (c : Dev nD) (n : ℕ) (h : n + 1 < cfg1.N) (h1 : (n + 1) % 10 = 9) :
    (outsAt V c (n + 1) h).2.1 = k1_pay5 (F := Ideal) (blk V c 0 ⟨n + 1, h⟩) (outsAt V c n (Nat.lt_of_succ_lt h)).2.2.2 := by
  have e : outsAt V c (n + 1) h = _ := dif_pos h1
  rw [e]; dsimp only
  exact out2Last_eq (F := Ideal) c (grid1.coords ⟨n + 1, h⟩) (mIn ⟨n + 1, h⟩) (hIn ⟨n + 1, h⟩) (mOut1 ⟨n + 1, h⟩) (hOut1 ⟨n + 1, h⟩) (mOut2 ⟨n + 1, h⟩) (hOut2 ⟨n + 1, h⟩) mSum (Memref.isWhole_whole _) mSq (Memref.isWhole_whole _) (notFirst_succ n h) ((isLast_iff ⟨n + 1, h⟩).mpr h1) (blk V c 0 ⟨n + 1, h⟩) (outsAt V c n (Nat.lt_of_succ_lt h)).2.2.1 (outsAt V c n (Nat.lt_of_succ_lt h)).2.2.2

/-! ### The partial sums -/

/-- The sums' scratch buffer after point `n` holds the column sums over the rows of blocks `0 … n`: by induction on
    the point, the first point starting from the zero payload. -/
theorem sum_at (c : Dev nD) : ∀ (n : ℕ) (h : n < cfg1.N) (u : Fin 1) (l : Fin 128),
    (outsAt V c n h).2.2.1 (ValueIdx.ix2 u l) = ∑ r ∈ Finset.range (10000 * (n + 1)), col V c l r
  | 0, h, u, l =>
    (congrFun (sum_zero V c h) (ValueIdx.ix2 u l)).trans
      (pay4_step V c ⟨0, h⟩ 0 rfl u l _ (by rw [pay1_apply]; simp))
  | n + 1, h, u, l =>
    (congrFun (sum_succ V c n h) (ValueIdx.ix2 u l)).trans
      (pay4_step V c ⟨n + 1, h⟩ (n + 1) rfl u l _ (sum_at c n (Nat.lt_of_succ_lt h) u l))

/-- The squares' scratch buffer after point `n` holds the sums of squares over the rows of blocks `0 … n`. -/
theorem sumsq_at (c : Dev nD) : ∀ (n : ℕ) (h : n < cfg1.N) (u : Fin 1) (l : Fin 128),
    (outsAt V c n h).2.2.2 (ValueIdx.ix2 u l) = ∑ r ∈ Finset.range (10000 * (n + 1)), col V c l r * col V c l r
  | 0, h, u, l =>
    (congrFun (sq_zero V c h) (ValueIdx.ix2 u l)).trans
      (pay5_step V c ⟨0, h⟩ 0 rfl u l _ (by rw [pay2_apply]; simp))
  | n + 1, h, u, l =>
    (congrFun (sq_succ V c n h) (ValueIdx.ix2 u l)).trans
      (pay5_step V c ⟨n + 1, h⟩ (n + 1) rfl u l _ (sumsq_at c n (Nat.lt_of_succ_lt h) u l))

/-! ## The two results -/

/-- The sum of a column over all ten blocks is the sum over the array's 100000 rows. -/
theorem col_total (c : Dev nD) (l : Fin 128) :
    ∑ r ∈ Finset.range 100000, col V c l r = ∑ n : Fin 100000, inArr V c (ValueIdx.ix2 n l) := by
  rw [Finset.sum_range]; exact Finset.sum_congr rfl fun n _ => by unfold col; rw [dif_pos n.isLt]
theorem colsq_total (c : Dev nD) (l : Fin 128) :
    ∑ r ∈ Finset.range 100000, col V c l r * col V c l r
      = ∑ n : Fin 100000, inArr V c (ValueIdx.ix2 n l) * inArr V c (ValueIdx.ix2 n l) := by
  rw [Finset.sum_range]; exact Finset.sum_congr rfl fun n _ => by unfold col; rw [dif_pos n.isLt]

/-- What the first result array ends holding: the column sums of the input array. -/
abbrev sums (c : Dev nD) : S1x128.Idx → EReal :=
  fun j => ∑ n : Fin 100000, inArr V c (ValueIdx.ix2 n (j 1))
/-- What the second result array ends holding: the column sums of squares. -/
abbrev sumsqs (c : Dev nD) : S1x128.Idx → EReal :=
  fun j => ∑ n : Fin 100000, inArr V c (ValueIdx.ix2 n (j 1)) * inArr V c (ValueIdx.ix2 n (j 1))

/-- At the last point output block 1 is left holding the column sums, -/
theorem out1_final (c : Dev nD) (h9 : 9 < cfg1.N) : (outsAt V c 9 h9).1 = sums V c := by
  funext j
  obtain ⟨u, l, rfl⟩ : ∃ u l, j = ValueIdx.ix2 u l := ⟨j 0, j 1, ValueIdx.eq_ix2 j⟩
  show (outsAt V c (8 + 1) h9).1 (ValueIdx.ix2 u l) = _
  refine (congrFun (out1_succ V c 8 h9 (by norm_num)) (ValueIdx.ix2 u l)).trans ?_
  refine (pay4_step V c ⟨8 + 1, h9⟩ (8 + 1) rfl u l _ (sum_at V c 8 (Nat.lt_of_succ_lt h9) u l)).trans ?_
  refine (congrArg (fun N => ∑ r ∈ Finset.range N, col V c l r) (by norm_num : 10000 * (8 + 1 + 1) = 100000)).trans ?_
  exact col_total V c l
/-- and output block 2 the column sums of squares. -/
theorem out2_final (c : Dev nD) (h9 : 9 < cfg1.N) : (outsAt V c 9 h9).2.1 = sumsqs V c := by
  funext j
  obtain ⟨u, l, rfl⟩ : ∃ u l, j = ValueIdx.ix2 u l := ⟨j 0, j 1, ValueIdx.eq_ix2 j⟩
  show (outsAt V c (8 + 1) h9).2.1 (ValueIdx.ix2 u l) = _
  refine (congrFun (out2_succ V c 8 h9 (by norm_num)) (ValueIdx.ix2 u l)).trans ?_
  refine (pay5_step V c ⟨8 + 1, h9⟩ (8 + 1) rfl u l _ (sumsq_at V c 8 (Nat.lt_of_succ_lt h9) u l)).trans ?_
  refine (congrArg (fun N => ∑ r ∈ Finset.range N, col V c l r * col V c l r) (by norm_num : 10000 * (8 + 1 + 1) = 100000)).trans ?_
  exact colsq_total V c l

/-- The one write-back of the first result, at the last point, writes the column sums: its block is the whole array. -/
theorem flushed_out1 (c : Dev nD) (t : Fin cfg1.N) (hf : (cfg1.win 1).flush t = true) :
    (dat1 V c).flushed 1 t = ((cfg1.win 1).blk t).view.read (Elt Ideal) (sums V c) := by
  have hN : cfg1.N = 10 := N_eq
  have h9 : t.val = 9 := by have := (flush1_1 t).mp hf; have := t.isLt; omega
  obtain rfl : t = t1_9 := Fin.ext h9
  show (cfg1.win 1).cut (grid1.coords t1_9) ((dat1 V c).after 1 t1_9) = _
  rw [after_out1]
  rw [show (outsAt V c t1_9.val t1_9.isLt).1 = sums V c from out1_final V c _]
  have hz' : (fun a => win1_1.index t1_9 a * main_v47_0.ty.shape.size a) = fun _ => 0 := funext fun a => by fin_cases a <;> decide
  exact (Memref.read_access_unit_zero (Elt Ideal) main_v47_0 hz' (fun a => by rw [congrFun hz' a]; simp) (sums V c)).symm

/-- THE FIRST RESULT of the region: the array ends holding, in each lane, the sum of that column of the input array over its 100000 rows. -/
theorem sum_out (c : Dev nD) : (dat1 V c).arrAt 1 cfg1.N = sums V c :=
  (dat1 V c).arrAt_eq_of_cover 1 (sums V c) (flushed_out1 V c) fun i =>
    ⟨t1_9, (flush1_1 t1_9).mpr rfl, by
      show i ∈ ((View.whole main_v47_0).slice (win1_1.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_1.index t1_9 0 * win1_1.size 0 ≤ (i 0 : Nat) ∧ (i 0 : Nat) < win1_1.index t1_9 0 * win1_1.size 0 + win1_1.xsize (grid1.coords t1_9) 0
                  rw [show win1_1.index t1_9 0 * win1_1.size 0 = 0 from by decide +kernel, show win1_1.xsize (grid1.coords t1_9) 0 = 1 from by decide +kernel]; omega
      | ⟨1, _⟩ => show win1_1.index t1_9 1 * win1_1.size 1 ≤ (i 1 : Nat) ∧ (i 1 : Nat) < win1_1.index t1_9 1 * win1_1.size 1 + win1_1.xsize (grid1.coords t1_9) 1
                  rw [show win1_1.index t1_9 1 * win1_1.size 1 = 0 from by decide +kernel, show win1_1.xsize (grid1.coords t1_9) 1 = 128 from by decide +kernel]; omega⟩

/-- The one write-back of the second result, at the last point, writes the column sums of squares. -/
theorem flushed_out2 (c : Dev nD) (t : Fin cfg1.N) (hf : (cfg1.win 2).flush t = true) :
    (dat1 V c).flushed 2 t = ((cfg1.win 2).blk t).view.read (Elt Ideal) (sumsqs V c) := by
  have hN : cfg1.N = 10 := N_eq
  have h9 : t.val = 9 := by have := (flush1_2 t).mp hf; have := t.isLt; omega
  obtain rfl : t = t1_9 := Fin.ext h9
  show (cfg1.win 2).cut (grid1.coords t1_9) ((dat1 V c).after 2 t1_9) = _
  rw [after_out2]
  rw [show (outsAt V c t1_9.val t1_9.isLt).2.1 = sumsqs V c from out2_final V c _]
  have hz' : (fun a => win1_2.index t1_9 a * main_v47_1.ty.shape.size a) = fun _ => 0 := funext fun a => by fin_cases a <;> decide
  exact (Memref.read_access_unit_zero (Elt Ideal) main_v47_1 hz' (fun a => by rw [congrFun hz' a]; simp) (sumsqs V c)).symm

/-- THE SECOND RESULT of the region: the array ends holding, in each lane, the sum of the squares of that column of the input array. -/
theorem sumsq_out (c : Dev nD) : (dat1 V c).arrAt 2 cfg1.N = sumsqs V c :=
  (dat1 V c).arrAt_eq_of_cover 2 (sumsqs V c) (flushed_out2 V c) fun i =>
    ⟨t1_9, (flush1_2 t1_9).mpr rfl, by
      show i ∈ ((View.whole main_v47_1).slice (win1_2.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 128 from by decide +kernel]; omega⟩

end Sums

end Cert.KernelIdeal.Stats

end
-- ==== Proof.LibRealLift.lean ====
/-
  Arrays of extended reals all of whose entries are real numbers, and the operations on them.

  At the ideal instance a float is an extended real. When every entry of an array is (the image of) a real
  number, sums, differences and products of such arrays are again such arrays, computed entry by entry in ℝ;
  a change of float format does nothing; and a plain matrix product `[M, K] × [K, N]` into a zero accumulator is
  the real matrix product: entry `(p, j)` is `∑ k, a (p, k) * b (k, j)`, a finite sum of reals.

  Two identities of real sums are recorded here as well. The split-precision product: a factor `a` is split as
  `a` itself plus the residual `a - a = 0` (no rounding happens at the ideal instance), and the three partial products
  `a·w + a·(w - w) + (a - a)·w` collapse to `a·w`. The three-multiplication form of a complex product:
  `(a + b)·(u + v) - a·u - b·v = a·v + b·u`, summed over the contraction index.
-/
import Idealize.ShloMosaic.Lib.ValueIdx
import Idealize.ShloMosaic.PureOps.Ideal.Laws

open Idealize.ShloMosaic Idealize.ShloMosaic.ValueIdx

namespace Cert.LibRealLift

/-- The array of extended reals whose entry at `i` is the real number `r i`. -/
def cv {s : Shape} {φ : FTy} (r : s.Idx → ℝ) : FVec Ideal s φ := fun i => ((r i : ℝ) : EReal)

theorem cv_apply {s : Shape} {φ : FTy} (r : s.Idx → ℝ) (i : s.Idx) : (cv r : FVec Ideal s φ) i = ((r i : ℝ) : EReal) := rfl

/-- A finite sum of reals, taken in the extended reals, is the real sum. -/
theorem coe_sum {κ : Type*} (t : Finset κ) (f : κ → ℝ) : (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

variable {s : Shape} {φ : FTy}

theorem addf_cv (a b : s.Idx → ℝ) : addf (cv a : FVec Ideal s φ) (cv b) = cv (fun i => a i + b i) :=
  funext fun i => (EReal.coe_add (a i) (b i)).symm

theorem subf_cv (a b : s.Idx → ℝ) : subf (cv a : FVec Ideal s φ) (cv b) = cv (fun i => a i - b i) :=
  funext fun i => (EReal.coe_sub (a i) (b i)).symm

theorem mulf_cv (a b : s.Idx → ℝ) : mulf (cv a : FVec Ideal s φ) (cv b) = cv (fun i => a i * b i) :=
  funext fun i => (EReal.coe_mul (a i) (b i)).symm

/-- The residual of a split `x = x + (x - x)` is zero when `x` is real. -/
theorem subf_cv_self (a : s.Idx → ℝ) : subf (cv a : FVec Ideal s φ) (cv a) = cv (fun _ => 0) := by
  rw [subf_cv]; exact congrArg cv (funext fun i => sub_self (a i))

theorem truncf_cv {ψ : FTy} (a : s.Idx → ℝ) (h : ψ.bits < φ.bits) : (truncf ψ (cv a : FVec Ideal s φ) h : FVec Ideal s ψ) = cv a := rfl

theorem extf_cv {ψ : FTy} (a : s.Idx → ℝ) (h : φ.bits < ψ.bits) : (extf ψ (cv a : FVec Ideal s φ) h : FVec Ideal s ψ) = cv a := rfl

/-! ## A plain matrix product, entry by entry -/

/-- The contraction sum of a plain `[M, K] × [K, N]` product at the output entry `(p, j)`, re-indexed by the one
    contraction coordinate `k`: the left operand at `(p, k)` times the right operand at `(k, j)`. -/
theorem plain_sum (M K N : Nat) (l : (⟨2, ![M, K]⟩ : Shape).Idx → EReal) (r : (⟨2, ![K, N]⟩ : Shape).Idx → EReal)
    (p : Fin M) (j : Fin N) :
    (∑ k : (DotDims.plain M K N).contr.Idx, l ((DotDims.plain M K N).lhsIdx (ix2 p j) k) * r ((DotDims.plain M K N).rhsIdx (ix2 p j) k))
      = ∑ k : Fin K, l (ix2 p k) * r (ix2 k j) := by
  rw [← Equiv.sum_comp (contrEquiv1 (DotDims.plain M K N) K rfl rfl).symm]
  refine Finset.sum_congr rfl fun k _ => ?_
  have hl : (DotDims.plain M K N).lhsIdx (ix2 p j) ((contrEquiv1 (DotDims.plain M K N) K rfl rfl).symm k) = ix2 p k := by
    funext a; apply Fin.ext
    match a with
    | ⟨0, _⟩ => rfl
    | ⟨1, _⟩ => exact contrEquiv1_symm_val (DotDims.plain M K N) K rfl rfl k
  have hr : (DotDims.plain M K N).rhsIdx (ix2 p j) ((contrEquiv1 (DotDims.plain M K N) K rfl rfl).symm k) = ix2 k j := by
    funext a; apply Fin.ext
    match a with
    | ⟨0, _⟩ => exact contrEquiv1_symm_val (DotDims.plain M K N) K rfl rfl k
    | ⟨1, _⟩ => rfl
  rw [hl, hr]

/-- The real matrix product of `a : [M, K]` and `b : [K, N]`. -/
def mm (M K N : Nat) (a : (⟨2, ![M, K]⟩ : Shape).Idx → ℝ) (b : (⟨2, ![K, N]⟩ : Shape).Idx → ℝ) : (⟨2, ![M, N]⟩ : Shape).Idx → ℝ :=
  fun i => ∑ k : Fin K, a (ix2 (i 0) k) * b (ix2 k (i 1))

/-- A kernel's plain matrix product of real arrays into the zero accumulator is the real matrix product. -/
theorem matmul_plain_cv (M K N : Nat) {φ₁ φ₂ : FTy} (prec : Option ContractPrecision)
    (a : (⟨2, ![M, K]⟩ : Shape).Idx → ℝ) (b : (⟨2, ![K, N]⟩ : Shape).Idx → ℝ) :
    matmul (DotDims.plain M K N) prec (cv a : FVec Ideal _ φ₁) (cv b : FVec Ideal _ φ₂) (constant (F := Ideal) ⟨2, ![M, N]⟩ .f32 0x00000000#32)
      = cv (mm M K N a b) := by
  funext i
  obtain ⟨p, j, rfl⟩ : ∃ (p : Fin M) (j : Fin N), i = ix2 p j := ⟨i 0, i 1, eq_ix2 i⟩
  show FloatOps.matmul (DotDims.plain M K N) prec (cv a) (cv b) (constant ⟨2, ![M, N]⟩ .f32 0x00000000#32) (ix2 p j) = _
  rw [Ideal.matmul_constant_zero_apply, plain_sum]
  show (∑ k : Fin K, ((a (ix2 p k) : ℝ) : EReal) * ((b (ix2 k j) : ℝ) : EReal)) = ((∑ k : Fin K, a (ix2 p k) * b (ix2 k j) : ℝ) : EReal)
  rw [← coe_sum]
  exact Finset.sum_congr rfl fun k _ => (EReal.coe_mul _ _).symm

/-- The host's plain `dot_general` of real arrays is the real matrix product. -/
theorem dotGeneral_plain_cv (M K N : Nat) {φ₁ φ₂ : FTy} (prec : Option ContractPrecision)
    (a : (⟨2, ![M, K]⟩ : Shape).Idx → ℝ) (b : (⟨2, ![K, N]⟩ : Shape).Idx → ℝ) :
    (Host.dotGeneral (DotDims.plain M K N) prec (cv a : FVec Ideal _ φ₁) (cv b : FVec Ideal _ φ₂) : FVec Ideal ⟨2, ![M, N]⟩ .f32)
      = cv (mm M K N a b) := by
  funext i
  obtain ⟨p, j, rfl⟩ : ∃ (p : Fin M) (j : Fin N), i = ix2 p j := ⟨i 0, i 1, eq_ix2 i⟩
  simp only [Host.dotGeneral]
  rw [Ideal.dotGeneral_apply, plain_sum]
  show (∑ k : Fin K, ((a (ix2 p k) : ℝ) : EReal) * ((b (ix2 k j) : ℝ) : EReal)) = ((∑ k : Fin K, a (ix2 p k) * b (ix2 k j) : ℝ) : EReal)
  rw [← coe_sum]
  exact Finset.sum_congr rfl fun k _ => (EReal.coe_mul _ _).symm

/-! ## Real sums: the split-precision product and the three-multiplication complex product -/

/-- A product with the zero matrix on the right is zero. -/
theorem mm_zero_right (M K N : Nat) (a : (⟨2, ![M, K]⟩ : Shape).Idx → ℝ) : mm M K N a (fun _ => 0) = fun _ => 0 :=
  funext fun i => by simp [mm]

/-- A product with the zero matrix on the left is zero. -/
theorem mm_zero_left (M K N : Nat) (b : (⟨2, ![K, N]⟩ : Shape).Idx → ℝ) : mm M K N (fun _ => 0) b = fun _ => 0 :=
  funext fun i => by simp [mm]

/-- The product of sums, less the two diagonal products, is the sum of the two cross products. -/
theorem mm_cross (M K N : Nat) (a b : (⟨2, ![M, K]⟩ : Shape).Idx → ℝ) (u v : (⟨2, ![K, N]⟩ : Shape).Idx → ℝ) (i : (⟨2, ![M, N]⟩ : Shape).Idx) :
    mm M K N (fun q => a q + b q) (fun q => u q + v q) i - mm M K N a u i - mm M K N b v i = mm M K N a v i + mm M K N b u i := by
  simp only [mm, add_mul, mul_add, Finset.sum_add_distrib]
  ring

end Cert.LibRealLift
-- ==== Proof.LibIsReal.lean ====
/-
  Arrays of extended reals whose every entry is a real number: the property, and the host operations that keep it.

  IsR v says every entry of v is (the image of) a real.  Such an array is cv of a real array (exists_cv).  The property
  passes through any re-indexing of the entries — a gather by any index array, a broadcast along any axes —, through a
  product, a select between two such arrays, a finite sum, and through the host's accumulating scatter of such updates
  into such an operand: its entry is the operand's entry plus a finite sum of update entries.  Two more entry-by-entry
  operations on cv arrays: the larger of two, and a constant array.  And the one place a graph normalisation leaves the
  reals and comes back: 1/sqrt(d) computed as a quotient, guarded by d > 0 with 0 as the other branch, is a real for
  every real d that is not negative (at d = 0 the quotient is the infinity and the guard discards it); the degree of a graph
  node, an accumulating scatter of ones into zeros, is a natural number, so the guarded array built from it is real.
-/
import proofs.«106071_j44908178047711_2_alg».proof.Proof.LibRealLift
import Idealize.ShloMosaic.Lib.Pipeline.Value
import Idealize.ShloMosaic.Lib.IdealHost

open Idealize.ShloMosaic Idealize.ShloMosaic.ValueIdx

noncomputable section

namespace Cert.LibIsReal

open Cert.LibRealLift

/-- Every entry is a real number. -/
def IsR {s : Shape} (v : s.Idx → EReal) : Prop := ∀ i, ∃ r : ℝ, v i = ((r : ℝ) : EReal)

variable {s t : Shape} {φ : FTy}

theorem isR_cv (a : s.Idx → ℝ) : IsR (cv a : FVec Ideal s φ) := fun i => ⟨a i, rfl⟩

/-- An array of reals is the image of a real array. -/
theorem exists_cv {v : s.Idx → EReal} (h : IsR v) : ∃ a : s.Idx → ℝ, v = (cv a : FVec Ideal s φ) := by
  choose a ha using h
  exact ⟨a, funext ha⟩

/-- A gather reads entries of its operand. -/
theorem isR_gather {si : Shape} {w : Nat} (d : GatherDims s si t) {x : s.Idx → EReal} (hx : IsR x) (idx : IVec si w) :
    IsR (Host.gather d x idx) := fun j => hx _

/-- A broadcast reads entries of its operand. -/
theorem isR_bcast (dims : Fin s.rank → Fin t.rank) (h : s.BroadcastsInDim t dims) {x : s.Idx → EReal} (hx : IsR x) :
    IsR (broadcastInDim t dims h x) := fun j => hx _

theorem isR_mulf {a b : FVec Ideal s φ} (ha : IsR a) (hb : IsR b) : IsR (mulf a b) := fun i => by
  obtain ⟨x, hx⟩ := ha i
  obtain ⟨y, hy⟩ := hb i
  exact ⟨x * y, by rw [mulf_apply, hx, hy, EReal.coe_mul]⟩

theorem isR_select (c : IVec s 1) {a b : s.Idx → EReal} (ha : IsR a) (hb : IsR b) : IsR (select c a b) := fun i => by
  rw [select_apply]
  by_cases hc : c i = 1#1
  · rw [hc, select_one]; exact ha i
  · rw [eq_zero_of_ne_one hc, select_zero]; exact hb i

/-- A finite sum of reals is a real. -/
theorem exists_real_sum {κ : Type*} (S : Finset κ) {f : κ → EReal} (hf : ∀ k ∈ S, ∃ r : ℝ, f k = ((r : ℝ) : EReal)) :
    ∃ r : ℝ, ∑ k ∈ S, f k = ((r : ℝ) : EReal) := by
  classical
  induction S using Finset.induction_on with
  | empty => exact ⟨0, by simp⟩
  | insert a S ha ih =>
    obtain ⟨x, hx⟩ := hf a (Finset.mem_insert_self a S)
    obtain ⟨y, hy⟩ := ih fun k hk => hf k (Finset.mem_insert_of_mem hk)
    exact ⟨x + y, by rw [Finset.sum_insert ha, hx, hy, EReal.coe_add]⟩

/-- The host's accumulating scatter of real updates into a real operand is real. -/
theorem isR_scatterAdd {si u : Shape} {w : Nat} (d : ScatterDims s si u) {x : FVec Ideal s φ} (hx : IsR x) (idx : IVec si w)
    {upd : FVec Ideal u φ} (hu : IsR upd) : IsR (Host.scatterAdd d x idx upd) := fun i => by
  obtain ⟨a, ha⟩ := hx i
  obtain ⟨b, hb⟩ := exists_real_sum (Finset.univ.filter (fun j => d.resultIdx? j idx = some i)) (f := upd) fun k _ => hu k
  refine ⟨a + b, ?_⟩
  show x i + ∑ j ∈ Finset.univ.filter (fun j => d.resultIdx? j idx = some i), upd j = _
  rw [ha, hb, EReal.coe_add]

/-- A constant array whose word denotes a real. -/
theorem isR_const (w : BitVec 32) (r : ℝ) (hw : Ideal.ofBits .f32 w = ((r : ℝ) : EReal)) :
    IsR (constant (F := Ideal) s .f32 w) := fun _ => ⟨r, hw⟩

/-- The larger of two real arrays, entry by entry. -/
theorem maximumf_cv (a b : s.Idx → ℝ) : maximumf (cv a : FVec Ideal s φ) (cv b) = cv (fun i => max (a i) (b i)) :=
  funext fun i => (Monotone.map_max EReal.coe_strictMono.monotone (a := a i) (b := b i)).symm

/-- 1/sqrt(d) as a quotient, kept where d > 0 and replaced by 0 elsewhere, is a real for every real d ≥ 0. -/
theorem guarded_inv_sqrt_real (d : ℝ) (hd : 0 ≤ d) :
    ∃ r : ℝ, Scalar.select (Ideal.cmp .ogt ((d : ℝ) : EReal) (Ideal.ofBits .f32 0x00000000#32))
        (Ideal.div (Ideal.ofBits .f32 0x3F800000#32) (Ideal.sqrt ((d : ℝ) : EReal))) (Ideal.ofBits .f32 0x00000000#32)
      = ((r : ℝ) : EReal) := by
  rw [Ideal.ofBits_zero_f32, Ideal.ofBits_one_f32]
  by_cases h0 : 0 < d
  · have hc : Ideal.cmp .ogt ((d : ℝ) : EReal) 0 = 1#1 := by
      unfold Ideal.cmp
      simp [EReal.coe_pos.mpr h0]
    have hs : Real.sqrt d ≠ 0 := (Real.sqrt_pos.mpr h0).ne'
    rw [hc, select_one, Ideal.sqrt_coe, if_neg (not_lt.mpr hd), Ideal.div_coe hs, one_mul]
    exact ⟨_, rfl⟩
  · have hc : Ideal.cmp .ogt ((d : ℝ) : EReal) 0 = 0#1 := by
      unfold Ideal.cmp
      have : ¬ (0 : EReal) < ((d : ℝ) : EReal) := fun h => h0 (EReal.coe_pos.mp h)
      simp [this]
    rw [hc, select_zero]
    exact ⟨0, rfl⟩

/-- A count of ones, started from zero, is a natural number. -/
theorem count_ones {ι : Type} (S : Finset ι) :
    Ideal.ofBits .f32 0x00000000#32 + ∑ _e ∈ S, Ideal.ofBits .f32 0x3F800000#32 = (((S.card : ℕ) : ℝ) : EReal) := by
  rw [Ideal.ofBits_zero_f32, Ideal.ofBits_one_f32, zero_add, Finset.sum_const, ← EReal.coe_one, ← EReal.coe_nsmul]
  congr 1
  simp

/-- The host's accumulating scatter of an all-ones update array into an all-zeros operand counts, at each entry, the
    updates that land there. -/
theorem scatterAdd_count {si u : Shape} {w : Nat} (d : ScatterDims s si u) (z : FVec Ideal s .f32) (idx : IVec si w)
    (o : FVec Ideal u .f32) (hz : ∀ i, z i = Ideal.ofBits .f32 0x00000000#32) (ho : ∀ j, o j = Ideal.ofBits .f32 0x3F800000#32)
    (i : s.Idx) : ∃ c : ℕ, Host.scatterAdd d z idx o i = (((c : ℕ) : ℝ) : EReal) := by
  refine ⟨(Finset.univ.filter (fun j => d.resultIdx? j idx = some i)).card, ?_⟩
  show z i + ∑ j ∈ Finset.univ.filter (fun j => d.resultIdx? j idx = some i), o j = _
  rw [hz, Finset.sum_congr rfl (fun j _ => ho j)]
  exact count_ones _

/-- The normalisation array 1/sqrt(deg) guarded by deg > 0, for a degree array of natural numbers, is real. -/
theorem guarded_isR (deg z o z' : FVec Ideal s .f32) (hdeg : ∀ i, ∃ c : ℕ, deg i = (((c : ℕ) : ℝ) : EReal))
    (hz : ∀ i, z i = Ideal.ofBits .f32 0x00000000#32) (ho : ∀ i, o i = Ideal.ofBits .f32 0x3F800000#32)
    (hz' : ∀ i, z' i = Ideal.ofBits .f32 0x00000000#32) :
    IsR (select (cmpf (F := Ideal) (φ := .f32) .ogt deg z) (Host.divf (F := Ideal) (φ := .f32) o (Host.sqrt (F := Ideal) (φ := .f32) deg)) z') := fun i => by
  obtain ⟨c, hc⟩ := hdeg i
  show ∃ r : ℝ, Scalar.select (Ideal.cmp .ogt (deg i) (z i)) (Ideal.div (o i) (Ideal.sqrt (deg i))) (z' i) = ((r : ℝ) : EReal)
  rw [hz, ho, hz', hc]
  exact guarded_inv_sqrt_real _ (Nat.cast_nonneg c)

/-- A scalar spread over any shape reads the scalar everywhere. -/
theorem bcast_scalar_apply {α : Type} (h : (⟨0, ![]⟩ : Shape).BroadcastsInDim t ![]) (x : (⟨0, ![]⟩ : Shape).Idx → α) (j : t.Idx) :
    broadcastInDim t ![] h x j = x ix0 :=
  broadcastInDim_apply ![] h x j ix0 (fun a => a.elim0)

end Cert.LibIsReal

end
-- ==== Proof.MathAgg.lean ====
/-
  The aggregate has real entries.

  The aggregation's only float inputs are the constants 0 and 1 and the feature table h.  The degree is an accumulating
  scatter of ones into zeros: a count, a natural number.  The normalisation entry is 1/sqrt(degree) where the degree is
  positive and 0 elsewhere: a real in both cases.  Everything after that re-indexes (gathers, broadcasts), multiplies,
  and adds finitely many terms (the last scatter), so when h has real entries the aggregate has real entries.  The
  matrix product of two real arrays is a real array.
-/
import proofs.«106071_j44908178047711_2_alg».proof.Proof.MathDefs
import proofs.«106071_j44908178047711_2_alg».proof.Proof.LibIsReal

noncomputable section

namespace Cert.Bridge

open Idealize.ShloMosaic Idealize.ShloMosaic.ValueIdx Cert.LibIsReal Cert.LibRealLift
open Cert.ReferenceIdeal Cert.ReferenceIdeal.Gen

/-- The destination row number of each edge (the edge list's second row, then the self-loops), as a one-column array. -/
def dstIdx (ei : (⟨S2x1600000, .i32⟩ : BufTy).Contents (Elt Ideal)) : (⟨S1700000x1, .i32⟩ : BufTy).Contents (Elt Ideal) :=
  have main_v0 : (⟨S100000, .i32⟩ : BufTy).Contents (Elt Ideal) := iotaInDim S100000 32 0
  have main_v4 : (⟨S1x1600000, .i32⟩ : BufTy).Contents (Elt Ideal) := extractStridedSlice S1x1600000 ![1, 0] ei slices_S2x1600000_S1x1600000_1_0
  have main_v5 : (⟨S1600000, .i32⟩ : BufTy).Contents (Elt Ideal) := shapeCast _ main_v4 shapeCasts_S1x1600000_S1600000
  have main_v6 : (⟨S1700000, .i32⟩ : BufTy).Contents (Elt Ideal) := concatenate S1700000 0 [⟨S1600000, main_v5⟩, ⟨S100000, main_v0⟩] concatenates_S1600000_S100000_S1700000_d0
  have main_v9 : (⟨S1700000x1, .i32⟩ : BufTy).Contents (Elt Ideal) := broadcastInDim S1700000x1 ![0] bcast_S1700000_S1700000x1_0 main_v6
  main_v9

/-- The source row number of each edge, a negative one wrapped by the table's height, as a one-column array. -/
def srcIdxW (ei : (⟨S2x1600000, .i32⟩ : BufTy).Contents (Elt Ideal)) : (⟨S1700000x1, .i32⟩ : BufTy).Contents (Elt Ideal) :=
  have main_v0 : (⟨S100000, .i32⟩ : BufTy).Contents (Elt Ideal) := iotaInDim S100000 32 0
  have main_v1 : (⟨S1x1600000, .i32⟩ : BufTy).Contents (Elt Ideal) := extractStridedSlice S1x1600000 ![0, 0] ei slices_S2x1600000_S1x1600000_0_0
  have main_v2 : (⟨S1600000, .i32⟩ : BufTy).Contents (Elt Ideal) := shapeCast _ main_v1 shapeCasts_S1x1600000_S1600000
  have main_v3 : (⟨S1700000, .i32⟩ : BufTy).Contents (Elt Ideal) := concatenate S1700000 0 [⟨S1600000, main_v2⟩, ⟨S100000, main_v0⟩] concatenates_S1600000_S100000_S1700000_d0
  have main_c : (⟨S_, .i32⟩ : BufTy).Contents (Elt Ideal) := constantI S_ 32 0#32
  have main_v17 : (⟨S1700000, .i32⟩ : BufTy).Contents (Elt Ideal) := broadcastInDim S1700000 ![] bcast_S_S1700000 main_c
  have main_v18 : (⟨S1700000, .i1⟩ : BufTy).Contents (Elt Ideal) := cmpi .slt main_v3 main_v17
  have main_c_4 : (⟨S_, .i32⟩ : BufTy).Contents (Elt Ideal) := constantI S_ 32 100000#32
  have main_v19 : (⟨S1700000, .i32⟩ : BufTy).Contents (Elt Ideal) := broadcastInDim S1700000 ![] bcast_S_S1700000 main_c_4
  have main_v20 : (⟨S1700000, .i32⟩ : BufTy).Contents (Elt Ideal) := addi main_v3 main_v19
  have main_v21 : (⟨S1700000, .i32⟩ : BufTy).Contents (Elt Ideal) := select main_v18 main_v20 main_v3
  have main_v22 : (⟨S1700000x1, .i32⟩ : BufTy).Contents (Elt Ideal) := broadcastInDim S1700000x1 ![0] bcast_S1700000_S1700000x1_0 main_v21
  main_v22

/-- The destination row number of each edge, a negative one wrapped, as a one-column array. -/
def dstIdxW (ei : (⟨S2x1600000, .i32⟩ : BufTy).Contents (Elt Ideal)) : (⟨S1700000x1, .i32⟩ : BufTy).Contents (Elt Ideal) :=
  have main_v0 : (⟨S100000, .i32⟩ : BufTy).Contents (Elt Ideal) := iotaInDim S100000 32 0
  have main_v4 : (⟨S1x1600000, .i32⟩ : BufTy).Contents (Elt Ideal) := extractStridedSlice S1x1600000 ![1, 0] ei slices_S2x1600000_S1x1600000_1_0
  have main_v5 : (⟨S1600000, .i32⟩ : BufTy).Contents (Elt Ideal) := shapeCast _ main_v4 shapeCasts_S1x1600000_S1600000
  have main_v6 : (⟨S1700000, .i32⟩ : BufTy).Contents (Elt Ideal) := concatenate S1700000 0 [⟨S1600000, main_v5⟩, ⟨S100000, main_v0⟩] concatenates_S1600000_S100000_S1700000_d0
  have main_c_5 : (⟨S_, .i32⟩ : BufTy).Contents (Elt Ideal) := constantI S_ 32 0#32
  have main_v24 : (⟨S1700000, .i32⟩ : BufTy).Contents (Elt Ideal) := broadcastInDim S1700000 ![] bcast_S_S1700000 main_c_5
  have main_v25 : (⟨S1700000, .i1⟩ : BufTy).Contents (Elt Ideal) := cmpi .slt main_v6 main_v24
  have main_c_6 : (⟨S_, .i32⟩ : BufTy).Contents (Elt Ideal) := constantI S_ 32 100000#32
  have main_v26 : (⟨S1700000, .i32⟩ : BufTy).Contents (Elt Ideal) := broadcastInDim S1700000 ![] bcast_S_S1700000 main_c_6
  have main_v27 : (⟨S1700000, .i32⟩ : BufTy).Contents (Elt Ideal) := addi main_v6 main_v26
  have main_v28 : (⟨S1700000, .i32⟩ : BufTy).Contents (Elt Ideal) := select main_v25 main_v27 main_v6
  have main_v29 : (⟨S1700000x1, .i32⟩ : BufTy).Contents (Elt Ideal) := broadcastInDim S1700000x1 ![0] bcast_S1700000_S1700000x1_0 main_v28
  main_v29

/-- The source row number of each edge once more, as the feature gather takes it. -/
def srcIdxW2 (ei : (⟨S2x1600000, .i32⟩ : BufTy).Contents (Elt Ideal)) : (⟨S1700000x1, .i32⟩ : BufTy).Contents (Elt Ideal) :=
  have main_v0 : (⟨S100000, .i32⟩ : BufTy).Contents (Elt Ideal) := iotaInDim S100000 32 0
  have main_v1 : (⟨S1x1600000, .i32⟩ : BufTy).Contents (Elt Ideal) := extractStridedSlice S1x1600000 ![0, 0] ei slices_S2x1600000_S1x1600000_0_0
  have main_v2 : (⟨S1600000, .i32⟩ : BufTy).Contents (Elt Ideal) := shapeCast _ main_v1 shapeCasts_S1x1600000_S1600000
  have main_v3 : (⟨S1700000, .i32⟩ : BufTy).Contents (Elt Ideal) := concatenate S1700000 0 [⟨S1600000, main_v2⟩, ⟨S100000, main_v0⟩] concatenates_S1600000_S100000_S1700000_d0
  have main_c_7 : (⟨S_, .i32⟩ : BufTy).Contents (Elt Ideal) := constantI S_ 32 0#32
  have main_v33 : (⟨S1700000, .i32⟩ : BufTy).Contents (Elt Ideal) := broadcastInDim S1700000 ![] bcast_S_S1700000 main_c_7
  have main_v34 : (⟨S1700000, .i1⟩ : BufTy).Contents (Elt Ideal) := cmpi .slt main_v3 main_v33
  have main_c_8 : (⟨S_, .i32⟩ : BufTy).Contents (Elt Ideal) := constantI S_ 32 100000#32
  have main_v35 : (⟨S1700000, .i32⟩ : BufTy).Contents (Elt Ideal) := broadcastInDim S1700000 ![] bcast_S_S1700000 main_c_8
  have main_v36 : (⟨S1700000, .i32⟩ : BufTy).Contents (Elt Ideal) := addi main_v3 main_v35
  have main_v37 : (⟨S1700000, .i32⟩ : BufTy).Contents (Elt Ideal) := select main_v34 main_v36 main_v3
  have main_v38 : (⟨S1700000x1, .i32⟩ : BufTy).Contents (Elt Ideal) := broadcastInDim S1700000x1 ![0] bcast_S1700000_S1700000x1_0 main_v37
  main_v38

/-- The zero vector the degree is accumulated into. -/
abbrev zeros1 : FVec Ideal S100000 .f32 := broadcastInDim S100000 ![] bcast_S_S100000 (constant (F := Ideal) S_ .f32 0x00000000#32)

/-- The degree of every node: the number of edges (self-loops included) that end there. -/
def degOf (ei : (⟨S2x1600000, .i32⟩ : BufTy).Contents (Elt Ideal)) : FVec Ideal S100000 .f32 :=
  Host.scatterAdd (F := Ideal) (φ := .f32) scatter_S100000_S1700000x1_S1700000_n_0_0_1 zeros1 (dstIdx ei)
    (broadcastInDim S1700000 ![] bcast_S_S1700000 (constant (F := Ideal) S_ .f32 0x3F800000#32))

/-- The normalisation entry of every node: 1/sqrt(degree) where the degree is positive, 0 elsewhere. -/
def disOf (ei : (⟨S2x1600000, .i32⟩ : BufTy).Contents (Elt Ideal)) : FVec Ideal S100000 .f32 :=
  select (cmpf (F := Ideal) (φ := .f32) .ogt (degOf ei) zeros1)
    (Host.divf (F := Ideal) (φ := .f32) (broadcastInDim S100000 ![] bcast_S_S100000 (constant (F := Ideal) S_ .f32 0x3F800000#32))
      (Host.sqrt (F := Ideal) (φ := .f32) (degOf ei)))
    (broadcastInDim S100000 ![] bcast_S_S100000 (id (constant (F := Ideal) S_ .f32 0x00000000#32)))

/-- The aggregation as four steps: normalisation entries, edge weights, weighted feature rows, accumulation. -/
theorem aggOf_eq (ei : (⟨S2x1600000, .i32⟩ : BufTy).Contents (Elt Ideal)) (h : FVec Ideal S100000x128 .f32) :
    aggOf ei h = Host.scatterAdd (F := Ideal) (φ := .f32) scatter_S100000x128_S1700000x1_S1700000x128_1_0_0_1
      (broadcastInDim S100000x128 ![] bcast_S_S100000x128 (constant (F := Ideal) S_ .f32 0x00000000#32)) (dstIdx ei)
      (mulf (F := Ideal) (φ := .f32) (Host.gather gather_S100000x128_S1700000x1_S1700000x128_1_0_n_n_0_1_1128 h (srcIdxW2 ei))
        (broadcastInDim S1700000x128 ![0, 1] bcast_S1700000x1_S1700000x128_0_1
          (broadcastInDim S1700000x1 ![0] bcast_S1700000_S1700000x1_0
            (mulf (F := Ideal) (φ := .f32) (Host.gather gather_S100000_S1700000x1_S1700000_n_0_n_n_0_1_1 (disOf ei) (srcIdxW ei))
              (Host.gather gather_S100000_S1700000x1_S1700000_n_0_n_n_0_1_1 (disOf ei) (dstIdxW ei)))))) := rfl

/-- The degree is a count. -/
theorem degOf_count (ei : (⟨S2x1600000, .i32⟩ : BufTy).Contents (Elt Ideal)) (i : S100000.Idx) :
    ∃ c : ℕ, degOf ei i = (((c : ℕ) : ℝ) : EReal) :=
  scatterAdd_count _ _ _ _ (fun i => bcast_scalar_apply bcast_S_S100000 _ i) (fun j => bcast_scalar_apply bcast_S_S1700000 _ j) i

/-- The normalisation entries are real. -/
theorem disOf_isR (ei : (⟨S2x1600000, .i32⟩ : BufTy).Contents (Elt Ideal)) : IsR (disOf ei) :=
  guarded_isR _ _ _ _ (degOf_count ei) (fun i => bcast_scalar_apply bcast_S_S100000 _ i)
    (fun i => bcast_scalar_apply bcast_S_S100000 _ i) (fun i => bcast_scalar_apply bcast_S_S100000 _ i)

/-- With real features the aggregate is real. -/
theorem aggOf_isR (ei : (⟨S2x1600000, .i32⟩ : BufTy).Contents (Elt Ideal)) {h : FVec Ideal S100000x128 .f32} (hh : IsR h) :
    IsR (aggOf ei h) := by
  rw [aggOf_eq]
  exact isR_scatterAdd _ (isR_bcast _ _ (isR_const _ 0 Ideal.ofBits_zero_f32)) _
    (isR_mulf (isR_gather _ hh _)
      (isR_bcast _ _ (isR_bcast _ _ (isR_mulf (isR_gather _ (disOf_isR ei) _) (isR_gather _ (disOf_isR ei) _)))))

/-- The matrix product of real arrays is real. -/
theorem mm_isR {x : FVec Ideal S100000x128 .f32} {W : FVec Ideal S128x128 .f32} (hx : IsR x) (hW : IsR W) : IsR (mm x W) := fun i =>
  exists_real_sum _ fun k _ => by
    obtain ⟨a, ha⟩ := hx (ix2 (i 0) k)
    obtain ⟨b, hb⟩ := hW (ix2 k (i 1))
    exact ⟨a * b, by rw [ha, hb, EReal.coe_mul]⟩

end Cert.Bridge

end
-- ==== Proof.MathWords.lean ====
/-
  The float words the two programs use as constants, read at the extended reals: 0x47C35000 is 100000 (the number of
  rows), 0x40000000 is 2, the zero pattern is 0, and 0x3727C5AC — the float nearest 1e-5 — is the positive real 10995116 · 2^-40.
-/
import Idealize.ShloMosaic.Lib.IdealHost

open Idealize.ShloMosaic

noncomputable section

namespace Cert.Bridge

/-- The f32 zero pattern is the real 0. -/
theorem word_zero : Ideal.ofBits .f32 0x00000000#32 = ((0 : ℝ) : EReal) := by
  rw [Ideal.ofBits_zero_f32, EReal.coe_zero]

/-- The f32 pattern 0x47C35000 is the real 100000. -/
theorem word_1e5 : Ideal.ofBits .f32 0x47C35000#32 = ((100000 : ℝ) : EReal) := by
  simp [Ideal.ofBits, Ideal.ieee, -EReal.coe_mul]; norm_num

/-- The f32 pattern 0x40000000 is the real 2. -/
theorem word_two : Ideal.ofBits .f32 0x40000000#32 = ((2 : ℝ) : EReal) := by
  simp [Ideal.ofBits, Ideal.ieee, -EReal.coe_mul]; norm_num

/-- The real the f32 pattern 0x3727C5AC denotes. -/
def epsR : ℝ := 10995116 * (2 : ℝ) ^ (-40 : Int)

theorem epsR_pos : 0 < epsR := by unfold epsR; positivity

theorem word_eps : Ideal.ofBits .f32 0x3727C5AC#32 = ((epsR : ℝ) : EReal) := by
  unfold epsR
  simp [Ideal.ofBits, Ideal.ieee, -EReal.coe_mul]

end Cert.Bridge

end
-- ==== Proof.LibHostLift.lean ====
/-
  Host operations on arrays of extended reals all of whose entries are real numbers.

  A square root of non-negative reals, a reciprocal square root of positive reals and a quotient by non-zero reals are
  again arrays of reals, computed entry by entry in ℝ. A scalar constant broadcast to any shape is the constant array. A
  vector `[N]` laid out as a row `[1, N]`, and a row repeated down `K` rows, re-index their operand and change no entry.
  The sum of a `[K, N]` array down its columns, started from a real initial value `r₀`, has entry `r₀ + Σ_d a (d, n)`.
  One row stacked under a `[K, N]` array gives the `[K+1, N]` array whose first `K` rows are the array and whose last row
  is the row.
-/
import proofs.«106071_j44908178047711_2_alg».proof.Proof.LibRealLift
import Idealize.ShloMosaic.Lib.Pipeline.Value
import Idealize.ShloMosaic.Lib.ValueLayout

open Idealize.ShloMosaic Idealize.ShloMosaic.ValueIdx

noncomputable section

namespace Cert.LibHostLift

open Cert.LibRealLift

variable {s : Shape} {φ : FTy}

/-! ## Entry-by-entry operations -/

theorem hostSqrt_cv (a : s.Idx → ℝ) (h : ∀ i, 0 ≤ a i) :
    Host.sqrt (cv a : FVec Ideal s φ) = cv (fun i => Real.sqrt (a i)) := by
  funext i
  show Ideal.sqrt ((a i : ℝ) : EReal) = _
  rw [Ideal.sqrt_coe, if_neg (not_lt.mpr (h i))]
  rfl

theorem hostRsqrt_cv (a : s.Idx → ℝ) (h : ∀ i, 0 < a i) :
    Host.rsqrt (cv a : FVec Ideal s φ) = cv (fun i => (Real.sqrt (a i))⁻¹) := by
  funext i
  show Ideal.rsqrt ((a i : ℝ) : EReal) = _
  rw [Ideal.rsqrt_coe, if_neg (not_lt.mpr (h i).le), if_neg (h i).ne']
  rfl

theorem hostDivf_cv (a b : s.Idx → ℝ) (h : ∀ i, b i ≠ 0) :
    Host.divf (cv a : FVec Ideal s φ) (cv b) = cv (fun i => a i / b i) := by
  funext i
  show Ideal.div ((a i : ℝ) : EReal) ((b i : ℝ) : EReal) = ((a i / b i : ℝ) : EReal)
  rw [Ideal.div_coe (h i), ← EReal.coe_mul, mul_one_div]

/-! ## Broadcasts -/

/-- A scalar constant whose bit pattern denotes the real `r`, broadcast to any shape, is the constant array `r`. -/
theorem bcast_const_cv {t : Shape} (h : (⟨0, ![]⟩ : Shape).BroadcastsInDim t (![] : Fin 0 → Fin t.rank)) (w : BitVec 32) (r : ℝ)
    (hw : Ideal.ofBits .f32 w = ((r : ℝ) : EReal)) :
    broadcastInDim t ![] h (constant (F := Ideal) ⟨0, ![]⟩ .f32 w) = (cv (fun _ => r) : FVec Ideal t .f32) := by
  funext i
  refine (broadcastInDim_apply _ h _ i (fun a => a.elim0) (fun a => a.elim0)).trans ?_
  exact hw

/-- A vector `[N]` as the one row of a `[1, N]` array. -/
theorem bcast_vec_row_cv {N : Nat} (a : (⟨1, ![N]⟩ : Shape).Idx → ℝ)
    (h : (⟨1, ![N]⟩ : Shape).BroadcastsInDim ⟨2, ![1, N]⟩ (![1] : Fin 1 → Fin 2)) :
    broadcastInDim ⟨2, ![1, N]⟩ ![1] h (cv a : FVec Ideal _ φ) = cv (fun i => a (ix1 (i 1))) := by
  funext i
  refine (broadcastInDim_apply _ h _ i (ix1 (i 1)) (fun c => ?_)).trans rfl
  match c with
  | ⟨0, _⟩ =>
    show (i 1).val = if N = 1 then 0 else (i 1).val
    by_cases hN : N = 1
    · rw [if_pos hN]; have hi : (i 1).val < N := (i 1).isLt; omega
    · rw [if_neg hN]

/-- The one row of a `[1, N]` array repeated down `K` rows. -/
theorem bcast_row_mat_cv {K N : Nat} (a : (⟨2, ![1, N]⟩ : Shape).Idx → ℝ)
    (h : (⟨2, ![1, N]⟩ : Shape).BroadcastsInDim ⟨2, ![K, N]⟩ (![0, 1] : Fin 2 → Fin 2)) :
    broadcastInDim ⟨2, ![K, N]⟩ ![0, 1] h (cv a : FVec Ideal _ φ) = cv (fun i => a (ix2 (0 : Fin 1) (i 1))) := by
  funext i
  refine (broadcastInDim_apply _ h _ i (ix2 (0 : Fin 1) (i 1)) (fun c => ?_)).trans rfl
  match c with
  | ⟨0, _⟩ =>
    show 0 = if (1 : Nat) = 1 then 0 else (i 0).val
    rw [if_pos rfl]
  | ⟨1, _⟩ =>
    show (i 1).val = if N = 1 then 0 else (i 1).val
    by_cases hN : N = 1
    · rw [if_pos hN]; have hi : (i 1).val < N := (i 1).isLt; omega
    · rw [if_neg hN]

/-! ## The sum down the columns -/

/-- The host's sum of a `[128, 8192]` array of reals over its first axis, started from a constant denoting the real
    `r₀`: entry `n` is `r₀ + Σ_d a (d, n)`. -/
theorem reduceAdd_cols_cv (a : (⟨2, ![128, 8192]⟩ : Shape).Idx → ℝ)
    (h : (⟨2, ![128, 8192]⟩ : Shape).ReducesTo [0] ⟨1, ![8192]⟩) (hu : 0 < (⟨0, ![]⟩ : Shape).numel)
    (w : BitVec 32) (r₀ : ℝ) (hw : Ideal.ofBits .f32 w = ((r₀ : ℝ) : EReal)) :
    Host.reduceAdd (cv a : FVec Ideal ⟨2, ![128, 8192]⟩ .f32) (constant (F := Ideal) ⟨0, ![]⟩ .f32 w) h hu
      = cv (fun i => r₀ + ∑ d : Fin 128, a (ix2 d (i 0))) := by
  funext i
  simp only [Host.reduceAdd, Ideal.hostReduceAdd_def]
  rw [Ideal.hostReduceAdd_single h (by decide)]
  show _ = ((r₀ + ∑ d : Fin 128, a (ix2 d (i 0)) : ℝ) : EReal)
  rw [EReal.coe_add, ← coe_sum]
  refine congrArg₂ (· + ·) hw (Finset.sum_congr rfl fun k _ => ?_)
  show ((a _ : ℝ) : EReal) = ((a _ : ℝ) : EReal)
  exact congrArg (fun j => ((a j : ℝ) : EReal)) (funext fun c => Fin.ext (by match c with | ⟨0, _⟩ => rfl | ⟨1, _⟩ => rfl))

/-! ## One row stacked under a matrix -/

/-- A `[K, N]` array with one more row under it. -/
def stackRow {K N : Nat} (a : (⟨2, ![K, N]⟩ : Shape).Idx → ℝ) (b : (⟨2, ![1, N]⟩ : Shape).Idx → ℝ) :
    (⟨2, ![K + 1, N]⟩ : Shape).Idx → ℝ := fun i =>
  if h : (i 0).val < K then a (ix2 ⟨(i 0).val, h⟩ (i 1)) else b (ix2 (0 : Fin 1) (i 1))

theorem concat_row_cv {K N : Nat} (a : (⟨2, ![K, N]⟩ : Shape).Idx → ℝ) (b : (⟨2, ![1, N]⟩ : Shape).Idx → ℝ)
    (h : Shape.Concatenates [(⟨2, ![K, N]⟩ : Shape), ⟨2, ![1, N]⟩] ⟨2, ![K + 1, N]⟩ 0) :
    concatenate ⟨2, ![K + 1, N]⟩ 0 [⟨⟨2, ![K, N]⟩, (cv a : FVec Ideal _ φ)⟩, ⟨⟨2, ![1, N]⟩, (cv b : FVec Ideal _ φ)⟩] h
      = cv (stackRow a b) := by
  funext i
  obtain ⟨k, j, rfl⟩ : ∃ (k : Fin (K + 1)) (j : Fin N), i = ix2 k j := ⟨i 0, i 1, eq_ix2 i⟩
  by_cases hk : k.val < K
  · rw [concatenate_pair_apply_left (0 : Fin 2) (cv a : FVec Ideal _ φ) (cv b : FVec Ideal _ φ) h (ix2 k j) rfl
      (ix2 (⟨k.val, hk⟩ : Fin K) j : (⟨2, ![K, N]⟩ : Shape).Idx)
      (fun c => match c with | ⟨0, _⟩ => rfl | ⟨1, _⟩ => rfl)]
    show ((a (ix2 ⟨k.val, hk⟩ j) : ℝ) : EReal) = ((stackRow a b (ix2 k j) : ℝ) : EReal)
    unfold stackRow
    rw [dif_pos (show ((ix2 k j : (⟨2, ![K + 1, N]⟩ : Shape).Idx) 0).val < K from hk)]
    rfl
  · have hkK : k.val = K := by have := k.isLt; omega
    rw [concatenate_pair_apply_right (0 : Fin 2) (cv a : FVec Ideal _ φ) (cv b : FVec Ideal _ φ) h (ix2 k j) rfl rfl
      (ix2 (0 : Fin 1) j : (⟨2, ![1, N]⟩ : Shape).Idx)
      (fun c hc => match c, hc with | ⟨0, _⟩, hc => absurd rfl hc | ⟨1, _⟩, _ => rfl)
      (by show 0 + K = k.val; omega)]
    show ((b (ix2 (0 : Fin 1) j) : ℝ) : EReal) = ((stackRow a b (ix2 k j) : ℝ) : EReal)
    unfold stackRow
    rw [dif_neg (show ¬ ((ix2 k j : (⟨2, ![K + 1, N]⟩ : Shape).Idx) 0).val < K from hk)]
    rfl

end Cert.LibHostLift

end
-- ==== Proof.LibNormLaw.lean ====
/-
  A column's normalisation computed in two passes and in one pass, over the real numbers.

  Two passes: shift the column by b, take its mean, centre by the mean times ms, take the mean of the squares of the
  centred column as the variance, divide the centred column by sqrt(variance + eps), scale by gw and shift by gb.
  One pass: from the column's sum S and its sum of squares Q form the raw mean S/N, the mean S/N + b, the centre
  c = mean * ms, the second moment Q/N + 2 b (S/N) + b², the variance moment - 2 c mean + c² (clamped below at 0), the
  factor 1/sqrt(variance + eps) * gw and the shift gb - c * factor + b * factor; the result is the column times the
  factor plus the shift.  The two agree when N is the number of entries: the mean of the shifted column is S/N + b, the
  mean of (a + b - c)² expands to the one-pass variance, which is therefore a mean of squares and not negative, so the
  clamp does nothing; the rest is the distributive law.  The divisor N is a parameter of the definitions (a program
  writes it as a literal) and the theorems assume it is the number of entries.
-/
import Mathlib.Analysis.SpecialFunctions.Pow.Real
import Mathlib.Algebra.BigOperators.Group.Finset.Basic
import Mathlib.Tactic.FieldSimp
import Mathlib.Tactic.Ring

noncomputable section

namespace Cert.LibNormLaw

open Finset

variable {ι : Type*} [Fintype ι]

/-- The two-pass centre: (mean of a + b) * ms. -/
def centre (Nr : ℝ) (a : ι → ℝ) (b ms : ℝ) : ℝ := (∑ m, (a m + b)) / Nr * ms

/-- The two-pass variance: the mean of the squares of the centred column. -/
def variance (Nr : ℝ) (a : ι → ℝ) (b ms : ℝ) : ℝ :=
  (∑ m, (a m + b - centre Nr a b ms) * (a m + b - centre Nr a b ms)) / Nr

/-- The two-pass result at entry n. -/
def twoPass (Nr : ℝ) (a : ι → ℝ) (b gw gb ms eps : ℝ) (n : ι) : ℝ :=
  (a n + b - centre Nr a b ms) / Real.sqrt (variance Nr a b ms + eps) * gw + gb

/-- The one-pass factor and shift from the sum S and the sum of squares Q, in the order the operations are made. -/
def onePass (Nr S Q b gw gb ms eps : ℝ) : ℝ × ℝ :=
  let m0 := S / Nr
  let mean := m0 + b
  let c := mean * ms
  let var := Q / Nr + 2 * b * m0 + b * b - 2 * c * mean + c * c
  let scale := (Real.sqrt (max var 0 + eps))⁻¹ * gw
  (scale, gb - c * scale + b * scale)

/-- The one-pass centre. -/
def centre1 (Nr S b ms : ℝ) : ℝ := (S / Nr + b) * ms

/-- The one-pass variance before the clamp. -/
def variance1 (Nr S Q b ms : ℝ) : ℝ :=
  Q / Nr + 2 * b * (S / Nr) + b * b - 2 * centre1 Nr S b ms * (S / Nr + b) + centre1 Nr S b ms * centre1 Nr S b ms

theorem onePass_fst (Nr S Q b gw gb ms eps : ℝ) :
    (onePass Nr S Q b gw gb ms eps).1 = (Real.sqrt (max (variance1 Nr S Q b ms) 0 + eps))⁻¹ * gw := rfl

theorem onePass_snd (Nr S Q b gw gb ms eps : ℝ) :
    (onePass Nr S Q b gw gb ms eps).2
      = gb - centre1 Nr S b ms * (onePass Nr S Q b gw gb ms eps).1 + b * (onePass Nr S Q b gw gb ms eps).1 := rfl

theorem card_ne_zero (h : 0 < Fintype.card ι) : (Fintype.card ι : ℝ) ≠ 0 :=
  Nat.cast_ne_zero.mpr (Nat.pos_iff_ne_zero.mp h)

/-- The mean of the shifted column is the raw mean plus the shift. -/
theorem centre_eq {Nr : ℝ} (hN : (Fintype.card ι : ℝ) = Nr) (h : 0 < Fintype.card ι) (a : ι → ℝ) (b ms : ℝ) :
    centre Nr a b ms = centre1 Nr (∑ m, a m) b ms := by
  subst hN
  have hN := card_ne_zero h
  unfold centre centre1
  rw [Finset.sum_add_distrib, Finset.sum_const, Finset.card_univ, nsmul_eq_mul]
  field_simp

/-- The mean of the squares of the centred column is the one-pass variance. -/
theorem variance_eq {Nr : ℝ} (hN : (Fintype.card ι : ℝ) = Nr) (h : 0 < Fintype.card ι) (a : ι → ℝ) (b ms : ℝ) :
    variance Nr a b ms = variance1 Nr (∑ m, a m) (∑ m, a m * a m) b ms := by
  unfold variance
  rw [centre_eq hN h]
  subst hN
  have hN := card_ne_zero h
  unfold variance1
  generalize centre1 (Fintype.card ι : ℝ) (∑ m, a m) b ms = c
  have hs : ∑ m, (a m + b - c) * (a m + b - c)
      = (∑ m, a m * a m) + 2 * (b - c) * (∑ m, a m) + (Fintype.card ι : ℝ) * ((b - c) * (b - c)) := by
    rw [Finset.mul_sum, ← Finset.card_univ, ← nsmul_eq_mul, ← Finset.sum_const, ← Finset.sum_add_distrib,
      ← Finset.sum_add_distrib]
    exact Finset.sum_congr rfl fun m _ => by ring
  rw [hs]
  field_simp
  ring

/-- A mean of squares is not negative. -/
theorem variance_nonneg {Nr : ℝ} (hNr : 0 ≤ Nr) (a : ι → ℝ) (b ms : ℝ) : 0 ≤ variance Nr a b ms := by
  unfold variance
  exact div_nonneg (Finset.sum_nonneg fun m _ => mul_self_nonneg _) hNr

/-- The two computations agree entry by entry. -/
theorem twoPass_eq {Nr : ℝ} (hN : (Fintype.card ι : ℝ) = Nr) (h : 0 < Fintype.card ι) (a : ι → ℝ) (b gw gb ms eps : ℝ) (n : ι) :
    twoPass Nr a b gw gb ms eps n
      = a n * (onePass Nr (∑ m, a m) (∑ m, a m * a m) b gw gb ms eps).1
        + (onePass Nr (∑ m, a m) (∑ m, a m * a m) b gw gb ms eps).2 := by
  have hNr : 0 ≤ Nr := by rw [← hN]; exact Nat.cast_nonneg _
  have hv : 0 ≤ variance1 Nr (∑ m, a m) (∑ m, a m * a m) b ms := by
    rw [← variance_eq hN h]; exact variance_nonneg hNr a b ms
  rw [onePass_snd, onePass_fst]
  unfold twoPass
  rw [max_eq_left hv, ← variance_eq hN h, ← centre_eq hN h, div_eq_mul_inv]
  ring

end Cert.LibNormLaw

end
-- ==== Proof.MathStats.lean ====
/-
  The one-pass scale and shift on real inputs.

  When the column sums S, the column sums of squares Q and the four parameter vectors have real entries, each of the 42
  host operations that make the scale and the shift stays in the reals — the quotients are by the constant 100000, the
  reciprocal square root is of max(variance, 0) + eps > 0 — and computes, entry by entry, the corresponding step of
  LibNormLaw.onePass at N = 100000 and eps the real the word 0x3727C5AC denotes.  The proof restates the composition as
  one definition per operation (k_…, equal to statsOfAt by unfolding), pairs each with the real array it computes (r_…)
  and proves the pairing one operation at a time.
-/
import proofs.«106071_j44908178047711_2_alg».proof.Proof.MathDefs
import proofs.«106071_j44908178047711_2_alg».proof.Proof.MathWords
import proofs.«106071_j44908178047711_2_alg».proof.Proof.LibHostLift
import proofs.«106071_j44908178047711_2_alg».proof.Proof.LibIsReal
import proofs.«106071_j44908178047711_2_alg».proof.Proof.LibNormLaw

noncomputable section

namespace Cert.Bridge

open Idealize.ShloMosaic Idealize.ShloMosaic.ValueIdx Cert.LibRealLift Cert.LibHostLift Cert.LibIsReal
open Cert.KernelIdeal Cert.KernelIdeal.Gen

section Flat
variable {F : FTy → Type} [FloatOps F]

def k_main_cst_10 : (⟨S_, .f32⟩ : BufTy).Contents (Elt F) := constant S_ .f32 0x47C35000#32
def k_main_v48 : (⟨S1x128, .f32⟩ : BufTy).Contents (Elt F) :=
  (broadcastInDim S1x128 ![] bcast_S_S1x128 : (⟨S_, .f32⟩ : BufTy).Contents (Elt F) → (⟨S1x128, .f32⟩ : BufTy).Contents (Elt F)) (k_main_cst_10 (F := F))
def k_main_v49 (S : (⟨S1x128, .f32⟩ : BufTy).Contents (Elt F)) : (⟨S1x128, .f32⟩ : BufTy).Contents (Elt F) :=
  (Host.divf : (⟨S1x128, .f32⟩ : BufTy).Contents (Elt F) → (⟨S1x128, .f32⟩ : BufTy).Contents (Elt F) → (⟨S1x128, .f32⟩ : BufTy).Contents (Elt F)) S (k_main_v48 (F := F))
def k_main_v50 (b : (⟨S128, .f32⟩ : BufTy).Contents (Elt F)) : (⟨S1x128, .f32⟩ : BufTy).Contents (Elt F) :=
  (broadcastInDim S1x128 ![1] bcast_S128_S1x128_1 : (⟨S128, .f32⟩ : BufTy).Contents (Elt F) → (⟨S1x128, .f32⟩ : BufTy).Contents (Elt F)) b
def k_main_v51 (S : (⟨S1x128, .f32⟩ : BufTy).Contents (Elt F)) (b : (⟨S128, .f32⟩ : BufTy).Contents (Elt F)) : (⟨S1x128, .f32⟩ : BufTy).Contents (Elt F) :=
  (addf : (⟨S1x128, .f32⟩ : BufTy).Contents (Elt F) → (⟨S1x128, .f32⟩ : BufTy).Contents (Elt F) → (⟨S1x128, .f32⟩ : BufTy).Contents (Elt F)) (k_main_v49 (F := F) S) (k_main_v50 (F := F) b)
def k_main_v52 (ms : (⟨S128, .f32⟩ : BufTy).Contents (Elt F)) : (⟨S1x128, .f32⟩ : BufTy).Contents (Elt F) :=
  (broadcastInDim S1x128 ![1] bcast_S128_S1x128_1 : (⟨S128, .f32⟩ : BufTy).Contents (Elt F) → (⟨S1x128, .f32⟩ : BufTy).Contents (Elt F)) ms
def k_main_v53 (S : (⟨S1x128, .f32⟩ : BufTy).Contents (Elt F)) (b : (⟨S128, .f32⟩ : BufTy).Contents (Elt F)) (ms : (⟨S128, .f32⟩ : BufTy).Contents (Elt F)) : (⟨S1x128, .f32⟩ : BufTy).Contents (Elt F) :=
  (mulf : (⟨S1x128, .f32⟩ : BufTy).Contents (Elt F) → (⟨S1x128, .f32⟩ : BufTy).Contents (Elt F) → (⟨S1x128, .f32⟩ : BufTy).Contents (Elt F)) (k_main_v51 (F := F) S b) (k_main_v52 (F := F) ms)
def k_main_cst_11 : (⟨S_, .f32⟩ : BufTy).Contents (Elt F) := constant S_ .f32 0x47C35000#32
def k_main_v54 : (⟨S1x128, .f32⟩ : BufTy).Contents (Elt F) :=
  (broadcastInDim S1x128 ![] bcast_S_S1x128 : (⟨S_, .f32⟩ : BufTy).Contents (Elt F) → (⟨S1x128, .f32⟩ : BufTy).Contents (Elt F)) (k_main_cst_11 (F := F))
def k_main_v55 (Q : (⟨S1x128, .f32⟩ : BufTy).Contents (Elt F)) : (⟨S1x128, .f32⟩ : BufTy).Contents (Elt F) :=
  (Host.divf : (⟨S1x128, .f32⟩ : BufTy).Contents (Elt F) → (⟨S1x128, .f32⟩ : BufTy).Contents (Elt F) → (⟨S1x128, .f32⟩ : BufTy).Contents (Elt F)) Q (k_main_v54 (F := F))
def k_main_v56 (b : (⟨S128, .f32⟩ : BufTy).Contents (Elt F)) : (⟨S1x128, .f32⟩ : BufTy).Contents (Elt F) :=
  (broadcastInDim S1x128 ![1] bcast_S128_S1x128_1 : (⟨S128, .f32⟩ : BufTy).Contents (Elt F) → (⟨S1x128, .f32⟩ : BufTy).Contents (Elt F)) b
def k_main_cst_12 : (⟨S_, .f32⟩ : BufTy).Contents (Elt F) := constant S_ .f32 0x40000000#32
def k_main_v57 : (⟨S1x128, .f32⟩ : BufTy).Contents (Elt F) :=
  (broadcastInDim S1x128 ![] bcast_S_S1x128 : (⟨S_, .f32⟩ : BufTy).Contents (Elt F) → (⟨S1x128, .f32⟩ : BufTy).Contents (Elt F)) (k_main_cst_12 (F := F))
def k_main_v58 (b : (⟨S128, .f32⟩ : BufTy).Contents (Elt F)) : (⟨S1x128, .f32⟩ : BufTy).Contents (Elt F) :=
  (mulf : (⟨S1x128, .f32⟩ : BufTy).Contents (Elt F) → (⟨S1x128, .f32⟩ : BufTy).Contents (Elt F) → (⟨S1x128, .f32⟩ : BufTy).Contents (Elt F)) (k_main_v57 (F := F)) (k_main_v56 (F := F) b)
def k_main_v59 (S : (⟨S1x128, .f32⟩ : BufTy).Contents (Elt F)) (b : (⟨S128, .f32⟩ : BufTy).Contents (Elt F)) : (⟨S1x128, .f32⟩ : BufTy).Contents (Elt F) :=
  (mulf : (⟨S1x128, .f32⟩ : BufTy).Contents (Elt F) → (⟨S1x128, .f32⟩ : BufTy).Contents (Elt F) → (⟨S1x128, .f32⟩ : BufTy).Contents (Elt F)) (k_main_v58 (F := F) b) (k_main_v49 (F := F) S)
def k_main_v60 (S : (⟨S1x128, .f32⟩ : BufTy).Contents (Elt F)) (Q : (⟨S1x128, .f32⟩ : BufTy).Contents (Elt F)) (b : (⟨S128, .f32⟩ : BufTy).Contents (Elt F)) : (⟨S1x128, .f32⟩ : BufTy).Contents (Elt F) :=
  (addf : (⟨S1x128, .f32⟩ : BufTy).Contents (Elt F) → (⟨S1x128, .f32⟩ : BufTy).Contents (Elt F) → (⟨S1x128, .f32⟩ : BufTy).Contents (Elt F)) (k_main_v55 (F := F) Q) (k_main_v59 (F := F) S b)
def k_main_v61 (b : (⟨S128, .f32⟩ : BufTy).Contents (Elt F)) : (⟨S1x128, .f32⟩ : BufTy).Contents (Elt F) :=
  (broadcastInDim S1x128 ![1] bcast_S128_S1x128_1 : (⟨S128, .f32⟩ : BufTy).Contents (Elt F) → (⟨S1x128, .f32⟩ : BufTy).Contents (Elt F)) b
def k_main_v62 (b : (⟨S128, .f32⟩ : BufTy).Contents (Elt F)) : (⟨S1x128, .f32⟩ : BufTy).Contents (Elt F) :=
  (broadcastInDim S1x128 ![1] bcast_S128_S1x128_1 : (⟨S128, .f32⟩ : BufTy).Contents (Elt F) → (⟨S1x128, .f32⟩ : BufTy).Contents (Elt F)) b
def k_main_v63 (b : (⟨S128, .f32⟩ : BufTy).Contents (Elt F)) : (⟨S1x128, .f32⟩ : BufTy).Contents (Elt F) :=
  (mulf : (⟨S1x128, .f32⟩ : BufTy).Contents (Elt F) → (⟨S1x128, .f32⟩ : BufTy).Contents (Elt F) → (⟨S1x128, .f32⟩ : BufTy).Contents (Elt F)) (k_main_v61 (F := F) b) (k_main_v62 (F := F) b)
def k_main_v64 (S : (⟨S1x128, .f32⟩ : BufTy).Contents (Elt F)) (Q : (⟨S1x128, .f32⟩ : BufTy).Contents (Elt F)) (b : (⟨S128, .f32⟩ : BufTy).Contents (Elt F)) : (⟨S1x128, .f32⟩ : BufTy).Contents (Elt F) :=
  (addf : (⟨S1x128, .f32⟩ : BufTy).Contents (Elt F) → (⟨S1x128, .f32⟩ : BufTy).Contents (Elt F) → (⟨S1x128, .f32⟩ : BufTy).Contents (Elt F)) (k_main_v60 (F := F) S Q b) (k_main_v63 (F := F) b)
def k_main_cst_13 : (⟨S_, .f32⟩ : BufTy).Contents (Elt F) := constant S_ .f32 0x40000000#32
def k_main_v65 : (⟨S1x128, .f32⟩ : BufTy).Contents (Elt F) :=
  (broadcastInDim S1x128 ![] bcast_S_S1x128 : (⟨S_, .f32⟩ : BufTy).Contents (Elt F) → (⟨S1x128, .f32⟩ : BufTy).Contents (Elt F)) (k_main_cst_13 (F := F))
def k_main_v66 (S : (⟨S1x128, .f32⟩ : BufTy).Contents (Elt F)) (b : (⟨S128, .f32⟩ : BufTy).Contents (Elt F)) (ms : (⟨S128, .f32⟩ : BufTy).Contents (Elt F)) : (⟨S1x128, .f32⟩ : BufTy).Contents (Elt F) :=
  (mulf : (⟨S1x128, .f32⟩ : BufTy).Contents (Elt F) → (⟨S1x128, .f32⟩ : BufTy).Contents (Elt F) → (⟨S1x128, .f32⟩ : BufTy).Contents (Elt F)) (k_main_v65 (F := F)) (k_main_v53 (F := F) S b ms)
def k_main_v67 (S : (⟨S1x128, .f32⟩ : BufTy).Contents (Elt F)) (b : (⟨S128, .f32⟩ : BufTy).Contents (Elt F)) (ms : (⟨S128, .f32⟩ : BufTy).Contents (Elt F)) : (⟨S1x128, .f32⟩ : BufTy).Contents (Elt F) :=
  (mulf : (⟨S1x128, .f32⟩ : BufTy).Contents (Elt F) → (⟨S1x128, .f32⟩ : BufTy).Contents (Elt F) → (⟨S1x128, .f32⟩ : BufTy).Contents (Elt F)) (k_main_v66 (F := F) S b ms) (k_main_v51 (F := F) S b)
def k_main_v68 (S : (⟨S1x128, .f32⟩ : BufTy).Contents (Elt F)) (Q : (⟨S1x128, .f32⟩ : BufTy).Contents (Elt F)) (b : (⟨S128, .f32⟩ : BufTy).Contents (Elt F)) (ms : (⟨S128, .f32⟩ : BufTy).Contents (Elt F)) : (⟨S1x128, .f32⟩ : BufTy).Contents (Elt F) :=
  (subf : (⟨S1x128, .f32⟩ : BufTy).Contents (Elt F) → (⟨S1x128, .f32⟩ : BufTy).Contents (Elt F) → (⟨S1x128, .f32⟩ : BufTy).Contents (Elt F)) (k_main_v64 (F := F) S Q b) (k_main_v67 (F := F) S b ms)
def k_main_v69 (S : (⟨S1x128, .f32⟩ : BufTy).Contents (Elt F)) (b : (⟨S128, .f32⟩ : BufTy).Contents (Elt F)) (ms : (⟨S128, .f32⟩ : BufTy).Contents (Elt F)) : (⟨S1x128, .f32⟩ : BufTy).Contents (Elt F) :=
  (mulf : (⟨S1x128, .f32⟩ : BufTy).Contents (Elt F) → (⟨S1x128, .f32⟩ : BufTy).Contents (Elt F) → (⟨S1x128, .f32⟩ : BufTy).Contents (Elt F)) (k_main_v53 (F := F) S b ms) (k_main_v53 (F := F) S b ms)
def k_main_v70 (S : (⟨S1x128, .f32⟩ : BufTy).Contents (Elt F)) (Q : (⟨S1x128, .f32⟩ : BufTy).Contents (Elt F)) (b : (⟨S128, .f32⟩ : BufTy).Contents (Elt F)) (ms : (⟨S128, .f32⟩ : BufTy).Contents (Elt F)) : (⟨S1x128, .f32⟩ : BufTy).Contents (Elt F) :=
  (addf : (⟨S1x128, .f32⟩ : BufTy).Contents (Elt F) → (⟨S1x128, .f32⟩ : BufTy).Contents (Elt F) → (⟨S1x128, .f32⟩ : BufTy).Contents (Elt F)) (k_main_v68 (F := F) S Q b ms) (k_main_v69 (F := F) S b ms)
def k_main_cst_14 : (⟨S_, .f32⟩ : BufTy).Contents (Elt F) := constant S_ .f32 0x00000000#32
def k_main_v71 : (⟨S1x128, .f32⟩ : BufTy).Contents (Elt F) :=
  (broadcastInDim S1x128 ![] bcast_S_S1x128 : (⟨S_, .f32⟩ : BufTy).Contents (Elt F) → (⟨S1x128, .f32⟩ : BufTy).Contents (Elt F)) (k_main_cst_14 (F := F))
def k_main_v72 (S : (⟨S1x128, .f32⟩ : BufTy).Contents (Elt F)) (Q : (⟨S1x128, .f32⟩ : BufTy).Contents (Elt F)) (b : (⟨S128, .f32⟩ : BufTy).Contents (Elt F)) (ms : (⟨S128, .f32⟩ : BufTy).Contents (Elt F)) : (⟨S1x128, .f32⟩ : BufTy).Contents (Elt F) :=
  (maximumf : (⟨S1x128, .f32⟩ : BufTy).Contents (Elt F) → (⟨S1x128, .f32⟩ : BufTy).Contents (Elt F) → (⟨S1x128, .f32⟩ : BufTy).Contents (Elt F)) (k_main_v70 (F := F) S Q b ms) (k_main_v71 (F := F))
def k_main_cst_15 : (⟨S_, .f32⟩ : BufTy).Contents (Elt F) := constant S_ .f32 0x3727C5AC#32
def k_main_v73 : (⟨S1x128, .f32⟩ : BufTy).Contents (Elt F) :=
  (broadcastInDim S1x128 ![] bcast_S_S1x128 : (⟨S_, .f32⟩ : BufTy).Contents (Elt F) → (⟨S1x128, .f32⟩ : BufTy).Contents (Elt F)) (k_main_cst_15 (F := F))
def k_main_v74 (S : (⟨S1x128, .f32⟩ : BufTy).Contents (Elt F)) (Q : (⟨S1x128, .f32⟩ : BufTy).Contents (Elt F)) (b : (⟨S128, .f32⟩ : BufTy).Contents (Elt F)) (ms : (⟨S128, .f32⟩ : BufTy).Contents (Elt F)) : (⟨S1x128, .f32⟩ : BufTy).Contents (Elt F) :=
  (addf : (⟨S1x128, .f32⟩ : BufTy).Contents (Elt F) → (⟨S1x128, .f32⟩ : BufTy).Contents (Elt F) → (⟨S1x128, .f32⟩ : BufTy).Contents (Elt F)) (k_main_v72 (F := F) S Q b ms) (k_main_v73 (F := F))
def k_main_v75 (S : (⟨S1x128, .f32⟩ : BufTy).Contents (Elt F)) (Q : (⟨S1x128, .f32⟩ : BufTy).Contents (Elt F)) (b : (⟨S128, .f32⟩ : BufTy).Contents (Elt F)) (ms : (⟨S128, .f32⟩ : BufTy).Contents (Elt F)) : (⟨S1x128, .f32⟩ : BufTy).Contents (Elt F) :=
  (Host.rsqrt : (⟨S1x128, .f32⟩ : BufTy).Contents (Elt F) → (⟨S1x128, .f32⟩ : BufTy).Contents (Elt F)) (k_main_v74 (F := F) S Q b ms)
def k_main_v76 (gw : (⟨S128, .f32⟩ : BufTy).Contents (Elt F)) : (⟨S1x128, .f32⟩ : BufTy).Contents (Elt F) :=
  (broadcastInDim S1x128 ![1] bcast_S128_S1x128_1 : (⟨S128, .f32⟩ : BufTy).Contents (Elt F) → (⟨S1x128, .f32⟩ : BufTy).Contents (Elt F)) gw
def k_main_v77 (S : (⟨S1x128, .f32⟩ : BufTy).Contents (Elt F)) (Q : (⟨S1x128, .f32⟩ : BufTy).Contents (Elt F)) (b : (⟨S128, .f32⟩ : BufTy).Contents (Elt F)) (gw : (⟨S128, .f32⟩ : BufTy).Contents (Elt F)) (ms : (⟨S128, .f32⟩ : BufTy).Contents (Elt F)) : (⟨S1x128, .f32⟩ : BufTy).Contents (Elt F) :=
  (mulf : (⟨S1x128, .f32⟩ : BufTy).Contents (Elt F) → (⟨S1x128, .f32⟩ : BufTy).Contents (Elt F) → (⟨S1x128, .f32⟩ : BufTy).Contents (Elt F)) (k_main_v75 (F := F) S Q b ms) (k_main_v76 (F := F) gw)
def k_main_v78 (gb : (⟨S128, .f32⟩ : BufTy).Contents (Elt F)) : (⟨S1x128, .f32⟩ : BufTy).Contents (Elt F) :=
  (broadcastInDim S1x128 ![1] bcast_S128_S1x128_1 : (⟨S128, .f32⟩ : BufTy).Contents (Elt F) → (⟨S1x128, .f32⟩ : BufTy).Contents (Elt F)) gb
def k_main_v79 (S : (⟨S1x128, .f32⟩ : BufTy).Contents (Elt F)) (Q : (⟨S1x128, .f32⟩ : BufTy).Contents (Elt F)) (b : (⟨S128, .f32⟩ : BufTy).Contents (Elt F)) (gw : (⟨S128, .f32⟩ : BufTy).Contents (Elt F)) (ms : (⟨S128, .f32⟩ : BufTy).Contents (Elt F)) : (⟨S1x128, .f32⟩ : BufTy).Contents (Elt F) :=
  (mulf : (⟨S1x128, .f32⟩ : BufTy).Contents (Elt F) → (⟨S1x128, .f32⟩ : BufTy).Contents (Elt F) → (⟨S1x128, .f32⟩ : BufTy).Contents (Elt F)) (k_main_v53 (F := F) S b ms) (k_main_v77 (F := F) S Q b gw ms)
def k_main_v80 (S : (⟨S1x128, .f32⟩ : BufTy).Contents (Elt F)) (Q : (⟨S1x128, .f32⟩ : BufTy).Contents (Elt F)) (b : (⟨S128, .f32⟩ : BufTy).Contents (Elt F)) (gw : (⟨S128, .f32⟩ : BufTy).Contents (Elt F)) (gb : (⟨S128, .f32⟩ : BufTy).Contents (Elt F)) (ms : (⟨S128, .f32⟩ : BufTy).Contents (Elt F)) : (⟨S1x128, .f32⟩ : BufTy).Contents (Elt F) :=
  (subf : (⟨S1x128, .f32⟩ : BufTy).Contents (Elt F) → (⟨S1x128, .f32⟩ : BufTy).Contents (Elt F) → (⟨S1x128, .f32⟩ : BufTy).Contents (Elt F)) (k_main_v78 (F := F) gb) (k_main_v79 (F := F) S Q b gw ms)
def k_main_v81 (b : (⟨S128, .f32⟩ : BufTy).Contents (Elt F)) : (⟨S1x128, .f32⟩ : BufTy).Contents (Elt F) :=
  (broadcastInDim S1x128 ![1] bcast_S128_S1x128_1 : (⟨S128, .f32⟩ : BufTy).Contents (Elt F) → (⟨S1x128, .f32⟩ : BufTy).Contents (Elt F)) b
def k_main_v82 (S : (⟨S1x128, .f32⟩ : BufTy).Contents (Elt F)) (Q : (⟨S1x128, .f32⟩ : BufTy).Contents (Elt F)) (b : (⟨S128, .f32⟩ : BufTy).Contents (Elt F)) (gw : (⟨S128, .f32⟩ : BufTy).Contents (Elt F)) (ms : (⟨S128, .f32⟩ : BufTy).Contents (Elt F)) : (⟨S1x128, .f32⟩ : BufTy).Contents (Elt F) :=
  (mulf : (⟨S1x128, .f32⟩ : BufTy).Contents (Elt F) → (⟨S1x128, .f32⟩ : BufTy).Contents (Elt F) → (⟨S1x128, .f32⟩ : BufTy).Contents (Elt F)) (k_main_v81 (F := F) b) (k_main_v77 (F := F) S Q b gw ms)
def k_main_v83 (S : (⟨S1x128, .f32⟩ : BufTy).Contents (Elt F)) (Q : (⟨S1x128, .f32⟩ : BufTy).Contents (Elt F)) (b : (⟨S128, .f32⟩ : BufTy).Contents (Elt F)) (gw : (⟨S128, .f32⟩ : BufTy).Contents (Elt F)) (gb : (⟨S128, .f32⟩ : BufTy).Contents (Elt F)) (ms : (⟨S128, .f32⟩ : BufTy).Contents (Elt F)) : (⟨S1x128, .f32⟩ : BufTy).Contents (Elt F) :=
  (addf : (⟨S1x128, .f32⟩ : BufTy).Contents (Elt F) → (⟨S1x128, .f32⟩ : BufTy).Contents (Elt F) → (⟨S1x128, .f32⟩ : BufTy).Contents (Elt F)) (k_main_v80 (F := F) S Q b gw gb ms) (k_main_v82 (F := F) S Q b gw ms)

/-- The composition is the last two of these. -/
theorem statsOfAt_flat (S Q : (⟨S1x128, .f32⟩ : BufTy).Contents (Elt F)) (b gw gb ms : (⟨S128, .f32⟩ : BufTy).Contents (Elt F)) :
    statsOfAt S Q b gw gb ms = (k_main_v77 (F := F) S Q b gw ms, k_main_v83 (F := F) S Q b gw gb ms) := rfl

end Flat

/-! The real arrays the operations compute. -/

def r_main_v48 : S1x128.Idx → ℝ := fun _ => (100000 : ℝ)
def r_main_v49 (Sr : S1x128.Idx → ℝ) : S1x128.Idx → ℝ := fun i => Sr i / (r_main_v48) i
def r_main_v50 (br : S128.Idx → ℝ) : S1x128.Idx → ℝ := fun i => br (ix1 (i 1))
def r_main_v51 (Sr : S1x128.Idx → ℝ) (br : S128.Idx → ℝ) : S1x128.Idx → ℝ := fun i => (r_main_v49 Sr) i + (r_main_v50 br) i
def r_main_v52 (msr : S128.Idx → ℝ) : S1x128.Idx → ℝ := fun i => msr (ix1 (i 1))
def r_main_v53 (Sr : S1x128.Idx → ℝ) (br : S128.Idx → ℝ) (msr : S128.Idx → ℝ) : S1x128.Idx → ℝ := fun i => (r_main_v51 Sr br) i * (r_main_v52 msr) i
def r_main_v54 : S1x128.Idx → ℝ := fun _ => (100000 : ℝ)
def r_main_v55 (Qr : S1x128.Idx → ℝ) : S1x128.Idx → ℝ := fun i => Qr i / (r_main_v54) i
def r_main_v56 (br : S128.Idx → ℝ) : S1x128.Idx → ℝ := fun i => br (ix1 (i 1))
def r_main_v57 : S1x128.Idx → ℝ := fun _ => (2 : ℝ)
def r_main_v58 (br : S128.Idx → ℝ) : S1x128.Idx → ℝ := fun i => (r_main_v57) i * (r_main_v56 br) i
def r_main_v59 (Sr : S1x128.Idx → ℝ) (br : S128.Idx → ℝ) : S1x128.Idx → ℝ := fun i => (r_main_v58 br) i * (r_main_v49 Sr) i
def r_main_v60 (Sr : S1x128.Idx → ℝ) (Qr : S1x128.Idx → ℝ) (br : S128.Idx → ℝ) : S1x128.Idx → ℝ := fun i => (r_main_v55 Qr) i + (r_main_v59 Sr br) i
def r_main_v61 (br : S128.Idx → ℝ) : S1x128.Idx → ℝ := fun i => br (ix1 (i 1))
def r_main_v62 (br : S128.Idx → ℝ) : S1x128.Idx → ℝ := fun i => br (ix1 (i 1))
def r_main_v63 (br : S128.Idx → ℝ) : S1x128.Idx → ℝ := fun i => (r_main_v61 br) i * (r_main_v62 br) i
def r_main_v64 (Sr : S1x128.Idx → ℝ) (Qr : S1x128.Idx → ℝ) (br : S128.Idx → ℝ) : S1x128.Idx → ℝ := fun i => (r_main_v60 Sr Qr br) i + (r_main_v63 br) i
def r_main_v65 : S1x128.Idx → ℝ := fun _ => (2 : ℝ)
def r_main_v66 (Sr : S1x128.Idx → ℝ) (br : S128.Idx → ℝ) (msr : S128.Idx → ℝ) : S1x128.Idx → ℝ := fun i => (r_main_v65) i * (r_main_v53 Sr br msr) i
def r_main_v67 (Sr : S1x128.Idx → ℝ) (br : S128.Idx → ℝ) (msr : S128.Idx → ℝ) : S1x128.Idx → ℝ := fun i => (r_main_v66 Sr br msr) i * (r_main_v51 Sr br) i
def r_main_v68 (Sr : S1x128.Idx → ℝ) (Qr : S1x128.Idx → ℝ) (br : S128.Idx → ℝ) (msr : S128.Idx → ℝ) : S1x128.Idx → ℝ := fun i => (r_main_v64 Sr Qr br) i - (r_main_v67 Sr br msr) i
def r_main_v69 (Sr : S1x128.Idx → ℝ) (br : S128.Idx → ℝ) (msr : S128.Idx → ℝ) : S1x128.Idx → ℝ := fun i => (r_main_v53 Sr br msr) i * (r_main_v53 Sr br msr) i
def r_main_v70 (Sr : S1x128.Idx → ℝ) (Qr : S1x128.Idx → ℝ) (br : S128.Idx → ℝ) (msr : S128.Idx → ℝ) : S1x128.Idx → ℝ := fun i => (r_main_v68 Sr Qr br msr) i + (r_main_v69 Sr br msr) i
def r_main_v71 : S1x128.Idx → ℝ := fun _ => (0 : ℝ)
def r_main_v72 (Sr : S1x128.Idx → ℝ) (Qr : S1x128.Idx → ℝ) (br : S128.Idx → ℝ) (msr : S128.Idx → ℝ) : S1x128.Idx → ℝ := fun i => max ((r_main_v70 Sr Qr br msr) i) ((r_main_v71) i)
def r_main_v73 : S1x128.Idx → ℝ := fun _ => epsR
def r_main_v74 (Sr : S1x128.Idx → ℝ) (Qr : S1x128.Idx → ℝ) (br : S128.Idx → ℝ) (msr : S128.Idx → ℝ) : S1x128.Idx → ℝ := fun i => (r_main_v72 Sr Qr br msr) i + (r_main_v73) i
def r_main_v75 (Sr : S1x128.Idx → ℝ) (Qr : S1x128.Idx → ℝ) (br : S128.Idx → ℝ) (msr : S128.Idx → ℝ) : S1x128.Idx → ℝ := fun i => (Real.sqrt ((r_main_v74 Sr Qr br msr) i))⁻¹
def r_main_v76 (gwr : S128.Idx → ℝ) : S1x128.Idx → ℝ := fun i => gwr (ix1 (i 1))
def r_main_v77 (Sr : S1x128.Idx → ℝ) (Qr : S1x128.Idx → ℝ) (br : S128.Idx → ℝ) (gwr : S128.Idx → ℝ) (msr : S128.Idx → ℝ) : S1x128.Idx → ℝ := fun i => (r_main_v75 Sr Qr br msr) i * (r_main_v76 gwr) i
def r_main_v78 (gbr : S128.Idx → ℝ) : S1x128.Idx → ℝ := fun i => gbr (ix1 (i 1))
def r_main_v79 (Sr : S1x128.Idx → ℝ) (Qr : S1x128.Idx → ℝ) (br : S128.Idx → ℝ) (gwr : S128.Idx → ℝ) (msr : S128.Idx → ℝ) : S1x128.Idx → ℝ := fun i => (r_main_v53 Sr br msr) i * (r_main_v77 Sr Qr br gwr msr) i
def r_main_v80 (Sr : S1x128.Idx → ℝ) (Qr : S1x128.Idx → ℝ) (br : S128.Idx → ℝ) (gwr : S128.Idx → ℝ) (gbr : S128.Idx → ℝ) (msr : S128.Idx → ℝ) : S1x128.Idx → ℝ := fun i => (r_main_v78 gbr) i - (r_main_v79 Sr Qr br gwr msr) i
def r_main_v81 (br : S128.Idx → ℝ) : S1x128.Idx → ℝ := fun i => br (ix1 (i 1))
def r_main_v82 (Sr : S1x128.Idx → ℝ) (Qr : S1x128.Idx → ℝ) (br : S128.Idx → ℝ) (gwr : S128.Idx → ℝ) (msr : S128.Idx → ℝ) : S1x128.Idx → ℝ := fun i => (r_main_v81 br) i * (r_main_v77 Sr Qr br gwr msr) i
def r_main_v83 (Sr : S1x128.Idx → ℝ) (Qr : S1x128.Idx → ℝ) (br : S128.Idx → ℝ) (gwr : S128.Idx → ℝ) (gbr : S128.Idx → ℝ) (msr : S128.Idx → ℝ) : S1x128.Idx → ℝ := fun i => (r_main_v80 Sr Qr br gwr gbr msr) i + (r_main_v82 Sr Qr br gwr msr) i

/-! Each operation on real inputs computes its real array. -/

theorem k_main_v48_cv :
    k_main_v48 (F := Ideal) = (cv (r_main_v48) : FVec Ideal S1x128 .f32) := by
  unfold k_main_v48 k_main_cst_10
  exact bcast_const_cv bcast_S_S1x128 _ _ word_1e5

theorem k_main_v49_cv (Sr : S1x128.Idx → ℝ) :
    k_main_v49 (F := Ideal) (cv Sr : FVec Ideal S1x128 .f32) = (cv (r_main_v49 Sr) : FVec Ideal S1x128 .f32) := by
  unfold k_main_v49
  rw [k_main_v48_cv]
  exact hostDivf_cv _ _ (fun i => by show (100000 : ℝ) ≠ 0; norm_num)

theorem k_main_v50_cv (br : S128.Idx → ℝ) :
    k_main_v50 (F := Ideal) (cv br : FVec Ideal S128 .f32) = (cv (r_main_v50 br) : FVec Ideal S1x128 .f32) := by
  unfold k_main_v50
  exact bcast_vec_row_cv _ bcast_S128_S1x128_1

theorem k_main_v51_cv (Sr : S1x128.Idx → ℝ) (br : S128.Idx → ℝ) :
    k_main_v51 (F := Ideal) (cv Sr : FVec Ideal S1x128 .f32) (cv br : FVec Ideal S128 .f32) = (cv (r_main_v51 Sr br) : FVec Ideal S1x128 .f32) := by
  unfold k_main_v51
  rw [k_main_v49_cv, k_main_v50_cv]
  exact addf_cv _ _

theorem k_main_v52_cv (msr : S128.Idx → ℝ) :
    k_main_v52 (F := Ideal) (cv msr : FVec Ideal S128 .f32) = (cv (r_main_v52 msr) : FVec Ideal S1x128 .f32) := by
  unfold k_main_v52
  exact bcast_vec_row_cv _ bcast_S128_S1x128_1

theorem k_main_v53_cv (Sr : S1x128.Idx → ℝ) (br : S128.Idx → ℝ) (msr : S128.Idx → ℝ) :
    k_main_v53 (F := Ideal) (cv Sr : FVec Ideal S1x128 .f32) (cv br : FVec Ideal S128 .f32) (cv msr : FVec Ideal S128 .f32) = (cv (r_main_v53 Sr br msr) : FVec Ideal S1x128 .f32) := by
  unfold k_main_v53
  rw [k_main_v51_cv, k_main_v52_cv]
  exact mulf_cv _ _

theorem k_main_v54_cv :
    k_main_v54 (F := Ideal) = (cv (r_main_v54) : FVec Ideal S1x128 .f32) := by
  unfold k_main_v54 k_main_cst_11
  exact bcast_const_cv bcast_S_S1x128 _ _ word_1e5

theorem k_main_v55_cv (Qr : S1x128.Idx → ℝ) :
    k_main_v55 (F := Ideal) (cv Qr : FVec Ideal S1x128 .f32) = (cv (r_main_v55 Qr) : FVec Ideal S1x128 .f32) := by
  unfold k_main_v55
  rw [k_main_v54_cv]
  exact hostDivf_cv _ _ (fun i => by show (100000 : ℝ) ≠ 0; norm_num)

theorem k_main_v56_cv (br : S128.Idx → ℝ) :
    k_main_v56 (F := Ideal) (cv br : FVec Ideal S128 .f32) = (cv (r_main_v56 br) : FVec Ideal S1x128 .f32) := by
  unfold k_main_v56
  exact bcast_vec_row_cv _ bcast_S128_S1x128_1

theorem k_main_v57_cv :
    k_main_v57 (F := Ideal) = (cv (r_main_v57) : FVec Ideal S1x128 .f32) := by
  unfold k_main_v57 k_main_cst_12
  exact bcast_const_cv bcast_S_S1x128 _ _ word_two

theorem k_main_v58_cv (br : S128.Idx → ℝ) :
    k_main_v58 (F := Ideal) (cv br : FVec Ideal S128 .f32) = (cv (r_main_v58 br) : FVec Ideal S1x128 .f32) := by
  unfold k_main_v58
  rw [k_main_v57_cv, k_main_v56_cv]
  exact mulf_cv _ _

theorem k_main_v59_cv (Sr : S1x128.Idx → ℝ) (br : S128.Idx → ℝ) :
    k_main_v59 (F := Ideal) (cv Sr : FVec Ideal S1x128 .f32) (cv br : FVec Ideal S128 .f32) = (cv (r_main_v59 Sr br) : FVec Ideal S1x128 .f32) := by
  unfold k_main_v59
  rw [k_main_v58_cv, k_main_v49_cv]
  exact mulf_cv _ _

theorem k_main_v60_cv (Sr : S1x128.Idx → ℝ) (Qr : S1x128.Idx → ℝ) (br : S128.Idx → ℝ) :
    k_main_v60 (F := Ideal) (cv Sr : FVec Ideal S1x128 .f32) (cv Qr : FVec Ideal S1x128 .f32) (cv br : FVec Ideal S128 .f32) = (cv (r_main_v60 Sr Qr br) : FVec Ideal S1x128 .f32) := by
  unfold k_main_v60
  rw [k_main_v55_cv, k_main_v59_cv]
  exact addf_cv _ _

theorem k_main_v61_cv (br : S128.Idx → ℝ) :
    k_main_v61 (F := Ideal) (cv br : FVec Ideal S128 .f32) = (cv (r_main_v61 br) : FVec Ideal S1x128 .f32) := by
  unfold k_main_v61
  exact bcast_vec_row_cv _ bcast_S128_S1x128_1

theorem k_main_v62_cv (br : S128.Idx → ℝ) :
    k_main_v62 (F := Ideal) (cv br : FVec Ideal S128 .f32) = (cv (r_main_v62 br) : FVec Ideal S1x128 .f32) := by
  unfold k_main_v62
  exact bcast_vec_row_cv _ bcast_S128_S1x128_1

theorem k_main_v63_cv (br : S128.Idx → ℝ) :
    k_main_v63 (F := Ideal) (cv br : FVec Ideal S128 .f32) = (cv (r_main_v63 br) : FVec Ideal S1x128 .f32) := by
  unfold k_main_v63
  rw [k_main_v61_cv, k_main_v62_cv]
  exact mulf_cv _ _

theorem k_main_v64_cv (Sr : S1x128.Idx → ℝ) (Qr : S1x128.Idx → ℝ) (br : S128.Idx → ℝ) :
    k_main_v64 (F := Ideal) (cv Sr : FVec Ideal S1x128 .f32) (cv Qr : FVec Ideal S1x128 .f32) (cv br : FVec Ideal S128 .f32) = (cv (r_main_v64 Sr Qr br) : FVec Ideal S1x128 .f32) := by
  unfold k_main_v64
  rw [k_main_v60_cv, k_main_v63_cv]
  exact addf_cv _ _

theorem k_main_v65_cv :
    k_main_v65 (F := Ideal) = (cv (r_main_v65) : FVec Ideal S1x128 .f32) := by
  unfold k_main_v65 k_main_cst_13
  exact bcast_const_cv bcast_S_S1x128 _ _ word_two

theorem k_main_v66_cv (Sr : S1x128.Idx → ℝ) (br : S128.Idx → ℝ) (msr : S128.Idx → ℝ) :
    k_main_v66 (F := Ideal) (cv Sr : FVec Ideal S1x128 .f32) (cv br : FVec Ideal S128 .f32) (cv msr : FVec Ideal S128 .f32) = (cv (r_main_v66 Sr br msr) : FVec Ideal S1x128 .f32) := by
  unfold k_main_v66
  rw [k_main_v65_cv, k_main_v53_cv]
  exact mulf_cv _ _

theorem k_main_v67_cv (Sr : S1x128.Idx → ℝ) (br : S128.Idx → ℝ) (msr : S128.Idx → ℝ) :
    k_main_v67 (F := Ideal) (cv Sr : FVec Ideal S1x128 .f32) (cv br : FVec Ideal S128 .f32) (cv msr : FVec Ideal S128 .f32) = (cv (r_main_v67 Sr br msr) : FVec Ideal S1x128 .f32) := by
  unfold k_main_v67
  rw [k_main_v66_cv, k_main_v51_cv]
  exact mulf_cv _ _

theorem k_main_v68_cv (Sr : S1x128.Idx → ℝ) (Qr : S1x128.Idx → ℝ) (br : S128.Idx → ℝ) (msr : S128.Idx → ℝ) :
    k_main_v68 (F := Ideal) (cv Sr : FVec Ideal S1x128 .f32) (cv Qr : FVec Ideal S1x128 .f32) (cv br : FVec Ideal S128 .f32) (cv msr : FVec Ideal S128 .f32) = (cv (r_main_v68 Sr Qr br msr) : FVec Ideal S1x128 .f32) := by
  unfold k_main_v68
  rw [k_main_v64_cv, k_main_v67_cv]
  exact subf_cv _ _

theorem k_main_v69_cv (Sr : S1x128.Idx → ℝ) (br : S128.Idx → ℝ) (msr : S128.Idx → ℝ) :
    k_main_v69 (F := Ideal) (cv Sr : FVec Ideal S1x128 .f32) (cv br : FVec Ideal S128 .f32) (cv msr : FVec Ideal S128 .f32) = (cv (r_main_v69 Sr br msr) : FVec Ideal S1x128 .f32) := by
  unfold k_main_v69
  rw [k_main_v53_cv]
  exact mulf_cv _ _

theorem k_main_v70_cv (Sr : S1x128.Idx → ℝ) (Qr : S1x128.Idx → ℝ) (br : S128.Idx → ℝ) (msr : S128.Idx → ℝ) :
    k_main_v70 (F := Ideal) (cv Sr : FVec Ideal S1x128 .f32) (cv Qr : FVec Ideal S1x128 .f32) (cv br : FVec Ideal S128 .f32) (cv msr : FVec Ideal S128 .f32) = (cv (r_main_v70 Sr Qr br msr) : FVec Ideal S1x128 .f32) := by
  unfold k_main_v70
  rw [k_main_v68_cv, k_main_v69_cv]
  exact addf_cv _ _

theorem k_main_v71_cv :
    k_main_v71 (F := Ideal) = (cv (r_main_v71) : FVec Ideal S1x128 .f32) := by
  unfold k_main_v71 k_main_cst_14
  exact bcast_const_cv bcast_S_S1x128 _ _ word_zero

theorem k_main_v72_cv (Sr : S1x128.Idx → ℝ) (Qr : S1x128.Idx → ℝ) (br : S128.Idx → ℝ) (msr : S128.Idx → ℝ) :
    k_main_v72 (F := Ideal) (cv Sr : FVec Ideal S1x128 .f32) (cv Qr : FVec Ideal S1x128 .f32) (cv br : FVec Ideal S128 .f32) (cv msr : FVec Ideal S128 .f32) = (cv (r_main_v72 Sr Qr br msr) : FVec Ideal S1x128 .f32) := by
  unfold k_main_v72
  rw [k_main_v70_cv, k_main_v71_cv]
  exact maximumf_cv _ _

theorem k_main_v73_cv :
    k_main_v73 (F := Ideal) = (cv (r_main_v73) : FVec Ideal S1x128 .f32) := by
  unfold k_main_v73 k_main_cst_15
  exact bcast_const_cv bcast_S_S1x128 _ _ word_eps

theorem k_main_v74_cv (Sr : S1x128.Idx → ℝ) (Qr : S1x128.Idx → ℝ) (br : S128.Idx → ℝ) (msr : S128.Idx → ℝ) :
    k_main_v74 (F := Ideal) (cv Sr : FVec Ideal S1x128 .f32) (cv Qr : FVec Ideal S1x128 .f32) (cv br : FVec Ideal S128 .f32) (cv msr : FVec Ideal S128 .f32) = (cv (r_main_v74 Sr Qr br msr) : FVec Ideal S1x128 .f32) := by
  unfold k_main_v74
  rw [k_main_v72_cv, k_main_v73_cv]
  exact addf_cv _ _

theorem k_main_v75_cv (Sr : S1x128.Idx → ℝ) (Qr : S1x128.Idx → ℝ) (br : S128.Idx → ℝ) (msr : S128.Idx → ℝ) :
    k_main_v75 (F := Ideal) (cv Sr : FVec Ideal S1x128 .f32) (cv Qr : FVec Ideal S1x128 .f32) (cv br : FVec Ideal S128 .f32) (cv msr : FVec Ideal S128 .f32) = (cv (r_main_v75 Sr Qr br msr) : FVec Ideal S1x128 .f32) := by
  unfold k_main_v75
  rw [k_main_v74_cv]
  exact hostRsqrt_cv _ (fun i => by
    show 0 < max _ (0 : ℝ) + epsR
    exact add_pos_of_nonneg_of_pos (le_max_right _ _) epsR_pos)

theorem k_main_v76_cv (gwr : S128.Idx → ℝ) :
    k_main_v76 (F := Ideal) (cv gwr : FVec Ideal S128 .f32) = (cv (r_main_v76 gwr) : FVec Ideal S1x128 .f32) := by
  unfold k_main_v76
  exact bcast_vec_row_cv _ bcast_S128_S1x128_1

theorem k_main_v77_cv (Sr : S1x128.Idx → ℝ) (Qr : S1x128.Idx → ℝ) (br : S128.Idx → ℝ) (gwr : S128.Idx → ℝ) (msr : S128.Idx → ℝ) :
    k_main_v77 (F := Ideal) (cv Sr : FVec Ideal S1x128 .f32) (cv Qr : FVec Ideal S1x128 .f32) (cv br : FVec Ideal S128 .f32) (cv gwr : FVec Ideal S128 .f32) (cv msr : FVec Ideal S128 .f32) = (cv (r_main_v77 Sr Qr br gwr msr) : FVec Ideal S1x128 .f32) := by
  unfold k_main_v77
  rw [k_main_v75_cv, k_main_v76_cv]
  exact mulf_cv _ _

theorem k_main_v78_cv (gbr : S128.Idx → ℝ) :
    k_main_v78 (F := Ideal) (cv gbr : FVec Ideal S128 .f32) = (cv (r_main_v78 gbr) : FVec Ideal S1x128 .f32) := by
  unfold k_main_v78
  exact bcast_vec_row_cv _ bcast_S128_S1x128_1

theorem k_main_v79_cv (Sr : S1x128.Idx → ℝ) (Qr : S1x128.Idx → ℝ) (br : S128.Idx → ℝ) (gwr : S128.Idx → ℝ) (msr : S128.Idx → ℝ) :
    k_main_v79 (F := Ideal) (cv Sr : FVec Ideal S1x128 .f32) (cv Qr : FVec Ideal S1x128 .f32) (cv br : FVec Ideal S128 .f32) (cv gwr : FVec Ideal S128 .f32) (cv msr : FVec Ideal S128 .f32) = (cv (r_main_v79 Sr Qr br gwr msr) : FVec Ideal S1x128 .f32) := by
  unfold k_main_v79
  rw [k_main_v53_cv, k_main_v77_cv]
  exact mulf_cv _ _

theorem k_main_v80_cv (Sr : S1x128.Idx → ℝ) (Qr : S1x128.Idx → ℝ) (br : S128.Idx → ℝ) (gwr : S128.Idx → ℝ) (gbr : S128.Idx → ℝ) (msr : S128.Idx → ℝ) :
    k_main_v80 (F := Ideal) (cv Sr : FVec Ideal S1x128 .f32) (cv Qr : FVec Ideal S1x128 .f32) (cv br : FVec Ideal S128 .f32) (cv gwr : FVec Ideal S128 .f32) (cv gbr : FVec Ideal S128 .f32) (cv msr : FVec Ideal S128 .f32) = (cv (r_main_v80 Sr Qr br gwr gbr msr) : FVec Ideal S1x128 .f32) := by
  unfold k_main_v80
  rw [k_main_v78_cv, k_main_v79_cv]
  exact subf_cv _ _

theorem k_main_v81_cv (br : S128.Idx → ℝ) :
    k_main_v81 (F := Ideal) (cv br : FVec Ideal S128 .f32) = (cv (r_main_v81 br) : FVec Ideal S1x128 .f32) := by
  unfold k_main_v81
  exact bcast_vec_row_cv _ bcast_S128_S1x128_1

theorem k_main_v82_cv (Sr : S1x128.Idx → ℝ) (Qr : S1x128.Idx → ℝ) (br : S128.Idx → ℝ) (gwr : S128.Idx → ℝ) (msr : S128.Idx → ℝ) :
    k_main_v82 (F := Ideal) (cv Sr : FVec Ideal S1x128 .f32) (cv Qr : FVec Ideal S1x128 .f32) (cv br : FVec Ideal S128 .f32) (cv gwr : FVec Ideal S128 .f32) (cv msr : FVec Ideal S128 .f32) = (cv (r_main_v82 Sr Qr br gwr msr) : FVec Ideal S1x128 .f32) := by
  unfold k_main_v82
  rw [k_main_v81_cv, k_main_v77_cv]
  exact mulf_cv _ _

theorem k_main_v83_cv (Sr : S1x128.Idx → ℝ) (Qr : S1x128.Idx → ℝ) (br : S128.Idx → ℝ) (gwr : S128.Idx → ℝ) (gbr : S128.Idx → ℝ) (msr : S128.Idx → ℝ) :
    k_main_v83 (F := Ideal) (cv Sr : FVec Ideal S1x128 .f32) (cv Qr : FVec Ideal S1x128 .f32) (cv br : FVec Ideal S128 .f32) (cv gwr : FVec Ideal S128 .f32) (cv gbr : FVec Ideal S128 .f32) (cv msr : FVec Ideal S128 .f32) = (cv (r_main_v83 Sr Qr br gwr gbr msr) : FVec Ideal S1x128 .f32) := by
  unfold k_main_v83
  rw [k_main_v80_cv, k_main_v82_cv]
  exact addf_cv _ _

/-- The scale and the shift on real inputs are LibNormLaw.onePass, entry by entry. -/
theorem statsOf_cv (Sr Qr : S1x128.Idx → ℝ) (br gwr gbr msr : S128.Idx → ℝ) :
    statsOf (cv Sr : FVec Ideal S1x128 .f32) (cv Qr : FVec Ideal S1x128 .f32) (cv br : FVec Ideal S128 .f32) (cv gwr : FVec Ideal S128 .f32) (cv gbr : FVec Ideal S128 .f32) (cv msr : FVec Ideal S128 .f32)
      = ((cv (fun i => (Cert.LibNormLaw.onePass 100000 (Sr i) (Qr i) (br (ix1 (i 1))) (gwr (ix1 (i 1))) (gbr (ix1 (i 1))) (msr (ix1 (i 1))) epsR).1) : FVec Ideal S1x128 .f32),
         (cv (fun i => (Cert.LibNormLaw.onePass 100000 (Sr i) (Qr i) (br (ix1 (i 1))) (gwr (ix1 (i 1))) (gbr (ix1 (i 1))) (msr (ix1 (i 1))) epsR).2) : FVec Ideal S1x128 .f32)) := by
  unfold statsOf
  rw [statsOfAt_flat, k_main_v77_cv, k_main_v83_cv]
  rfl

end Cert.Bridge

end
-- ==== Proof.MathRef.lean ====
/-
  The reference program's result is G of its arguments, when the float arguments have real entries.

  The reference's aggregate (%45) is aggOf of the edge list and the matrix product, operation for operation; with real
  features it is a real array (MathAgg).  From there the reference centres and scales each column in two passes: every
  one of its operations %46 … %71 stays in the reals — the divisions are by the constant 100000 and by
  sqrt(variance + eps) > 0, the square root is of variance + eps > 0 — and computes, entry by entry, the corresponding
  step of LibNormLaw.twoPass at N = 100000.  G computes the column sums and sums of squares of the same aggregate and
  from them LibNormLaw.onePass (MathStats).  The two agree by LibNormLaw.twoPass_eq, and the leaky rectifier is the same
  function of the same number on both sides.
-/
import proofs.«106071_j44908178047711_2_alg».proof.Proof.RefRead
import proofs.«106071_j44908178047711_2_alg».proof.Proof.MathAgg
import proofs.«106071_j44908178047711_2_alg».proof.Proof.MathStats

noncomputable section

namespace Cert.Bridge

open Idealize.ShloMosaic Idealize.ShloMosaic.ValueIdx Cert.LibRealLift Cert.LibHostLift Cert.LibIsReal
open Cert.ReferenceIdeal Cert.ReferenceIdeal.Gen Cert.ReferenceIdeal.Read

/-! The real arrays the reference's operations %46 … %71 compute. -/

def q_main_v46 (br : S128.Idx → ℝ) : S1x128.Idx → ℝ := fun i => br (ix1 (i 1))
def q_main_v47 (br : S128.Idx → ℝ) : S100000x128.Idx → ℝ := fun i => (q_main_v46 br) (ix2 (0 : Fin 1) (i 1))
def q_main_v48 (ar : S100000x128.Idx → ℝ) (br : S128.Idx → ℝ) : S100000x128.Idx → ℝ := fun i => ar i + (q_main_v47 br) i
def q_main_v49 (ar : S100000x128.Idx → ℝ) (br : S128.Idx → ℝ) : S128.Idx → ℝ := fun i => ∑ k : Fin 100000, (q_main_v48 ar br) (ix2 k (i 0))
def q_main_v50 : S128.Idx → ℝ := fun _ => (100000 : ℝ)
def q_main_v51 (ar : S100000x128.Idx → ℝ) (br : S128.Idx → ℝ) : S128.Idx → ℝ := fun i => (q_main_v49 ar br) i / q_main_v50 i
def q_main_v52 (ar : S100000x128.Idx → ℝ) (br : S128.Idx → ℝ) (msr : S128.Idx → ℝ) : S128.Idx → ℝ := fun i => (q_main_v51 ar br) i * msr i
def q_main_v53 (ar : S100000x128.Idx → ℝ) (br : S128.Idx → ℝ) (msr : S128.Idx → ℝ) : S1x128.Idx → ℝ := fun i => (q_main_v52 ar br msr) (ix1 (i 1))
def q_main_v54 (ar : S100000x128.Idx → ℝ) (br : S128.Idx → ℝ) (msr : S128.Idx → ℝ) : S100000x128.Idx → ℝ := fun i => (q_main_v53 ar br msr) (ix2 (0 : Fin 1) (i 1))
def q_main_v55 (ar : S100000x128.Idx → ℝ) (br : S128.Idx → ℝ) (msr : S128.Idx → ℝ) : S100000x128.Idx → ℝ := fun i => (q_main_v48 ar br) i - (q_main_v54 ar br msr) i
def q_main_v56 (ar : S100000x128.Idx → ℝ) (br : S128.Idx → ℝ) (msr : S128.Idx → ℝ) : S100000x128.Idx → ℝ := fun i => (q_main_v55 ar br msr) i * (q_main_v55 ar br msr) i
def q_main_v57 (ar : S100000x128.Idx → ℝ) (br : S128.Idx → ℝ) (msr : S128.Idx → ℝ) : S128.Idx → ℝ := fun i => ∑ k : Fin 100000, (q_main_v56 ar br msr) (ix2 k (i 0))
def q_main_v58 : S128.Idx → ℝ := fun _ => (100000 : ℝ)
def q_main_v59 (ar : S100000x128.Idx → ℝ) (br : S128.Idx → ℝ) (msr : S128.Idx → ℝ) : S128.Idx → ℝ := fun i => (q_main_v57 ar br msr) i / q_main_v58 i
def q_main_v60 : S128.Idx → ℝ := fun _ => epsR
def q_main_v61 (ar : S100000x128.Idx → ℝ) (br : S128.Idx → ℝ) (msr : S128.Idx → ℝ) : S128.Idx → ℝ := fun i => (q_main_v59 ar br msr) i + q_main_v60 i
def q_main_v62 (ar : S100000x128.Idx → ℝ) (br : S128.Idx → ℝ) (msr : S128.Idx → ℝ) : S128.Idx → ℝ := fun i => Real.sqrt ((q_main_v61 ar br msr) i)
def q_main_v63 (ar : S100000x128.Idx → ℝ) (br : S128.Idx → ℝ) (msr : S128.Idx → ℝ) : S1x128.Idx → ℝ := fun i => (q_main_v62 ar br msr) (ix1 (i 1))
def q_main_v64 (ar : S100000x128.Idx → ℝ) (br : S128.Idx → ℝ) (msr : S128.Idx → ℝ) : S100000x128.Idx → ℝ := fun i => (q_main_v63 ar br msr) (ix2 (0 : Fin 1) (i 1))
def q_main_v65 (ar : S100000x128.Idx → ℝ) (br : S128.Idx → ℝ) (msr : S128.Idx → ℝ) : S100000x128.Idx → ℝ := fun i => (q_main_v55 ar br msr) i / (q_main_v64 ar br msr) i
def q_main_v66 (gwr : S128.Idx → ℝ) : S1x128.Idx → ℝ := fun i => gwr (ix1 (i 1))
def q_main_v67 (gwr : S128.Idx → ℝ) : S100000x128.Idx → ℝ := fun i => (q_main_v66 gwr) (ix2 (0 : Fin 1) (i 1))
def q_main_v68 (ar : S100000x128.Idx → ℝ) (br : S128.Idx → ℝ) (gwr : S128.Idx → ℝ) (msr : S128.Idx → ℝ) : S100000x128.Idx → ℝ := fun i => (q_main_v65 ar br msr) i * (q_main_v67 gwr) i
def q_main_v69 (gbr : S128.Idx → ℝ) : S1x128.Idx → ℝ := fun i => gbr (ix1 (i 1))
def q_main_v70 (gbr : S128.Idx → ℝ) : S100000x128.Idx → ℝ := fun i => (q_main_v69 gbr) (ix2 (0 : Fin 1) (i 1))
def q_main_v71 (ar : S100000x128.Idx → ℝ) (br : S128.Idx → ℝ) (gwr : S128.Idx → ℝ) (gbr : S128.Idx → ℝ) (msr : S128.Idx → ℝ) : S100000x128.Idx → ℝ := fun i => (q_main_v68 ar br gwr msr) i + (q_main_v70 gbr) i

/-- variance + eps is positive: a mean of squares plus a positive number. -/
theorem q_main_v61_pos (ar : S100000x128.Idx → ℝ) (br msr : S128.Idx → ℝ) (i : S128.Idx) : 0 < q_main_v61 ar br msr i := by
  show 0 < (∑ k : Fin 100000, q_main_v55 ar br msr (ix2 k (i 0)) * q_main_v55 ar br msr (ix2 k (i 0))) / (100000 : ℝ) + epsR
  exact add_pos_of_nonneg_of_pos (div_nonneg (Finset.sum_nonneg fun k _ => mul_self_nonneg _) (by norm_num)) epsR_pos

/-- The host's sum of a real [100000, 128] array down its columns, started from the zero word. -/
theorem colsum_cv (a : S100000x128.Idx → ℝ) :
    Host.reduceAdd (cv a : FVec Ideal S100000x128 .f32) (constant (F := Ideal) S_ .f32 0x00000000#32) reducesTo_S100000x128_S128_d0 h_S_
      = (cv (fun i => ∑ k : Fin 100000, a (ix2 k (i 0))) : FVec Ideal S128 .f32) := by
  funext i
  simp only [Host.reduceAdd, Ideal.hostReduceAdd_def]
  rw [Ideal.hostReduceAdd_single reducesTo_S100000x128_S128_d0 (by decide)]
  show Ideal.ofBits .f32 0x00000000#32 + _ = ((∑ k : Fin 100000, a (ix2 k (i 0)) : ℝ) : EReal)
  rw [Ideal.ofBits_zero_f32, zero_add, ← coe_sum]
  refine Finset.sum_congr rfl fun k _ => ?_
  show ((a _ : ℝ) : EReal) = ((a _ : ℝ) : EReal)
  exact congrArg (fun j => ((a j : ℝ) : EReal)) (funext fun c => Fin.ext (by match c with | ⟨0, _⟩ => rfl | ⟨1, _⟩ => rfl))

/-! Each operation on real inputs computes its real array. -/

theorem v_main_v46_cv (br : S128.Idx → ℝ) :
    val_main_v46 (F := Ideal) (cv br : FVec Ideal S128 .f32) = (cv (q_main_v46 br) : FVec Ideal S1x128 .f32) := by
  unfold val_main_v46
  exact bcast_vec_row_cv _ bcast_S128_S1x128_1

theorem v_main_v47_cv (br : S128.Idx → ℝ) :
    val_main_v47 (F := Ideal) (cv br : FVec Ideal S128 .f32) = (cv (q_main_v47 br) : FVec Ideal S100000x128 .f32) := by
  unfold val_main_v47
  rw [v_main_v46_cv br]
  exact bcast_row_mat_cv _ bcast_S1x128_S100000x128_0_1

theorem v_main_v48_cv (x0 : (⟨S100000x128, .f32⟩ : BufTy).Contents (Elt Ideal)) (x1 : (⟨S2x1600000, .i32⟩ : BufTy).Contents (Elt Ideal)) (x2 : (⟨S128x128, .f32⟩ : BufTy).Contents (Elt Ideal)) (ar : S100000x128.Idx → ℝ)
    (hA : val_main_v45 (F := Ideal) x0 x1 x2 = (cv ar : FVec Ideal S100000x128 .f32)) (br : S128.Idx → ℝ) :
    val_main_v48 (F := Ideal) x0 x1 x2 (cv br : FVec Ideal S128 .f32) = (cv (q_main_v48 ar br) : FVec Ideal S100000x128 .f32) := by
  unfold val_main_v48
  rw [hA, v_main_v47_cv br]
  exact addf_cv _ _

theorem v_main_v49_cv (x0 : (⟨S100000x128, .f32⟩ : BufTy).Contents (Elt Ideal)) (x1 : (⟨S2x1600000, .i32⟩ : BufTy).Contents (Elt Ideal)) (x2 : (⟨S128x128, .f32⟩ : BufTy).Contents (Elt Ideal)) (ar : S100000x128.Idx → ℝ)
    (hA : val_main_v45 (F := Ideal) x0 x1 x2 = (cv ar : FVec Ideal S100000x128 .f32)) (br : S128.Idx → ℝ) :
    val_main_v49 (F := Ideal) x0 x1 x2 (cv br : FVec Ideal S128 .f32) = (cv (q_main_v49 ar br) : FVec Ideal S128 .f32) := by
  unfold val_main_v49 val_main_cst_10
  rw [v_main_v48_cv x0 x1 x2 ar hA br]
  exact colsum_cv _

theorem v_main_v50_cv :
    val_main_v50 (F := Ideal) = (cv q_main_v50 : FVec Ideal S128 .f32) := by
  unfold val_main_v50 val_main_cst_11
  exact bcast_const_cv bcast_S_S128 _ _ word_1e5

theorem v_main_v51_cv (x0 : (⟨S100000x128, .f32⟩ : BufTy).Contents (Elt Ideal)) (x1 : (⟨S2x1600000, .i32⟩ : BufTy).Contents (Elt Ideal)) (x2 : (⟨S128x128, .f32⟩ : BufTy).Contents (Elt Ideal)) (ar : S100000x128.Idx → ℝ)
    (hA : val_main_v45 (F := Ideal) x0 x1 x2 = (cv ar : FVec Ideal S100000x128 .f32)) (br : S128.Idx → ℝ) :
    val_main_v51 (F := Ideal) x0 x1 x2 (cv br : FVec Ideal S128 .f32) = (cv (q_main_v51 ar br) : FVec Ideal S128 .f32) := by
  unfold val_main_v51
  rw [v_main_v49_cv x0 x1 x2 ar hA br, v_main_v50_cv]
  exact hostDivf_cv _ _ (fun i => by show (100000 : ℝ) ≠ 0; norm_num)

theorem v_main_v52_cv (x0 : (⟨S100000x128, .f32⟩ : BufTy).Contents (Elt Ideal)) (x1 : (⟨S2x1600000, .i32⟩ : BufTy).Contents (Elt Ideal)) (x2 : (⟨S128x128, .f32⟩ : BufTy).Contents (Elt Ideal)) (ar : S100000x128.Idx → ℝ)
    (hA : val_main_v45 (F := Ideal) x0 x1 x2 = (cv ar : FVec Ideal S100000x128 .f32)) (br : S128.Idx → ℝ) (msr : S128.Idx → ℝ) :
    val_main_v52 (F := Ideal) x0 x1 x2 (cv br : FVec Ideal S128 .f32) (cv msr : FVec Ideal S128 .f32) = (cv (q_main_v52 ar br msr) : FVec Ideal S128 .f32) := by
  unfold val_main_v52
  rw [v_main_v51_cv x0 x1 x2 ar hA br]
  exact mulf_cv _ _

theorem v_main_v53_cv (x0 : (⟨S100000x128, .f32⟩ : BufTy).Contents (Elt Ideal)) (x1 : (⟨S2x1600000, .i32⟩ : BufTy).Contents (Elt Ideal)) (x2 : (⟨S128x128, .f32⟩ : BufTy).Contents (Elt Ideal)) (ar : S100000x128.Idx → ℝ)
    (hA : val_main_v45 (F := Ideal) x0 x1 x2 = (cv ar : FVec Ideal S100000x128 .f32)) (br : S128.Idx → ℝ) (msr : S128.Idx → ℝ) :
    val_main_v53 (F := Ideal) x0 x1 x2 (cv br : FVec Ideal S128 .f32) (cv msr : FVec Ideal S128 .f32) = (cv (q_main_v53 ar br msr) : FVec Ideal S1x128 .f32) := by
  unfold val_main_v53
  rw [v_main_v52_cv x0 x1 x2 ar hA br msr]
  exact bcast_vec_row_cv _ bcast_S128_S1x128_1

theorem v_main_v54_cv (x0 : (⟨S100000x128, .f32⟩ : BufTy).Contents (Elt Ideal)) (x1 : (⟨S2x1600000, .i32⟩ : BufTy).Contents (Elt Ideal)) (x2 : (⟨S128x128, .f32⟩ : BufTy).Contents (Elt Ideal)) (ar : S100000x128.Idx → ℝ)
    (hA : val_main_v45 (F := Ideal) x0 x1 x2 = (cv ar : FVec Ideal S100000x128 .f32)) (br : S128.Idx → ℝ) (msr : S128.Idx → ℝ) :
    val_main_v54 (F := Ideal) x0 x1 x2 (cv br : FVec Ideal S128 .f32) (cv msr : FVec Ideal S128 .f32) = (cv (q_main_v54 ar br msr) : FVec Ideal S100000x128 .f32) := by
  unfold val_main_v54
  rw [v_main_v53_cv x0 x1 x2 ar hA br msr]
  exact bcast_row_mat_cv _ bcast_S1x128_S100000x128_0_1

theorem v_main_v55_cv (x0 : (⟨S100000x128, .f32⟩ : BufTy).Contents (Elt Ideal)) (x1 : (⟨S2x1600000, .i32⟩ : BufTy).Contents (Elt Ideal)) (x2 : (⟨S128x128, .f32⟩ : BufTy).Contents (Elt Ideal)) (ar : S100000x128.Idx → ℝ)
    (hA : val_main_v45 (F := Ideal) x0 x1 x2 = (cv ar : FVec Ideal S100000x128 .f32)) (br : S128.Idx → ℝ) (msr : S128.Idx → ℝ) :
    val_main_v55 (F := Ideal) x0 x1 x2 (cv br : FVec Ideal S128 .f32) (cv msr : FVec Ideal S128 .f32) = (cv (q_main_v55 ar br msr) : FVec Ideal S100000x128 .f32) := by
  unfold val_main_v55
  rw [v_main_v48_cv x0 x1 x2 ar hA br, v_main_v54_cv x0 x1 x2 ar hA br msr]
  exact subf_cv _ _

theorem v_main_v56_cv (x0 : (⟨S100000x128, .f32⟩ : BufTy).Contents (Elt Ideal)) (x1 : (⟨S2x1600000, .i32⟩ : BufTy).Contents (Elt Ideal)) (x2 : (⟨S128x128, .f32⟩ : BufTy).Contents (Elt Ideal)) (ar : S100000x128.Idx → ℝ)
    (hA : val_main_v45 (F := Ideal) x0 x1 x2 = (cv ar : FVec Ideal S100000x128 .f32)) (br : S128.Idx → ℝ) (msr : S128.Idx → ℝ) :
    val_main_v56 (F := Ideal) x0 x1 x2 (cv br : FVec Ideal S128 .f32) (cv msr : FVec Ideal S128 .f32) = (cv (q_main_v56 ar br msr) : FVec Ideal S100000x128 .f32) := by
  unfold val_main_v56
  rw [v_main_v55_cv x0 x1 x2 ar hA br msr]
  exact mulf_cv _ _

theorem v_main_v57_cv (x0 : (⟨S100000x128, .f32⟩ : BufTy).Contents (Elt Ideal)) (x1 : (⟨S2x1600000, .i32⟩ : BufTy).Contents (Elt Ideal)) (x2 : (⟨S128x128, .f32⟩ : BufTy).Contents (Elt Ideal)) (ar : S100000x128.Idx → ℝ)
    (hA : val_main_v45 (F := Ideal) x0 x1 x2 = (cv ar : FVec Ideal S100000x128 .f32)) (br : S128.Idx → ℝ) (msr : S128.Idx → ℝ) :
    val_main_v57 (F := Ideal) x0 x1 x2 (cv br : FVec Ideal S128 .f32) (cv msr : FVec Ideal S128 .f32) = (cv (q_main_v57 ar br msr) : FVec Ideal S128 .f32) := by
  unfold val_main_v57 val_main_cst_12
  rw [v_main_v56_cv x0 x1 x2 ar hA br msr]
  exact colsum_cv _

theorem v_main_v58_cv :
    val_main_v58 (F := Ideal) = (cv q_main_v58 : FVec Ideal S128 .f32) := by
  unfold val_main_v58 val_main_cst_13
  exact bcast_const_cv bcast_S_S128 _ _ word_1e5

theorem v_main_v59_cv (x0 : (⟨S100000x128, .f32⟩ : BufTy).Contents (Elt Ideal)) (x1 : (⟨S2x1600000, .i32⟩ : BufTy).Contents (Elt Ideal)) (x2 : (⟨S128x128, .f32⟩ : BufTy).Contents (Elt Ideal)) (ar : S100000x128.Idx → ℝ)
    (hA : val_main_v45 (F := Ideal) x0 x1 x2 = (cv ar : FVec Ideal S100000x128 .f32)) (br : S128.Idx → ℝ) (msr : S128.Idx → ℝ) :
    val_main_v59 (F := Ideal) x0 x1 x2 (cv br : FVec Ideal S128 .f32) (cv msr : FVec Ideal S128 .f32) = (cv (q_main_v59 ar br msr) : FVec Ideal S128 .f32) := by
  unfold val_main_v59
  rw [v_main_v57_cv x0 x1 x2 ar hA br msr, v_main_v58_cv]
  exact hostDivf_cv _ _ (fun i => by show (100000 : ℝ) ≠ 0; norm_num)

theorem v_main_v60_cv :
    val_main_v60 (F := Ideal) = (cv q_main_v60 : FVec Ideal S128 .f32) := by
  unfold val_main_v60 val_main_cst_14
  exact bcast_const_cv bcast_S_S128 _ _ word_eps

theorem v_main_v61_cv (x0 : (⟨S100000x128, .f32⟩ : BufTy).Contents (Elt Ideal)) (x1 : (⟨S2x1600000, .i32⟩ : BufTy).Contents (Elt Ideal)) (x2 : (⟨S128x128, .f32⟩ : BufTy).Contents (Elt Ideal)) (ar : S100000x128.Idx → ℝ)
    (hA : val_main_v45 (F := Ideal) x0 x1 x2 = (cv ar : FVec Ideal S100000x128 .f32)) (br : S128.Idx → ℝ) (msr : S128.Idx → ℝ) :
    val_main_v61 (F := Ideal) x0 x1 x2 (cv br : FVec Ideal S128 .f32) (cv msr : FVec Ideal S128 .f32) = (cv (q_main_v61 ar br msr) : FVec Ideal S128 .f32) := by
  unfold val_main_v61
  rw [v_main_v59_cv x0 x1 x2 ar hA br msr, v_main_v60_cv]
  exact addf_cv _ _

theorem v_main_v62_cv (x0 : (⟨S100000x128, .f32⟩ : BufTy).Contents (Elt Ideal)) (x1 : (⟨S2x1600000, .i32⟩ : BufTy).Contents (Elt Ideal)) (x2 : (⟨S128x128, .f32⟩ : BufTy).Contents (Elt Ideal)) (ar : S100000x128.Idx → ℝ)
    (hA : val_main_v45 (F := Ideal) x0 x1 x2 = (cv ar : FVec Ideal S100000x128 .f32)) (br : S128.Idx → ℝ) (msr : S128.Idx → ℝ) :
    val_main_v62 (F := Ideal) x0 x1 x2 (cv br : FVec Ideal S128 .f32) (cv msr : FVec Ideal S128 .f32) = (cv (q_main_v62 ar br msr) : FVec Ideal S128 .f32) := by
  unfold val_main_v62
  rw [v_main_v61_cv x0 x1 x2 ar hA br msr]
  exact hostSqrt_cv _ (fun i => (q_main_v61_pos ar br msr i).le)

theorem v_main_v63_cv (x0 : (⟨S100000x128, .f32⟩ : BufTy).Contents (Elt Ideal)) (x1 : (⟨S2x1600000, .i32⟩ : BufTy).Contents (Elt Ideal)) (x2 : (⟨S128x128, .f32⟩ : BufTy).Contents (Elt Ideal)) (ar : S100000x128.Idx → ℝ)
    (hA : val_main_v45 (F := Ideal) x0 x1 x2 = (cv ar : FVec Ideal S100000x128 .f32)) (br : S128.Idx → ℝ) (msr : S128.Idx → ℝ) :
    val_main_v63 (F := Ideal) x0 x1 x2 (cv br : FVec Ideal S128 .f32) (cv msr : FVec Ideal S128 .f32) = (cv (q_main_v63 ar br msr) : FVec Ideal S1x128 .f32) := by
  unfold val_main_v63
  rw [v_main_v62_cv x0 x1 x2 ar hA br msr]
  exact bcast_vec_row_cv _ bcast_S128_S1x128_1

theorem v_main_v64_cv (x0 : (⟨S100000x128, .f32⟩ : BufTy).Contents (Elt Ideal)) (x1 : (⟨S2x1600000, .i32⟩ : BufTy).Contents (Elt Ideal)) (x2 : (⟨S128x128, .f32⟩ : BufTy).Contents (Elt Ideal)) (ar : S100000x128.Idx → ℝ)
    (hA : val_main_v45 (F := Ideal) x0 x1 x2 = (cv ar : FVec Ideal S100000x128 .f32)) (br : S128.Idx → ℝ) (msr : S128.Idx → ℝ) :
    val_main_v64 (F := Ideal) x0 x1 x2 (cv br : FVec Ideal S128 .f32) (cv msr : FVec Ideal S128 .f32) = (cv (q_main_v64 ar br msr) : FVec Ideal S100000x128 .f32) := by
  unfold val_main_v64
  rw [v_main_v63_cv x0 x1 x2 ar hA br msr]
  exact bcast_row_mat_cv _ bcast_S1x128_S100000x128_0_1

theorem v_main_v65_cv (x0 : (⟨S100000x128, .f32⟩ : BufTy).Contents (Elt Ideal)) (x1 : (⟨S2x1600000, .i32⟩ : BufTy).Contents (Elt Ideal)) (x2 : (⟨S128x128, .f32⟩ : BufTy).Contents (Elt Ideal)) (ar : S100000x128.Idx → ℝ)
    (hA : val_main_v45 (F := Ideal) x0 x1 x2 = (cv ar : FVec Ideal S100000x128 .f32)) (br : S128.Idx → ℝ) (msr : S128.Idx → ℝ) :
    val_main_v65 (F := Ideal) x0 x1 x2 (cv br : FVec Ideal S128 .f32) (cv msr : FVec Ideal S128 .f32) = (cv (q_main_v65 ar br msr) : FVec Ideal S100000x128 .f32) := by
  unfold val_main_v65
  rw [v_main_v55_cv x0 x1 x2 ar hA br msr, v_main_v64_cv x0 x1 x2 ar hA br msr]
  exact hostDivf_cv _ _ (fun i => (Real.sqrt_pos.mpr (q_main_v61_pos ar br msr _)).ne')

theorem v_main_v66_cv (gwr : S128.Idx → ℝ) :
    val_main_v66 (F := Ideal) (cv gwr : FVec Ideal S128 .f32) = (cv (q_main_v66 gwr) : FVec Ideal S1x128 .f32) := by
  unfold val_main_v66
  exact bcast_vec_row_cv _ bcast_S128_S1x128_1

theorem v_main_v67_cv (gwr : S128.Idx → ℝ) :
    val_main_v67 (F := Ideal) (cv gwr : FVec Ideal S128 .f32) = (cv (q_main_v67 gwr) : FVec Ideal S100000x128 .f32) := by
  unfold val_main_v67
  rw [v_main_v66_cv gwr]
  exact bcast_row_mat_cv _ bcast_S1x128_S100000x128_0_1

theorem v_main_v68_cv (x0 : (⟨S100000x128, .f32⟩ : BufTy).Contents (Elt Ideal)) (x1 : (⟨S2x1600000, .i32⟩ : BufTy).Contents (Elt Ideal)) (x2 : (⟨S128x128, .f32⟩ : BufTy).Contents (Elt Ideal)) (ar : S100000x128.Idx → ℝ)
    (hA : val_main_v45 (F := Ideal) x0 x1 x2 = (cv ar : FVec Ideal S100000x128 .f32)) (br : S128.Idx → ℝ) (gwr : S128.Idx → ℝ) (msr : S128.Idx → ℝ) :
    val_main_v68 (F := Ideal) x0 x1 x2 (cv br : FVec Ideal S128 .f32) (cv gwr : FVec Ideal S128 .f32) (cv msr : FVec Ideal S128 .f32) = (cv (q_main_v68 ar br gwr msr) : FVec Ideal S100000x128 .f32) := by
  unfold val_main_v68
  rw [v_main_v65_cv x0 x1 x2 ar hA br msr, v_main_v67_cv gwr]
  exact mulf_cv _ _

theorem v_main_v69_cv (gbr : S128.Idx → ℝ) :
    val_main_v69 (F := Ideal) (cv gbr : FVec Ideal S128 .f32) = (cv (q_main_v69 gbr) : FVec Ideal S1x128 .f32) := by
  unfold val_main_v69
  exact bcast_vec_row_cv _ bcast_S128_S1x128_1

theorem v_main_v70_cv (gbr : S128.Idx → ℝ) :
    val_main_v70 (F := Ideal) (cv gbr : FVec Ideal S128 .f32) = (cv (q_main_v70 gbr) : FVec Ideal S100000x128 .f32) := by
  unfold val_main_v70
  rw [v_main_v69_cv gbr]
  exact bcast_row_mat_cv _ bcast_S1x128_S100000x128_0_1

theorem v_main_v71_cv (x0 : (⟨S100000x128, .f32⟩ : BufTy).Contents (Elt Ideal)) (x1 : (⟨S2x1600000, .i32⟩ : BufTy).Contents (Elt Ideal)) (x2 : (⟨S128x128, .f32⟩ : BufTy).Contents (Elt Ideal)) (ar : S100000x128.Idx → ℝ)
    (hA : val_main_v45 (F := Ideal) x0 x1 x2 = (cv ar : FVec Ideal S100000x128 .f32)) (br : S128.Idx → ℝ) (gwr : S128.Idx → ℝ) (gbr : S128.Idx → ℝ) (msr : S128.Idx → ℝ) :
    val_main_v71 (F := Ideal) x0 x1 x2 (cv br : FVec Ideal S128 .f32) (cv gwr : FVec Ideal S128 .f32) (cv gbr : FVec Ideal S128 .f32) (cv msr : FVec Ideal S128 .f32) = (cv (q_main_v71 ar br gwr gbr msr) : FVec Ideal S100000x128 .f32) := by
  unfold val_main_v71
  rw [v_main_v68_cv x0 x1 x2 ar hA br gwr msr, v_main_v70_cv gbr]
  exact addf_cv _ _

/-- The reference's normalised value at (n, j) is the two-pass normalisation of column j at entry n. -/
theorem ref_v71_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (ar : S100000x128.Idx → ℝ)
    (hA : val_main_v45 (F := Ideal) x0 x1 x2 = (cv ar : FVec Ideal S100000x128 .f32)) (br gwr gbr msr : S128.Idx → ℝ)
    (n : Fin 100000) (j : Fin 128) :
    val_main_v71 (F := Ideal) x0 x1 x2 (cv br : FVec Ideal S128 .f32) (cv gwr : FVec Ideal S128 .f32) (cv gbr : FVec Ideal S128 .f32) (cv msr : FVec Ideal S128 .f32) (ix2 n j)
      = ((Cert.LibNormLaw.twoPass 100000 (fun m : Fin 100000 => ar (ix2 m j)) (br (ix1 j)) (gwr (ix1 j)) (gbr (ix1 j)) (msr (ix1 j)) epsR n : ℝ) : EReal) := by
  rw [v_main_v71_cv x0 x1 x2 ar hA br gwr gbr msr]
  rfl

/-- G at (n, j) when the aggregate and the parameters are real: the leaky rectifier of the one-pass value. -/
theorem G_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (ar : S100000x128.Idx → ℝ)
    (hA : aggOf x1 (mm x0 x2) = (cv ar : FVec Ideal S100000x128 .f32)) (br gwr gbr msr : S128.Idx → ℝ)
    (n : Fin 100000) (j : Fin 128) (Y : ℝ)
    (hY : Y = ar (ix2 n j) * (Cert.LibNormLaw.onePass 100000 (∑ m : Fin 100000, ar (ix2 m j)) (∑ m : Fin 100000, ar (ix2 m j) * ar (ix2 m j))
            (br (ix1 j)) (gwr (ix1 j)) (gbr (ix1 j)) (msr (ix1 j)) epsR).1
          + (Cert.LibNormLaw.onePass 100000 (∑ m : Fin 100000, ar (ix2 m j)) (∑ m : Fin 100000, ar (ix2 m j) * ar (ix2 m j))
            (br (ix1 j)) (gwr (ix1 j)) (gbr (ix1 j)) (msr (ix1 j)) epsR).2) :
    G x0 x1 x2 (cv br : FVec Ideal S128 .f32) (cv gwr : FVec Ideal S128 .f32) (cv gbr : FVec Ideal S128 .f32) (cv msr : FVec Ideal S128 .f32) (ix2 n j)
      = Scalar.select (Ideal.cmp .ogt ((Y : ℝ) : EReal) (Ideal.ofBits .f32 0x00000000#32)) ((Y : ℝ) : EReal)
          (Ideal.ofBits .f32 0x3C23D70A#32 * ((Y : ℝ) : EReal)) := by
  have hS : (fun jj : S1x128.Idx => ∑ m : Fin 100000, (cv ar : FVec Ideal S100000x128 .f32) (ix2 m (jj 1)))
      = (cv (fun jj : S1x128.Idx => ∑ m : Fin 100000, ar (ix2 m (jj 1))) : FVec Ideal S1x128 .f32) :=
    funext fun jj => coe_sum _ _
  have hQ : (fun jj : S1x128.Idx => ∑ m : Fin 100000, (cv ar : FVec Ideal S100000x128 .f32) (ix2 m (jj 1)) * (cv ar : FVec Ideal S100000x128 .f32) (ix2 m (jj 1)))
      = (cv (fun jj : S1x128.Idx => ∑ m : Fin 100000, ar (ix2 m (jj 1)) * ar (ix2 m (jj 1))) : FVec Ideal S1x128 .f32) :=
    funext fun jj => by
      rw [cv_apply, ← coe_sum]
      exact Finset.sum_congr rfl fun m _ => (EReal.coe_mul _ _).symm
  unfold G
  simp only [hA, hS, hQ, statsOf_cv]
  rw [hY, EReal.coe_add, EReal.coe_mul]
  rfl

/-- The matrix product the reference computes is mm. -/
theorem v32_eq_mm (x0 : (⟨S100000x128, .f32⟩ : BufTy).Contents (Elt Ideal)) (x2 : (⟨S128x128, .f32⟩ : BufTy).Contents (Elt Ideal)) :
    val_main_v32 (F := Ideal) x0 x2 = mm x0 x2 := by
  funext i
  rw [val_main_v32_apply]
  show _ = ∑ k : Fin 128, x0 (ix2 (i 0) k) * x2 (ix2 k (i 1))
  refine Finset.sum_congr rfl fun k _ => ?_
  have el : lidx_main_v32 i k = ix2 (i 0) k := funext fun a => by match a with | ⟨0, _⟩ => rfl | ⟨1, _⟩ => rfl
  have er : ridx_main_v32 i k = ix2 k (i 1) := funext fun a => by match a with | ⟨0, _⟩ => rfl | ⟨1, _⟩ => rfl
  rw [el, er]
  rfl

/-- The reference's aggregate is aggOf of the edge list and the matrix product. -/
theorem v45_eq_aggOf (x0 : (⟨S100000x128, .f32⟩ : BufTy).Contents (Elt Ideal)) (x1 : (⟨S2x1600000, .i32⟩ : BufTy).Contents (Elt Ideal)) (x2 : (⟨S128x128, .f32⟩ : BufTy).Contents (Elt Ideal)) : val_main_v45 (F := Ideal) x0 x1 x2 = aggOf x1 (mm x0 x2) := by
  rw [← v32_eq_mm]
  rfl

/-- The reference's result as a function of its arguments is G, when the float arguments have real entries. -/
theorem val76_eq_G (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (x3 x4 x5 x6 : (⟨S128, .f32⟩ : BufTy).Contents (Elt Ideal))
    (h0 : ∀ i, ∃ r : ℝ, x0 i = ((r : ℝ) : EReal)) (h2 : ∀ i, ∃ r : ℝ, x2 i = ((r : ℝ) : EReal))
    (h3 : ∀ i, ∃ r : ℝ, x3 i = ((r : ℝ) : EReal)) (h4 : ∀ i, ∃ r : ℝ, x4 i = ((r : ℝ) : EReal))
    (h5 : ∀ i, ∃ r : ℝ, x5 i = ((r : ℝ) : EReal)) (h6 : ∀ i, ∃ r : ℝ, x6 i = ((r : ℝ) : EReal)) :
    val_main_v76 (F := Ideal) x0 x1 x2 x3 x4 x5 x6 = G x0 x1 x2 x3 x4 x5 x6 := by
  obtain ⟨br, rfl⟩ := exists_cv (φ := .f32) (show IsR x3 from h3)
  obtain ⟨gwr, rfl⟩ := exists_cv (φ := .f32) (show IsR x4 from h4)
  obtain ⟨gbr, rfl⟩ := exists_cv (φ := .f32) (show IsR x5 from h5)
  obtain ⟨msr, rfl⟩ := exists_cv (φ := .f32) (show IsR x6 from h6)
  obtain ⟨ar, hA⟩ := exists_cv (φ := .f32) (aggOf_isR x1 (mm_isR (show IsR x0 from h0) (show IsR x2 from h2)))
  have hA' : val_main_v45 (F := Ideal) x0 x1 x2 = (cv ar : FVec Ideal S100000x128 .f32) := (v45_eq_aggOf x0 x1 x2).trans hA
  funext i
  obtain ⟨n, j, rfl⟩ : ∃ (n : Fin 100000) (j : Fin 128), i = ix2 n j := ⟨i 0, i 1, eq_ix2 i⟩
  rw [G_at x0 x1 x2 ar hA br gwr gbr msr n j _ rfl, val_main_v76_apply, val_main_v73_apply, val_main_v75_apply,
    ref_v71_at x0 x1 x2 ar hA' br gwr gbr msr n j,
    Cert.LibNormLaw.twoPass_eq (ι := Fin 100000) (Nr := 100000) (by simp) (by simp)]
  rfl

/-- The reference's run result is G of the argument arrays, when the six float arguments have real entries. -/
theorem ref_eq_G (m : (ℓ : Loc nD τ sig) → Buf (Elt Ideal) ℓ) (c : Dev nD)
    (h0 : ∀ i, ∃ r : ℝ, m ((c.tc : Thread nD τ).loc main_arg0) i = ((r : ℝ) : EReal))
    (h2 : ∀ i, ∃ r : ℝ, m ((c.tc : Thread nD τ).loc main_arg2) i = ((r : ℝ) : EReal))
    (h3 : ∀ i, ∃ r : ℝ, m ((c.tc : Thread nD τ).loc main_arg3) i = ((r : ℝ) : EReal))
    (h4 : ∀ i, ∃ r : ℝ, m ((c.tc : Thread nD τ).loc main_arg4) i = ((r : ℝ) : EReal))
    (h5 : ∀ i, ∃ r : ℝ, m ((c.tc : Thread nD τ).loc main_arg5) i = ((r : ℝ) : EReal))
    (h6 : ∀ i, ∃ r : ℝ, m ((c.tc : Thread nD τ).loc main_arg6) i = ((r : ℝ) : EReal)) :
    Cert.ReferenceIdeal.ValueP.res_out0 m c
      = G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) :=
  (val_main_v76_eq (F := Ideal) m c).trans (val76_eq_G _ _ _ _ _ _ _ h0 h2 h3 h4 h5 h6)

end Cert.Bridge

end
-- ==== Proof.MathFin.lean ====
/-
  From the precondition to real entries.

  The precondition computes, for each of the six float arguments, whether every entry x has |x| < +∞ (a comparison of
  max(x, -x) with the extended real the word 0x7F800000 denotes, which is ⊤, reduced by "and" over all entries), and
  the conjunction of the six.  When it is all ones every conjunct is one, every entry of every argument passes the
  comparison, and an extended real with max(x, -x) < ⊤ is neither ⊤ nor ⊥: it is a real.
-/
import proofs.«106071_j44908178047711_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx
open Cert.Pre_finite_inputs

/-- The scalar shape has one index. -/
instance subsingleton_scalar_idx : Subsingleton S_.Idx := ⟨fun a b => funext fun d => d.elim0⟩

/-- An extended real whose absolute value is below the infinity word is a real. -/
theorem real_of_abs_lt_inf (x : EReal)
    (h : Ideal.cmp .olt (max x (-x)) (Ideal.ofBits .f32 0x7F800000#32) = 1#1) : ∃ r : ℝ, x = ((r : ℝ) : EReal) := by
  have htop : Ideal.ofBits .f32 0x7F800000#32 = ⊤ := by simp [Ideal.ofBits, Ideal.ieee]
  rw [htop] at h
  unfold Ideal.cmp at h
  induction x using EReal.rec with
  | bot => simp at h
  | top => simp at h
  | coe r => exact ⟨r, rfl⟩

/-- One "all entries finite" test that came out one: every entry of the array is a real. -/
theorem real_of_all {s : Shape} (a : FVec Ideal s .f32) (hb : S_.BroadcastsInDim s (![] : Fin 0 → Fin s.rank))
    {axes : List (Fin s.rank)} (hr : s.ReducesTo axes S_) (hu : 0 < S_.numel)
    (h : Host.reduce IntOp.andi
        (cmpf (F := Ideal) (φ := .f32) .olt (Host.absf a) (broadcastInDim s ![] hb (constant (F := Ideal) S_ .f32 0x7F800000#32)))
        (constantI S_ 1 1#1) hr hu ix0 = 1#1) :
    ∀ i, ∃ r : ℝ, a i = ((r : ℝ) : EReal) := fun i => by
  have h1 := Host.reduce_andi_all _ _ hr hu ix0 h i
  refine real_of_abs_lt_inf (a i) ?_
  have hc : (broadcastInDim s ![] hb (constant (F := Ideal) S_ .f32 0x7F800000#32)) i = Ideal.ofBits .f32 0x7F800000#32 :=
    broadcastInDim_apply ![] hb _ i ix0 (fun d => d.elim0)
  rw [← hc]
  exact h1

variable [Facts]

/-- The precondition all ones: every entry of the six float arguments is a real. -/
theorem finite_of_pre (a0 : FVec Ideal S100000x128 .f32) (a1 : IVec S2x1600000 32) (a2 : FVec Ideal S128x128 .f32)
    (a3 a4 a5 a6 : FVec Ideal S128 .f32)
    (h : Cert.Pre_finite_inputs.fn (F := Ideal) a0 a1 a2 a3 a4 a5 a6 = fun _ => 1#1) :
    (∀ i, ∃ r : ℝ, a0 i = ((r : ℝ) : EReal)) ∧ (∀ i, ∃ r : ℝ, a2 i = ((r : ℝ) : EReal))
      ∧ (∀ i, ∃ r : ℝ, a3 i = ((r : ℝ) : EReal)) ∧ (∀ i, ∃ r : ℝ, a4 i = ((r : ℝ) : EReal))
      ∧ (∀ i, ∃ r : ℝ, a5 i = ((r : ℝ) : EReal)) ∧ (∀ i, ∃ r : ℝ, a6 i = ((r : ℝ) : EReal)) := by
  have h0 := congrFun h ix0
  unfold Cert.Pre_finite_inputs.fn Cert.Pre_finite_inputs.fn_part1 at h0
  dsimp only at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all a0 _ _ _ e0, real_of_all a2 _ _ _ e2, real_of_all a3 _ _ _ e3, real_of_all a4 _ _ _ e4,
    real_of_all a5 _ _ _ e5, real_of_all a6 _ _ _ e6⟩

end Cert.Bridge

end
-- ==== Proof.lean ====
/-
  The certificate: a graph convolution (x·W gathered along the edges, weighted by the inverse square roots of the two
  endpoint degrees, summed over destination nodes) followed by a normalisation over the nodes per feature and the leaky
  rectifier. The kernel runs the product, the column statistics and the final pointwise pass as three regions among
  host operations; the reference is one stretch of host operations.
  Frames: the kernel's program, at the word level and at the ideal values, is eight items in order and no item writes
  an argument array (the whole run, read at the arguments); the reference's frame is its run with the result dropped.
  Nothing was rewritten by the idealization, so it preserves the program trivially.
  Values: both programs end with the same array of extended reals. The kernel normalises with the statistics of the
  aggregated array A before the bias b is added — mean = S/N + b, variance = Q/N + 2b·S/N + b² − 2c·mean + c² with
  c = mean·scale —, the reference with the two-pass mean and variance of A + b; over the reals the two agree, the
  divisor word being exactly the number of rows, and every entry of A is a real because every float input is.
-/
import proofs.«106071_j44908178047711_2_alg».proof.Defs
import proofs.«106071_j44908178047711_2_alg».proof.Proof.Gen.Kernel
import proofs.«106071_j44908178047711_2_alg».proof.Proof.Gen.KernelIdeal
import proofs.«106071_j44908178047711_2_alg».proof.Proof.Gen.ReferenceIdeal
import proofs.«106071_j44908178047711_2_alg».proof.Proof.Gen.Pre_finite_inputs
import proofs.«106071_j44908178047711_2_alg».proof.Proof.StatsHalf
import proofs.«106071_j44908178047711_2_alg».proof.Proof.StatsHalfW
import proofs.«106071_j44908178047711_2_alg».proof.Proof.RefRun
import proofs.«106071_j44908178047711_2_alg».proof.Proof.KernelValue
import proofs.«106071_j44908178047711_2_alg».proof.Proof.StatsValue
import proofs.«106071_j44908178047711_2_alg».proof.Proof.MathRef
import proofs.«106071_j44908178047711_2_alg».proof.Proof.MathFin
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Whole.frame Cert.Kernel.statsHalf m ρ

/-- So does the program at the ideal values. -/
theorem frame_ki : Cert.frame_KernelIdeal := fun m ρ _ => Cert.KernelIdeal.Whole.frame Cert.KernelIdeal.statsHalf m ρ

/-- The reference's frame: its run, the result dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote nothing. -/
theorem preserves : Cert.preserves_Kernel_KernelIdeal := trivial

/-- Region 1's two outputs, in the form the kernel's value takes them: the column sums of its input array and of that
    array's squares. -/
theorem stats_sum (V : Cert.KernelIdeal.Whole.TcBufs Ideal) (c : Dev Cert.KernelIdeal.nD) :
    (Cert.KernelIdeal.Whole.dat1 Cert.KernelIdeal.statsHalf V c).arrAt 1 Cert.KernelIdeal.cfg1.N
      = Cert.KernelIdeal.Result.colSum (V c Cert.KernelIdeal.main_v46) :=
  Cert.KernelIdeal.Stats.sum_out V c
theorem stats_sq (V : Cert.KernelIdeal.Whole.TcBufs Ideal) (c : Dev Cert.KernelIdeal.nD) :
    (Cert.KernelIdeal.Whole.dat1 Cert.KernelIdeal.statsHalf V c).arrAt 2 Cert.KernelIdeal.cfg1.N
      = Cert.KernelIdeal.Result.colSq (V c Cert.KernelIdeal.main_v46) :=
  Cert.KernelIdeal.Stats.sumsq_out V c

/-- At the ideal values both programs end with `G` of the seven argument arrays: the kernel by its whole run read at
    the result buffer, the reference by its run and the real-number law, every float argument having real entries. -/
theorem algebraic : Cert.algebraic_KernelIdeal_ReferenceIdeal := by
  intro m ρ m' ρ' hpre hagree
  refine ⟨fun c => Cert.Bridge.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    fun c => m ((c.tc : Thread Cert.KernelIdeal.nD Cert.KernelIdeal.τ).loc Cert.KernelIdeal.main_arg1), ?_, ?_⟩
  · refine (θ_run Cert.KernelIdeal.defs _ _).mono (fun r h c => ?_) (Cert.KernelIdeal.Whole.run_all Cert.KernelIdeal.statsHalf m ρ)
    exact ⟨(h c _ (Cert.KernelIdeal.Whole.mem_uc Cert.KernelIdeal.main_v84 (by decide))).trans
        (Cert.KernelIdeal.Result.result_eq Cert.KernelIdeal.statsHalf m stats_sum stats_sq c),
      (h c _ (Cert.KernelIdeal.Whole.mem_uc Cert.KernelIdeal.main_arg1 (by decide))).trans (Cert.KernelIdeal.Whole.B8_arg1 _ m c),
      (h c _ (Cert.KernelIdeal.Whole.mem_uc Cert.KernelIdeal.main_arg0 (by decide))).trans (Cert.KernelIdeal.Whole.B8_arg0 _ m c),
      (h c _ (Cert.KernelIdeal.Whole.mem_uc Cert.KernelIdeal.main_arg1 (by decide))).trans (Cert.KernelIdeal.Whole.B8_arg1 _ m c),
      (h c _ (Cert.KernelIdeal.Whole.mem_uc Cert.KernelIdeal.main_arg2 (by decide))).trans (Cert.KernelIdeal.Whole.B8_arg2 _ m c),
      (h c _ (Cert.KernelIdeal.Whole.mem_uc Cert.KernelIdeal.main_arg3 (by decide))).trans (Cert.KernelIdeal.Whole.B8_arg3 _ m c),
      (h c _ (Cert.KernelIdeal.Whole.mem_uc Cert.KernelIdeal.main_arg4 (by decide))).trans (Cert.KernelIdeal.Whole.B8_arg4 _ m c),
      (h c _ (Cert.KernelIdeal.Whole.mem_uc Cert.KernelIdeal.main_arg5 (by decide))).trans (Cert.KernelIdeal.Whole.B8_arg5 _ m c),
      (h c _ (Cert.KernelIdeal.Whole.mem_uc Cert.KernelIdeal.main_arg6 (by decide))).trans (Cert.KernelIdeal.Whole.B8_arg6 _ m c)⟩
  · refine (θ_run Cert.ReferenceIdeal.defs _ _).mono (fun r h c => ?_) (Cert.ReferenceIdeal.ValueP.run (F := Ideal) m' ρ')
    obtain ⟨a0, a1, a2, a3, a4, a5, a6⟩ := hagree c
    obtain ⟨f0, f2, f3, f4, f5, f6⟩ := Cert.Bridge.finite_of_pre _ _ _ _ _ _ _ (hpre c)
    refine ⟨(h c).1.trans ?_, (h c).2.1.trans a1, (h c).2.2⟩
    refine (Cert.Bridge.ref_eq_G m' c (by rw [a0]; exact f0) (by rw [a2]; exact f2) (by rw [a3]; exact f3) (by rw [a4]; exact f4)
      (by rw [a5]; exact f5) (by rw [a6]; exact f6)).trans ?_
    rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
